-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v69)) (v1 : (c : Dev Cert.KernelIdeal.nD) → Buf (Elt Ideal) ((c.tc : Thread Cert.KernelIdeal.nD Cert.KernelIdeal.τ).loc Cert.KernelIdeal.main_v70)) (v2 : (c : Dev Cert.KernelIdeal.nD) → Buf (Elt Ideal) ((c.tc : Thread Cert.KernelIdeal.nD Cert.KernelIdeal.τ).loc Cert.KernelIdeal.main_v48)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v69) = v0 c
          ∧ r.2.mem ((c.tc : Thread Cert.KernelIdeal.nD Cert.KernelIdeal.τ).loc Cert.KernelIdeal.main_v70) = v1 c
          ∧ r.2.mem ((c.tc : Thread Cert.KernelIdeal.nD Cert.KernelIdeal.τ).loc Cert.KernelIdeal.main_v48) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v188) = v0 c
          ∧ r.2.mem ((c.tc : Thread Cert.ReferenceIdeal.nD Cert.ReferenceIdeal.τ).loc Cert.ReferenceIdeal.main_v218) = v1 c
          ∧ r.2.mem ((c.tc : Thread Cert.ReferenceIdeal.nD Cert.ReferenceIdeal.τ).loc Cert.ReferenceIdeal.main_v158) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S200000 : Shape := ⟨1, ![200000]⟩
abbrev S128x128 : Shape := ⟨2, ![128, 128]⟩
abbrev S128 : Shape := ⟨1, ![128]⟩
abbrev S384x128 : Shape := ⟨2, ![384, 128]⟩
abbrev S384 : Shape := ⟨1, ![384]⟩
abbrev S64x128 : Shape := ⟨2, ![64, 128]⟩
abbrev S64 : Shape := ⟨1, ![64]⟩
abbrev S1x64 : Shape := ⟨2, ![1, 64]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S384x128 : S_.BroadcastsInDim S384x128 (![] : Fin 0 → Fin S384x128.rank)
  reducesTo_S384x128_S_d0_1 : S384x128.ReducesTo [0, 1] S_
  bcast_S_S384 : S_.BroadcastsInDim S384 (![] : Fin 0 → Fin S384.rank)
  reducesTo_S384_S_d0 : S384.ReducesTo [0] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_
  bcast_S_S1x64 : S_.BroadcastsInDim S1x64 (![] : Fin 0 → Fin S1x64.rank)
  reducesTo_S1x64_S_d0_1 : S1x64.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_v48 : IVec S_ 1) (main_v49 : FVec F S1 .f32) (main_v50 : FVec F S1 .f32) : IVec S_ 1 :=
  let main_v51 : IVec S1 1 := cmpf .olt main_v49 main_v50
  let main_c_19 : IVec S_ 1 := constantI S_ 1 1#1
  let main_v52 : IVec S_ 1 := (fun x v => Host.reduce IntOp.andi x v reducesTo_S1_S_d0 h_S_) main_v51 main_c_19
  let main_v53 : IVec S_ 1 := andi main_v48 main_v52
  main_v53

def fn_part2 {F : FTy → Type} [FloatOps F] (main_arg13 : FVec F S64x128 .f32) (main_arg14 : FVec F S64 .f32) (main_arg15 : FVec F S1x64 .f32) (main_arg16 : FVec F S1 .f32) (main_v33 : IVec S_ 1) : IVec S_ 1 :=
  let main_v34 : FVec F S64x128 .f32 := Host.absf main_arg13
  let main_cst_12 : FVec F S_ .f32 := constant S_ .f32 0x7F800000#32
  let main_v35 : FVec F S64x128 .f32 := broadcastInDim S64x128 ![] bcast_S_S64x128 main_cst_12
  let main_v36 : IVec S64x128 1 := cmpf .olt main_v34 main_v35
  let main_c_13 : IVec S_ 1 := constantI S_ 1 1#1
  let main_v37 : IVec S_ 1 := (fun x v => Host.reduce IntOp.andi x v reducesTo_S64x128_S_d0_1 h_S_) main_v36 main_c_13
  let main_v38 : IVec S_ 1 := andi main_v33 main_v37
  let main_v39 : FVec F S64 .f32 := Host.absf main_arg14
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S1x64 .f32 := Host.absf main_arg15
  let main_cst_16 : FVec F S_ .f32 := constant S_ .f32 0x7F800000#32
  let main_v45 : FVec F S1x64 .f32 := broadcastInDim S1x64 ![] bcast_S_S1x64 main_cst_16
  let main_v46 : IVec S1x64 1 := cmpf .olt main_v44 main_v45
  let main_c_17 : IVec S_ 1 := constantI S_ 1 1#1
  let main_v47 : IVec S_ 1 := (fun x v => Host.reduce IntOp.andi x v reducesTo_S1x64_S_d0_1 h_S_) main_v46 main_c_17
  let main_v48 : IVec S_ 1 := andi main_v43 main_v47
  let main_v49 : FVec F S1 .f32 := Host.absf main_arg16
  let main_cst_18 : FVec F S_ .f32 := constant S_ .f32 0x7F800000#32
  let main_v50 : FVec F S1 .f32 := broadcastInDim S1 ![] bcast_S_S1 main_cst_18
  fn_part3 (F := F) main_v48 main_v49 main_v50

def fn_part1 {F : FTy → Type} [FloatOps F] (main_arg10 : FVec F S384 .f32) (main_arg11 : FVec F S384x128 .f32) (main_arg12 : FVec F S384 .f32) (main_arg13 : FVec F S64x128 .f32) (main_arg14 : FVec F S64 .f32) (main_arg15 : FVec F S1x64 .f32) (main_arg16 : FVec F S1 .f32) (main_v13 : IVec S_ 1) (main_v16 : IVec S384x128 1) : IVec S_ 1 :=
  let main_c_5 : IVec S_ 1 := constantI S_ 1 1#1
  let main_v17 : IVec S_ 1 := (fun x v => Host.reduce IntOp.andi x v reducesTo_S384x128_S_d0_1 h_S_) main_v16 main_c_5
  let main_v18 : IVec S_ 1 := andi main_v13 main_v17
  let main_v19 : FVec F S384 .f32 := Host.absf main_arg10
  let main_cst_6 : FVec F S_ .f32 := constant S_ .f32 0x7F800000#32
  let main_v20 : FVec F S384 .f32 := broadcastInDim S384 ![] bcast_S_S384 main_cst_6
  let main_v21 : IVec S384 1 := cmpf .olt main_v19 main_v20
  let main_c_7 : IVec S_ 1 := constantI S_ 1 1#1
  let main_v22 : IVec S_ 1 := (fun x v => Host.reduce IntOp.andi x v reducesTo_S384_S_d0 h_S_) main_v21 main_c_7
  let main_v23 : IVec S_ 1 := andi main_v18 main_v22
  let main_v24 : FVec F S384x128 .f32 := Host.absf main_arg11
  let main_cst_8 : FVec F S_ .f32 := constant S_ .f32 0x7F800000#32
  let main_v25 : FVec F S384x128 .f32 := broadcastInDim S384x128 ![] bcast_S_S384x128 main_cst_8
  let main_v26 : IVec S384x128 1 := cmpf .olt main_v24 main_v25
  let main_c_9 : IVec S_ 1 := constantI S_ 1 1#1
  let main_v27 : IVec S_ 1 := (fun x v => Host.reduce IntOp.andi x v reducesTo_S384x128_S_d0_1 h_S_) main_v26 main_c_9
  let main_v28 : IVec S_ 1 := andi main_v23 main_v27
  let main_v29 : FVec F S384 .f32 := Host.absf main_arg12
  let main_cst_10 : FVec F S_ .f32 := constant S_ .f32 0x7F800000#32
  let main_v30 : FVec F S384 .f32 := broadcastInDim S384 ![] bcast_S_S384 main_cst_10
  let main_v31 : IVec S384 1 := cmpf .olt main_v29 main_v30
  let main_c_11 : IVec S_ 1 := constantI S_ 1 1#1
  let main_v32 : IVec S_ 1 := (fun x v => Host.reduce IntOp.andi x v reducesTo_S384_S_d0 h_S_) main_v31 main_c_11
  let main_v33 : IVec S_ 1 := andi main_v28 main_v32
  fn_part2 (F := F) main_arg13 main_arg14 main_arg15 main_arg16 main_v33

def fn {F : FTy → Type} [FloatOps F] (main_arg0 : FVec F S100000x128 .f32) (main_arg1 : IVec S1600000 32) (main_arg2 : IVec S1600000 32) (main_arg3 : IVec S200000 32) (main_arg4 : IVec S200000 32) (main_arg5 : IVec S200000 32) (main_arg6 : IVec S200000 32) (main_arg7 : FVec F S128x128 .f32) (main_arg8 : FVec F S128 .f32) (main_arg9 : FVec F S384x128 .f32) (main_arg10 : FVec F S384 .f32) (main_arg11 : FVec F S384x128 .f32) (main_arg12 : FVec F S384 .f32) (main_arg13 : FVec F S64x128 .f32) (main_arg14 : FVec F S64 .f32) (main_arg15 : FVec F S1x64 .f32) (main_arg16 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg7
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg8
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S384x128 .f32 := Host.absf main_arg9
  let main_cst_4 : FVec F S_ .f32 := constant S_ .f32 0x7F800000#32
  let main_v15 : FVec F S384x128 .f32 := broadcastInDim S384x128 ![] bcast_S_S384x128 main_cst_4
  let main_v16 : IVec S384x128 1 := cmpf .olt main_v14 main_v15
  fn_part1 (F := F) main_arg10 main_arg11 main_arg12 main_arg13 main_arg14 main_arg15 main_arg16 main_v13 main_v16
-- ==== Kernel.lean ====
abbrev S100000x128 : Shape := ⟨2, ![100000, 128]⟩
abbrev S1600000 : Shape := ⟨1, ![1600000]⟩
abbrev S200000 : Shape := ⟨1, ![200000]⟩
abbrev S128x128 : Shape := ⟨2, ![128, 128]⟩
abbrev S128 : Shape := ⟨1, ![128]⟩
abbrev S384x128 : Shape := ⟨2, ![384, 128]⟩
abbrev S384 : Shape := ⟨1, ![384]⟩
abbrev S64x128 : Shape := ⟨2, ![64, 128]⟩
abbrev S64 : Shape := ⟨1, ![64]⟩
abbrev S1x64 : Shape := ⟨2, ![1, 64]⟩
abbrev S1 : Shape := ⟨1, ![1]⟩
abbrev S128x384 : Shape := ⟨2, ![128, 384]⟩
abbrev S1x128 : Shape := ⟨2, ![1, 128]⟩
abbrev S1x384 : Shape := ⟨2, ![1, 384]⟩
abbrev S_ : Shape := ⟨0, ![]⟩
abbrev S1600000x1 : Shape := ⟨2, ![1600000, 1]⟩
abbrev S100000x1 : Shape := ⟨2, ![100000, 1]⟩
abbrev S1600000x128 : Shape := ⟨2, ![1600000, 128]⟩
abbrev S2000x128 : Shape := ⟨2, ![2000, 128]⟩
abbrev S2000x1 : Shape := ⟨2, ![2000, 1]⟩
abbrev S2000x384 : Shape := ⟨2, ![2000, 384]⟩
abbrev S400000 : Shape := ⟨1, ![400000]⟩
abbrev S400000x1 : Shape := ⟨2, ![400000, 1]⟩
abbrev S400000x128 : Shape := ⟨2, ![400000, 128]⟩
abbrev S128x64 : Shape := ⟨2, ![128, 64]⟩
abbrev S1x1 : Shape := ⟨2, ![1, 1]⟩
abbrev S4000x128 : Shape := ⟨2, ![4000, 128]⟩
abbrev S4000x1 : Shape := ⟨2, ![4000, 1]⟩
abbrev S4000x64 : Shape := ⟨2, ![4000, 64]⟩
abbrev S4000 : Shape := ⟨1, ![4000]⟩
abbrev S200000x1 : Shape := ⟨2, ![200000, 1]⟩

abbrev nBuf : Space → Nat
  | .hbm => 103
  | .vmem => 52
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S200000, .i32⟩
  | .hbm, ⟨4, _⟩ => ⟨S200000, .i32⟩
  | .hbm, ⟨5, _⟩ => ⟨S200000, .i32⟩
  | .hbm, ⟨6, _⟩ => ⟨S200000, .i32⟩
  | .hbm, ⟨7, _⟩ => ⟨S128x128, .f32⟩
  | .hbm, ⟨8, _⟩ => ⟨S128, .f32⟩
  | .hbm, ⟨9, _⟩ => ⟨S384x128, .f32⟩
  | .hbm, ⟨10, _⟩ => ⟨S384, .f32⟩
  | .hbm, ⟨11, _⟩ => ⟨S384x128, .f32⟩
  | .hbm, ⟨12, _⟩ => ⟨S384, .f32⟩
  | .hbm, ⟨13, _⟩ => ⟨S64x128, .f32⟩
  | .hbm, ⟨14, _⟩ => ⟨S64, .f32⟩
  | .hbm, ⟨15, _⟩ => ⟨S1x64, .f32⟩
  | .hbm, ⟨16, _⟩ => ⟨S1, .f32⟩
  | .hbm, ⟨17, _⟩ => ⟨S128x128, .f32⟩
  | .hbm, ⟨18, _⟩ => ⟨S128x384, .f32⟩
  | .hbm, ⟨19, _⟩ => ⟨S128x384, .f32⟩
  | .hbm, ⟨20, _⟩ => ⟨S1x128, .f32⟩
  | .hbm, ⟨21, _⟩ => ⟨S1x384, .f32⟩
  | .hbm, ⟨22, _⟩ => ⟨S1x384, .f32⟩
  | .hbm, ⟨23, _⟩ => ⟨S_, .f32⟩
  | .hbm, ⟨24, _⟩ => ⟨S1600000x1, .f32⟩
  | .hbm, ⟨25, _⟩ => ⟨S_, .f32⟩
  | .hbm, ⟨26, _⟩ => ⟨S100000x1, .f32⟩
  | .hbm, ⟨27, _⟩ => ⟨S1600000x1, .i32⟩
  | .hbm, ⟨28, _⟩ => ⟨S100000x1, .f32⟩
  | .hbm, ⟨29, _⟩ => ⟨S100000x128, .bf16⟩
  | .hbm, ⟨30, _⟩ => ⟨S_, .i32⟩
  | .hbm, ⟨31, _⟩ => ⟨S1600000, .i32⟩
  | .hbm, ⟨32, _⟩ => ⟨S1600000, .i1⟩
  | .hbm, ⟨33, _⟩ => ⟨S_, .i32⟩
  | .hbm, ⟨34, _⟩ => ⟨S1600000, .i32⟩
  | .hbm, ⟨35, _⟩ => ⟨S1600000, .i32⟩
  | .hbm, ⟨36, _⟩ => ⟨S1600000, .i32⟩
  | .hbm, ⟨37, _⟩ => ⟨S1600000x1, .i32⟩
  | .hbm, ⟨38, _⟩ => ⟨S1600000x128, .bf16⟩
  | .hbm, ⟨39, _⟩ => ⟨S1600000x128, .f32⟩
  | .hbm, ⟨40, _⟩ => ⟨S_, .f32⟩
  | .hbm, ⟨41, _⟩ => ⟨S100000x128, .f32⟩
  | .hbm, ⟨42, _⟩ => ⟨S1600000x1, .i32⟩
  | .hbm, ⟨43, _⟩ => ⟨S100000x128, .f32⟩
  | .hbm, ⟨44, _⟩ => ⟨S100000x128, .f32⟩
  | .hbm, ⟨45, _⟩ => ⟨S100000x128, .bf16⟩
  | .hbm, ⟨46, _⟩ => ⟨S_, .i32⟩
  | .hbm, ⟨47, _⟩ => ⟨S1600000, .i32⟩
  | .hbm, ⟨48, _⟩ => ⟨S1600000, .i1⟩
  | .hbm, ⟨49, _⟩ => ⟨S_, .i32⟩
  | .hbm, ⟨50, _⟩ => ⟨S1600000, .i32⟩
  | .hbm, ⟨51, _⟩ => ⟨S1600000, .i32⟩
  | .hbm, ⟨52, _⟩ => ⟨S1600000, .i32⟩
  | .hbm, ⟨53, _⟩ => ⟨S1600000x1, .i32⟩
  | .hbm, ⟨54, _⟩ => ⟨S1600000x128, .bf16⟩
  | .hbm, ⟨55, _⟩ => ⟨S1600000x128, .f32⟩
  | .hbm, ⟨56, _⟩ => ⟨S_, .f32⟩
  | .hbm, ⟨57, _⟩ => ⟨S100000x128, .f32⟩
  | .hbm, ⟨58, _⟩ => ⟨S1600000x1, .i32⟩
  | .hbm, ⟨59, _⟩ => ⟨S100000x128, .f32⟩
  | .hbm, ⟨60, _⟩ => ⟨S100000x128, .f32⟩
  | .hbm, ⟨61, _⟩ => ⟨S100000x128, .bf16⟩
  | .hbm, ⟨62, _⟩ => ⟨S_, .i32⟩
  | .hbm, ⟨63, _⟩ => ⟨S1600000, .i32⟩
  | .hbm, ⟨64, _⟩ => ⟨S1600000, .i1⟩
  | .hbm, ⟨65, _⟩ => ⟨S_, .i32⟩
  | .hbm, ⟨66, _⟩ => ⟨S1600000, .i32⟩
  | .hbm, ⟨67, _⟩ => ⟨S1600000, .i32⟩
  | .hbm, ⟨68, _⟩ => ⟨S1600000, .i32⟩
  | .hbm, ⟨69, _⟩ => ⟨S1600000x1, .i32⟩
  | .hbm, ⟨70, _⟩ => ⟨S1600000x128, .bf16⟩
  | .hbm, ⟨71, _⟩ => ⟨S1600000x128, .f32⟩
  | .hbm, ⟨72, _⟩ => ⟨S_, .f32⟩
  | .hbm, ⟨73, _⟩ => ⟨S100000x128, .f32⟩
  | .hbm, ⟨74, _⟩ => ⟨S1600000x1, .i32⟩
  | .hbm, ⟨75, _⟩ => ⟨S100000x128, .f32⟩
  | .hbm, ⟨76, _⟩ => ⟨S100000x128, .f32⟩
  | .hbm, ⟨77, _⟩ => ⟨S400000, .i32⟩
  | .hbm, ⟨78, _⟩ => ⟨S400000, .i32⟩
  | .hbm, ⟨79, _⟩ => ⟨S_, .i32⟩
  | .hbm, ⟨80, _⟩ => ⟨S400000, .i32⟩
  | .hbm, ⟨81, _⟩ => ⟨S400000, .i1⟩
  | .hbm, ⟨82, _⟩ => ⟨S_, .i32⟩
  | .hbm, ⟨83, _⟩ => ⟨S400000, .i32⟩
  | .hbm, ⟨84, _⟩ => ⟨S400000, .i32⟩
  | .hbm, ⟨85, _⟩ => ⟨S400000, .i32⟩
  | .hbm, ⟨86, _⟩ => ⟨S400000x1, .i32⟩
  | .hbm, ⟨87, _⟩ => ⟨S400000x128, .f32⟩
  | .hbm, ⟨88, _⟩ => ⟨S_, .i32⟩
  | .hbm, ⟨89, _⟩ => ⟨S400000, .i32⟩
  | .hbm, ⟨90, _⟩ => ⟨S400000, .i1⟩
  | .hbm, ⟨91, _⟩ => ⟨S_, .i32⟩
  | .hbm, ⟨92, _⟩ => ⟨S400000, .i32⟩
  | .hbm, ⟨93, _⟩ => ⟨S400000, .i32⟩
  | .hbm, ⟨94, _⟩ => ⟨S400000, .i32⟩
  | .hbm, ⟨95, _⟩ => ⟨S400000x1, .i32⟩
  | .hbm, ⟨96, _⟩ => ⟨S400000x128, .f32⟩
  | .hbm, ⟨97, _⟩ => ⟨S128x64, .f32⟩
  | .hbm, ⟨98, _⟩ => ⟨S1x64, .f32⟩
  | .hbm, ⟨99, _⟩ => ⟨S1x1, .f32⟩
  | .hbm, ⟨100, _⟩ => ⟨S400000x1, .f32⟩
  | .hbm, ⟨101, _⟩ => ⟨S200000x1, .f32⟩
  | .hbm, ⟨102, _⟩ => ⟨S200000x1, .f32⟩
  | .local _ .vmem, ⟨0, _⟩ => ⟨S2000x128, .f32⟩
  | .local _ .vmem, ⟨1, _⟩ => ⟨S2000x128, .f32⟩
  | .local _ .vmem, ⟨2, _⟩ => ⟨S2000x1, .f32⟩
  | .local _ .vmem, ⟨3, _⟩ => ⟨S2000x1, .f32⟩
  | .local _ .vmem, ⟨4, _⟩ => ⟨S2000x128, .f32⟩
  | .local _ .vmem, ⟨5, _⟩ => ⟨S2000x128, .f32⟩
  | .local _ .vmem, ⟨6, _⟩ => ⟨S128x128, .f32⟩
  | .local _ .vmem, ⟨7, _⟩ => ⟨S1x128, .f32⟩
  | .local _ .vmem, ⟨8, _⟩ => ⟨S128x384, .f32⟩
  | .local _ .vmem, ⟨9, _⟩ => ⟨S1x384, .f32⟩
  | .local _ .vmem, ⟨10, _⟩ => ⟨S128x384, .f32⟩
  | .local _ .vmem, ⟨11, _⟩ => ⟨S1x384, .f32⟩
  | .local _ .vmem, ⟨12, _⟩ => ⟨S2000x128, .f32⟩
  | .local _ .vmem, ⟨13, _⟩ => ⟨S2000x128, .f32⟩
  | .local _ .vmem, ⟨14, _⟩ => ⟨S2000x128, .f32⟩
  | .local _ .vmem, ⟨15, _⟩ => ⟨S2000x128, .f32⟩
  | .local _ .vmem, ⟨16, _⟩ => ⟨S2000x1, .f32⟩
  | .local _ .vmem, ⟨17, _⟩ => ⟨S2000x1, .f32⟩
  | .local _ .vmem, ⟨18, _⟩ => ⟨S2000x128, .f32⟩
  | .local _ .vmem, ⟨19, _⟩ => ⟨S2000x128, .f32⟩
  | .local _ .vmem, ⟨20, _⟩ => ⟨S128x128, .f32⟩
  | .local _ .vmem, ⟨21, _⟩ => ⟨S1x128, .f32⟩
  | .local _ .vmem, ⟨22, _⟩ => ⟨S128x384, .f32⟩
  | .local _ .vmem, ⟨23, _⟩ => ⟨S1x384, .f32⟩
  | .local _ .vmem, ⟨24, _⟩ => ⟨S128x384, .f32⟩
  | .local _ .vmem, ⟨25, _⟩ => ⟨S1x384, .f32⟩
  | .local _ .vmem, ⟨26, _⟩ => ⟨S2000x128, .f32⟩
  | .local _ .vmem, ⟨27, _⟩ => ⟨S2000x128, .f32⟩
  | .local _ .vmem, ⟨28, _⟩ => ⟨S2000x128, .f32⟩
  | .local _ .vmem, ⟨29, _⟩ => ⟨S2000x128, .f32⟩
  | .local _ .vmem, ⟨30, _⟩ => ⟨S2000x1, .f32⟩
  | .local _ .vmem, ⟨31, _⟩ => ⟨S2000x1, .f32⟩
  | .local _ .vmem, ⟨32, _⟩ => ⟨S2000x128, .f32⟩
  | .local _ .vmem, ⟨33, _⟩ => ⟨S2000x128, .f32⟩
  | .local _ .vmem, ⟨34, _⟩ => ⟨S128x128, .f32⟩
  | .local _ .vmem, ⟨35, _⟩ => ⟨S1x128, .f32⟩
  | .local _ .vmem, ⟨36, _⟩ => ⟨S128x384, .f32⟩
  | .local _ .vmem, ⟨37, _⟩ => ⟨S1x384, .f32⟩
  | .local _ .vmem, ⟨38, _⟩ => ⟨S128x384, .f32⟩
  | .local _ .vmem, ⟨39, _⟩ => ⟨S1x384, .f32⟩
  | .local _ .vmem, ⟨40, _⟩ => ⟨S2000x128, .f32⟩
  | .local _ .vmem, ⟨41, _⟩ => ⟨S2000x128, .f32⟩
  | .local _ .vmem, ⟨42, _⟩ => ⟨S4000x128, .f32⟩
  | .local _ .vmem, ⟨43, _⟩ => ⟨S4000x128, .f32⟩
  | .local _ .vmem, ⟨44, _⟩ => ⟨S4000x128, .f32⟩
  | .local _ .vmem, ⟨45, _⟩ => ⟨S4000x128, .f32⟩
  | .local _ .vmem, ⟨46, _⟩ => ⟨S128x64, .f32⟩
  | .local _ .vmem, ⟨47, _⟩ => ⟨S1x64, .f32⟩
  | .local _ .vmem, ⟨48, _⟩ => ⟨S1x64, .f32⟩
  | .local _ .vmem, ⟨49, _⟩ => ⟨S1x1, .f32⟩
  | .local _ .vmem, ⟨50, _⟩ => ⟨S4000x1, .f32⟩
  | .local _ .vmem, ⟨51, _⟩ => ⟨S4000x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | _, _ => false

abbrev semScoped : Fin 0 → Bool
  | ⟨_, h⟩ => absurd h (Nat.not_lt_zero _)

abbrev dmaSemScoped : Fin 52 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | _ => false

abbrev sig : RefSig :=
  ofTc nBuf bufTy 0 52 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_cst : Ref sig .tc := ⟨.hbm, 23, rfl⟩
abbrev main_v6 : Ref sig .tc := ⟨.hbm, 24, rfl⟩
abbrev main_cst_0 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_c : Ref sig .tc := ⟨.hbm, 30, rfl⟩
abbrev main_v11 : Ref sig .tc := ⟨.hbm, 31, rfl⟩
abbrev main_v12 : Ref sig .tc := ⟨.hbm, 32, rfl⟩
abbrev main_c_1 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_cst_2 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_c_3 : Ref sig .tc := ⟨.hbm, 46, rfl⟩
abbrev main_v24 : Ref sig .tc := ⟨.hbm, 47, rfl⟩
abbrev main_v25 : Ref sig .tc := ⟨.hbm, 48, rfl⟩
abbrev main_c_4 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_cst_5 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_c_6 : Ref sig .tc := ⟨.hbm, 62, rfl⟩
abbrev main_v37 : Ref sig .tc := ⟨.hbm, 63, rfl⟩
abbrev main_v38 : Ref sig .tc := ⟨.hbm, 64, rfl⟩
abbrev main_c_7 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_cst_8 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_c_9 : Ref sig .tc := ⟨.hbm, 79, rfl⟩
abbrev main_v51 : Ref sig .tc := ⟨.hbm, 80, rfl⟩
abbrev main_v52 : Ref sig .tc := ⟨.hbm, 81, rfl⟩
abbrev main_c_10 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_c_11 : Ref sig .tc := ⟨.hbm, 88, rfl⟩
abbrev main_v58 : Ref sig .tc := ⟨.hbm, 89, rfl⟩
abbrev main_v59 : Ref sig .tc := ⟨.hbm, 90, rfl⟩
abbrev main_c_12 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg4_0 : Ref sig .tc := ⟨.vmem, 21, rfl⟩
abbrev cc1_stg5_0 : Ref sig .tc := ⟨.vmem, 22, rfl⟩
abbrev cc1_stg6_0 : Ref sig .tc := ⟨.vmem, 23, rfl⟩
abbrev cc1_stg7_0 : Ref sig .tc := ⟨.vmem, 24, rfl⟩
abbrev cc1_stg8_0 : Ref sig .tc := ⟨.vmem, 25, rfl⟩
abbrev cc1_stg9_0 : Ref sig .tc := ⟨.vmem, 26, rfl⟩
abbrev cc1_stg9_1 : Ref sig .tc := ⟨.vmem, 27, rfl⟩
abbrev cc2_stg0_0 : Ref sig .tc := ⟨.vmem, 28, rfl⟩
abbrev cc2_stg0_1 : Ref sig .tc := ⟨.vmem, 29, rfl⟩
abbrev cc2_stg1_0 : Ref sig .tc := ⟨.vmem, 30, rfl⟩
abbrev cc2_stg1_1 : Ref sig .tc := ⟨.vmem, 31, rfl⟩
abbrev cc2_stg2_0 : Ref sig .tc := ⟨.vmem, 32, rfl⟩
abbrev cc2_stg2_1 : Ref sig .tc := ⟨.vmem, 33, rfl⟩
abbrev cc2_stg3_0 : Ref sig .tc := ⟨.vmem, 34, rfl⟩
abbrev cc2_stg4_0 : Ref sig .tc := ⟨.vmem, 35, rfl⟩
abbrev cc2_stg5_0 : Ref sig .tc := ⟨.vmem, 36, rfl⟩
abbrev cc2_stg6_0 : Ref sig .tc := ⟨.vmem, 37, rfl⟩
abbrev cc2_stg7_0 : Ref sig .tc := ⟨.vmem, 38, rfl⟩
abbrev cc2_stg8_0 : Ref sig .tc := ⟨.vmem, 39, rfl⟩
abbrev cc2_stg9_0 : Ref sig .tc := ⟨.vmem, 40, rfl⟩
abbrev cc2_stg9_1 : Ref sig .tc := ⟨.vmem, 41, rfl⟩
abbrev cc3_stg0_0 : Ref sig .tc := ⟨.vmem, 42, rfl⟩
abbrev cc3_stg0_1 : Ref sig .tc := ⟨.vmem, 43, rfl⟩
abbrev cc3_stg1_0 : Ref sig .tc := ⟨.vmem, 44, rfl⟩
abbrev cc3_stg1_1 : Ref sig .tc := ⟨.vmem, 45, rfl⟩
abbrev cc3_stg2_0 : Ref sig .tc := ⟨.vmem, 46, rfl⟩
abbrev cc3_stg3_0 : Ref sig .tc := ⟨.vmem, 47, rfl⟩
abbrev cc3_stg4_0 : Ref sig .tc := ⟨.vmem, 48, rfl⟩
abbrev cc3_stg5_0 : Ref sig .tc := ⟨.vmem, 49, rfl⟩
abbrev cc3_stg6_0 : Ref sig .tc := ⟨.vmem, 50, rfl⟩
abbrev cc3_stg6_1 : Ref sig .tc := ⟨.vmem, 51, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem4_0 : DmaSem sig := 21
abbrev cc1_sem5_0 : DmaSem sig := 22
abbrev cc1_sem6_0 : DmaSem sig := 23
abbrev cc1_sem7_0 : DmaSem sig := 24
abbrev cc1_sem8_0 : DmaSem sig := 25
abbrev cc1_sem9_0 : DmaSem sig := 26
abbrev cc1_sem9_1 : DmaSem sig := 27
abbrev cc2_sem0_0 : DmaSem sig := 28
abbrev cc2_sem0_1 : DmaSem sig := 29
abbrev cc2_sem1_0 : DmaSem sig := 30
abbrev cc2_sem1_1 : DmaSem sig := 31
abbrev cc2_sem2_0 : DmaSem sig := 32
abbrev cc2_sem2_1 : DmaSem sig := 33
abbrev cc2_sem3_0 : DmaSem sig := 34
abbrev cc2_sem4_0 : DmaSem sig := 35
abbrev cc2_sem5_0 : DmaSem sig := 36
abbrev cc2_sem6_0 : DmaSem sig := 37
abbrev cc2_sem7_0 : DmaSem sig := 38
abbrev cc2_sem8_0 : DmaSem sig := 39
abbrev cc2_sem9_0 : DmaSem sig := 40
abbrev cc2_sem9_1 : DmaSem sig := 41
abbrev cc3_sem0_0 : DmaSem sig := 42
abbrev cc3_sem0_1 : DmaSem sig := 43
abbrev cc3_sem1_0 : DmaSem sig := 44
abbrev cc3_sem1_1 : DmaSem sig := 45
abbrev cc3_sem2_0 : DmaSem sig := 46
abbrev cc3_sem3_0 : DmaSem sig := 47
abbrev cc3_sem4_0 : DmaSem sig := 48
abbrev cc3_sem5_0 : DmaSem sig := 49
abbrev cc3_sem6_0 : DmaSem sig := 50
abbrev cc3_sem6_1 : DmaSem sig := 51

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x384 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x384 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x384 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S2000x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x384 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x384 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S128x384 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x384 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S2000x128 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128x384 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x384 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S128x384 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x384 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 2 → Memref sig .tc .vmem S2000x128 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true]

abbrev grid3 : Pipeline.Grid := ⟨1, ![100], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S4000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x1 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S4000x1 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

class Facts₀ : Prop where
  transposes_S128x128_S128x128_1_0 : S128x128.Transposes [1, 0] S128x128
  transposes_S384x128_S128x384_1_0 : S384x128.Transposes [1, 0] S128x384
  shapeCasts_S128_S1x128 : S128.ShapeCasts S1x128
  shapeCasts_S384_S1x384 : S384.ShapeCasts S1x384
  bcast_S_S1600000x1 : S_.BroadcastsInDim S1600000x1 (![] : Fin 0 → Fin S1600000x1.rank)
  bcast_S_S100000x1 : S_.BroadcastsInDim S100000x1 (![] : Fin 0 → Fin S100000x1.rank)
  bcast_S1600000_S1600000x1_0 : S1600000.BroadcastsInDim S1600000x1 (![0] : Fin 1 → Fin S1600000x1.rank)
  bitsLt_bf16_f32 : FTy.bits .bf16 < FTy.bits .f32
  bcast_S_S1600000 : S_.BroadcastsInDim S1600000 (![] : Fin 0 → Fin S1600000.rank)
  bcast_S_S100000x128 : S_.BroadcastsInDim S100000x128 (![] : Fin 0 → Fin S100000x128.rank)
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S2000x1_S2000x128 : S2000x1.Broadcasts S2000x128
  broadcasts_S1x128_S2000x128 : S1x128.Broadcasts S2000x128
  inb_S128x384_S128x384_0_0 : ∀ a, (![0, 0] : Fin 2 → Nat) a + S128x384.size a ≤ S128x384.size a
  h_S128x384 : 0 < S128x384.numel
  shapeCasts_S128x384_S128x384 : S128x384.ShapeCasts S128x384
  inb_S1x384_S1x384_0_0 : ∀ a, (![0, 0] : Fin 2 → Nat) a + S1x384.size a ≤ S1x384.size a
  h_S1x384 : 0 < S1x384.numel
  shapeCasts_S1x384_S1x384 : S1x384.ShapeCasts S1x384
  broadcasts_S1x384_S2000x384 : S1x384.Broadcasts S2000x384
  slices_S2000x384_o0_0_S2000x128 : S2000x384.Slices ![0, 0] S2000x128
  slices_S2000x384_o0_128_S2000x128 : S2000x384.Slices ![0, 128] S2000x128
  slices_S2000x384_o0_256_S2000x128 : S2000x384.Slices ![0, 256] S2000x128
  concatenates_S200000_S200000_S400000_d0 : Shape.Concatenates [S200000, S200000] S400000 0
  bcast_S_S400000 : S_.BroadcastsInDim S400000 (![] : Fin 0 → Fin S400000.rank)
  bcast_S400000_S400000x1_0 : S400000.BroadcastsInDim S400000x1 (![0] : Fin 1 → Fin S400000x1.rank)
  transposes_S64x128_S128x64_1_0 : S64x128.Transposes [1, 0] S128x64
  shapeCasts_S64_S1x64 : S64.ShapeCasts S1x64
  shapeCasts_S1_S1x1 : S1.ShapeCasts S1x1
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4000x64 : S1x64.Broadcasts S4000x64
  reduces_S4000x64_S4000 : S4000x64.Reduces [1] S4000
  shapeCasts_S4000_S4000x1 : S4000.ShapeCasts S4000x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S4000x1 : S1x1.Broadcasts S4000x1
  inb_S4000x1_S4000x1_0_0 : ∀ a, (![0, 0] : Fin 2 → Nat) a + S4000x1.size a ≤ S4000x1.size a
  h_S4000x1 : 0 < S4000x1.numel
  slices_S400000x1_S200000x1_0_0 : S400000x1.Slices ![0, 0] S200000x1
  slices_S400000x1_S200000x1_200000_0 : S400000x1.Slices ![200000, 0] S200000x1
  scatter_S100000x1_S1600000x1_S1600000x1_1_0_0_1_wf : ScatterDims.WF S100000x1 S1600000x1 S1600000x1 [1] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S2000x128_S128x128_S2000x128_1_0_0_1_n_n_wf : DotDims.WF S2000x128 S128x128 S2000x128 [1] [0] [0] [1] [] []
  dot_S2000x128_S128x384_S2000x384_1_0_0_1_n_n_wf : DotDims.WF S2000x128 S128x384 S2000x384 [1] [0] [0] [1] [] []
  gather_S100000x128_S400000x1_S400000x128_1_0_n_n_0_1_1128_wf : GatherDims.WF S100000x128 S400000x1 S400000x128 [1] [0] [] [0] [] 1 ![1, 128]
  dot_S4000x128_S128x64_S4000x64_1_0_0_1_n_n_wf : DotDims.WF S4000x128 S128x64 S4000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x1.size a ≤ S100000x1.size a
  hwx0_1 : ∀ i : grid0.Coords, EltTy.bits .f32 = 32 ∨ (Rect.block (s := S100000x1) S2000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S100000x128.size a
  hwx0_2 : ∀ i : grid0.Coords, EltTy.bits .f32 = 32 ∨ (Rect.block (s := S100000x128) S2000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x384.size a ≤ S128x384.size a
  hwx0_5 : ∀ i : grid0.Coords, EltTy.bits .f32 = 32 ∨ (Rect.block (s := S128x384) S128x384.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x384.size a ≤ S1x384.size a
  hwx0_6 : ∀ i : grid0.Coords, EltTy.bits .f32 = 32 ∨ (Rect.block (s := S1x384) S1x384.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x384.size a ≤ S128x384.size a
  hwx0_7 : ∀ i : grid0.Coords, EltTy.bits .f32 = 32 ∨ (Rect.block (s := S128x384) S128x384.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x384.size a ≤ S1x384.size a
  hwx0_8 : ∀ i : grid0.Coords, EltTy.bits .f32 = 32 ∨ (Rect.block (s := S1x384) S1x384.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S2000x128.size a ≤ S100000x128.size a
  hwx0_9 : ∀ i : grid0.Coords, EltTy.bits .f32 = 32 ∨ (Rect.block (s := S100000x128) S2000x128.size (cc0_transform_9 i) (hinb0_9 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x1.size a ≤ S100000x1.size a
  hwx1_1 : ∀ i : grid1.Coords, EltTy.bits .f32 = 32 ∨ (Rect.block (s := S100000x1) S2000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x128.size a ≤ S100000x128.size a
  hwx1_2 : ∀ i : grid1.Coords, EltTy.bits .f32 = 32 ∨ (Rect.block (s := S100000x128) S2000x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x384.size a ≤ S128x384.size a
  hwx1_5 : ∀ i : grid1.Coords, EltTy.bits .f32 = 32 ∨ (Rect.block (s := S128x384) S128x384.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x384.size a ≤ S1x384.size a
  hwx1_6 : ∀ i : grid1.Coords, EltTy.bits .f32 = 32 ∨ (Rect.block (s := S1x384) S1x384.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S128x384.size a ≤ S128x384.size a
  hwx1_7 : ∀ i : grid1.Coords, EltTy.bits .f32 = 32 ∨ (Rect.block (s := S128x384) S128x384.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x384.size a ≤ S1x384.size a
  hwx1_8 : ∀ i : grid1.Coords, EltTy.bits .f32 = 32 ∨ (Rect.block (s := S1x384) S1x384.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S2000x128.size a ≤ S100000x128.size a
  hwx1_9 : ∀ i : grid1.Coords, EltTy.bits .f32 = 32 ∨ (Rect.block (s := S100000x128) S2000x128.size (cc1_transform_9 i) (hinb1_9 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S100000x128.size a
  hwx2_0 : ∀ i : grid2.Coords, EltTy.bits .f32 = 32 ∨ (Rect.block (s := S100000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x1.size a ≤ S100000x1.size a
  hwx2_1 : ∀ i : grid2.Coords, EltTy.bits .f32 = 32 ∨ (Rect.block (s := S100000x1) S2000x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x128.size a ≤ S100000x128.size a
  hwx2_2 : ∀ i : grid2.Coords, EltTy.bits .f32 = 32 ∨ (Rect.block (s := S100000x128) S2000x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128x384.size a ≤ S128x384.size a
  hwx2_5 : ∀ i : grid2.Coords, EltTy.bits .f32 = 32 ∨ (Rect.block (s := S128x384) S128x384.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x384.size a ≤ S1x384.size a
  hwx2_6 : ∀ i : grid2.Coords, EltTy.bits .f32 = 32 ∨ (Rect.block (s := S1x384) S1x384.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S128x384.size a ≤ S128x384.size a
  hwx2_7 : ∀ i : grid2.Coords, EltTy.bits .f32 = 32 ∨ (Rect.block (s := S128x384) S128x384.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S1x384.size a ≤ S1x384.size a
  hwx2_8 : ∀ i : grid2.Coords, EltTy.bits .f32 = 32 ∨ (Rect.block (s := S1x384) S1x384.size (cc2_transform_8 i) (hinb2_8 i)).WholeWords (EltTy.packing .f32)
  hstage2_9 : ∀ j, (stage2_9 j).IsWhole
  nbuf2_9 : grid2.bufCount reads2_9 false = 2
  hreads2_9 : ∀ i i' : grid2.Coords, (∀ a, reads2_9 a = true → i a = i' a) → cc2_transform_9 i = cc2_transform_9 i'
  hinb2_9 : ∀ (i : grid2.Coords) a, (cc2_transform_9 i a + 1) * S2000x128.size a ≤ S100000x128.size a
  hwx2_9 : ∀ i : grid2.Coords, EltTy.bits .f32 = 32 ∨ (Rect.block (s := S100000x128) S2000x128.size (cc2_transform_9 i) (hinb2_9 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4000x128.size a ≤ S400000x128.size a
  hwx3_0 : ∀ i : grid3.Coords, EltTy.bits .f32 = 32 ∨ (Rect.block (s := S400000x128) S4000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S4000x128.size a ≤ S400000x128.size a
  hwx3_1 : ∀ i : grid3.Coords, EltTy.bits .f32 = 32 ∨ (Rect.block (s := S400000x128) S4000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x64.size a ≤ S128x64.size a
  hwx3_2 : ∀ i : grid3.Coords, EltTy.bits .f32 = 32 ∨ (Rect.block (s := S128x64) S128x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x64.size a ≤ S1x64.size a
  hwx3_4 : ∀ i : grid3.Coords, EltTy.bits .f32 = 32 ∨ (Rect.block (s := S1x64) S1x64.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x1.size a ≤ S1x1.size a
  hwx3_5 : ∀ i : grid3.Coords, EltTy.bits .f32 = 32 ∨ (Rect.block (s := S1x1) S1x1.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S4000x1.size a ≤ S400000x1.size a
  hwx3_6 : ∀ i : grid3.Coords, EltTy.bits .f32 = 32 ∨ (Rect.block (s := S400000x1) S4000x1.size (cc3_transform_6 i) (hinb3_6 i)).WholeWords (EltTy.packing .f32)

variable [Facts₀]

def scatter_S100000x1_S1600000x1_S1600000x1_1_0_0_1 : ScatterDims S100000x1 S1600000x1 S1600000x1 where
  updateWindowDims := [1]
  insertedWindowDims := [0]
  scatterDimsToOperandDims := [0]
  indexVectorDim := 1
  wf := scatter_S100000x1_S1600000x1_S1600000x1_1_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x128_S128x384_S2000x384_1_0_0_1_n_n : DotDims S2000x128 S128x384 S2000x384 where
  lhsContracting := [1]
  rhsContracting := [0]
  lhsNonContracting := [0]
  rhsNonContracting := [1]
  lhsBatch := []
  rhsBatch := []
  wf := dot_S2000x128_S128x384_S2000x384_1_0_0_1_n_n_wf
def gather_S100000x128_S400000x1_S400000x128_1_0_n_n_0_1_1128 : GatherDims S100000x128 S400000x1 S400000x128 where
  offsetDims := [1]
  collapsedSliceDims := [0]
  operandBatchingDims := []
  startIndicesBatchingDims := []
  startIndexMap := [0]
  indexVectorDim := 1
  sliceSizes := ![1, 128]
  wf := gather_S100000x128_S400000x1_S400000x128_1_0_n_n_0_1_1128_wf
def dot_S4000x128_S128x64_S4000x64_1_0_0_1_n_n : DotDims S4000x128 S128x64 S4000x64 where
  lhsContracting := [1]
  rhsContracting := [0]
  lhsNonContracting := [0]
  rhsNonContracting := [1]
  lhsBatch := []
  rhsBatch := []
  wf := dot_S4000x128_S128x64_S4000x64_1_0_0_1_n_n_wf

abbrev win0_0 : Pipeline.Window sig grid0 :=
  Pipeline.Window.ofSpec (Memref.whole main_v21) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S2000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S2000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S128x384.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v4) S1x384.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v2) S128x384.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v5) S1x384.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v22) S2000x128.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_v34) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v9) S2000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v22) S2000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v0) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v3) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v1) S128x384.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v4) S1x384.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v2) S128x384.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v5) S1x384.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v35) S2000x128.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

abbrev win2_0 : Pipeline.Window sig grid2 :=
  Pipeline.Window.ofSpec (Memref.whole main_v47) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v9) S2000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v35) S2000x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v0) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v3) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v1) S128x384.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v4) S1x384.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v2) S128x384.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v5) S1x384.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v48) S2000x128.size cc2_transform_9 reads2_9 true false 2 stage2_9 sem2_9
    hrank2 hreads2_9 hinb2_9 nbuf2_9 (Memref.isWhole_whole _) hwx2_9 hstage2_9

abbrev win2 : Fin 10 → Pipeline.Window sig grid2 := fun | 0 => win2_0 | 1 => win2_1 | 2 => win2_2 | 3 => win2_3 | 4 => win2_4 | 5 => win2_5 | 6 => win2_6 | 7 => win2_7 | 8 => win2_8 | 9 => win2_9 | ⟨_ + 10, h⟩ => absurd h (Nat.not_lt.2 (Nat.le_add_left _ _))
abbrev spec2 : Fin 10 → Pipeline.WinSpec sig grid2.rank := fun w => (win2 w).toWinSpec

abbrev win3_0 : Pipeline.Window sig grid3 :=
  Pipeline.Window.ofSpec (Memref.whole main_v57) S4000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v64) S4000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v65) S128x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v66) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg15) S1x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v67) S1x1.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v68) S4000x1.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

class Facts : Prop extends Facts₀ where

variable [Facts]
-- ==== ReferenceIdeal.lean ====
abbrev S100000x128 : Shape := ⟨2, ![100000, 128]⟩
abbrev S1600000 : Shape := ⟨1, ![1600000]⟩
abbrev S200000 : Shape := ⟨1, ![200000]⟩
abbrev S128x128 : Shape := ⟨2, ![128, 128]⟩
abbrev S128 : Shape := ⟨1, ![128]⟩
abbrev S384x128 : Shape := ⟨2, ![384, 128]⟩
abbrev S384 : Shape := ⟨1, ![384]⟩
abbrev S64x128 : Shape := ⟨2, ![64, 128]⟩
abbrev S64 : Shape := ⟨1, ![64]⟩
abbrev S1x64 : Shape := ⟨2, ![1, 64]⟩
abbrev S1 : Shape := ⟨1, ![1]⟩
abbrev S1x128 : Shape := ⟨2, ![1, 128]⟩
abbrev S_ : Shape := ⟨0, ![]⟩
abbrev S1600000x1 : Shape := ⟨2, ![1600000, 1]⟩
abbrev S1600000x128 : Shape := ⟨2, ![1600000, 128]⟩
abbrev S128x384 : Shape := ⟨2, ![128, 384]⟩
abbrev S100000x384 : Shape := ⟨2, ![100000, 384]⟩
abbrev S1x384 : Shape := ⟨2, ![1, 384]⟩
abbrev S200000x1 : Shape := ⟨2, ![200000, 1]⟩
abbrev S200000x128 : Shape := ⟨2, ![200000, 128]⟩
abbrev S128x64 : Shape := ⟨2, ![128, 64]⟩
abbrev S200000x64 : Shape := ⟨2, ![200000, 64]⟩
abbrev S64x1 : Shape := ⟨2, ![64, 1]⟩
abbrev S1x1 : Shape := ⟨2, ![1, 1]⟩

abbrev nBuf : Space → Nat
  | .hbm => 272
  | .vmem => 0
  | .smem => 0
  | _ => 0

abbrev hbmTy0_0 (i : Nat) : BufTy := match i % 128 with
  | 0 => ⟨S100000x128, .f32⟩
  | 1 => ⟨S1600000, .i32⟩
  | 2 => ⟨S1600000, .i32⟩
  | 3 => ⟨S200000, .i32⟩
  | 4 => ⟨S200000, .i32⟩
  | 5 => ⟨S200000, .i32⟩
  | 6 => ⟨S200000, .i32⟩
  | 7 => ⟨S128x128, .f32⟩
  | 8 => ⟨S128, .f32⟩
  | 9 => ⟨S384x128, .f32⟩
  | 10 => ⟨S384, .f32⟩
  | 11 => ⟨S384x128, .f32⟩
  | 12 => ⟨S384, .f32⟩
  | 13 => ⟨S64x128, .f32⟩
  | 14 => ⟨S64, .f32⟩
  | 15 => ⟨S1x64, .f32⟩
  | 16 => ⟨S1, .f32⟩
  | 17 => ⟨S128x128, .f32⟩
  | 18 => ⟨S100000x128, .f32⟩
  | 19 => ⟨S1x128, .f32⟩
  | 20 => ⟨S100000x128, .f32⟩
  | 21 => ⟨S100000x128, .f32⟩
  | 22 => ⟨S_, .i32⟩
  | 23 => ⟨S1600000, .i32⟩
  | 24 => ⟨S1600000, .i1⟩
  | 25 => ⟨S_, .i32⟩
  | 26 => ⟨S1600000, .i32⟩
  | 27 => ⟨S1600000, .i32⟩
  | 28 => ⟨S1600000, .i32⟩
  | 29 => ⟨S1600000x1, .i32⟩
  | 30 => ⟨S1600000x128, .f32⟩
  | 31 => ⟨S_, .f32⟩
  | 32 => ⟨S100000x128, .f32⟩
  | 33 => ⟨S1600000x1, .i32⟩
  | 34 => ⟨S100000x128, .f32⟩
  | 35 => ⟨S128x384, .f32⟩
  | 36 => ⟨S100000x384, .f32⟩
  | 37 => ⟨S1x384, .f32⟩
  | 38 => ⟨S100000x384, .f32⟩
  | 39 => ⟨S100000x384, .f32⟩
  | 40 => ⟨S128x384, .f32⟩
  | 41 => ⟨S100000x384, .f32⟩
  | 42 => ⟨S1x384, .f32⟩
  | 43 => ⟨S100000x384, .f32⟩
  | 44 => ⟨S100000x384, .f32⟩
  | 45 => ⟨S100000x128, .f32⟩
  | 46 => ⟨S100000x128, .f32⟩
  | 47 => ⟨S100000x128, .f32⟩
  | 48 => ⟨S100000x128, .f32⟩
  | 49 => ⟨S100000x128, .f32⟩
  | 50 => ⟨S100000x128, .f32⟩
  | 51 => ⟨S100000x128, .f32⟩
  | 52 => ⟨S100000x128, .f32⟩
  | 53 => ⟨S100000x128, .f32⟩
  | 54 => ⟨S_, .f32⟩
  | 55 => ⟨S100000x128, .f32⟩
  | 56 => ⟨S100000x128, .f32⟩
  | 57 => ⟨S_, .f32⟩
  | 58 => ⟨S100000x128, .f32⟩
  | 59 => ⟨S100000x128, .f32⟩
  | 60 => ⟨S100000x128, .f32⟩
  | 61 => ⟨S100000x128, .f32⟩
  | 62 => ⟨S100000x128, .f32⟩
  | 63 => ⟨S_, .f32⟩
  | 64 => ⟨S100000x128, .f32⟩
  | 65 => ⟨S100000x128, .f32⟩
  | 66 => ⟨S_, .f32⟩
  | 67 => ⟨S100000x128, .f32⟩
  | 68 => ⟨S100000x128, .f32⟩
  | 69 => ⟨S100000x128, .f32⟩
  | 70 => ⟨S100000x128, .f32⟩
  | 71 => ⟨S100000x128, .f32⟩
  | 72 => ⟨S_, .f32⟩
  | 73 => ⟨S100000x128, .f32⟩
  | 74 => ⟨S100000x128, .f32⟩
  | 75 => ⟨S100000x128, .f32⟩
  | 76 => ⟨S100000x128, .f32⟩
  | 77 => ⟨S100000x128, .f32⟩
  | 78 => ⟨S128x128, .f32⟩
  | 79 => ⟨S100000x128, .f32⟩
  | 80 => ⟨S1x128, .f32⟩
  | 81 => ⟨S100000x128, .f32⟩
  | 82 => ⟨S100000x128, .f32⟩
  | 83 => ⟨S_, .i32⟩
  | 84 => ⟨S1600000, .i32⟩
  | 85 => ⟨S1600000, .i1⟩
  | 86 => ⟨S_, .i32⟩
  | 87 => ⟨S1600000, .i32⟩
  | 88 => ⟨S1600000, .i32⟩
  | 89 => ⟨S1600000, .i32⟩
  | 90 => ⟨S1600000x1, .i32⟩
  | 91 => ⟨S1600000x128, .f32⟩
  | 92 => ⟨S_, .f32⟩
  | 93 => ⟨S100000x128, .f32⟩
  | 94 => ⟨S1600000x1, .i32⟩
  | 95 => ⟨S100000x128, .f32⟩
  | 96 => ⟨S128x384, .f32⟩
  | 97 => ⟨S100000x384, .f32⟩
  | 98 => ⟨S1x384, .f32⟩
  | 99 => ⟨S100000x384, .f32⟩
  | 100 => ⟨S100000x384, .f32⟩
  | 101 => ⟨S128x384, .f32⟩
  | 102 => ⟨S100000x384, .f32⟩
  | 103 => ⟨S1x384, .f32⟩
  | 104 => ⟨S100000x384, .f32⟩
  | 105 => ⟨S100000x384, .f32⟩
  | 106 => ⟨S100000x128, .f32⟩
  | 107 => ⟨S100000x128, .f32⟩
  | 108 => ⟨S100000x128, .f32⟩
  | 109 => ⟨S100000x128, .f32⟩
  | 110 => ⟨S100000x128, .f32⟩
  | 111 => ⟨S100000x128, .f32⟩
  | 112 => ⟨S100000x128, .f32⟩
  | 113 => ⟨S100000x128, .f32⟩
  | 114 => ⟨S100000x128, .f32⟩
  | 115 => ⟨S_, .f32⟩
  | 116 => ⟨S100000x128, .f32⟩
  | 117 => ⟨S100000x128, .f32⟩
  | 118 => ⟨S_, .f32⟩
  | 119 => ⟨S100000x128, .f32⟩
  | 120 => ⟨S100000x128, .f32⟩
  | 121 => ⟨S100000x128, .f32⟩
  | 122 => ⟨S100000x128, .f32⟩
  | 123 => ⟨S100000x128, .f32⟩
  | 124 => ⟨S_, .f32⟩
  | 125 => ⟨S100000x128, .f32⟩
  | 126 => ⟨S100000x128, .f32⟩
  | 127 => ⟨S_, .f32⟩
  | _ => ⟨S100000x128, .f32⟩

abbrev hbmTy0_1 (i : Nat) : BufTy := match i % 128 with
  | 0 => ⟨S100000x128, .f32⟩
  | 1 => ⟨S100000x128, .f32⟩
  | 2 => ⟨S100000x128, .f32⟩
  | 3 => ⟨S100000x128, .f32⟩
  | 4 => ⟨S100000x128, .f32⟩
  | 5 => ⟨S_, .f32⟩
  | 6 => ⟨S100000x128, .f32⟩
  | 7 => ⟨S100000x128, .f32⟩
  | 8 => ⟨S100000x128, .f32⟩
  | 9 => ⟨S100000x128, .f32⟩
  | 10 => ⟨S100000x128, .f32⟩
  | 11 => ⟨S128x128, .f32⟩
  | 12 => ⟨S100000x128, .f32⟩
  | 13 => ⟨S1x128, .f32⟩
  | 14 => ⟨S100000x128, .f32⟩
  | 15 => ⟨S100000x128, .f32⟩
  | 16 => ⟨S_, .i32⟩
  | 17 => ⟨S1600000, .i32⟩
  | 18 => ⟨S1600000, .i1⟩
  | 19 => ⟨S_, .i32⟩
  | 20 => ⟨S1600000, .i32⟩
  | 21 => ⟨S1600000, .i32⟩
  | 22 => ⟨S1600000, .i32⟩
  | 23 => ⟨S1600000x1, .i32⟩
  | 24 => ⟨S1600000x128, .f32⟩
  | 25 => ⟨S_, .f32⟩
  | 26 => ⟨S100000x128, .f32⟩
  | 27 => ⟨S1600000x1, .i32⟩
  | 28 => ⟨S100000x128, .f32⟩
  | 29 => ⟨S128x384, .f32⟩
  | 30 => ⟨S100000x384, .f32⟩
  | 31 => ⟨S1x384, .f32⟩
  | 32 => ⟨S100000x384, .f32⟩
  | 33 => ⟨S100000x384, .f32⟩
  | 34 => ⟨S128x384, .f32⟩
  | 35 => ⟨S100000x384, .f32⟩
  | 36 => ⟨S1x384, .f32⟩
  | 37 => ⟨S100000x384, .f32⟩
  | 38 => ⟨S100000x384, .f32⟩
  | 39 => ⟨S100000x128, .f32⟩
  | 40 => ⟨S100000x128, .f32⟩
  | 41 => ⟨S100000x128, .f32⟩
  | 42 => ⟨S100000x128, .f32⟩
  | 43 => ⟨S100000x128, .f32⟩
  | 44 => ⟨S100000x128, .f32⟩
  | 45 => ⟨S100000x128, .f32⟩
  | 46 => ⟨S100000x128, .f32⟩
  | 47 => ⟨S100000x128, .f32⟩
  | 48 => ⟨S_, .f32⟩
  | 49 => ⟨S100000x128, .f32⟩
  | 50 => ⟨S100000x128, .f32⟩
  | 51 => ⟨S_, .f32⟩
  | 52 => ⟨S100000x128, .f32⟩
  | 53 => ⟨S100000x128, .f32⟩
  | 54 => ⟨S100000x128, .f32⟩
  | 55 => ⟨S100000x128, .f32⟩
  | 56 => ⟨S100000x128, .f32⟩
  | 57 => ⟨S_, .f32⟩
  | 58 => ⟨S100000x128, .f32⟩
  | 59 => ⟨S100000x128, .f32⟩
  | 60 => ⟨S_, .f32⟩
  | 61 => ⟨S100000x128, .f32⟩
  | 62 => ⟨S100000x128, .f32⟩
  | 63 => ⟨S100000x128, .f32⟩
  | 64 => ⟨S100000x128, .f32⟩
  | 65 => ⟨S100000x128, .f32⟩
  | 66 => ⟨S_, .f32⟩
  | 67 => ⟨S100000x128, .f32⟩
  | 68 => ⟨S100000x128, .f32⟩
  | 69 => ⟨S100000x128, .f32⟩
  | 70 => ⟨S100000x128, .f32⟩
  | 71 => ⟨S100000x128, .f32⟩
  | 72 => ⟨S_, .i32⟩
  | 73 => ⟨S200000, .i32⟩
  | 74 => ⟨S200000, .i1⟩
  | 75 => ⟨S_, .i32⟩
  | 76 => ⟨S200000, .i32⟩
  | 77 => ⟨S200000, .i32⟩
  | 78 => ⟨S200000, .i32⟩
  | 79 => ⟨S200000x1, .i32⟩
  | 80 => ⟨S200000x128, .f32⟩
  | 81 => ⟨S_, .i32⟩
  | 82 => ⟨S200000, .i32⟩
  | 83 => ⟨S200000, .i1⟩
  | 84 => ⟨S_, .i32⟩
  | 85 => ⟨S200000, .i32⟩
  | 86 => ⟨S200000, .i32⟩
  | 87 => ⟨S200000, .i32⟩
  | 88 => ⟨S200000x1, .i32⟩
  | 89 => ⟨S200000x128, .f32⟩
  | 90 => ⟨S200000x128, .f32⟩
  | 91 => ⟨S128x64, .f32⟩
  | 92 => ⟨S200000x64, .f32⟩
  | 93 => ⟨S1x64, .f32⟩
  | 94 => ⟨S200000x64, .f32⟩
  | 95 => ⟨S200000x64, .f32⟩
  | 96 => ⟨S_, .f32⟩
  | 97 => ⟨S200000x64, .f32⟩
  | 98 => ⟨S200000x64, .i1⟩
  | 99 => ⟨S_, .f32⟩
  | 100 => ⟨S200000x64, .f32⟩
  | 101 => ⟨S200000x64, .f32⟩
  | 102 => ⟨S200000x64, .f32⟩
  | 103 => ⟨S64x1, .f32⟩
  | 104 => ⟨S200000x1, .f32⟩
  | 105 => ⟨S1x1, .f32⟩
  | 106 => ⟨S200000x1, .f32⟩
  | 107 => ⟨S200000x1, .f32⟩
  | 108 => ⟨S_, .i32⟩
  | 109 => ⟨S200000, .i32⟩
  | 110 => ⟨S200000, .i1⟩
  | 111 => ⟨S_, .i32⟩
  | 112 => ⟨S200000, .i32⟩
  | 113 => ⟨S200000, .i32⟩
  | 114 => ⟨S200000, .i32⟩
  | 115 => ⟨S200000x1, .i32⟩
  | 116 => ⟨S200000x128, .f32⟩
  | 117 => ⟨S_, .i32⟩
  | 118 => ⟨S200000, .i32⟩
  | 119 => ⟨S200000, .i1⟩
  | 120 => ⟨S_, .i32⟩
  | 121 => ⟨S200000, .i32⟩
  | 122 => ⟨S200000, .i32⟩
  | 123 => ⟨S200000, .i32⟩
  | 124 => ⟨S200000x1, .i32⟩
  | 125 => ⟨S200000x128, .f32⟩
  | 126 => ⟨S200000x128, .f32⟩
  | 127 => ⟨S128x64, .f32⟩
  | _ => ⟨S100000x128, .f32⟩

abbrev hbmTy0_2 (i : Nat) : BufTy := match i % 128 with
  | 0 => ⟨S200000x64, .f32⟩
  | 1 => ⟨S1x64, .f32⟩
  | 2 => ⟨S200000x64, .f32⟩
  | 3 => ⟨S200000x64, .f32⟩
  | 4 => ⟨S_, .f32⟩
  | 5 => ⟨S200000x64, .f32⟩
  | 6 => ⟨S200000x64, .i1⟩
  | 7 => ⟨S_, .f32⟩
  | 8 => ⟨S200000x64, .f32⟩
  | 9 => ⟨S200000x64, .f32⟩
  | 10 => ⟨S200000x64, .f32⟩
  | 11 => ⟨S64x1, .f32⟩
  | 12 => ⟨S200000x1, .f32⟩
  | 13 => ⟨S1x1, .f32⟩
  | 14 => ⟨S200000x1, .f32⟩
  | 15 => ⟨S200000x1, .f32⟩
  | _ => ⟨S100000x128, .f32⟩

abbrev hbmTy (i : Nat) : BufTy := match i / 128 with
  | 0 => hbmTy0_0 i
  | 1 => hbmTy0_1 i
  | 2 => hbmTy0_2 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_c : Ref sig .tc := ⟨.hbm, 22, rfl⟩
abbrev main_v5 : Ref sig .tc := ⟨.hbm, 23, rfl⟩
abbrev main_v6 : Ref sig .tc := ⟨.hbm, 24, rfl⟩
abbrev main_c_0 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_cst : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_cst_1 : Ref sig .tc := ⟨.hbm, 54, rfl⟩
abbrev main_v34 : Ref sig .tc := ⟨.hbm, 55, rfl⟩
abbrev main_v35 : Ref sig .tc := ⟨.hbm, 56, rfl⟩
abbrev main_cst_2 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_3 : Ref sig .tc := ⟨.hbm, 63, rfl⟩
abbrev main_v41 : Ref sig .tc := ⟨.hbm, 64, rfl⟩
abbrev main_v42 : Ref sig .tc := ⟨.hbm, 65, rfl⟩
abbrev main_cst_4 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_cst_5 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_c_6 : Ref sig .tc := ⟨.hbm, 83, rfl⟩
abbrev main_v58 : Ref sig .tc := ⟨.hbm, 84, rfl⟩
abbrev main_v59 : Ref sig .tc := ⟨.hbm, 85, rfl⟩
abbrev main_c_7 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_cst_8 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_cst_9 : Ref sig .tc := ⟨.hbm, 115, rfl⟩
abbrev main_v87 : Ref sig .tc := ⟨.hbm, 116, rfl⟩
abbrev main_v88 : Ref sig .tc := ⟨.hbm, 117, rfl⟩
abbrev main_cst_10 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_cst_11 : Ref sig .tc := ⟨.hbm, 124, rfl⟩
abbrev main_v94 : Ref sig .tc := ⟨.hbm, 125, rfl⟩
abbrev main_v95 : Ref sig .tc := ⟨.hbm, 126, rfl⟩
abbrev main_cst_12 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_cst_13 : Ref sig .tc := ⟨.hbm, 133, rfl⟩
abbrev main_v101 : Ref sig .tc := ⟨.hbm, 134, rfl⟩
abbrev main_v102 : Ref sig .tc := ⟨.hbm, 135, rfl⟩
abbrev main_v103 : Ref sig .tc := ⟨.hbm, 136, rfl⟩
abbrev main_v104 : Ref sig .tc := ⟨.hbm, 137, rfl⟩
abbrev main_v105 : Ref sig .tc := ⟨.hbm, 138, rfl⟩
abbrev main_v106 : Ref sig .tc := ⟨.hbm, 139, rfl⟩
abbrev main_v107 : Ref sig .tc := ⟨.hbm, 140, rfl⟩
abbrev main_v108 : Ref sig .tc := ⟨.hbm, 141, rfl⟩
abbrev main_v109 : Ref sig .tc := ⟨.hbm, 142, rfl⟩
abbrev main_v110 : Ref sig .tc := ⟨.hbm, 143, rfl⟩
abbrev main_c_14 : Ref sig .tc := ⟨.hbm, 144, rfl⟩
abbrev main_v111 : Ref sig .tc := ⟨.hbm, 145, rfl⟩
abbrev main_v112 : Ref sig .tc := ⟨.hbm, 146, rfl⟩
abbrev main_c_15 : Ref sig .tc := ⟨.hbm, 147, rfl⟩
abbrev main_v113 : Ref sig .tc := ⟨.hbm, 148, rfl⟩
abbrev main_v114 : Ref sig .tc := ⟨.hbm, 149, rfl⟩
abbrev main_v115 : Ref sig .tc := ⟨.hbm, 150, rfl⟩
abbrev main_v116 : Ref sig .tc := ⟨.hbm, 151, rfl⟩
abbrev main_v117 : Ref sig .tc := ⟨.hbm, 152, rfl⟩
abbrev main_cst_16 : Ref sig .tc := ⟨.hbm, 153, rfl⟩
abbrev main_v118 : Ref sig .tc := ⟨.hbm, 154, rfl⟩
abbrev main_v119 : Ref sig .tc := ⟨.hbm, 155, rfl⟩
abbrev main_v120 : Ref sig .tc := ⟨.hbm, 156, rfl⟩
abbrev main_v121 : Ref sig .tc := ⟨.hbm, 157, rfl⟩
abbrev main_v122 : Ref sig .tc := ⟨.hbm, 158, rfl⟩
abbrev main_v123 : Ref sig .tc := ⟨.hbm, 159, rfl⟩
abbrev main_v124 : Ref sig .tc := ⟨.hbm, 160, rfl⟩
abbrev main_v125 : Ref sig .tc := ⟨.hbm, 161, rfl⟩
abbrev main_v126 : Ref sig .tc := ⟨.hbm, 162, rfl⟩
abbrev main_v127 : Ref sig .tc := ⟨.hbm, 163, rfl⟩
abbrev main_v128 : Ref sig .tc := ⟨.hbm, 164, rfl⟩
abbrev main_v129 : Ref sig .tc := ⟨.hbm, 165, rfl⟩
abbrev main_v130 : Ref sig .tc := ⟨.hbm, 166, rfl⟩
abbrev main_v131 : Ref sig .tc := ⟨.hbm, 167, rfl⟩
abbrev main_v132 : Ref sig .tc := ⟨.hbm, 168, rfl⟩
abbrev main_v133 : Ref sig .tc := ⟨.hbm, 169, rfl⟩
abbrev main_v134 : Ref sig .tc := ⟨.hbm, 170, rfl⟩
abbrev main_v135 : Ref sig .tc := ⟨.hbm, 171, rfl⟩
abbrev main_v136 : Ref sig .tc := ⟨.hbm, 172, rfl⟩
abbrev main_v137 : Ref sig .tc := ⟨.hbm, 173, rfl⟩
abbrev main_v138 : Ref sig .tc := ⟨.hbm, 174, rfl⟩
abbrev main_v139 : Ref sig .tc := ⟨.hbm, 175, rfl⟩
abbrev main_cst_17 : Ref sig .tc := ⟨.hbm, 176, rfl⟩
abbrev main_v140 : Ref sig .tc := ⟨.hbm, 177, rfl⟩
abbrev main_v141 : Ref sig .tc := ⟨.hbm, 178, rfl⟩
abbrev main_cst_18 : Ref sig .tc := ⟨.hbm, 179, rfl⟩
abbrev main_v142 : Ref sig .tc := ⟨.hbm, 180, rfl⟩
abbrev main_v143 : Ref sig .tc := ⟨.hbm, 181, rfl⟩
abbrev main_v144 : Ref sig .tc := ⟨.hbm, 182, rfl⟩
abbrev main_v145 : Ref sig .tc := ⟨.hbm, 183, rfl⟩
abbrev main_v146 : Ref sig .tc := ⟨.hbm, 184, rfl⟩
abbrev main_cst_19 : Ref sig .tc := ⟨.hbm, 185, rfl⟩
abbrev main_v147 : Ref sig .tc := ⟨.hbm, 186, rfl⟩
abbrev main_v148 : Ref sig .tc := ⟨.hbm, 187, rfl⟩
abbrev main_cst_20 : Ref sig .tc := ⟨.hbm, 188, rfl⟩
abbrev main_v149 : Ref sig .tc := ⟨.hbm, 189, rfl⟩
abbrev main_v150 : Ref sig .tc := ⟨.hbm, 190, rfl⟩
abbrev main_v151 : Ref sig .tc := ⟨.hbm, 191, rfl⟩
abbrev main_v152 : Ref sig .tc := ⟨.hbm, 192, rfl⟩
abbrev main_v153 : Ref sig .tc := ⟨.hbm, 193, rfl⟩
abbrev main_cst_21 : Ref sig .tc := ⟨.hbm, 194, rfl⟩
abbrev main_v154 : Ref sig .tc := ⟨.hbm, 195, rfl⟩
abbrev main_v155 : Ref sig .tc := ⟨.hbm, 196, rfl⟩
abbrev main_v156 : Ref sig .tc := ⟨.hbm, 197, rfl⟩
abbrev main_v157 : Ref sig .tc := ⟨.hbm, 198, rfl⟩
abbrev main_v158 : Ref sig .tc := ⟨.hbm, 199, rfl⟩
abbrev main_c_22 : Ref sig .tc := ⟨.hbm, 200, rfl⟩
abbrev main_v159 : Ref sig .tc := ⟨.hbm, 201, rfl⟩
abbrev main_v160 : Ref sig .tc := ⟨.hbm, 202, rfl⟩
abbrev main_c_23 : Ref sig .tc := ⟨.hbm, 203, rfl⟩
abbrev main_v161 : Ref sig .tc := ⟨.hbm, 204, rfl⟩
abbrev main_v162 : Ref sig .tc := ⟨.hbm, 205, rfl⟩
abbrev main_v163 : Ref sig .tc := ⟨.hbm, 206, rfl⟩
abbrev main_v164 : Ref sig .tc := ⟨.hbm, 207, rfl⟩
abbrev main_v165 : Ref sig .tc := ⟨.hbm, 208, rfl⟩
abbrev main_c_24 : Ref sig .tc := ⟨.hbm, 209, rfl⟩
abbrev main_v166 : Ref sig .tc := ⟨.hbm, 210, rfl⟩
abbrev main_v167 : Ref sig .tc := ⟨.hbm, 211, rfl⟩
abbrev main_c_25 : Ref sig .tc := ⟨.hbm, 212, rfl⟩
abbrev main_v168 : Ref sig .tc := ⟨.hbm, 213, rfl⟩
abbrev main_v169 : Ref sig .tc := ⟨.hbm, 214, rfl⟩
abbrev main_v170 : Ref sig .tc := ⟨.hbm, 215, rfl⟩
abbrev main_v171 : Ref sig .tc := ⟨.hbm, 216, rfl⟩
abbrev main_v172 : Ref sig .tc := ⟨.hbm, 217, rfl⟩
abbrev main_v173 : Ref sig .tc := ⟨.hbm, 218, rfl⟩
abbrev main_v174 : Ref sig .tc := ⟨.hbm, 219, rfl⟩
abbrev main_v175 : Ref sig .tc := ⟨.hbm, 220, rfl⟩
abbrev main_v176 : Ref sig .tc := ⟨.hbm, 221, rfl⟩
abbrev main_v177 : Ref sig .tc := ⟨.hbm, 222, rfl⟩
abbrev main_v178 : Ref sig .tc := ⟨.hbm, 223, rfl⟩
abbrev main_cst_26 : Ref sig .tc := ⟨.hbm, 224, rfl⟩
abbrev main_v179 : Ref sig .tc := ⟨.hbm, 225, rfl⟩
abbrev main_v180 : Ref sig .tc := ⟨.hbm, 226, rfl⟩
abbrev main_cst_27 : Ref sig .tc := ⟨.hbm, 227, rfl⟩
abbrev main_v181 : Ref sig .tc := ⟨.hbm, 228, rfl⟩
abbrev main_v182 : Ref sig .tc := ⟨.hbm, 229, rfl⟩
abbrev main_v183 : Ref sig .tc := ⟨.hbm, 230, rfl⟩
abbrev main_v184 : Ref sig .tc := ⟨.hbm, 231, rfl⟩
abbrev main_v185 : Ref sig .tc := ⟨.hbm, 232, rfl⟩
abbrev main_v186 : Ref sig .tc := ⟨.hbm, 233, rfl⟩
abbrev main_v187 : Ref sig .tc := ⟨.hbm, 234, rfl⟩
abbrev main_v188 : Ref sig .tc := ⟨.hbm, 235, rfl⟩
abbrev main_c_28 : Ref sig .tc := ⟨.hbm, 236, rfl⟩
abbrev main_v189 : Ref sig .tc := ⟨.hbm, 237, rfl⟩
abbrev main_v190 : Ref sig .tc := ⟨.hbm, 238, rfl⟩
abbrev main_c_29 : Ref sig .tc := ⟨.hbm, 239, rfl⟩
abbrev main_v191 : Ref sig .tc := ⟨.hbm, 240, rfl⟩
abbrev main_v192 : Ref sig .tc := ⟨.hbm, 241, rfl⟩
abbrev main_v193 : Ref sig .tc := ⟨.hbm, 242, rfl⟩
abbrev main_v194 : Ref sig .tc := ⟨.hbm, 243, rfl⟩
abbrev main_v195 : Ref sig .tc := ⟨.hbm, 244, rfl⟩
abbrev main_c_30 : Ref sig .tc := ⟨.hbm, 245, rfl⟩
abbrev main_v196 : Ref sig .tc := ⟨.hbm, 246, rfl⟩
abbrev main_v197 : Ref sig .tc := ⟨.hbm, 247, rfl⟩
abbrev main_c_31 : Ref sig .tc := ⟨.hbm, 248, rfl⟩
abbrev main_v198 : Ref sig .tc := ⟨.hbm, 249, rfl⟩
abbrev main_v199 : Ref sig .tc := ⟨.hbm, 250, rfl⟩
abbrev main_v200 : Ref sig .tc := ⟨.hbm, 251, rfl⟩
abbrev main_v201 : Ref sig .tc := ⟨.hbm, 252, rfl⟩
abbrev main_v202 : Ref sig .tc := ⟨.hbm, 253, rfl⟩
abbrev main_v203 : Ref sig .tc := ⟨.hbm, 254, rfl⟩
abbrev main_v204 : Ref sig .tc := ⟨.hbm, 255, rfl⟩
abbrev main_v205 : Ref sig .tc := ⟨.hbm, 256, rfl⟩
abbrev main_v206 : Ref sig .tc := ⟨.hbm, 257, rfl⟩
abbrev main_v207 : Ref sig .tc := ⟨.hbm, 258, rfl⟩
abbrev main_v208 : Ref sig .tc := ⟨.hbm, 259, rfl⟩
abbrev main_cst_32 : Ref sig .tc := ⟨.hbm, 260, rfl⟩
abbrev main_v209 : Ref sig .tc := ⟨.hbm, 261, rfl⟩
abbrev main_v210 : Ref sig .tc := ⟨.hbm, 262, rfl⟩
abbrev main_cst_33 : Ref sig .tc := ⟨.hbm, 263, rfl⟩
abbrev main_v211 : Ref sig .tc := ⟨.hbm, 264, rfl⟩
abbrev main_v212 : Ref sig .tc := ⟨.hbm, 265, rfl⟩
abbrev main_v213 : Ref sig .tc := ⟨.hbm, 266, rfl⟩
abbrev main_v214 : Ref sig .tc := ⟨.hbm, 267, rfl⟩
abbrev main_v215 : Ref sig .tc := ⟨.hbm, 268, rfl⟩
abbrev main_v216 : Ref sig .tc := ⟨.hbm, 269, rfl⟩
abbrev main_v217 : Ref sig .tc := ⟨.hbm, 270, rfl⟩
abbrev main_v218 : Ref sig .tc := ⟨.hbm, 271, rfl⟩

abbrev nD : Nat := 1
abbrev τ : Topo := Topo.v7x

variable {F : FTy → Type} [FloatOps F]

class Facts₀ : Prop where
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  transposes_S384x128_S128x384_1_0 : S384x128.Transposes [1, 0] S128x384
  bcast_S384_S1x384_1 : S384.BroadcastsInDim S1x384 (![1] : Fin 1 → Fin S1x384.rank)
  bcast_S1x384_S100000x384_0_1 : S1x384.BroadcastsInDim S100000x384 (![0, 1] : Fin 2 → Fin S100000x384.rank)
  slices_S100000x384_S100000x128_0_0 : S100000x384.Slices ![0, 0] S100000x128
  slices_S100000x384_S100000x128_0_128 : S100000x384.Slices ![0, 128] S100000x128
  slices_S100000x384_S100000x128_0_256 : S100000x384.Slices ![0, 256] S100000x128
  bcast_S_S200000 : S_.BroadcastsInDim S200000 (![] : Fin 0 → Fin S200000.rank)
  bcast_S200000_S200000x1_0 : S200000.BroadcastsInDim S200000x1 (![0] : Fin 1 → Fin S200000x1.rank)
  transposes_S64x128_S128x64_1_0 : S64x128.Transposes [1, 0] S128x64
  bcast_S64_S1x64_1 : S64.BroadcastsInDim S1x64 (![1] : Fin 1 → Fin S1x64.rank)
  bcast_S1x64_S200000x64_0_1 : S1x64.BroadcastsInDim S200000x64 (![0, 1] : Fin 2 → Fin S200000x64.rank)
  bcast_S_S200000x64 : S_.BroadcastsInDim S200000x64 (![] : Fin 0 → Fin S200000x64.rank)
  transposes_S1x64_S64x1_1_0 : S1x64.Transposes [1, 0] S64x1
  bcast_S1_S1x1_1 : S1.BroadcastsInDim S1x1 (![1] : Fin 1 → Fin S1x1.rank)
  bcast_S1x1_S200000x1_0_1 : S1x1.BroadcastsInDim S200000x1 (![0, 1] : Fin 2 → Fin S200000x1.rank)
  dot_S100000x128_S128x128_S100000x128_1_0_0_1_n_n_wf : DotDims.WF S100000x128 S128x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x384_S100000x384_1_0_0_1_n_n_wf : DotDims.WF S100000x128 S128x384 S100000x384 [1] [0] [0] [1] [] []
  gather_S100000x128_S200000x1_S200000x128_1_0_n_n_0_1_1128_wf : GatherDims.WF S100000x128 S200000x1 S200000x128 [1] [0] [] [0] [] 1 ![1, 128]
  dot_S200000x128_S128x64_S200000x64_1_0_0_1_n_n_wf : DotDims.WF S200000x128 S128x64 S200000x64 [1] [0] [0] [1] [] []
  dot_S200000x64_S64x1_S200000x1_1_0_0_1_n_n_wf : DotDims.WF S200000x64 S64x1 S200000x1 [1] [0] [0] [1] [] []

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x384_S100000x384_1_0_0_1_n_n : DotDims S100000x128 S128x384 S100000x384 where
  lhsContracting := [1]
  rhsContracting := [0]
  lhsNonContracting := [0]
  rhsNonContracting := [1]
  lhsBatch := []
  rhsBatch := []
  wf := dot_S100000x128_S128x384_S100000x384_1_0_0_1_n_n_wf
def gather_S100000x128_S200000x1_S200000x128_1_0_n_n_0_1_1128 : GatherDims S100000x128 S200000x1 S200000x128 where
  offsetDims := [1]
  collapsedSliceDims := [0]
  operandBatchingDims := []
  startIndicesBatchingDims := []
  startIndexMap := [0]
  indexVectorDim := 1
  sliceSizes := ![1, 128]
  wf := gather_S100000x128_S200000x1_S200000x128_1_0_n_n_0_1_1128_wf
def dot_S200000x128_S128x64_S200000x64_1_0_0_1_n_n : DotDims S200000x128 S128x64 S200000x64 where
  lhsContracting := [1]
  rhsContracting := [0]
  lhsNonContracting := [0]
  rhsNonContracting := [1]
  lhsBatch := []
  rhsBatch := []
  wf := dot_S200000x128_S128x64_S200000x64_1_0_0_1_n_n_wf
def dot_S200000x64_S64x1_S200000x1_1_0_0_1_n_n : DotDims S200000x64 S64x1 S200000x1 where
  lhsContracting := [1]
  rhsContracting := [0]
  lhsNonContracting := [0]
  rhsNonContracting := [1]
  lhsBatch := []
  rhsBatch := []
  wf := dot_S200000x64_S64x1_S200000x1_1_0_0_1_n_n_wf

class Facts : Prop extends Facts₀ where

variable [Facts]
-- ==== Proof.RefChain.lean ====
/-
  The reference's three message-passing steps are three applications of one function.

  The reference spells each step out operation by operation, so its second and third steps are fresh copies of
  the first with the previous step's result in place of the input node states; the graph lists and the weights
  are the same throughout.  Unfolding both sides gives the same term.  Likewise the four gathers of the scorer
  read rows of the third step's result at index columns that are one and the same function of their list, and
  the two scorers use the same transposed weights and bias row.
-/
import proofs.«108194_j40132174414161_2_alg».proof.Proof.ReadP

noncomputable section

namespace Cert.RefChain

open Cert.ReferenceIdeal Cert.ReferenceIdeal.Gen Cert.ReferenceIdeal.Read Idealize.ShloMosaic Idealize.ShloMosaic.ValueIdx Idealize.SL.Sem

/-- One message-passing step of the reference as a function of the node states, the graph and weights fixed. -/
abbrev stepR (x1 x2 : (⟨S1600000, .i32⟩ : BufTy).Contents (Elt Ideal)) (x7 : (⟨S128x128, .f32⟩ : BufTy).Contents (Elt Ideal)) (x8 : (⟨S128, .f32⟩ : BufTy).Contents (Elt Ideal)) (x9 : (⟨S384x128, .f32⟩ : BufTy).Contents (Elt Ideal)) (x10 : (⟨S384, .f32⟩ : BufTy).Contents (Elt Ideal)) (x11 : (⟨S384x128, .f32⟩ : BufTy).Contents (Elt Ideal)) (x12 : (⟨S384, .f32⟩ : BufTy).Contents (Elt Ideal))
    (h : (⟨S100000x128, .f32⟩ : BufTy).Contents (Elt Ideal)) : (⟨S100000x128, .f32⟩ : BufTy).Contents (Elt Ideal) :=
  val_main_v52 (F := Ideal) h x1 x2 x7 x8 x9 x10 x11 x12

/-- The reference's second step is the first step applied to the first step's result. -/
theorem v105_eq (x0 : (⟨S100000x128, .f32⟩ : BufTy).Contents (Elt Ideal)) (x1 x2 : (⟨S1600000, .i32⟩ : BufTy).Contents (Elt Ideal)) (x7 : (⟨S128x128, .f32⟩ : BufTy).Contents (Elt Ideal)) (x8 : (⟨S128, .f32⟩ : BufTy).Contents (Elt Ideal)) (x9 : (⟨S384x128, .f32⟩ : BufTy).Contents (Elt Ideal)) (x10 : (⟨S384, .f32⟩ : BufTy).Contents (Elt Ideal)) (x11 : (⟨S384x128, .f32⟩ : BufTy).Contents (Elt Ideal)) (x12 : (⟨S384, .f32⟩ : BufTy).Contents (Elt Ideal)) :
    val_main_v105 (F := Ideal) x0 x1 x2 x7 x8 x9 x10 x11 x12 = stepR x1 x2 x7 x8 x9 x10 x11 x12 (stepR x1 x2 x7 x8 x9 x10 x11 x12 x0) := rfl

/-- The reference's third step is the first step applied three times. -/
theorem v158_eq (x0 : (⟨S100000x128, .f32⟩ : BufTy).Contents (Elt Ideal)) (x1 x2 : (⟨S1600000, .i32⟩ : BufTy).Contents (Elt Ideal)) (x7 : (⟨S128x128, .f32⟩ : BufTy).Contents (Elt Ideal)) (x8 : (⟨S128, .f32⟩ : BufTy).Contents (Elt Ideal)) (x9 : (⟨S384x128, .f32⟩ : BufTy).Contents (Elt Ideal)) (x10 : (⟨S384, .f32⟩ : BufTy).Contents (Elt Ideal)) (x11 : (⟨S384x128, .f32⟩ : BufTy).Contents (Elt Ideal)) (x12 : (⟨S384, .f32⟩ : BufTy).Contents (Elt Ideal)) :
    val_main_v158 (F := Ideal) x0 x1 x2 x7 x8 x9 x10 x11 x12 = stepR x1 x2 x7 x8 x9 x10 x11 x12 (stepR x1 x2 x7 x8 x9 x10 x11 x12 (stepR x1 x2 x7 x8 x9 x10 x11 x12 x0)) := rfl

/-- The gathered rows %165 are rows of the final node states, at the wrapped indices of the list. -/
theorem v165_eq (x0 : (⟨S100000x128, .f32⟩ : BufTy).Contents (Elt Ideal)) (x1 x2 : (⟨S1600000, .i32⟩ : BufTy).Contents (Elt Ideal)) (x7 : (⟨S128x128, .f32⟩ : BufTy).Contents (Elt Ideal)) (x8 : (⟨S128, .f32⟩ : BufTy).Contents (Elt Ideal)) (x9 : (⟨S384x128, .f32⟩ : BufTy).Contents (Elt Ideal)) (x10 : (⟨S384, .f32⟩ : BufTy).Contents (Elt Ideal)) (x11 : (⟨S384x128, .f32⟩ : BufTy).Contents (Elt Ideal)) (x12 : (⟨S384, .f32⟩ : BufTy).Contents (Elt Ideal)) (a : (⟨S200000, .i32⟩ : BufTy).Contents (Elt Ideal)) :
    val_main_v165 (F := Ideal) x0 x1 x2 a x7 x8 x9 x10 x11 x12
      = Host.gather gather_S100000x128_S200000x1_S200000x128_1_0_n_n_0_1_1128 (val_main_v158 (F := Ideal) x0 x1 x2 x7 x8 x9 x10 x11 x12)
          (val_main_v164 (F := Ideal) a) := rfl

/-- The gathered rows %172 are rows of the final node states, at the wrapped indices of the list. -/
theorem v172_eq (x0 : (⟨S100000x128, .f32⟩ : BufTy).Contents (Elt Ideal)) (x1 x2 : (⟨S1600000, .i32⟩ : BufTy).Contents (Elt Ideal)) (x7 : (⟨S128x128, .f32⟩ : BufTy).Contents (Elt Ideal)) (x8 : (⟨S128, .f32⟩ : BufTy).Contents (Elt Ideal)) (x9 : (⟨S384x128, .f32⟩ : BufTy).Contents (Elt Ideal)) (x10 : (⟨S384, .f32⟩ : BufTy).Contents (Elt Ideal)) (x11 : (⟨S384x128, .f32⟩ : BufTy).Contents (Elt Ideal)) (x12 : (⟨S384, .f32⟩ : BufTy).Contents (Elt Ideal)) (a : (⟨S200000, .i32⟩ : BufTy).Contents (Elt Ideal)) :
    val_main_v172 (F := Ideal) x0 x1 x2 a x7 x8 x9 x10 x11 x12
      = Host.gather gather_S100000x128_S200000x1_S200000x128_1_0_n_n_0_1_1128 (val_main_v158 (F := Ideal) x0 x1 x2 x7 x8 x9 x10 x11 x12)
          (val_main_v171 (F := Ideal) a) := rfl

/-- The gathered rows %195 are rows of the final node states, at the wrapped indices of the list. -/
theorem v195_eq (x0 : (⟨S100000x128, .f32⟩ : BufTy).Contents (Elt Ideal)) (x1 x2 : (⟨S1600000, .i32⟩ : BufTy).Contents (Elt Ideal)) (x7 : (⟨S128x128, .f32⟩ : BufTy).Contents (Elt Ideal)) (x8 : (⟨S128, .f32⟩ : BufTy).Contents (Elt Ideal)) (x9 : (⟨S384x128, .f32⟩ : BufTy).Contents (Elt Ideal)) (x10 : (⟨S384, .f32⟩ : BufTy).Contents (Elt Ideal)) (x11 : (⟨S384x128, .f32⟩ : BufTy).Contents (Elt Ideal)) (x12 : (⟨S384, .f32⟩ : BufTy).Contents (Elt Ideal)) (a : (⟨S200000, .i32⟩ : BufTy).Contents (Elt Ideal)) :
    val_main_v195 (F := Ideal) x0 x1 x2 a x7 x8 x9 x10 x11 x12
      = Host.gather gather_S100000x128_S200000x1_S200000x128_1_0_n_n_0_1_1128 (val_main_v158 (F := Ideal) x0 x1 x2 x7 x8 x9 x10 x11 x12)
          (val_main_v194 (F := Ideal) a) := rfl

/-- The gathered rows %202 are rows of the final node states, at the wrapped indices of the list. -/
theorem v202_eq (x0 : (⟨S100000x128, .f32⟩ : BufTy).Contents (Elt Ideal)) (x1 x2 : (⟨S1600000, .i32⟩ : BufTy).Contents (Elt Ideal)) (x7 : (⟨S128x128, .f32⟩ : BufTy).Contents (Elt Ideal)) (x8 : (⟨S128, .f32⟩ : BufTy).Contents (Elt Ideal)) (x9 : (⟨S384x128, .f32⟩ : BufTy).Contents (Elt Ideal)) (x10 : (⟨S384, .f32⟩ : BufTy).Contents (Elt Ideal)) (x11 : (⟨S384x128, .f32⟩ : BufTy).Contents (Elt Ideal)) (x12 : (⟨S384, .f32⟩ : BufTy).Contents (Elt Ideal)) (a : (⟨S200000, .i32⟩ : BufTy).Contents (Elt Ideal)) :
    val_main_v202 (F := Ideal) x0 x1 x2 a x7 x8 x9 x10 x11 x12
      = Host.gather gather_S100000x128_S200000x1_S200000x128_1_0_n_n_0_1_1128 (val_main_v158 (F := Ideal) x0 x1 x2 x7 x8 x9 x10 x11 x12)
          (val_main_v201 (F := Ideal) a) := rfl

/-- The four index lists are wrapped by the same function. -/
theorem v171_eq (a : (⟨S200000, .i32⟩ : BufTy).Contents (Elt Ideal)) : val_main_v171 (F := Ideal) a = val_main_v164 (F := Ideal) a := rfl
theorem v194_eq (a : (⟨S200000, .i32⟩ : BufTy).Contents (Elt Ideal)) : val_main_v194 (F := Ideal) a = val_main_v164 (F := Ideal) a := rfl
theorem v201_eq (a : (⟨S200000, .i32⟩ : BufTy).Contents (Elt Ideal)) : val_main_v201 (F := Ideal) a = val_main_v164 (F := Ideal) a := rfl

/-- The two scorers use the same transposed first-layer weights and the same bias row. -/
theorem v204_eq (x13 : (⟨S64x128, .f32⟩ : BufTy).Contents (Elt Ideal)) : val_main_v204 (F := Ideal) x13 = val_main_v174 (F := Ideal) x13 := rfl
theorem v206_eq (x14 : (⟨S64, .f32⟩ : BufTy).Contents (Elt Ideal)) : val_main_v206 (F := Ideal) x14 = val_main_v176 (F := Ideal) x14 := rfl

end Cert.RefChain

end
-- ==== Proof.RefRun1.lean ====
/-
  The reference program's operations 1 to 61: the first message-passing step.

  The program is a list of operations, each writing one buffer from the contents of earlier ones; running a list from
  given buffer contents `V` rewrites the buffers it writes and leaves the rest.  This module isolates one stretch of
  the list and states, for ARBITRARY contents `V` before it, (1) that a buffer the stretch does not write keeps its
  contents (`frame1`), and (2) what the stretch leaves at its last buffer as a function of what `V` holds at
  the buffers it reads (`st1`).  Because `V` is arbitrary, a later stretch can be run from "the contents after
  the earlier stretches" without ever expanding what those contents are.
-/
import proofs.«108194_j40132174414161_2_alg».proof.Proof.ReadP

noncomputable section

namespace Cert.RefRun

open Cert.ReferenceIdeal Cert.ReferenceIdeal.Gen Idealize.ShloMosaic Idealize.ShloMosaic.TcCoe Idealize.SL.Sem Idealize.ShloMosaic.StableHlo

variable {F : FTy → Type} [FloatOps F]

/-- The stretch's operations, in program order. -/
def seg1 : List (HloOp τ sig (Elt F)) :=
  [ unary main_arg7 main_v0 ((transpose S128x128 [1, 0] · transposes_S128x128_S128x128_1_0) : (⟨S128x128, .f32⟩ : BufTy).Contents (Elt F) → (⟨S128x128, .f32⟩ : BufTy).Contents (Elt F)),
    binary main_arg0 main_v0 main_v1 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg8 main_v2 (broadcastInDim S1x128 ![1] bcast_S128_S1x128_1 : (⟨S128, .f32⟩ : BufTy).Contents (Elt F) → (⟨S1x128, .f32⟩ : BufTy).Contents (Elt F)),
    unary main_v2 main_v3 (broadcastInDim S100000x128 ![0, 1] bcast_S1x128_S100000x128_0_1 : (⟨S1x128, .f32⟩ : BufTy).Contents (Elt F) → (⟨S100000x128, .f32⟩ : BufTy).Contents (Elt F)),
    binary main_v1 main_v3 main_v4 (addf : (⟨S100000x128, .f32⟩ : BufTy).Contents (Elt F) → (⟨S100000x128, .f32⟩ : BufTy).Contents (Elt F) → (⟨S100000x128, .f32⟩ : BufTy).Contents (Elt F)),
    nullary main_c (constantI S_ 32 0#32),
    unary main_c main_v5 (broadcastInDim S1600000 ![] bcast_S_S1600000 : (⟨S_, .i32⟩ : BufTy).Contents (Elt F) → (⟨S1600000, .i32⟩ : BufTy).Contents (Elt F)),
    binary main_arg1 main_v5 main_v6 (cmpi .slt : (⟨S1600000, .i32⟩ : BufTy).Contents (Elt F) → (⟨S1600000, .i32⟩ : BufTy).Contents (Elt F) → (⟨S1600000, .i1⟩ : BufTy).Contents (Elt F)),
    nullary main_c_0 (constantI S_ 32 100000#32),
    unary main_c_0 main_v7 (broadcastInDim S1600000 ![] bcast_S_S1600000 : (⟨S_, .i32⟩ : BufTy).Contents (Elt F) → (⟨S1600000, .i32⟩ : BufTy).Contents (Elt F)),
    binary main_arg1 main_v7 main_v8 (addi : (⟨S1600000, .i32⟩ : BufTy).Contents (Elt F) → (⟨S1600000, .i32⟩ : BufTy).Contents (Elt F) → (⟨S1600000, .i32⟩ : BufTy).Contents (Elt F)),
    ternary main_v6 main_v8 main_arg1 main_v9 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v9 main_v10 (broadcastInDim S1600000x1 ![0] bcast_S1600000_S1600000x1_0 : (⟨S1600000, .i32⟩ : BufTy).Contents (Elt F) → (⟨S1600000x1, .i32⟩ : BufTy).Contents (Elt F)),
    binary main_v4 main_v10 main_v11 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    nullary main_cst (constant S_ .f32 0x00000000#32),
    unary main_cst main_v12 (broadcastInDim S100000x128 ![] bcast_S_S100000x128 : (⟨S_, .f32⟩ : BufTy).Contents (Elt F) → (⟨S100000x128, .f32⟩ : BufTy).Contents (Elt F)),
    unary main_arg2 main_v13 (broadcastInDim S1600000x1 ![0] bcast_S1600000_S1600000x1_0 : (⟨S1600000, .i32⟩ : BufTy).Contents (Elt F) → (⟨S1600000x1, .i32⟩ : BufTy).Contents (Elt F)),
    ternary main_v12 main_v13 main_v11 main_v14 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    unary main_arg9 main_v15 ((transpose S128x384 [1, 0] · transposes_S384x128_S128x384_1_0) : (⟨S384x128, .f32⟩ : BufTy).Contents (Elt F) → (⟨S128x384, .f32⟩ : BufTy).Contents (Elt F)),
    binary main_v14 main_v15 main_v16 ((fun l r => Host.dotGeneral dot_S100000x128_S128x384_S100000x384_1_0_0_1_n_n none l r) : (⟨S100000x128, .f32⟩ : BufTy).Contents (Elt F) → (⟨S128x384, .f32⟩ : BufTy).Contents (Elt F) → (⟨S100000x384, .f32⟩ : BufTy).Contents (Elt F)),
    unary main_arg10 main_v17 (broadcastInDim S1x384 ![1] bcast_S384_S1x384_1 : (⟨S384, .f32⟩ : BufTy).Contents (Elt F) → (⟨S1x384, .f32⟩ : BufTy).Contents (Elt F)),
    unary main_v17 main_v18 (broadcastInDim S100000x384 ![0, 1] bcast_S1x384_S100000x384_0_1 : (⟨S1x384, .f32⟩ : BufTy).Contents (Elt F) → (⟨S100000x384, .f32⟩ : BufTy).Contents (Elt F)),
    binary main_v16 main_v18 main_v19 (addf : (⟨S100000x384, .f32⟩ : BufTy).Contents (Elt F) → (⟨S100000x384, .f32⟩ : BufTy).Contents (Elt F) → (⟨S100000x384, .f32⟩ : BufTy).Contents (Elt F)),
    unary main_arg11 main_v20 ((transpose S128x384 [1, 0] · transposes_S384x128_S128x384_1_0) : (⟨S384x128, .f32⟩ : BufTy).Contents (Elt F) → (⟨S128x384, .f32⟩ : BufTy).Contents (Elt F)),
    binary main_arg0 main_v20 main_v21 ((fun l r => Host.dotGeneral dot_S100000x128_S128x384_S100000x384_1_0_0_1_n_n none l r) : (⟨S100000x128, .f32⟩ : BufTy).Contents (Elt F) → (⟨S128x384, .f32⟩ : BufTy).Contents (Elt F) → (⟨S100000x384, .f32⟩ : BufTy).Contents (Elt F)),
    unary main_arg12 main_v22 (broadcastInDim S1x384 ![1] bcast_S384_S1x384_1 : (⟨S384, .f32⟩ : BufTy).Contents (Elt F) → (⟨S1x384, .f32⟩ : BufTy).Contents (Elt F)),
    unary main_v22 main_v23 (broadcastInDim S100000x384 ![0, 1] bcast_S1x384_S100000x384_0_1 : (⟨S1x384, .f32⟩ : BufTy).Contents (Elt F) → (⟨S100000x384, .f32⟩ : BufTy).Contents (Elt F)),
    binary main_v21 main_v23 main_v24 (addf : (⟨S100000x384, .f32⟩ : BufTy).Contents (Elt F) → (⟨S100000x384, .f32⟩ : BufTy).Contents (Elt F) → (⟨S100000x384, .f32⟩ : BufTy).Contents (Elt F)),
    unary main_v19 main_v25 ((extractStridedSlice S100000x128 ![0, 0] · slices_S100000x384_S100000x128_0_0) : (⟨S100000x384, .f32⟩ : BufTy).Contents (Elt F) → (⟨S100000x128, .f32⟩ : BufTy).Contents (Elt F)),
    unary main_v19 main_v26 ((extractStridedSlice S100000x128 ![0, 128] · slices_S100000x384_S100000x128_0_128) : (⟨S100000x384, .f32⟩ : BufTy).Contents (Elt F) → (⟨S100000x128, .f32⟩ : BufTy).Contents (Elt F)),
    unary main_v19 main_v27 ((extractStridedSlice S100000x128 ![0, 256] · slices_S100000x384_S100000x128_0_256) : (⟨S100000x384, .f32⟩ : BufTy).Contents (Elt F) → (⟨S100000x128, .f32⟩ : BufTy).Contents (Elt F)),
    unary main_v24 main_v28 ((extractStridedSlice S100000x128 ![0, 0] · slices_S100000x384_S100000x128_0_0) : (⟨S100000x384, .f32⟩ : BufTy).Contents (Elt F) → (⟨S100000x128, .f32⟩ : BufTy).Contents (Elt F)),
    unary main_v24 main_v29 ((extractStridedSlice S100000x128 ![0, 128] · slices_S100000x384_S100000x128_0_128) : (⟨S100000x384, .f32⟩ : BufTy).Contents (Elt F) → (⟨S100000x128, .f32⟩ : BufTy).Contents (Elt F)),
    unary main_v24 main_v30 ((extractStridedSlice S100000x128 ![0, 256] · slices_S100000x384_S100000x128_0_256) : (⟨S100000x384, .f32⟩ : BufTy).Contents (Elt F) → (⟨S100000x128, .f32⟩ : BufTy).Contents (Elt F)),
    binary main_v25 main_v28 main_v31 (addf : (⟨S100000x128, .f32⟩ : BufTy).Contents (Elt F) → (⟨S100000x128, .f32⟩ : BufTy).Contents (Elt F) → (⟨S100000x128, .f32⟩ : BufTy).Contents (Elt F)),
    unary main_v31 main_v32 (Host.negf : (⟨S100000x128, .f32⟩ : BufTy).Contents (Elt F) → (⟨S100000x128, .f32⟩ : BufTy).Contents (Elt F)),
    unary main_v32 main_v33 (Host.exp : (⟨S100000x128, .f32⟩ : BufTy).Contents (Elt F) → (⟨S100000x128, .f32⟩ : BufTy).Contents (Elt F)),
    nullary main_cst_1 (constant S_ .f32 0x3F800000#32),
    unary main_cst_1 main_v34 (broadcastInDim S100000x128 ![] bcast_S_S100000x128 : (⟨S_, .f32⟩ : BufTy).Contents (Elt F) → (⟨S100000x128, .f32⟩ : BufTy).Contents (Elt F)),
    binary main_v34 main_v33 main_v35 (addf : (⟨S100000x128, .f32⟩ : BufTy).Contents (Elt F) → (⟨S100000x128, .f32⟩ : BufTy).Contents (Elt F) → (⟨S100000x128, .f32⟩ : BufTy).Contents (Elt F)),
    nullary main_cst_2 (constant S_ .f32 0x3F800000#32),
    unary main_cst_2 main_v36 (broadcastInDim S100000x128 ![] bcast_S_S100000x128 : (⟨S_, .f32⟩ : BufTy).Contents (Elt F) → (⟨S100000x128, .f32⟩ : BufTy).Contents (Elt F)),
    binary main_v36 main_v35 main_v37 (Host.divf : (⟨S100000x128, .f32⟩ : BufTy).Contents (Elt F) → (⟨S100000x128, .f32⟩ : BufTy).Contents (Elt F) → (⟨S100000x128, .f32⟩ : BufTy).Contents (Elt F)),
    binary main_v26 main_v29 main_v38 (addf : (⟨S100000x128, .f32⟩ : BufTy).Contents (Elt F) → (⟨S100000x128, .f32⟩ : BufTy).Contents (Elt F) → (⟨S100000x128, .f32⟩ : BufTy).Contents (Elt F)),
    unary main_v38 main_v39 (Host.negf : (⟨S100000x128, .f32⟩ : BufTy).Contents (Elt F) → (⟨S100000x128, .f32⟩ : BufTy).Contents (Elt F)),
    unary main_v39 main_v40 (Host.exp : (⟨S100000x128, .f32⟩ : BufTy).Contents (Elt F) → (⟨S100000x128, .f32⟩ : BufTy).Contents (Elt F)),
    nullary main_cst_3 (constant S_ .f32 0x3F800000#32),
    unary main_cst_3 main_v41 (broadcastInDim S100000x128 ![] bcast_S_S100000x128 : (⟨S_, .f32⟩ : BufTy).Contents (Elt F) → (⟨S100000x128, .f32⟩ : BufTy).Contents (Elt F)),
    binary main_v41 main_v40 main_v42 (addf : (⟨S100000x128, .f32⟩ : BufTy).Contents (Elt F) → (⟨S100000x128, .f32⟩ : BufTy).Contents (Elt F) → (⟨S100000x128, .f32⟩ : BufTy).Contents (Elt F)),
    nullary main_cst_4 (constant S_ .f32 0x3F800000#32),
    unary main_cst_4 main_v43 (broadcastInDim S100000x128 ![] bcast_S_S100000x128 : (⟨S_, .f32⟩ : BufTy).Contents (Elt F) → (⟨S100000x128, .f32⟩ : BufTy).Contents (Elt F)),
    binary main_v43 main_v42 main_v44 (Host.divf : (⟨S100000x128, .f32⟩ : BufTy).Contents (Elt F) → (⟨S100000x128, .f32⟩ : BufTy).Contents (Elt F) → (⟨S100000x128, .f32⟩ : BufTy).Contents (Elt F)),
    binary main_v37 main_v30 main_v45 (mulf : (⟨S100000x128, .f32⟩ : BufTy).Contents (Elt F) → (⟨S100000x128, .f32⟩ : BufTy).Contents (Elt F) → (⟨S100000x128, .f32⟩ : BufTy).Contents (Elt F)),
    binary main_v27 main_v45 main_v46 (addf : (⟨S100000x128, .f32⟩ : BufTy).Contents (Elt F) → (⟨S100000x128, .f32⟩ : BufTy).Contents (Elt F) → (⟨S100000x128, .f32⟩ : BufTy).Contents (Elt F)),
    unary main_v46 main_v47 (Host.tanh : (⟨S100000x128, .f32⟩ : BufTy).Contents (Elt F) → (⟨S100000x128, .f32⟩ : BufTy).Contents (Elt F)),
    nullary main_cst_5 (constant S_ .f32 0x3F800000#32),
    unary main_cst_5 main_v48 (broadcastInDim S100000x128 ![] bcast_S_S100000x128 : (⟨S_, .f32⟩ : BufTy).Contents (Elt F) → (⟨S100000x128, .f32⟩ : BufTy).Contents (Elt F)),
    binary main_v48 main_v44 main_v49 (subf : (⟨S100000x128, .f32⟩ : BufTy).Contents (Elt F) → (⟨S100000x128, .f32⟩ : BufTy).Contents (Elt F) → (⟨S100000x128, .f32⟩ : BufTy).Contents (Elt F)),
    binary main_v49 main_v47 main_v50 (mulf : (⟨S100000x128, .f32⟩ : BufTy).Contents (Elt F) → (⟨S100000x128, .f32⟩ : BufTy).Contents (Elt F) → (⟨S100000x128, .f32⟩ : BufTy).Contents (Elt F)),
    binary main_v44 main_arg0 main_v51 (mulf : (⟨S100000x128, .f32⟩ : BufTy).Contents (Elt F) → (⟨S100000x128, .f32⟩ : BufTy).Contents (Elt F) → (⟨S100000x128, .f32⟩ : BufTy).Contents (Elt F)),
    binary main_v50 main_v51 main_v52 (addf : (⟨S100000x128, .f32⟩ : BufTy).Contents (Elt F) → (⟨S100000x128, .f32⟩ : BufTy).Contents (Elt F) → (⟨S100000x128, .f32⟩ : BufTy).Contents (Elt F)) ]

/-- The buffers the stretch writes, one per operation, in order. -/
def wr1 : List (Ref sig .tc) :=
  [main_v0, main_v1, main_v2, main_v3, main_v4, main_c, main_v5, main_v6, main_c_0, main_v7, main_v8, main_v9, main_v10, main_v11, main_cst, main_v12, main_v13, main_v14, main_v15, main_v16, main_v17, main_v18, main_v19, main_v20, main_v21, main_v22, main_v23, main_v24, main_v25, main_v26, main_v27, main_v28, main_v29, main_v30, main_v31, main_v32, main_v33, main_cst_1, main_v34, main_v35, main_cst_2, main_v36, main_v37, main_v38, main_v39, main_v40, main_cst_3, main_v41, main_v42, main_cst_4, main_v43, main_v44, main_v45, main_v46, main_v47, main_cst_5, main_v48, main_v49, main_v50, main_v51, main_v52]

set_option maxRecDepth 8192 in
/-- Every operation of the stretch writes only a buffer of that list. -/
theorem seg1_writes :
    (seg1 (F := F)).Forall fun op => op.writes ⊆ (wr1.map (Proc.devRef (τ := τ) .tc)).toFinset := by
  unfold seg1 wr1
  simp only [List.Forall, nullary_writes, unary_writes, binary_writes, ternary_writes, Finset.singleton_subset_iff,
    List.mem_toFinset]
  repeat' apply And.intro
  all_goals exact List.mem_map_of_mem (f := Proc.devRef (τ := τ) .tc) (by decide)

/-- A buffer the stretch does not write keeps its contents. -/
theorem frame1 (V : Valuation τ sig (Elt F)) {r : Ref sig .tc} (hr : r ∉ wr1) :
    after seg1 V (Proc.devRef .tc r) = V (Proc.devRef .tc r) :=
  after_of_writes_sub seg1 V seg1_writes hr

set_option maxRecDepth 8192 in
/-- WHAT THE SEGMENT COMPUTES, from any contents `V`: the node states it leaves are one step of the reference applied to the node states it finds in the first argument (the graph lists and the weights read at
    the argument buffers).  The segment's operations are the reference's first step's with other buffer names, so after
    each operation's result is replaced by its function's value the two sides are the same term. -/
theorem st1 (V : Valuation τ sig (Elt F)) :
    after seg1 V (Proc.devRef .tc main_v52)
      = Read.val_main_v52 (F := F) (V (Proc.devRef .tc main_arg0)) (V (Proc.devRef .tc main_arg1)) (V (Proc.devRef .tc main_arg2)) (V (Proc.devRef .tc main_arg7)) (V (Proc.devRef .tc main_arg8)) (V (Proc.devRef .tc main_arg9)) (V (Proc.devRef .tc main_arg10)) (V (Proc.devRef .tc main_arg11)) (V (Proc.devRef .tc main_arg12)) := by
  unfold seg1
  after_results_simp
  all_goals rfl

end Cert.RefRun

end
-- ==== Proof.RefRun2.lean ====
/-
  The reference program's operations 62 to 122: the second message-passing step.

  The program is a list of operations, each writing one buffer from the contents of earlier ones; running a list from
  given buffer contents `V` rewrites the buffers it writes and leaves the rest.  This module isolates one stretch of
  the list and states, for ARBITRARY contents `V` before it, (1) that a buffer the stretch does not write keeps its
  contents (`frame2`), and (2) what the stretch leaves at its last buffer as a function of what `V` holds at
  the buffers it reads (`st2`).  Because `V` is arbitrary, a later stretch can be run from "the contents after
  the earlier stretches" without ever expanding what those contents are.
-/
import proofs.«108194_j40132174414161_2_alg».proof.Proof.ReadP

noncomputable section

namespace Cert.RefRun

open Cert.ReferenceIdeal Cert.ReferenceIdeal.Gen Idealize.ShloMosaic Idealize.ShloMosaic.TcCoe Idealize.SL.Sem Idealize.ShloMosaic.StableHlo

variable {F : FTy → Type} [FloatOps F]

/-- The stretch's operations, in program order. -/
def seg2 : List (HloOp τ sig (Elt F)) :=
  [ unary main_arg7 main_v53 ((transpose S128x128 [1, 0] · transposes_S128x128_S128x128_1_0) : (⟨S128x128, .f32⟩ : BufTy).Contents (Elt F) → (⟨S128x128, .f32⟩ : BufTy).Contents (Elt F)),
    binary main_v52 main_v53 main_v54 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg8 main_v55 (broadcastInDim S1x128 ![1] bcast_S128_S1x128_1 : (⟨S128, .f32⟩ : BufTy).Contents (Elt F) → (⟨S1x128, .f32⟩ : BufTy).Contents (Elt F)),
    unary main_v55 main_v56 (broadcastInDim S100000x128 ![0, 1] bcast_S1x128_S100000x128_0_1 : (⟨S1x128, .f32⟩ : BufTy).Contents (Elt F) → (⟨S100000x128, .f32⟩ : BufTy).Contents (Elt F)),
    binary main_v54 main_v56 main_v57 (addf : (⟨S100000x128, .f32⟩ : BufTy).Contents (Elt F) → (⟨S100000x128, .f32⟩ : BufTy).Contents (Elt F) → (⟨S100000x128, .f32⟩ : BufTy).Contents (Elt F)),
    nullary main_c_6 (constantI S_ 32 0#32),
    unary main_c_6 main_v58 (broadcastInDim S1600000 ![] bcast_S_S1600000 : (⟨S_, .i32⟩ : BufTy).Contents (Elt F) → (⟨S1600000, .i32⟩ : BufTy).Contents (Elt F)),
    binary main_arg1 main_v58 main_v59 (cmpi .slt : (⟨S1600000, .i32⟩ : BufTy).Contents (Elt F) → (⟨S1600000, .i32⟩ : BufTy).Contents (Elt F) → (⟨S1600000, .i1⟩ : BufTy).Contents (Elt F)),
    nullary main_c_7 (constantI S_ 32 100000#32),
    unary main_c_7 main_v60 (broadcastInDim S1600000 ![] bcast_S_S1600000 : (⟨S_, .i32⟩ : BufTy).Contents (Elt F) → (⟨S1600000, .i32⟩ : BufTy).Contents (Elt F)),
    binary main_arg1 main_v60 main_v61 (addi : (⟨S1600000, .i32⟩ : BufTy).Contents (Elt F) → (⟨S1600000, .i32⟩ : BufTy).Contents (Elt F) → (⟨S1600000, .i32⟩ : BufTy).Contents (Elt F)),
    ternary main_v59 main_v61 main_arg1 main_v62 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v62 main_v63 (broadcastInDim S1600000x1 ![0] bcast_S1600000_S1600000x1_0 : (⟨S1600000, .i32⟩ : BufTy).Contents (Elt F) → (⟨S1600000x1, .i32⟩ : BufTy).Contents (Elt F)),
    binary main_v57 main_v63 main_v64 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    nullary main_cst_8 (constant S_ .f32 0x00000000#32),
    unary main_cst_8 main_v65 (broadcastInDim S100000x128 ![] bcast_S_S100000x128 : (⟨S_, .f32⟩ : BufTy).Contents (Elt F) → (⟨S100000x128, .f32⟩ : BufTy).Contents (Elt F)),
    unary main_arg2 main_v66 (broadcastInDim S1600000x1 ![0] bcast_S1600000_S1600000x1_0 : (⟨S1600000, .i32⟩ : BufTy).Contents (Elt F) → (⟨S1600000x1, .i32⟩ : BufTy).Contents (Elt F)),
    ternary main_v65 main_v66 main_v64 main_v67 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    unary main_arg9 main_v68 ((transpose S128x384 [1, 0] · transposes_S384x128_S128x384_1_0) : (⟨S384x128, .f32⟩ : BufTy).Contents (Elt F) → (⟨S128x384, .f32⟩ : BufTy).Contents (Elt F)),
    binary main_v67 main_v68 main_v69 ((fun l r => Host.dotGeneral dot_S100000x128_S128x384_S100000x384_1_0_0_1_n_n none l r) : (⟨S100000x128, .f32⟩ : BufTy).Contents (Elt F) → (⟨S128x384, .f32⟩ : BufTy).Contents (Elt F) → (⟨S100000x384, .f32⟩ : BufTy).Contents (Elt F)),
    unary main_arg10 main_v70 (broadcastInDim S1x384 ![1] bcast_S384_S1x384_1 : (⟨S384, .f32⟩ : BufTy).Contents (Elt F) → (⟨S1x384, .f32⟩ : BufTy).Contents (Elt F)),
    unary main_v70 main_v71 (broadcastInDim S100000x384 ![0, 1] bcast_S1x384_S100000x384_0_1 : (⟨S1x384, .f32⟩ : BufTy).Contents (Elt F) → (⟨S100000x384, .f32⟩ : BufTy).Contents (Elt F)),
    binary main_v69 main_v71 main_v72 (addf : (⟨S100000x384, .f32⟩ : BufTy).Contents (Elt F) → (⟨S100000x384, .f32⟩ : BufTy).Contents (Elt F) → (⟨S100000x384, .f32⟩ : BufTy).Contents (Elt F)),
    unary main_arg11 main_v73 ((transpose S128x384 [1, 0] · transposes_S384x128_S128x384_1_0) : (⟨S384x128, .f32⟩ : BufTy).Contents (Elt F) → (⟨S128x384, .f32⟩ : BufTy).Contents (Elt F)),
    binary main_v52 main_v73 main_v74 ((fun l r => Host.dotGeneral dot_S100000x128_S128x384_S100000x384_1_0_0_1_n_n none l r) : (⟨S100000x128, .f32⟩ : BufTy).Contents (Elt F) → (⟨S128x384, .f32⟩ : BufTy).Contents (Elt F) → (⟨S100000x384, .f32⟩ : BufTy).Contents (Elt F)),
    unary main_arg12 main_v75 (broadcastInDim S1x384 ![1] bcast_S384_S1x384_1 : (⟨S384, .f32⟩ : BufTy).Contents (Elt F) → (⟨S1x384, .f32⟩ : BufTy).Contents (Elt F)),
    unary main_v75 main_v76 (broadcastInDim S100000x384 ![0, 1] bcast_S1x384_S100000x384_0_1 : (⟨S1x384, .f32⟩ : BufTy).Contents (Elt F) → (⟨S100000x384, .f32⟩ : BufTy).Contents (Elt F)),
    binary main_v74 main_v76 main_v77 (addf : (⟨S100000x384, .f32⟩ : BufTy).Contents (Elt F) → (⟨S100000x384, .f32⟩ : BufTy).Contents (Elt F) → (⟨S100000x384, .f32⟩ : BufTy).Contents (Elt F)),
    unary main_v72 main_v78 ((extractStridedSlice S100000x128 ![0, 0] · slices_S100000x384_S100000x128_0_0) : (⟨S100000x384, .f32⟩ : BufTy).Contents (Elt F) → (⟨S100000x128, .f32⟩ : BufTy).Contents (Elt F)),
    unary main_v72 main_v79 ((extractStridedSlice S100000x128 ![0, 128] · slices_S100000x384_S100000x128_0_128) : (⟨S100000x384, .f32⟩ : BufTy).Contents (Elt F) → (⟨S100000x128, .f32⟩ : BufTy).Contents (Elt F)),
    unary main_v72 main_v80 ((extractStridedSlice S100000x128 ![0, 256] · slices_S100000x384_S100000x128_0_256) : (⟨S100000x384, .f32⟩ : BufTy).Contents (Elt F) → (⟨S100000x128, .f32⟩ : BufTy).Contents (Elt F)),
    unary main_v77 main_v81 ((extractStridedSlice S100000x128 ![0, 0] · slices_S100000x384_S100000x128_0_0) : (⟨S100000x384, .f32⟩ : BufTy).Contents (Elt F) → (⟨S100000x128, .f32⟩ : BufTy).Contents (Elt F)),
    unary main_v77 main_v82 ((extractStridedSlice S100000x128 ![0, 128] · slices_S100000x384_S100000x128_0_128) : (⟨S100000x384, .f32⟩ : BufTy).Contents (Elt F) → (⟨S100000x128, .f32⟩ : BufTy).Contents (Elt F)),
    unary main_v77 main_v83 ((extractStridedSlice S100000x128 ![0, 256] · slices_S100000x384_S100000x128_0_256) : (⟨S100000x384, .f32⟩ : BufTy).Contents (Elt F) → (⟨S100000x128, .f32⟩ : BufTy).Contents (Elt F)),
    binary main_v78 main_v81 main_v84 (addf : (⟨S100000x128, .f32⟩ : BufTy).Contents (Elt F) → (⟨S100000x128, .f32⟩ : BufTy).Contents (Elt F) → (⟨S100000x128, .f32⟩ : BufTy).Contents (Elt F)),
    unary main_v84 main_v85 (Host.negf : (⟨S100000x128, .f32⟩ : BufTy).Contents (Elt F) → (⟨S100000x128, .f32⟩ : BufTy).Contents (Elt F)),
    unary main_v85 main_v86 (Host.exp : (⟨S100000x128, .f32⟩ : BufTy).Contents (Elt F) → (⟨S100000x128, .f32⟩ : BufTy).Contents (Elt F)),
    nullary main_cst_9 (constant S_ .f32 0x3F800000#32),
    unary main_cst_9 main_v87 (broadcastInDim S100000x128 ![] bcast_S_S100000x128 : (⟨S_, .f32⟩ : BufTy).Contents (Elt F) → (⟨S100000x128, .f32⟩ : BufTy).Contents (Elt F)),
    binary main_v87 main_v86 main_v88 (addf : (⟨S100000x128, .f32⟩ : BufTy).Contents (Elt F) → (⟨S100000x128, .f32⟩ : BufTy).Contents (Elt F) → (⟨S100000x128, .f32⟩ : BufTy).Contents (Elt F)),
    nullary main_cst_10 (constant S_ .f32 0x3F800000#32),
    unary main_cst_10 main_v89 (broadcastInDim S100000x128 ![] bcast_S_S100000x128 : (⟨S_, .f32⟩ : BufTy).Contents (Elt F) → (⟨S100000x128, .f32⟩ : BufTy).Contents (Elt F)),
    binary main_v89 main_v88 main_v90 (Host.divf : (⟨S100000x128, .f32⟩ : BufTy).Contents (Elt F) → (⟨S100000x128, .f32⟩ : BufTy).Contents (Elt F) → (⟨S100000x128, .f32⟩ : BufTy).Contents (Elt F)),
    binary main_v79 main_v82 main_v91 (addf : (⟨S100000x128, .f32⟩ : BufTy).Contents (Elt F) → (⟨S100000x128, .f32⟩ : BufTy).Contents (Elt F) → (⟨S100000x128, .f32⟩ : BufTy).Contents (Elt F)),
    unary main_v91 main_v92 (Host.negf : (⟨S100000x128, .f32⟩ : BufTy).Contents (Elt F) → (⟨S100000x128, .f32⟩ : BufTy).Contents (Elt F)),
    unary main_v92 main_v93 (Host.exp : (⟨S100000x128, .f32⟩ : BufTy).Contents (Elt F) → (⟨S100000x128, .f32⟩ : BufTy).Contents (Elt F)),
    nullary main_cst_11 (constant S_ .f32 0x3F800000#32),
    unary main_cst_11 main_v94 (broadcastInDim S100000x128 ![] bcast_S_S100000x128 : (⟨S_, .f32⟩ : BufTy).Contents (Elt F) → (⟨S100000x128, .f32⟩ : BufTy).Contents (Elt F)),
    binary main_v94 main_v93 main_v95 (addf : (⟨S100000x128, .f32⟩ : BufTy).Contents (Elt F) → (⟨S100000x128, .f32⟩ : BufTy).Contents (Elt F) → (⟨S100000x128, .f32⟩ : BufTy).Contents (Elt F)),
    nullary main_cst_12 (constant S_ .f32 0x3F800000#32),
    unary main_cst_12 main_v96 (broadcastInDim S100000x128 ![] bcast_S_S100000x128 : (⟨S_, .f32⟩ : BufTy).Contents (Elt F) → (⟨S100000x128, .f32⟩ : BufTy).Contents (Elt F)),
    binary main_v96 main_v95 main_v97 (Host.divf : (⟨S100000x128, .f32⟩ : BufTy).Contents (Elt F) → (⟨S100000x128, .f32⟩ : BufTy).Contents (Elt F) → (⟨S100000x128, .f32⟩ : BufTy).Contents (Elt F)),
    binary main_v90 main_v83 main_v98 (mulf : (⟨S100000x128, .f32⟩ : BufTy).Contents (Elt F) → (⟨S100000x128, .f32⟩ : BufTy).Contents (Elt F) → (⟨S100000x128, .f32⟩ : BufTy).Contents (Elt F)),
    binary main_v80 main_v98 main_v99 (addf : (⟨S100000x128, .f32⟩ : BufTy).Contents (Elt F) → (⟨S100000x128, .f32⟩ : BufTy).Contents (Elt F) → (⟨S100000x128, .f32⟩ : BufTy).Contents (Elt F)),
    unary main_v99 main_v100 (Host.tanh : (⟨S100000x128, .f32⟩ : BufTy).Contents (Elt F) → (⟨S100000x128, .f32⟩ : BufTy).Contents (Elt F)),
    nullary main_cst_13 (constant S_ .f32 0x3F800000#32),
    unary main_cst_13 main_v101 (broadcastInDim S100000x128 ![] bcast_S_S100000x128 : (⟨S_, .f32⟩ : BufTy).Contents (Elt F) → (⟨S100000x128, .f32⟩ : BufTy).Contents (Elt F)),
    binary main_v101 main_v97 main_v102 (subf : (⟨S100000x128, .f32⟩ : BufTy).Contents (Elt F) → (⟨S100000x128, .f32⟩ : BufTy).Contents (Elt F) → (⟨S100000x128, .f32⟩ : BufTy).Contents (Elt F)),
    binary main_v102 main_v100 main_v103 (mulf : (⟨S100000x128, .f32⟩ : BufTy).Contents (Elt F) → (⟨S100000x128, .f32⟩ : BufTy).Contents (Elt F) → (⟨S100000x128, .f32⟩ : BufTy).Contents (Elt F)),
    binary main_v97 main_v52 main_v104 (mulf : (⟨S100000x128, .f32⟩ : BufTy).Contents (Elt F) → (⟨S100000x128, .f32⟩ : BufTy).Contents (Elt F) → (⟨S100000x128, .f32⟩ : BufTy).Contents (Elt F)),
    binary main_v103 main_v104 main_v105 (addf : (⟨S100000x128, .f32⟩ : BufTy).Contents (Elt F) → (⟨S100000x128, .f32⟩ : BufTy).Contents (Elt F) → (⟨S100000x128, .f32⟩ : BufTy).Contents (Elt F)) ]

/-- The buffers the stretch writes, one per operation, in order. -/
def wr2 : List (Ref sig .tc) :=
  [main_v53, main_v54, main_v55, main_v56, main_v57, main_c_6, main_v58, main_v59, main_c_7, main_v60, main_v61, main_v62, main_v63, main_v64, main_cst_8, main_v65, main_v66, main_v67, main_v68, main_v69, main_v70, main_v71, main_v72, main_v73, main_v74, main_v75, main_v76, main_v77, main_v78, main_v79, main_v80, main_v81, main_v82, main_v83, main_v84, main_v85, main_v86, main_cst_9, main_v87, main_v88, main_cst_10, main_v89, main_v90, main_v91, main_v92, main_v93, main_cst_11, main_v94, main_v95, main_cst_12, main_v96, main_v97, main_v98, main_v99, main_v100, main_cst_13, main_v101, main_v102, main_v103, main_v104, main_v105]

set_option maxRecDepth 8192 in
/-- Every operation of the stretch writes only a buffer of that list. -/
theorem seg2_writes :
    (seg2 (F := F)).Forall fun op => op.writes ⊆ (wr2.map (Proc.devRef (τ := τ) .tc)).toFinset := by
  unfold seg2 wr2
  simp only [List.Forall, nullary_writes, unary_writes, binary_writes, ternary_writes, Finset.singleton_subset_iff,
    List.mem_toFinset]
  repeat' apply And.intro
  all_goals exact List.mem_map_of_mem (f := Proc.devRef (τ := τ) .tc) (by decide)

/-- A buffer the stretch does not write keeps its contents. -/
theorem frame2 (V : Valuation τ sig (Elt F)) {r : Ref sig .tc} (hr : r ∉ wr2) :
    after seg2 V (Proc.devRef .tc r) = V (Proc.devRef .tc r) :=
  after_of_writes_sub seg2 V seg2_writes hr

set_option maxRecDepth 8192 in
/-- WHAT THE SEGMENT COMPUTES, from any contents `V`: the node states it leaves are one step applied to the first step's result (the graph lists and the weights read at
    the argument buffers).  The segment's operations are the reference's first step's with other buffer names, so after
    each operation's result is replaced by its function's value the two sides are the same term. -/
theorem st2 (V : Valuation τ sig (Elt F)) :
    after seg2 V (Proc.devRef .tc main_v105)
      = Read.val_main_v52 (F := F) (V (Proc.devRef .tc main_v52)) (V (Proc.devRef .tc main_arg1)) (V (Proc.devRef .tc main_arg2)) (V (Proc.devRef .tc main_arg7)) (V (Proc.devRef .tc main_arg8)) (V (Proc.devRef .tc main_arg9)) (V (Proc.devRef .tc main_arg10)) (V (Proc.devRef .tc main_arg11)) (V (Proc.devRef .tc main_arg12)) := by
  unfold seg2
  after_results_simp
  all_goals rfl

end Cert.RefRun

end
-- ==== Proof.RefRun3.lean ====
/-
  The reference program's operations 123 to 183: the third message-passing step.

  The program is a list of operations, each writing one buffer from the contents of earlier ones; running a list from
  given buffer contents `V` rewrites the buffers it writes and leaves the rest.  This module isolates one stretch of
  the list and states, for ARBITRARY contents `V` before it, (1) that a buffer the stretch does not write keeps its
  contents (`frame3`), and (2) what the stretch leaves at its last buffer as a function of what `V` holds at
  the buffers it reads (`st3`).  Because `V` is arbitrary, a later stretch can be run from "the contents after
  the earlier stretches" without ever expanding what those contents are.
-/
import proofs.«108194_j40132174414161_2_alg».proof.Proof.ReadP

noncomputable section

namespace Cert.RefRun

open Cert.ReferenceIdeal Cert.ReferenceIdeal.Gen Idealize.ShloMosaic Idealize.ShloMosaic.TcCoe Idealize.SL.Sem Idealize.ShloMosaic.StableHlo

variable {F : FTy → Type} [FloatOps F]

/-- The stretch's operations, in program order. -/
def seg3 : List (HloOp τ sig (Elt F)) :=
  [ unary main_arg7 main_v106 ((transpose S128x128 [1, 0] · transposes_S128x128_S128x128_1_0) : (⟨S128x128, .f32⟩ : BufTy).Contents (Elt F) → (⟨S128x128, .f32⟩ : BufTy).Contents (Elt F)),
    binary main_v105 main_v106 main_v107 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg8 main_v108 (broadcastInDim S1x128 ![1] bcast_S128_S1x128_1 : (⟨S128, .f32⟩ : BufTy).Contents (Elt F) → (⟨S1x128, .f32⟩ : BufTy).Contents (Elt F)),
    unary main_v108 main_v109 (broadcastInDim S100000x128 ![0, 1] bcast_S1x128_S100000x128_0_1 : (⟨S1x128, .f32⟩ : BufTy).Contents (Elt F) → (⟨S100000x128, .f32⟩ : BufTy).Contents (Elt F)),
    binary main_v107 main_v109 main_v110 (addf : (⟨S100000x128, .f32⟩ : BufTy).Contents (Elt F) → (⟨S100000x128, .f32⟩ : BufTy).Contents (Elt F) → (⟨S100000x128, .f32⟩ : BufTy).Contents (Elt F)),
    nullary main_c_14 (constantI S_ 32 0#32),
    unary main_c_14 main_v111 (broadcastInDim S1600000 ![] bcast_S_S1600000 : (⟨S_, .i32⟩ : BufTy).Contents (Elt F) → (⟨S1600000, .i32⟩ : BufTy).Contents (Elt F)),
    binary main_arg1 main_v111 main_v112 (cmpi .slt : (⟨S1600000, .i32⟩ : BufTy).Contents (Elt F) → (⟨S1600000, .i32⟩ : BufTy).Contents (Elt F) → (⟨S1600000, .i1⟩ : BufTy).Contents (Elt F)),
    nullary main_c_15 (constantI S_ 32 100000#32),
    unary main_c_15 main_v113 (broadcastInDim S1600000 ![] bcast_S_S1600000 : (⟨S_, .i32⟩ : BufTy).Contents (Elt F) → (⟨S1600000, .i32⟩ : BufTy).Contents (Elt F)),
    binary main_arg1 main_v113 main_v114 (addi : (⟨S1600000, .i32⟩ : BufTy).Contents (Elt F) → (⟨S1600000, .i32⟩ : BufTy).Contents (Elt F) → (⟨S1600000, .i32⟩ : BufTy).Contents (Elt F)),
    ternary main_v112 main_v114 main_arg1 main_v115 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v115 main_v116 (broadcastInDim S1600000x1 ![0] bcast_S1600000_S1600000x1_0 : (⟨S1600000, .i32⟩ : BufTy).Contents (Elt F) → (⟨S1600000x1, .i32⟩ : BufTy).Contents (Elt F)),
    binary main_v110 main_v116 main_v117 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    nullary main_cst_16 (constant S_ .f32 0x00000000#32),
    unary main_cst_16 main_v118 (broadcastInDim S100000x128 ![] bcast_S_S100000x128 : (⟨S_, .f32⟩ : BufTy).Contents (Elt F) → (⟨S100000x128, .f32⟩ : BufTy).Contents (Elt F)),
    unary main_arg2 main_v119 (broadcastInDim S1600000x1 ![0] bcast_S1600000_S1600000x1_0 : (⟨S1600000, .i32⟩ : BufTy).Contents (Elt F) → (⟨S1600000x1, .i32⟩ : BufTy).Contents (Elt F)),
    ternary main_v118 main_v119 main_v117 main_v120 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    unary main_arg9 main_v121 ((transpose S128x384 [1, 0] · transposes_S384x128_S128x384_1_0) : (⟨S384x128, .f32⟩ : BufTy).Contents (Elt F) → (⟨S128x384, .f32⟩ : BufTy).Contents (Elt F)),
    binary main_v120 main_v121 main_v122 ((fun l r => Host.dotGeneral dot_S100000x128_S128x384_S100000x384_1_0_0_1_n_n none l r) : (⟨S100000x128, .f32⟩ : BufTy).Contents (Elt F) → (⟨S128x384, .f32⟩ : BufTy).Contents (Elt F) → (⟨S100000x384, .f32⟩ : BufTy).Contents (Elt F)),
    unary main_arg10 main_v123 (broadcastInDim S1x384 ![1] bcast_S384_S1x384_1 : (⟨S384, .f32⟩ : BufTy).Contents (Elt F) → (⟨S1x384, .f32⟩ : BufTy).Contents (Elt F)),
    unary main_v123 main_v124 (broadcastInDim S100000x384 ![0, 1] bcast_S1x384_S100000x384_0_1 : (⟨S1x384, .f32⟩ : BufTy).Contents (Elt F) → (⟨S100000x384, .f32⟩ : BufTy).Contents (Elt F)),
    binary main_v122 main_v124 main_v125 (addf : (⟨S100000x384, .f32⟩ : BufTy).Contents (Elt F) → (⟨S100000x384, .f32⟩ : BufTy).Contents (Elt F) → (⟨S100000x384, .f32⟩ : BufTy).Contents (Elt F)),
    unary main_arg11 main_v126 ((transpose S128x384 [1, 0] · transposes_S384x128_S128x384_1_0) : (⟨S384x128, .f32⟩ : BufTy).Contents (Elt F) → (⟨S128x384, .f32⟩ : BufTy).Contents (Elt F)),
    binary main_v105 main_v126 main_v127 ((fun l r => Host.dotGeneral dot_S100000x128_S128x384_S100000x384_1_0_0_1_n_n none l r) : (⟨S100000x128, .f32⟩ : BufTy).Contents (Elt F) → (⟨S128x384, .f32⟩ : BufTy).Contents (Elt F) → (⟨S100000x384, .f32⟩ : BufTy).Contents (Elt F)),
    unary main_arg12 main_v128 (broadcastInDim S1x384 ![1] bcast_S384_S1x384_1 : (⟨S384, .f32⟩ : BufTy).Contents (Elt F) → (⟨S1x384, .f32⟩ : BufTy).Contents (Elt F)),
    unary main_v128 main_v129 (broadcastInDim S100000x384 ![0, 1] bcast_S1x384_S100000x384_0_1 : (⟨S1x384, .f32⟩ : BufTy).Contents (Elt F) → (⟨S100000x384, .f32⟩ : BufTy).Contents (Elt F)),
    binary main_v127 main_v129 main_v130 (addf : (⟨S100000x384, .f32⟩ : BufTy).Contents (Elt F) → (⟨S100000x384, .f32⟩ : BufTy).Contents (Elt F) → (⟨S100000x384, .f32⟩ : BufTy).Contents (Elt F)),
    unary main_v125 main_v131 ((extractStridedSlice S100000x128 ![0, 0] · slices_S100000x384_S100000x128_0_0) : (⟨S100000x384, .f32⟩ : BufTy).Contents (Elt F) → (⟨S100000x128, .f32⟩ : BufTy).Contents (Elt F)),
    unary main_v125 main_v132 ((extractStridedSlice S100000x128 ![0, 128] · slices_S100000x384_S100000x128_0_128) : (⟨S100000x384, .f32⟩ : BufTy).Contents (Elt F) → (⟨S100000x128, .f32⟩ : BufTy).Contents (Elt F)),
    unary main_v125 main_v133 ((extractStridedSlice S100000x128 ![0, 256] · slices_S100000x384_S100000x128_0_256) : (⟨S100000x384, .f32⟩ : BufTy).Contents (Elt F) → (⟨S100000x128, .f32⟩ : BufTy).Contents (Elt F)),
    unary main_v130 main_v134 ((extractStridedSlice S100000x128 ![0, 0] · slices_S100000x384_S100000x128_0_0) : (⟨S100000x384, .f32⟩ : BufTy).Contents (Elt F) → (⟨S100000x128, .f32⟩ : BufTy).Contents (Elt F)),
    unary main_v130 main_v135 ((extractStridedSlice S100000x128 ![0, 128] · slices_S100000x384_S100000x128_0_128) : (⟨S100000x384, .f32⟩ : BufTy).Contents (Elt F) → (⟨S100000x128, .f32⟩ : BufTy).Contents (Elt F)),
    unary main_v130 main_v136 ((extractStridedSlice S100000x128 ![0, 256] · slices_S100000x384_S100000x128_0_256) : (⟨S100000x384, .f32⟩ : BufTy).Contents (Elt F) → (⟨S100000x128, .f32⟩ : BufTy).Contents (Elt F)),
    binary main_v131 main_v134 main_v137 (addf : (⟨S100000x128, .f32⟩ : BufTy).Contents (Elt F) → (⟨S100000x128, .f32⟩ : BufTy).Contents (Elt F) → (⟨S100000x128, .f32⟩ : BufTy).Contents (Elt F)),
    unary main_v137 main_v138 (Host.negf : (⟨S100000x128, .f32⟩ : BufTy).Contents (Elt F) → (⟨S100000x128, .f32⟩ : BufTy).Contents (Elt F)),
    unary main_v138 main_v139 (Host.exp : (⟨S100000x128, .f32⟩ : BufTy).Contents (Elt F) → (⟨S100000x128, .f32⟩ : BufTy).Contents (Elt F)),
    nullary main_cst_17 (constant S_ .f32 0x3F800000#32),
    unary main_cst_17 main_v140 (broadcastInDim S100000x128 ![] bcast_S_S100000x128 : (⟨S_, .f32⟩ : BufTy).Contents (Elt F) → (⟨S100000x128, .f32⟩ : BufTy).Contents (Elt F)),
    binary main_v140 main_v139 main_v141 (addf : (⟨S100000x128, .f32⟩ : BufTy).Contents (Elt F) → (⟨S100000x128, .f32⟩ : BufTy).Contents (Elt F) → (⟨S100000x128, .f32⟩ : BufTy).Contents (Elt F)),
    nullary main_cst_18 (constant S_ .f32 0x3F800000#32),
    unary main_cst_18 main_v142 (broadcastInDim S100000x128 ![] bcast_S_S100000x128 : (⟨S_, .f32⟩ : BufTy).Contents (Elt F) → (⟨S100000x128, .f32⟩ : BufTy).Contents (Elt F)),
    binary main_v142 main_v141 main_v143 (Host.divf : (⟨S100000x128, .f32⟩ : BufTy).Contents (Elt F) → (⟨S100000x128, .f32⟩ : BufTy).Contents (Elt F) → (⟨S100000x128, .f32⟩ : BufTy).Contents (Elt F)),
    binary main_v132 main_v135 main_v144 (addf : (⟨S100000x128, .f32⟩ : BufTy).Contents (Elt F) → (⟨S100000x128, .f32⟩ : BufTy).Contents (Elt F) → (⟨S100000x128, .f32⟩ : BufTy).Contents (Elt F)),
    unary main_v144 main_v145 (Host.negf : (⟨S100000x128, .f32⟩ : BufTy).Contents (Elt F) → (⟨S100000x128, .f32⟩ : BufTy).Contents (Elt F)),
    unary main_v145 main_v146 (Host.exp : (⟨S100000x128, .f32⟩ : BufTy).Contents (Elt F) → (⟨S100000x128, .f32⟩ : BufTy).Contents (Elt F)),
    nullary main_cst_19 (constant S_ .f32 0x3F800000#32),
    unary main_cst_19 main_v147 (broadcastInDim S100000x128 ![] bcast_S_S100000x128 : (⟨S_, .f32⟩ : BufTy).Contents (Elt F) → (⟨S100000x128, .f32⟩ : BufTy).Contents (Elt F)),
    binary main_v147 main_v146 main_v148 (addf : (⟨S100000x128, .f32⟩ : BufTy).Contents (Elt F) → (⟨S100000x128, .f32⟩ : BufTy).Contents (Elt F) → (⟨S100000x128, .f32⟩ : BufTy).Contents (Elt F)),
    nullary main_cst_20 (constant S_ .f32 0x3F800000#32),
    unary main_cst_20 main_v149 (broadcastInDim S100000x128 ![] bcast_S_S100000x128 : (⟨S_, .f32⟩ : BufTy).Contents (Elt F) → (⟨S100000x128, .f32⟩ : BufTy).Contents (Elt F)),
    binary main_v149 main_v148 main_v150 (Host.divf : (⟨S100000x128, .f32⟩ : BufTy).Contents (Elt F) → (⟨S100000x128, .f32⟩ : BufTy).Contents (Elt F) → (⟨S100000x128, .f32⟩ : BufTy).Contents (Elt F)),
    binary main_v143 main_v136 main_v151 (mulf : (⟨S100000x128, .f32⟩ : BufTy).Contents (Elt F) → (⟨S100000x128, .f32⟩ : BufTy).Contents (Elt F) → (⟨S100000x128, .f32⟩ : BufTy).Contents (Elt F)),
    binary main_v133 main_v151 main_v152 (addf : (⟨S100000x128, .f32⟩ : BufTy).Contents (Elt F) → (⟨S100000x128, .f32⟩ : BufTy).Contents (Elt F) → (⟨S100000x128, .f32⟩ : BufTy).Contents (Elt F)),
    unary main_v152 main_v153 (Host.tanh : (⟨S100000x128, .f32⟩ : BufTy).Contents (Elt F) → (⟨S100000x128, .f32⟩ : BufTy).Contents (Elt F)),
    nullary main_cst_21 (constant S_ .f32 0x3F800000#32),
    unary main_cst_21 main_v154 (broadcastInDim S100000x128 ![] bcast_S_S100000x128 : (⟨S_, .f32⟩ : BufTy).Contents (Elt F) → (⟨S100000x128, .f32⟩ : BufTy).Contents (Elt F)),
    binary main_v154 main_v150 main_v155 (subf : (⟨S100000x128, .f32⟩ : BufTy).Contents (Elt F) → (⟨S100000x128, .f32⟩ : BufTy).Contents (Elt F) → (⟨S100000x128, .f32⟩ : BufTy).Contents (Elt F)),
    binary main_v155 main_v153 main_v156 (mulf : (⟨S100000x128, .f32⟩ : BufTy).Contents (Elt F) → (⟨S100000x128, .f32⟩ : BufTy).Contents (Elt F) → (⟨S100000x128, .f32⟩ : BufTy).Contents (Elt F)),
    binary main_v150 main_v105 main_v157 (mulf : (⟨S100000x128, .f32⟩ : BufTy).Contents (Elt F) → (⟨S100000x128, .f32⟩ : BufTy).Contents (Elt F) → (⟨S100000x128, .f32⟩ : BufTy).Contents (Elt F)),
    binary main_v156 main_v157 main_v158 (addf : (⟨S100000x128, .f32⟩ : BufTy).Contents (Elt F) → (⟨S100000x128, .f32⟩ : BufTy).Contents (Elt F) → (⟨S100000x128, .f32⟩ : BufTy).Contents (Elt F)) ]

/-- The buffers the stretch writes, one per operation, in order. -/
def wr3 : List (Ref sig .tc) :=
  [main_v106, main_v107, main_v108, main_v109, main_v110, main_c_14, main_v111, main_v112, main_c_15, main_v113, main_v114, main_v115, main_v116, main_v117, main_cst_16, main_v118, main_v119, main_v120, main_v121, main_v122, main_v123, main_v124, main_v125, main_v126, main_v127, main_v128, main_v129, main_v130, main_v131, main_v132, main_v133, main_v134, main_v135, main_v136, main_v137, main_v138, main_v139, main_cst_17, main_v140, main_v141, main_cst_18, main_v142, main_v143, main_v144, main_v145, main_v146, main_cst_19, main_v147, main_v148, main_cst_20, main_v149, main_v150, main_v151, main_v152, main_v153, main_cst_21, main_v154, main_v155, main_v156, main_v157, main_v158]

set_option maxRecDepth 8192 in
/-- Every operation of the stretch writes only a buffer of that list. -/
theorem seg3_writes :
    (seg3 (F := F)).Forall fun op => op.writes ⊆ (wr3.map (Proc.devRef (τ := τ) .tc)).toFinset := by
  unfold seg3 wr3
  simp only [List.Forall, nullary_writes, unary_writes, binary_writes, ternary_writes, Finset.singleton_subset_iff,
    List.mem_toFinset]
  repeat' apply And.intro
  all_goals exact List.mem_map_of_mem (f := Proc.devRef (τ := τ) .tc) (by decide)

/-- A buffer the stretch does not write keeps its contents. -/
theorem frame3 (V : Valuation τ sig (Elt F)) {r : Ref sig .tc} (hr : r ∉ wr3) :
    after seg3 V (Proc.devRef .tc r) = V (Proc.devRef .tc r) :=
  after_of_writes_sub seg3 V seg3_writes hr

set_option maxRecDepth 8192 in
/-- WHAT THE SEGMENT COMPUTES, from any contents `V`: the node states it leaves are one step applied to the second step's result (the graph lists and the weights read at
    the argument buffers).  The segment's operations are the reference's first step's with other buffer names, so after
    each operation's result is replaced by its function's value the two sides are the same term. -/
theorem st3 (V : Valuation τ sig (Elt F)) :
    after seg3 V (Proc.devRef .tc main_v158)
      = Read.val_main_v52 (F := F) (V (Proc.devRef .tc main_v105)) (V (Proc.devRef .tc main_arg1)) (V (Proc.devRef .tc main_arg2)) (V (Proc.devRef .tc main_arg7)) (V (Proc.devRef .tc main_arg8)) (V (Proc.devRef .tc main_arg9)) (V (Proc.devRef .tc main_arg10)) (V (Proc.devRef .tc main_arg11)) (V (Proc.devRef .tc main_arg12)) := by
  unfold seg3
  after_results_simp
  all_goals rfl

end Cert.RefRun

end
-- ==== Proof.RefRun4.lean ====
/-
  The reference program's operations 184 to 219: the scorer on the positive pairs.

  The program is a list of operations, each writing one buffer from the contents of earlier ones; running a list from
  given buffer contents `V` rewrites the buffers it writes and leaves the rest.  This module isolates one stretch of
  the list and states, for ARBITRARY contents `V` before it, (1) that a buffer the stretch does not write keeps its
  contents (`frame4`), and (2) what the stretch leaves at its last buffer as a function of what `V` holds at
  the buffers it reads (`st4`).  Because `V` is arbitrary, a later stretch can be run from "the contents after
  the earlier stretches" without ever expanding what those contents are.
-/
import proofs.«108194_j40132174414161_2_alg».proof.Proof.ReadP

noncomputable section

namespace Cert.RefRun

open Cert.ReferenceIdeal Cert.ReferenceIdeal.Gen Idealize.ShloMosaic Idealize.ShloMosaic.TcCoe Idealize.SL.Sem Idealize.ShloMosaic.StableHlo

variable {F : FTy → Type} [FloatOps F]

/-- The stretch's operations, in program order. -/
def seg4 : List (HloOp τ sig (Elt F)) :=
  [ nullary main_c_22 (constantI S_ 32 0#32),
    unary main_c_22 main_v159 (broadcastInDim S200000 ![] bcast_S_S200000 : (⟨S_, .i32⟩ : BufTy).Contents (Elt F) → (⟨S200000, .i32⟩ : BufTy).Contents (Elt F)),
    binary main_arg3 main_v159 main_v160 (cmpi .slt : (⟨S200000, .i32⟩ : BufTy).Contents (Elt F) → (⟨S200000, .i32⟩ : BufTy).Contents (Elt F) → (⟨S200000, .i1⟩ : BufTy).Contents (Elt F)),
    nullary main_c_23 (constantI S_ 32 100000#32),
    unary main_c_23 main_v161 (broadcastInDim S200000 ![] bcast_S_S200000 : (⟨S_, .i32⟩ : BufTy).Contents (Elt F) → (⟨S200000, .i32⟩ : BufTy).Contents (Elt F)),
    binary main_arg3 main_v161 main_v162 (addi : (⟨S200000, .i32⟩ : BufTy).Contents (Elt F) → (⟨S200000, .i32⟩ : BufTy).Contents (Elt F) → (⟨S200000, .i32⟩ : BufTy).Contents (Elt F)),
    ternary main_v160 main_v162 main_arg3 main_v163 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)),
    unary main_v163 main_v164 (broadcastInDim S200000x1 ![0] bcast_S200000_S200000x1_0 : (⟨S200000, .i32⟩ : BufTy).Contents (Elt F) → (⟨S200000x1, .i32⟩ : BufTy).Contents (Elt F)),
    binary main_v158 main_v164 main_v165 ((fun x i => Host.gather gather_S100000x128_S200000x1_S200000x128_1_0_n_n_0_1_1128 x i) : (⟨S100000x128, .f32⟩ : BufTy).Contents (Elt F) → (⟨S200000x1, .i32⟩ : BufTy).Contents (Elt F) → (⟨S200000x128, .f32⟩ : BufTy).Contents (Elt F)),
    nullary main_c_24 (constantI S_ 32 0#32),
    unary main_c_24 main_v166 (broadcastInDim S200000 ![] bcast_S_S200000 : (⟨S_, .i32⟩ : BufTy).Contents (Elt F) → (⟨S200000, .i32⟩ : BufTy).Contents (Elt F)),
    binary main_arg4 main_v166 main_v167 (cmpi .slt : (⟨S200000, .i32⟩ : BufTy).Contents (Elt F) → (⟨S200000, .i32⟩ : BufTy).Contents (Elt F) → (⟨S200000, .i1⟩ : BufTy).Contents (Elt F)),
    nullary main_c_25 (constantI S_ 32 100000#32),
    unary main_c_25 main_v168 (broadcastInDim S200000 ![] bcast_S_S200000 : (⟨S_, .i32⟩ : BufTy).Contents (Elt F) → (⟨S200000, .i32⟩ : BufTy).Contents (Elt F)),
    binary main_arg4 main_v168 main_v169 (addi : (⟨S200000, .i32⟩ : BufTy).Contents (Elt F) → (⟨S200000, .i32⟩ : BufTy).Contents (Elt F) → (⟨S200000, .i32⟩ : BufTy).Contents (Elt F)),
    ternary main_v167 main_v169 main_arg4 main_v170 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)),
    unary main_v170 main_v171 (broadcastInDim S200000x1 ![0] bcast_S200000_S200000x1_0 : (⟨S200000, .i32⟩ : BufTy).Contents (Elt F) → (⟨S200000x1, .i32⟩ : BufTy).Contents (Elt F)),
    binary main_v158 main_v171 main_v172 ((fun x i => Host.gather gather_S100000x128_S200000x1_S200000x128_1_0_n_n_0_1_1128 x i) : (⟨S100000x128, .f32⟩ : BufTy).Contents (Elt F) → (⟨S200000x1, .i32⟩ : BufTy).Contents (Elt F) → (⟨S200000x128, .f32⟩ : BufTy).Contents (Elt F)),
    binary main_v165 main_v172 main_v173 (mulf : (⟨S200000x128, .f32⟩ : BufTy).Contents (Elt F) → (⟨S200000x128, .f32⟩ : BufTy).Contents (Elt F) → (⟨S200000x128, .f32⟩ : BufTy).Contents (Elt F)),
    unary main_arg13 main_v174 ((transpose S128x64 [1, 0] · transposes_S64x128_S128x64_1_0) : (⟨S64x128, .f32⟩ : BufTy).Contents (Elt F) → (⟨S128x64, .f32⟩ : BufTy).Contents (Elt F)),
    binary main_v173 main_v174 main_v175 ((fun l r => Host.dotGeneral dot_S200000x128_S128x64_S200000x64_1_0_0_1_n_n none l r) : (⟨S200000x128, .f32⟩ : BufTy).Contents (Elt F) → (⟨S128x64, .f32⟩ : BufTy).Contents (Elt F) → (⟨S200000x64, .f32⟩ : BufTy).Contents (Elt F)),
    unary main_arg14 main_v176 (broadcastInDim S1x64 ![1] bcast_S64_S1x64_1 : (⟨S64, .f32⟩ : BufTy).Contents (Elt F) → (⟨S1x64, .f32⟩ : BufTy).Contents (Elt F)),
    unary main_v176 main_v177 (broadcastInDim S200000x64 ![0, 1] bcast_S1x64_S200000x64_0_1 : (⟨S1x64, .f32⟩ : BufTy).Contents (Elt F) → (⟨S200000x64, .f32⟩ : BufTy).Contents (Elt F)),
    binary main_v175 main_v177 main_v178 (addf : (⟨S200000x64, .f32⟩ : BufTy).Contents (Elt F) → (⟨S200000x64, .f32⟩ : BufTy).Contents (Elt F) → (⟨S200000x64, .f32⟩ : BufTy).Contents (Elt F)),
    nullary main_cst_26 (constant S_ .f32 0x00000000#32),
    unary main_cst_26 main_v179 (broadcastInDim S200000x64 ![] bcast_S_S200000x64 : (⟨S_, .f32⟩ : BufTy).Contents (Elt F) → (⟨S200000x64, .f32⟩ : BufTy).Contents (Elt F)),
    binary main_v178 main_v179 main_v180 (cmpf .oge : (⟨S200000x64, .f32⟩ : BufTy).Contents (Elt F) → (⟨S200000x64, .f32⟩ : BufTy).Contents (Elt F) → (⟨S200000x64, .i1⟩ : BufTy).Contents (Elt F)),
    nullary main_cst_27 (constant S_ .f32 0x3E4CCCCD#32),
    unary main_cst_27 main_v181 (broadcastInDim S200000x64 ![] bcast_S_S200000x64 : (⟨S_, .f32⟩ : BufTy).Contents (Elt F) → (⟨S200000x64, .f32⟩ : BufTy).Contents (Elt F)),
    binary main_v181 main_v178 main_v182 (mulf : (⟨S200000x64, .f32⟩ : BufTy).Contents (Elt F) → (⟨S200000x64, .f32⟩ : BufTy).Contents (Elt F) → (⟨S200000x64, .f32⟩ : BufTy).Contents (Elt F)),
    TRef.ternary (TRef.of (T := ⟨S200000x64, .i1⟩) main_v180) (TRef.of (T := ⟨S200000x64, .f32⟩) main_v178) (TRef.of (T := ⟨S200000x64, .f32⟩) main_v182) (TRef.of (T := ⟨S200000x64, .f32⟩) main_v183) select,
    unary main_arg15 main_v184 ((transpose S64x1 [1, 0] · transposes_S1x64_S64x1_1_0) : (⟨S1x64, .f32⟩ : BufTy).Contents (Elt F) → (⟨S64x1, .f32⟩ : BufTy).Contents (Elt F)),
    binary main_v183 main_v184 main_v185 ((fun l r => Host.dotGeneral dot_S200000x64_S64x1_S200000x1_1_0_0_1_n_n none l r) : (⟨S200000x64, .f32⟩ : BufTy).Contents (Elt F) → (⟨S64x1, .f32⟩ : BufTy).Contents (Elt F) → (⟨S200000x1, .f32⟩ : BufTy).Contents (Elt F)),
    unary main_arg16 main_v186 (broadcastInDim S1x1 ![1] bcast_S1_S1x1_1 : (⟨S1, .f32⟩ : BufTy).Contents (Elt F) → (⟨S1x1, .f32⟩ : BufTy).Contents (Elt F)),
    unary main_v186 main_v187 (broadcastInDim S200000x1 ![0, 1] bcast_S1x1_S200000x1_0_1 : (⟨S1x1, .f32⟩ : BufTy).Contents (Elt F) → (⟨S200000x1, .f32⟩ : BufTy).Contents (Elt F)),
    binary main_v185 main_v187 main_v188 (addf : (⟨S200000x1, .f32⟩ : BufTy).Contents (Elt F) → (⟨S200000x1, .f32⟩ : BufTy).Contents (Elt F) → (⟨S200000x1, .f32⟩ : BufTy).Contents (Elt F)) ]

/-- The buffers the stretch writes, one per operation, in order. -/
def wr4 : List (Ref sig .tc) :=
  [main_c_22, main_v159, main_v160, main_c_23, main_v161, main_v162, main_v163, main_v164, main_v165, main_c_24, main_v166, main_v167, main_c_25, main_v168, main_v169, main_v170, main_v171, main_v172, main_v173, main_v174, main_v175, main_v176, main_v177, main_v178, main_cst_26, main_v179, main_v180, main_cst_27, main_v181, main_v182, main_v183, main_v184, main_v185, main_v186, main_v187, main_v188]

set_option maxRecDepth 8192 in
/-- Every operation of the stretch writes only a buffer of that list. -/
theorem seg4_writes :
    (seg4 (F := F)).Forall fun op => op.writes ⊆ (wr4.map (Proc.devRef (τ := τ) .tc)).toFinset := by
  unfold seg4 wr4
  simp only [List.Forall, nullary_writes, unary_writes, binary_writes, ternary_writes, Finset.singleton_subset_iff,
    List.mem_toFinset]
  repeat' apply And.intro
  all_goals exact List.mem_map_of_mem (f := Proc.devRef (τ := τ) .tc) (by decide)

/-- A buffer the stretch does not write keeps its contents. -/
theorem frame4 (V : Valuation τ sig (Elt F)) {r : Ref sig .tc} (hr : r ∉ wr4) :
    after seg4 V (Proc.devRef .tc r) = V (Proc.devRef .tc r) :=
  after_of_writes_sub seg4 V seg4_writes hr

set_option maxRecDepth 8192 in
/-- WHAT THE SEGMENT COMPUTES, from any contents `V` that hold the third step's node states at their buffer:
    the score column it leaves is the reference's positive score, once the node states it reads are the third step's (the pair lists and the scorer's weights read at the argument buffers).  The node states stay
    the one folded value throughout: the hypothesis is rewritten in, never opened. -/
theorem st4 (V : Valuation τ sig (Elt F)) (x0 : (⟨S100000x128, .f32⟩ : BufTy).Contents (Elt F)) (x1 x2 : (⟨S1600000, .i32⟩ : BufTy).Contents (Elt F)) (x7 : (⟨S128x128, .f32⟩ : BufTy).Contents (Elt F)) (x8 : (⟨S128, .f32⟩ : BufTy).Contents (Elt F)) (x9 : (⟨S384x128, .f32⟩ : BufTy).Contents (Elt F)) (x10 : (⟨S384, .f32⟩ : BufTy).Contents (Elt F)) (x11 : (⟨S384x128, .f32⟩ : BufTy).Contents (Elt F)) (x12 : (⟨S384, .f32⟩ : BufTy).Contents (Elt F))
    (h158 : V (Proc.devRef .tc main_v158) = Read.val_main_v158 (F := F) x0 x1 x2 x7 x8 x9 x10 x11 x12) :
    after seg4 V (Proc.devRef .tc main_v188)
      = Read.val_main_v188 (F := F) x0 x1 x2 (V (Proc.devRef .tc main_arg3)) (V (Proc.devRef .tc main_arg4)) x7 x8 x9 x10 x11 x12 (V (Proc.devRef .tc main_arg13)) (V (Proc.devRef .tc main_arg14)) (V (Proc.devRef .tc main_arg15)) (V (Proc.devRef .tc main_arg16)) := by
  unfold seg4
  after_results_simp
  rw [h158]
  rfl

end Cert.RefRun

end
-- ==== Proof.RefRun5.lean ====
/-
  The reference program's operations 220 to 255: the scorer on the negative pairs.

  The program is a list of operations, each writing one buffer from the contents of earlier ones; running a list from
  given buffer contents `V` rewrites the buffers it writes and leaves the rest.  This module isolates one stretch of
  the list and states, for ARBITRARY contents `V` before it, (1) that a buffer the stretch does not write keeps its
  contents (`frame5`), and (2) what the stretch leaves at its last buffer as a function of what `V` holds at
  the buffers it reads (`st5`).  Because `V` is arbitrary, a later stretch can be run from "the contents after
  the earlier stretches" without ever expanding what those contents are.
-/
import proofs.«108194_j40132174414161_2_alg».proof.Proof.ReadP

noncomputable section

namespace Cert.RefRun

open Cert.ReferenceIdeal Cert.ReferenceIdeal.Gen Idealize.ShloMosaic Idealize.ShloMosaic.TcCoe Idealize.SL.Sem Idealize.ShloMosaic.StableHlo

variable {F : FTy → Type} [FloatOps F]

/-- The stretch's operations, in program order. -/
def seg5 : List (HloOp τ sig (Elt F)) :=
  [ nullary main_c_28 (constantI S_ 32 0#32),
    unary main_c_28 main_v189 (broadcastInDim S200000 ![] bcast_S_S200000 : (⟨S_, .i32⟩ : BufTy).Contents (Elt F) → (⟨S200000, .i32⟩ : BufTy).Contents (Elt F)),
    binary main_arg5 main_v189 main_v190 (cmpi .slt : (⟨S200000, .i32⟩ : BufTy).Contents (Elt F) → (⟨S200000, .i32⟩ : BufTy).Contents (Elt F) → (⟨S200000, .i1⟩ : BufTy).Contents (Elt F)),
    nullary main_c_29 (constantI S_ 32 100000#32),
    unary main_c_29 main_v191 (broadcastInDim S200000 ![] bcast_S_S200000 : (⟨S_, .i32⟩ : BufTy).Contents (Elt F) → (⟨S200000, .i32⟩ : BufTy).Contents (Elt F)),
    binary main_arg5 main_v191 main_v192 (addi : (⟨S200000, .i32⟩ : BufTy).Contents (Elt F) → (⟨S200000, .i32⟩ : BufTy).Contents (Elt F) → (⟨S200000, .i32⟩ : BufTy).Contents (Elt F)),
    ternary main_v190 main_v192 main_arg5 main_v193 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)),
    unary main_v193 main_v194 (broadcastInDim S200000x1 ![0] bcast_S200000_S200000x1_0 : (⟨S200000, .i32⟩ : BufTy).Contents (Elt F) → (⟨S200000x1, .i32⟩ : BufTy).Contents (Elt F)),
    binary main_v158 main_v194 main_v195 ((fun x i => Host.gather gather_S100000x128_S200000x1_S200000x128_1_0_n_n_0_1_1128 x i) : (⟨S100000x128, .f32⟩ : BufTy).Contents (Elt F) → (⟨S200000x1, .i32⟩ : BufTy).Contents (Elt F) → (⟨S200000x128, .f32⟩ : BufTy).Contents (Elt F)),
    nullary main_c_30 (constantI S_ 32 0#32),
    unary main_c_30 main_v196 (broadcastInDim S200000 ![] bcast_S_S200000 : (⟨S_, .i32⟩ : BufTy).Contents (Elt F) → (⟨S200000, .i32⟩ : BufTy).Contents (Elt F)),
    binary main_arg6 main_v196 main_v197 (cmpi .slt : (⟨S200000, .i32⟩ : BufTy).Contents (Elt F) → (⟨S200000, .i32⟩ : BufTy).Contents (Elt F) → (⟨S200000, .i1⟩ : BufTy).Contents (Elt F)),
    nullary main_c_31 (constantI S_ 32 100000#32),
    unary main_c_31 main_v198 (broadcastInDim S200000 ![] bcast_S_S200000 : (⟨S_, .i32⟩ : BufTy).Contents (Elt F) → (⟨S200000, .i32⟩ : BufTy).Contents (Elt F)),
    binary main_arg6 main_v198 main_v199 (addi : (⟨S200000, .i32⟩ : BufTy).Contents (Elt F) → (⟨S200000, .i32⟩ : BufTy).Contents (Elt F) → (⟨S200000, .i32⟩ : BufTy).Contents (Elt F)),
    ternary main_v197 main_v199 main_arg6 main_v200 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)),
    unary main_v200 main_v201 (broadcastInDim S200000x1 ![0] bcast_S200000_S200000x1_0 : (⟨S200000, .i32⟩ : BufTy).Contents (Elt F) → (⟨S200000x1, .i32⟩ : BufTy).Contents (Elt F)),
    binary main_v158 main_v201 main_v202 ((fun x i => Host.gather gather_S100000x128_S200000x1_S200000x128_1_0_n_n_0_1_1128 x i) : (⟨S100000x128, .f32⟩ : BufTy).Contents (Elt F) → (⟨S200000x1, .i32⟩ : BufTy).Contents (Elt F) → (⟨S200000x128, .f32⟩ : BufTy).Contents (Elt F)),
    binary main_v195 main_v202 main_v203 (mulf : (⟨S200000x128, .f32⟩ : BufTy).Contents (Elt F) → (⟨S200000x128, .f32⟩ : BufTy).Contents (Elt F) → (⟨S200000x128, .f32⟩ : BufTy).Contents (Elt F)),
    unary main_arg13 main_v204 ((transpose S128x64 [1, 0] · transposes_S64x128_S128x64_1_0) : (⟨S64x128, .f32⟩ : BufTy).Contents (Elt F) → (⟨S128x64, .f32⟩ : BufTy).Contents (Elt F)),
    binary main_v203 main_v204 main_v205 ((fun l r => Host.dotGeneral dot_S200000x128_S128x64_S200000x64_1_0_0_1_n_n none l r) : (⟨S200000x128, .f32⟩ : BufTy).Contents (Elt F) → (⟨S128x64, .f32⟩ : BufTy).Contents (Elt F) → (⟨S200000x64, .f32⟩ : BufTy).Contents (Elt F)),
    unary main_arg14 main_v206 (broadcastInDim S1x64 ![1] bcast_S64_S1x64_1 : (⟨S64, .f32⟩ : BufTy).Contents (Elt F) → (⟨S1x64, .f32⟩ : BufTy).Contents (Elt F)),
    unary main_v206 main_v207 (broadcastInDim S200000x64 ![0, 1] bcast_S1x64_S200000x64_0_1 : (⟨S1x64, .f32⟩ : BufTy).Contents (Elt F) → (⟨S200000x64, .f32⟩ : BufTy).Contents (Elt F)),
    binary main_v205 main_v207 main_v208 (addf : (⟨S200000x64, .f32⟩ : BufTy).Contents (Elt F) → (⟨S200000x64, .f32⟩ : BufTy).Contents (Elt F) → (⟨S200000x64, .f32⟩ : BufTy).Contents (Elt F)),
    nullary main_cst_32 (constant S_ .f32 0x00000000#32),
    unary main_cst_32 main_v209 (broadcastInDim S200000x64 ![] bcast_S_S200000x64 : (⟨S_, .f32⟩ : BufTy).Contents (Elt F) → (⟨S200000x64, .f32⟩ : BufTy).Contents (Elt F)),
    binary main_v208 main_v209 main_v210 (cmpf .oge : (⟨S200000x64, .f32⟩ : BufTy).Contents (Elt F) → (⟨S200000x64, .f32⟩ : BufTy).Contents (Elt F) → (⟨S200000x64, .i1⟩ : BufTy).Contents (Elt F)),
    nullary main_cst_33 (constant S_ .f32 0x3E4CCCCD#32),
    unary main_cst_33 main_v211 (broadcastInDim S200000x64 ![] bcast_S_S200000x64 : (⟨S_, .f32⟩ : BufTy).Contents (Elt F) → (⟨S200000x64, .f32⟩ : BufTy).Contents (Elt F)),
    binary main_v211 main_v208 main_v212 (mulf : (⟨S200000x64, .f32⟩ : BufTy).Contents (Elt F) → (⟨S200000x64, .f32⟩ : BufTy).Contents (Elt F) → (⟨S200000x64, .f32⟩ : BufTy).Contents (Elt F)),
    TRef.ternary (TRef.of (T := ⟨S200000x64, .i1⟩) main_v210) (TRef.of (T := ⟨S200000x64, .f32⟩) main_v208) (TRef.of (T := ⟨S200000x64, .f32⟩) main_v212) (TRef.of (T := ⟨S200000x64, .f32⟩) main_v213) select,
    unary main_arg15 main_v214 ((transpose S64x1 [1, 0] · transposes_S1x64_S64x1_1_0) : (⟨S1x64, .f32⟩ : BufTy).Contents (Elt F) → (⟨S64x1, .f32⟩ : BufTy).Contents (Elt F)),
    binary main_v213 main_v214 main_v215 ((fun l r => Host.dotGeneral dot_S200000x64_S64x1_S200000x1_1_0_0_1_n_n none l r) : (⟨S200000x64, .f32⟩ : BufTy).Contents (Elt F) → (⟨S64x1, .f32⟩ : BufTy).Contents (Elt F) → (⟨S200000x1, .f32⟩ : BufTy).Contents (Elt F)),
    unary main_arg16 main_v216 (broadcastInDim S1x1 ![1] bcast_S1_S1x1_1 : (⟨S1, .f32⟩ : BufTy).Contents (Elt F) → (⟨S1x1, .f32⟩ : BufTy).Contents (Elt F)),
    unary main_v216 main_v217 (broadcastInDim S200000x1 ![0, 1] bcast_S1x1_S200000x1_0_1 : (⟨S1x1, .f32⟩ : BufTy).Contents (Elt F) → (⟨S200000x1, .f32⟩ : BufTy).Contents (Elt F)),
    binary main_v215 main_v217 main_v218 (addf : (⟨S200000x1, .f32⟩ : BufTy).Contents (Elt F) → (⟨S200000x1, .f32⟩ : BufTy).Contents (Elt F) → (⟨S200000x1, .f32⟩ : BufTy).Contents (Elt F)) ]

/-- The buffers the stretch writes, one per operation, in order. -/
def wr5 : List (Ref sig .tc) :=
  [main_c_28, main_v189, main_v190, main_c_29, main_v191, main_v192, main_v193, main_v194, main_v195, main_c_30, main_v196, main_v197, main_c_31, main_v198, main_v199, main_v200, main_v201, main_v202, main_v203, main_v204, main_v205, main_v206, main_v207, main_v208, main_cst_32, main_v209, main_v210, main_cst_33, main_v211, main_v212, main_v213, main_v214, main_v215, main_v216, main_v217, main_v218]

set_option maxRecDepth 8192 in
/-- Every operation of the stretch writes only a buffer of that list. -/
theorem seg5_writes :
    (seg5 (F := F)).Forall fun op => op.writes ⊆ (wr5.map (Proc.devRef (τ := τ) .tc)).toFinset := by
  unfold seg5 wr5
  simp only [List.Forall, nullary_writes, unary_writes, binary_writes, ternary_writes, Finset.singleton_subset_iff,
    List.mem_toFinset]
  repeat' apply And.intro
  all_goals exact List.mem_map_of_mem (f := Proc.devRef (τ := τ) .tc) (by decide)

/-- A buffer the stretch does not write keeps its contents. -/
theorem frame5 (V : Valuation τ sig (Elt F)) {r : Ref sig .tc} (hr : r ∉ wr5) :
    after seg5 V (Proc.devRef .tc r) = V (Proc.devRef .tc r) :=
  after_of_writes_sub seg5 V seg5_writes hr

set_option maxRecDepth 8192 in
/-- WHAT THE SEGMENT COMPUTES, from any contents `V` that hold the third step's node states at their buffer:
    the score column it leaves is the reference's negative score, once the node states it reads are the third step's (the pair lists and the scorer's weights read at the argument buffers).  The node states stay
    the one folded value throughout: the hypothesis is rewritten in, never opened. -/
theorem st5 (V : Valuation τ sig (Elt F)) (x0 : (⟨S100000x128, .f32⟩ : BufTy).Contents (Elt F)) (x1 x2 : (⟨S1600000, .i32⟩ : BufTy).Contents (Elt F)) (x7 : (⟨S128x128, .f32⟩ : BufTy).Contents (Elt F)) (x8 : (⟨S128, .f32⟩ : BufTy).Contents (Elt F)) (x9 : (⟨S384x128, .f32⟩ : BufTy).Contents (Elt F)) (x10 : (⟨S384, .f32⟩ : BufTy).Contents (Elt F)) (x11 : (⟨S384x128, .f32⟩ : BufTy).Contents (Elt F)) (x12 : (⟨S384, .f32⟩ : BufTy).Contents (Elt F))
    (h158 : V (Proc.devRef .tc main_v158) = Read.val_main_v158 (F := F) x0 x1 x2 x7 x8 x9 x10 x11 x12) :
    after seg5 V (Proc.devRef .tc main_v218)
      = Read.val_main_v218 (F := F) x0 x1 x2 (V (Proc.devRef .tc main_arg5)) (V (Proc.devRef .tc main_arg6)) x7 x8 x9 x10 x11 x12 (V (Proc.devRef .tc main_arg13)) (V (Proc.devRef .tc main_arg14)) (V (Proc.devRef .tc main_arg15)) (V (Proc.devRef .tc main_arg16)) := by
  unfold seg5
  after_results_simp
  rw [h158]
  rfl

end Cert.RefRun

end
-- ==== Proof.RefRun.lean ====
/-
  The reference program's three results as functions of its arguments.

  The program is a list of 255 operations; what it returns is what running the whole list from the launch contents
  leaves at three buffers.  Expanding that in one go repeats each step's node states wherever the next step reads
  them, and the term grows without bound; so the list is cut into five stretches — three message-passing steps and
  two scorers (`ops_eq`) — and run one stretch at a time (`after_append'`).  Each stretch has been described for
  arbitrary contents before it: what it leaves at its last buffer (`st1` … `st5`) and that it leaves every other
  buffer alone (`frame1` … `frame5`).  Chaining these by rewriting, with the contents after the earlier stretches
  never expanded, gives: three applications of one step to the node states (`three_steps`), which is the reference's
  third-step value (`final_states`, `res158_eq`); and the two score columns as the reference's score values of the
  arguments (`res188_eq`, `res218_eq`), the node states entering them as that one folded value.
-/
import proofs.«108194_j40132174414161_2_alg».proof.Proof.RunP
import proofs.«108194_j40132174414161_2_alg».proof.Proof.ReadP
import proofs.«108194_j40132174414161_2_alg».proof.Proof.RefChain
import proofs.«108194_j40132174414161_2_alg».proof.Proof.RefRun1
import proofs.«108194_j40132174414161_2_alg».proof.Proof.RefRun2
import proofs.«108194_j40132174414161_2_alg».proof.Proof.RefRun3
import proofs.«108194_j40132174414161_2_alg».proof.Proof.RefRun4
import proofs.«108194_j40132174414161_2_alg».proof.Proof.RefRun5

noncomputable section

namespace Cert.RefRun

open Cert.ReferenceIdeal Cert.ReferenceIdeal.Gen Idealize.ShloMosaic Idealize.ShloMosaic.TcCoe Idealize.SL.Sem Idealize.ShloMosaic.StableHlo

variable {F : FTy → Type} [FloatOps F]

/-- Running two stretches in a row is running the second from what the first leaves. -/
theorem after_append' : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_append' l₁ l₂]

set_option maxRecDepth 16384 in
/-- The program's operation list is the five stretches one after the other. -/
theorem ops_eq : (Value.ops : List (HloOp τ sig (Elt F))) = seg1 ++ (seg2 ++ (seg3 ++ (seg4 ++ seg5))) := rfl

/-! ## A buffer no stretch so far writes still holds what it held at the start -/

theorem keep2 (V : Valuation τ sig (Elt F)) {r : Ref sig .tc} (h1 : r ∉ wr1) (h2 : r ∉ wr2) :
    after seg2 (after seg1 V) (Proc.devRef .tc r) = V (Proc.devRef .tc r) := by
  rw [frame2 _ h2, frame1 _ h1]
theorem keep3 (V : Valuation τ sig (Elt F)) {r : Ref sig .tc} (h1 : r ∉ wr1) (h2 : r ∉ wr2) (h3 : r ∉ wr3) :
    after seg3 (after seg2 (after seg1 V)) (Proc.devRef .tc r) = V (Proc.devRef .tc r) := by
  rw [frame3 _ h3, keep2 V h1 h2]
theorem keep4 (V : Valuation τ sig (Elt F)) {r : Ref sig .tc} (h1 : r ∉ wr1) (h2 : r ∉ wr2) (h3 : r ∉ wr3) (h4 : r ∉ wr4) :
    after seg4 (after seg3 (after seg2 (after seg1 V))) (Proc.devRef .tc r) = V (Proc.devRef .tc r) := by
  rw [frame4 _ h4, keep3 V h1 h2 h3]

/-! ## The node states after one, two and three steps, from any starting contents -/

/-- After two stretches: one step applied to the first step's result. -/
theorem two_steps (V : Valuation τ sig (Elt F)) :
    after seg2 (after seg1 V) (Proc.devRef .tc main_v105)
      = Read.val_main_v52 (F := F) (Read.val_main_v52 (F := F) (V (Proc.devRef .tc main_arg0)) (V (Proc.devRef .tc main_arg1)) (V (Proc.devRef .tc main_arg2)) (V (Proc.devRef .tc main_arg7)) (V (Proc.devRef .tc main_arg8)) (V (Proc.devRef .tc main_arg9)) (V (Proc.devRef .tc main_arg10)) (V (Proc.devRef .tc main_arg11)) (V (Proc.devRef .tc main_arg12))) (V (Proc.devRef .tc main_arg1)) (V (Proc.devRef .tc main_arg2)) (V (Proc.devRef .tc main_arg7)) (V (Proc.devRef .tc main_arg8)) (V (Proc.devRef .tc main_arg9)) (V (Proc.devRef .tc main_arg10)) (V (Proc.devRef .tc main_arg11)) (V (Proc.devRef .tc main_arg12)) := by
  rw [st2, st1, frame1 V (r := main_arg1) (by decide), frame1 V (r := main_arg2) (by decide), frame1 V (r := main_arg7) (by decide), frame1 V (r := main_arg8) (by decide), frame1 V (r := main_arg9) (by decide), frame1 V (r := main_arg10) (by decide), frame1 V (r := main_arg11) (by decide), frame1 V (r := main_arg12) (by decide)]

/-- After three stretches: one step applied three times. -/
theorem three_steps (V : Valuation τ sig (Elt F)) :
    after seg3 (after seg2 (after seg1 V)) (Proc.devRef .tc main_v158)
      = Read.val_main_v52 (F := F) (Read.val_main_v52 (F := F) (Read.val_main_v52 (F := F) (V (Proc.devRef .tc main_arg0)) (V (Proc.devRef .tc main_arg1)) (V (Proc.devRef .tc main_arg2)) (V (Proc.devRef .tc main_arg7)) (V (Proc.devRef .tc main_arg8)) (V (Proc.devRef .tc main_arg9)) (V (Proc.devRef .tc main_arg10)) (V (Proc.devRef .tc main_arg11)) (V (Proc.devRef .tc main_arg12))) (V (Proc.devRef .tc main_arg1)) (V (Proc.devRef .tc main_arg2)) (V (Proc.devRef .tc main_arg7)) (V (Proc.devRef .tc main_arg8)) (V (Proc.devRef .tc main_arg9)) (V (Proc.devRef .tc main_arg10)) (V (Proc.devRef .tc main_arg11)) (V (Proc.devRef .tc main_arg12))) (V (Proc.devRef .tc main_arg1)) (V (Proc.devRef .tc main_arg2)) (V (Proc.devRef .tc main_arg7)) (V (Proc.devRef .tc main_arg8)) (V (Proc.devRef .tc main_arg9)) (V (Proc.devRef .tc main_arg10)) (V (Proc.devRef .tc main_arg11)) (V (Proc.devRef .tc main_arg12)) := by
  rw [st3, two_steps, keep2 V (r := main_arg1) (by decide) (by decide), keep2 V (r := main_arg2) (by decide) (by decide), keep2 V (r := main_arg7) (by decide) (by decide), keep2 V (r := main_arg8) (by decide) (by decide), keep2 V (r := main_arg9) (by decide) (by decide), keep2 V (r := main_arg10) (by decide) (by decide), keep2 V (r := main_arg11) (by decide) (by decide), keep2 V (r := main_arg12) (by decide) (by decide)]

/-! ## The three results, over the extended reals, from the launch contents -/

section Results
variable (m : (ℓ : Loc nD τ sig) → Buf (Elt Ideal) ℓ) (c : Dev nD)

/-- The node states after the three steps are the reference's third-step value of the arguments. -/
theorem final_states :
    after seg3 (after seg2 (after seg1 (launchContents m c))) (Proc.devRef .tc main_v158)
      = Read.val_main_v158 (F := Ideal) (m ((c.tc : Thread nD τ).loc main_arg0)) (m ((c.tc : Thread nD τ).loc main_arg1)) (m ((c.tc : Thread nD τ).loc main_arg2)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) := by
  rw [three_steps, Cert.RefChain.v158_eq]

/-- THE FINAL NODE STATES the program returns are the reference's third-step value of the arguments. -/
theorem res158_eq : Value.res_main_v158 m c = Read.val_main_v158 (F := Ideal) (m ((c.tc : Thread nD τ).loc main_arg0)) (m ((c.tc : Thread nD τ).loc main_arg1)) (m ((c.tc : Thread nD τ).loc main_arg2)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) := by
  unfold Value.res_main_v158
  rw [ops_eq, after_append', after_append', after_append', after_append',
    frame5 _ (r := main_v158) (by decide), frame4 _ (r := main_v158) (by decide)]
  exact final_states m c

/-- THE POSITIVE SCORES the program returns are the reference's positive-score value of the arguments. -/
theorem res188_eq : Value.res_main_v188 m c
    = Read.val_main_v188 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) := by
  unfold Value.res_main_v188
  rw [ops_eq, after_append', after_append', after_append', after_append',
    frame5 _ (r := main_v188) (by decide),
    st4 _ (m ((c.tc : Thread nD τ).loc main_arg0)) (m ((c.tc : Thread nD τ).loc main_arg1)) (m ((c.tc : Thread nD τ).loc main_arg2)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (final_states m c),
    keep3 _ (r := main_arg3) (by decide) (by decide) (by decide),
    keep3 _ (r := main_arg4) (by decide) (by decide) (by decide),
    keep3 _ (r := main_arg13) (by decide) (by decide) (by decide),
    keep3 _ (r := main_arg14) (by decide) (by decide) (by decide),
    keep3 _ (r := main_arg15) (by decide) (by decide) (by decide),
    keep3 _ (r := main_arg16) (by decide) (by decide) (by decide)]

/-- THE NEGATIVE SCORES the program returns are the reference's negative-score value of the arguments. -/
theorem res218_eq : Value.res_main_v218 m c
    = Read.val_main_v218 (F := Ideal) (m ((c.tc : Thread nD τ).loc main_arg0)) (m ((c.tc : Thread nD τ).loc main_arg1)) (m ((c.tc : Thread nD τ).loc main_arg2)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) := by
  unfold Value.res_main_v218
  rw [ops_eq, after_append', after_append', after_append', after_append',
    st5 _ (m ((c.tc : Thread nD τ).loc main_arg0)) (m ((c.tc : Thread nD τ).loc main_arg1)) (m ((c.tc : Thread nD τ).loc main_arg2)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) ((frame4 _ (r := main_v158) (by decide)).trans (final_states m c)),
    keep4 _ (r := main_arg5) (by decide) (by decide) (by decide) (by decide),
    keep4 _ (r := main_arg6) (by decide) (by decide) (by decide) (by decide),
    keep4 _ (r := main_arg13) (by decide) (by decide) (by decide) (by decide),
    keep4 _ (r := main_arg14) (by decide) (by decide) (by decide) (by decide),
    keep4 _ (r := main_arg15) (by decide) (by decide) (by decide) (by decide),
    keep4 _ (r := main_arg16) (by decide) (by decide) (by decide) (by decide)]

end Results

end Cert.RefRun

end
-- ==== Proof.KRun.lean ====
/-
  The idealized kernel program's run with its three results NAMED.

  The program is four kernel launches among five stretches of host operations.  Folding the launch memory through
  the nine segments gives the buffer contents at the return (`Gen.W9`); every weakly fair execution terminates
  without a fault in a state whose unscoped buffers hold exactly those contents.  Read at the three result buffers
  (the positive pairs' scores, the negative pairs' scores, the final node states) and at the seventeen arguments,
  this is the run the value claim needs: the results are `W9` at their buffers, the arguments are as launched.
-/
import proofs.«108194_j40132174414161_2_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with each result buffer at the
    contents the fold through the segments gives it and every argument as launched. -/
theorem run_results : θ_run defs (onTc (τ := τ) (main (F := F))) ⟨m, fun _ => 0, ρ⟩ (fun r => ∀ c : Dev nD,
      r.2.mem ((c.tc : Thread nD τ).loc main_v69) = W9 m ρ c (Proc.devRef .tc main_v69)
      ∧ r.2.mem ((c.tc : Thread nD τ).loc main_v70) = W9 m ρ c (Proc.devRef .tc main_v70)
      ∧ r.2.mem ((c.tc : Thread nD τ).loc main_v48) = W9 m ρ c (Proc.devRef .tc main_v48)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v69 (by decide)),
       h c _ (mem_uc main_v70 (by decide)),
       h c _ (mem_uc main_v48 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c),
       (h c _ (mem_uc main_arg7 (by decide))).trans (W9_main_arg7 m ρ c),
       (h c _ (mem_uc main_arg8 (by decide))).trans (W9_main_arg8 m ρ c),
       (h c _ (mem_uc main_arg9 (by decide))).trans (W9_main_arg9 m ρ c),
       (h c _ (mem_uc main_arg10 (by decide))).trans (W9_main_arg10 m ρ c),
       (h c _ (mem_uc main_arg11 (by decide))).trans (W9_main_arg11 m ρ c),
       (h c _ (mem_uc main_arg12 (by decide))).trans (W9_main_arg12 m ρ c),
       (h c _ (mem_uc main_arg13 (by decide))).trans (W9_main_arg13 m ρ c),
       (h c _ (mem_uc main_arg14 (by decide))).trans (W9_main_arg14 m ρ c),
       (h c _ (mem_uc main_arg15 (by decide))).trans (W9_main_arg15 m ρ c),
       (h c _ (mem_uc main_arg16 (by decide))).trans (W9_main_arg16 m ρ c)⟩)

end Cert.KernelIdeal.KRun

end
-- ==== Proof.KKeep.lean ====
/-
  Buffers that persist through the program.

  The transposed weight matrices, the bias rows and the in-degree column are written once, by the first stretch of
  host operations; every later launch of the update kernel reads them again.  No later host operation writes
  them, and a kernel launch leaves the array of an input window as it found it, so their contents at the entry of
  the second and third launch are those at the entry of the first.  The same walk back through the segments
  brings each integer argument, and the scorer's weight arguments, to their launch contents at the point where a
  host operation reads them, and carries each intermediate node-state array unchanged to where it is next read.
-/
import proofs.«108194_j40132174414161_2_alg».proof.Proof.Gen.KernelIdeal.Frame

set_option maxRecDepth 16384

noncomputable section

namespace Cert.KernelIdeal.KKeep

open Cert.KernelIdeal Cert.KernelIdeal.Gen
open Idealize.ShloMosaic Idealize.ShloMosaic.TcCoe Idealize.ShloMosaic.Tactic
open Idealize.SL.Sem
open Idealize.ShloMosaic.Pipeline (Dat Cfg Window)

variable {F : FTy → Type} [FloatOps F]
variable (m : (ℓ : Loc nD τ sig) → Buf (Elt F) ℓ) (ρ : Dev nD → PrngReg)

theorem W3_main_v9 (c : Dev nD) : W3 m ρ c (Proc.devRef .tc main_v9) = W1 m ρ c (Proc.devRef .tc main_v9) :=
  calc W3 m ρ c (Proc.devRef .tc main_v9)
    _ = W2 m ρ c (Proc.devRef .tc main_v9) := StableHlo.after_of_forall_not_mem (b := Proc.devRef .tc main_v9) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v9) := (W2_arr m ρ c 1).trans (((dat0 (V1 m ρ) c).arrAt_in 1 rfl _).trans (A_eq0 (V1 m ρ) c 1))

theorem W5_main_v9 (c : Dev nD) : W5 m ρ c (Proc.devRef .tc main_v9) = W1 m ρ c (Proc.devRef .tc main_v9) :=
  calc W5 m ρ c (Proc.devRef .tc main_v9)
    _ = W4 m ρ c (Proc.devRef .tc main_v9) := StableHlo.after_of_forall_not_mem (b := Proc.devRef .tc main_v9) _ _ (List.forall_iff_forall_mem.mp (by
          simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v9) := (W4_arr m ρ c 1).trans (((dat1 (V3 m ρ) c).arrAt_in 1 rfl _).trans (A_eq1 (V3 m ρ) c 1))
    _ = W2 m ρ c (Proc.devRef .tc main_v9) := StableHlo.after_of_forall_not_mem (b := Proc.devRef .tc main_v9) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v9) := (W2_arr m ρ c 1).trans (((dat0 (V1 m ρ) c).arrAt_in 1 rfl _).trans (A_eq0 (V1 m ρ) c 1))

theorem W3_main_v0 (c : Dev nD) : W3 m ρ c (Proc.devRef .tc main_v0) = W1 m ρ c (Proc.devRef .tc main_v0) :=
  calc W3 m ρ c (Proc.devRef .tc main_v0)
    _ = W2 m ρ c (Proc.devRef .tc main_v0) := StableHlo.after_of_forall_not_mem (b := Proc.devRef .tc main_v0) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v0) := (W2_arr m ρ c 3).trans (((dat0 (V1 m ρ) c).arrAt_in 3 rfl _).trans (A_eq0 (V1 m ρ) c 3))

theorem W5_main_v0 (c : Dev nD) : W5 m ρ c (Proc.devRef .tc main_v0) = W1 m ρ c (Proc.devRef .tc main_v0) :=
  calc W5 m ρ c (Proc.devRef .tc main_v0)
    _ = W4 m ρ c (Proc.devRef .tc main_v0) := StableHlo.after_of_forall_not_mem (b := Proc.devRef .tc main_v0) _ _ (List.forall_iff_forall_mem.mp (by
          simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v0) := (W4_arr m ρ c 3).trans (((dat1 (V3 m ρ) c).arrAt_in 3 rfl _).trans (A_eq1 (V3 m ρ) c 3))
    _ = W2 m ρ c (Proc.devRef .tc main_v0) := StableHlo.after_of_forall_not_mem (b := Proc.devRef .tc main_v0) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v0) := (W2_arr m ρ c 3).trans (((dat0 (V1 m ρ) c).arrAt_in 3 rfl _).trans (A_eq0 (V1 m ρ) c 3))

theorem W3_main_v3 (c : Dev nD) : W3 m ρ c (Proc.devRef .tc main_v3) = W1 m ρ c (Proc.devRef .tc main_v3) :=
  calc W3 m ρ c (Proc.devRef .tc main_v3)
    _ = W2 m ρ c (Proc.devRef .tc main_v3) := StableHlo.after_of_forall_not_mem (b := Proc.devRef .tc main_v3) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v3) := (W2_arr m ρ c 4).trans (((dat0 (V1 m ρ) c).arrAt_in 4 rfl _).trans (A_eq0 (V1 m ρ) c 4))

theorem W5_main_v3 (c : Dev nD) : W5 m ρ c (Proc.devRef .tc main_v3) = W1 m ρ c (Proc.devRef .tc main_v3) :=
  calc W5 m ρ c (Proc.devRef .tc main_v3)
    _ = W4 m ρ c (Proc.devRef .tc main_v3) := StableHlo.after_of_forall_not_mem (b := Proc.devRef .tc main_v3) _ _ (List.forall_iff_forall_mem.mp (by
          simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v3) := (W4_arr m ρ c 4).trans (((dat1 (V3 m ρ) c).arrAt_in 4 rfl _).trans (A_eq1 (V3 m ρ) c 4))
    _ = W2 m ρ c (Proc.devRef .tc main_v3) := StableHlo.after_of_forall_not_mem (b := Proc.devRef .tc main_v3) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v3) := (W2_arr m ρ c 4).trans (((dat0 (V1 m ρ) c).arrAt_in 4 rfl _).trans (A_eq0 (V1 m ρ) c 4))

theorem W3_main_v1 (c : Dev nD) : W3 m ρ c (Proc.devRef .tc main_v1) = W1 m ρ c (Proc.devRef .tc main_v1) :=
  calc W3 m ρ c (Proc.devRef .tc main_v1)
    _ = W2 m ρ c (Proc.devRef .tc main_v1) := StableHlo.after_of_forall_not_mem (b := Proc.devRef .tc main_v1) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v1) := (W2_arr m ρ c 5).trans (((dat0 (V1 m ρ) c).arrAt_in 5 rfl _).trans (A_eq0 (V1 m ρ) c 5))

theorem W5_main_v1 (c : Dev nD) : W5 m ρ c (Proc.devRef .tc main_v1) = W1 m ρ c (Proc.devRef .tc main_v1) :=
  calc W5 m ρ c (Proc.devRef .tc main_v1)
    _ = W4 m ρ c (Proc.devRef .tc main_v1) := StableHlo.after_of_forall_not_mem (b := Proc.devRef .tc main_v1) _ _ (List.forall_iff_forall_mem.mp (by
          simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v1) := (W4_arr m ρ c 5).trans (((dat1 (V3 m ρ) c).arrAt_in 5 rfl _).trans (A_eq1 (V3 m ρ) c 5))
    _ = W2 m ρ c (Proc.devRef .tc main_v1) := StableHlo.after_of_forall_not_mem (b := Proc.devRef .tc main_v1) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v1) := (W2_arr m ρ c 5).trans (((dat0 (V1 m ρ) c).arrAt_in 5 rfl _).trans (A_eq0 (V1 m ρ) c 5))

theorem W3_main_v4 (c : Dev nD) : W3 m ρ c (Proc.devRef .tc main_v4) = W1 m ρ c (Proc.devRef .tc main_v4) :=
  calc W3 m ρ c (Proc.devRef .tc main_v4)
    _ = W2 m ρ c (Proc.devRef .tc main_v4) := StableHlo.after_of_forall_not_mem (b := Proc.devRef .tc main_v4) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v4) := (W2_arr m ρ c 6).trans (((dat0 (V1 m ρ) c).arrAt_in 6 rfl _).trans (A_eq0 (V1 m ρ) c 6))

theorem W5_main_v4 (c : Dev nD) : W5 m ρ c (Proc.devRef .tc main_v4) = W1 m ρ c (Proc.devRef .tc main_v4) :=
  calc W5 m ρ c (Proc.devRef .tc main_v4)
    _ = W4 m ρ c (Proc.devRef .tc main_v4) := StableHlo.after_of_forall_not_mem (b := Proc.devRef .tc main_v4) _ _ (List.forall_iff_forall_mem.mp (by
          simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v4) := (W4_arr m ρ c 6).trans (((dat1 (V3 m ρ) c).arrAt_in 6 rfl _).trans (A_eq1 (V3 m ρ) c 6))
    _ = W2 m ρ c (Proc.devRef .tc main_v4) := StableHlo.after_of_forall_not_mem (b := Proc.devRef .tc main_v4) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v4) := (W2_arr m ρ c 6).trans (((dat0 (V1 m ρ) c).arrAt_in 6 rfl _).trans (A_eq0 (V1 m ρ) c 6))

theorem W3_main_v2 (c : Dev nD) : W3 m ρ c (Proc.devRef .tc main_v2) = W1 m ρ c (Proc.devRef .tc main_v2) :=
  calc W3 m ρ c (Proc.devRef .tc main_v2)
    _ = W2 m ρ c (Proc.devRef .tc main_v2) := StableHlo.after_of_forall_not_mem (b := Proc.devRef .tc main_v2) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v2) := (W2_arr m ρ c 7).trans (((dat0 (V1 m ρ) c).arrAt_in 7 rfl _).trans (A_eq0 (V1 m ρ) c 7))

theorem W5_main_v2 (c : Dev nD) : W5 m ρ c (Proc.devRef .tc main_v2) = W1 m ρ c (Proc.devRef .tc main_v2) :=
  calc W5 m ρ c (Proc.devRef .tc main_v2)
    _ = W4 m ρ c (Proc.devRef .tc main_v2) := StableHlo.after_of_forall_not_mem (b := Proc.devRef .tc main_v2) _ _ (List.forall_iff_forall_mem.mp (by
          simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v2) := (W4_arr m ρ c 7).trans (((dat1 (V3 m ρ) c).arrAt_in 7 rfl _).trans (A_eq1 (V3 m ρ) c 7))
    _ = W2 m ρ c (Proc.devRef .tc main_v2) := StableHlo.after_of_forall_not_mem (b := Proc.devRef .tc main_v2) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v2) := (W2_arr m ρ c 7).trans (((dat0 (V1 m ρ) c).arrAt_in 7 rfl _).trans (A_eq0 (V1 m ρ) c 7))

theorem W3_main_v5 (c : Dev nD) : W3 m ρ c (Proc.devRef .tc main_v5) = W1 m ρ c (Proc.devRef .tc main_v5) :=
  calc W3 m ρ c (Proc.devRef .tc main_v5)
    _ = W2 m ρ c (Proc.devRef .tc main_v5) := StableHlo.after_of_forall_not_mem (b := Proc.devRef .tc main_v5) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v5) := (W2_arr m ρ c 8).trans (((dat0 (V1 m ρ) c).arrAt_in 8 rfl _).trans (A_eq0 (V1 m ρ) c 8))

theorem W5_main_v5 (c : Dev nD) : W5 m ρ c (Proc.devRef .tc main_v5) = W1 m ρ c (Proc.devRef .tc main_v5) :=
  calc W5 m ρ c (Proc.devRef .tc main_v5)
    _ = W4 m ρ c (Proc.devRef .tc main_v5) := StableHlo.after_of_forall_not_mem (b := Proc.devRef .tc main_v5) _ _ (List.forall_iff_forall_mem.mp (by
          simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v5) := (W4_arr m ρ c 8).trans (((dat1 (V3 m ρ) c).arrAt_in 8 rfl _).trans (A_eq1 (V3 m ρ) c 8))
    _ = W2 m ρ c (Proc.devRef .tc main_v5) := StableHlo.after_of_forall_not_mem (b := Proc.devRef .tc main_v5) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v5) := (W2_arr m ρ c 8).trans (((dat0 (V1 m ρ) c).arrAt_in 8 rfl _).trans (A_eq0 (V1 m ρ) c 8))

theorem W2_main_arg1 (c : Dev nD) : W2 m ρ c (Proc.devRef .tc main_arg1) = m ((c : Thread nD τ).loc main_arg1) :=
  calc W2 m ρ c (Proc.devRef .tc main_arg1)
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := StableHlo.after_of_forall_not_mem (b := Proc.devRef .tc main_arg1) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

theorem W2_main_arg2 (c : Dev nD) : W2 m ρ c (Proc.devRef .tc main_arg2) = m ((c : Thread nD τ).loc main_arg2) :=
  calc W2 m ρ c (Proc.devRef .tc main_arg2)
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := StableHlo.after_of_forall_not_mem (b := Proc.devRef .tc main_arg2) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

theorem W6_main_arg3 (c : Dev nD) : W6 m ρ c (Proc.devRef .tc main_arg3) = m ((c : Thread nD τ).loc main_arg3) :=
  calc W6 m ρ c (Proc.devRef .tc main_arg3)
    _ = W5 m ρ c (Proc.devRef .tc main_arg3) := W6_of_ne m ρ c main_arg3 (by decide)
    _ = W4 m ρ c (Proc.devRef .tc main_arg3) := StableHlo.after_of_forall_not_mem (b := Proc.devRef .tc main_arg3) _ _ (List.forall_iff_forall_mem.mp (by
          simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg3) := W4_of_ne m ρ c main_arg3 (by decide)
    _ = W2 m ρ c (Proc.devRef .tc main_arg3) := StableHlo.after_of_forall_not_mem (b := Proc.devRef .tc main_arg3) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

theorem W6_main_arg4 (c : Dev nD) : W6 m ρ c (Proc.devRef .tc main_arg4) = m ((c : Thread nD τ).loc main_arg4) :=
  calc W6 m ρ c (Proc.devRef .tc main_arg4)
    _ = W5 m ρ c (Proc.devRef .tc main_arg4) := W6_of_ne m ρ c main_arg4 (by decide)
    _ = W4 m ρ c (Proc.devRef .tc main_arg4) := StableHlo.after_of_forall_not_mem (b := Proc.devRef .tc main_arg4) _ _ (List.forall_iff_forall_mem.mp (by
          simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg4) := W4_of_ne m ρ c main_arg4 (by decide)
    _ = W2 m ρ c (Proc.devRef .tc main_arg4) := StableHlo.after_of_forall_not_mem (b := Proc.devRef .tc main_arg4) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg4) := W2_of_ne m ρ c main_arg4 (by decide)
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl

theorem W6_main_arg5 (c : Dev nD) : W6 m ρ c (Proc.devRef .tc main_arg5) = m ((c : Thread nD τ).loc main_arg5) :=
  calc W6 m ρ c (Proc.devRef .tc main_arg5)
    _ = W5 m ρ c (Proc.devRef .tc main_arg5) := W6_of_ne m ρ c main_arg5 (by decide)
    _ = W4 m ρ c (Proc.devRef .tc main_arg5) := StableHlo.after_of_forall_not_mem (b := Proc.devRef .tc main_arg5) _ _ (List.forall_iff_forall_mem.mp (by
          simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg5) := W4_of_ne m ρ c main_arg5 (by decide)
    _ = W2 m ρ c (Proc.devRef .tc main_arg5) := StableHlo.after_of_forall_not_mem (b := Proc.devRef .tc main_arg5) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg5) := W2_of_ne m ρ c main_arg5 (by decide)
    _ = W0 m ρ c (Proc.devRef .tc main_arg5) := StableHlo.after_of_forall_not_mem (b := Proc.devRef .tc main_arg5) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg5) := rfl

theorem W6_main_arg6 (c : Dev nD) : W6 m ρ c (Proc.devRef .tc main_arg6) = m ((c : Thread nD τ).loc main_arg6) :=
  calc W6 m ρ c (Proc.devRef .tc main_arg6)
    _ = W5 m ρ c (Proc.devRef .tc main_arg6) := W6_of_ne m ρ c main_arg6 (by decide)
    _ = W4 m ρ c (Proc.devRef .tc main_arg6) := StableHlo.after_of_forall_not_mem (b := Proc.devRef .tc main_arg6) _ _ (List.forall_iff_forall_mem.mp (by
          simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg6) := W4_of_ne m ρ c main_arg6 (by decide)
    _ = W2 m ρ c (Proc.devRef .tc main_arg6) := StableHlo.after_of_forall_not_mem (b := Proc.devRef .tc main_arg6) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg6) := W2_of_ne m ρ c main_arg6 (by decide)
    _ = W0 m ρ c (Proc.devRef .tc main_arg6) := StableHlo.after_of_forall_not_mem (b := Proc.devRef .tc main_arg6) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg6) := rfl

theorem W6_main_arg13 (c : Dev nD) : W6 m ρ c (Proc.devRef .tc main_arg13) = m ((c : Thread nD τ).loc main_arg13) :=
  calc W6 m ρ c (Proc.devRef .tc main_arg13)
    _ = W5 m ρ c (Proc.devRef .tc main_arg13) := W6_of_ne m ρ c main_arg13 (by decide)
    _ = W4 m ρ c (Proc.devRef .tc main_arg13) := StableHlo.after_of_forall_not_mem (b := Proc.devRef .tc main_arg13) _ _ (List.forall_iff_forall_mem.mp (by
          simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg13) := W4_of_ne m ρ c main_arg13 (by decide)
    _ = W2 m ρ c (Proc.devRef .tc main_arg13) := StableHlo.after_of_forall_not_mem (b := Proc.devRef .tc main_arg13) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg13) := W2_of_ne m ρ c main_arg13 (by decide)
    _ = W0 m ρ c (Proc.devRef .tc main_arg13) := StableHlo.after_of_forall_not_mem (b := Proc.devRef .tc main_arg13) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg13) := rfl

theorem W6_main_arg14 (c : Dev nD) : W6 m ρ c (Proc.devRef .tc main_arg14) = m ((c : Thread nD τ).loc main_arg14) :=
  calc W6 m ρ c (Proc.devRef .tc main_arg14)
    _ = W5 m ρ c (Proc.devRef .tc main_arg14) := W6_of_ne m ρ c main_arg14 (by decide)
    _ = W4 m ρ c (Proc.devRef .tc main_arg14) := StableHlo.after_of_forall_not_mem (b := Proc.devRef .tc main_arg14) _ _ (List.forall_iff_forall_mem.mp (by
          simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg14) := W4_of_ne m ρ c main_arg14 (by decide)
    _ = W2 m ρ c (Proc.devRef .tc main_arg14) := StableHlo.after_of_forall_not_mem (b := Proc.devRef .tc main_arg14) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg14) := W2_of_ne m ρ c main_arg14 (by decide)
    _ = W0 m ρ c (Proc.devRef .tc main_arg14) := StableHlo.after_of_forall_not_mem (b := Proc.devRef .tc main_arg14) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg14) := rfl

theorem W6_main_arg16 (c : Dev nD) : W6 m ρ c (Proc.devRef .tc main_arg16) = m ((c : Thread nD τ).loc main_arg16) :=
  calc W6 m ρ c (Proc.devRef .tc main_arg16)
    _ = W5 m ρ c (Proc.devRef .tc main_arg16) := W6_of_ne m ρ c main_arg16 (by decide)
    _ = W4 m ρ c (Proc.devRef .tc main_arg16) := StableHlo.after_of_forall_not_mem (b := Proc.devRef .tc main_arg16) _ _ (List.forall_iff_forall_mem.mp (by
          simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg16) := W4_of_ne m ρ c main_arg16 (by decide)
    _ = W2 m ρ c (Proc.devRef .tc main_arg16) := StableHlo.after_of_forall_not_mem (b := Proc.devRef .tc main_arg16) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg16) := W2_of_ne m ρ c main_arg16 (by decide)
    _ = W0 m ρ c (Proc.devRef .tc main_arg16) := StableHlo.after_of_forall_not_mem (b := Proc.devRef .tc main_arg16) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg16) := rfl

theorem W7_main_arg15 (c : Dev nD) : W7 m ρ c (Proc.devRef .tc main_arg15) = m ((c : Thread nD τ).loc main_arg15) :=
  calc W7 m ρ c (Proc.devRef .tc main_arg15)
    _ = W6 m ρ c (Proc.devRef .tc main_arg15) := StableHlo.after_of_forall_not_mem (b := Proc.devRef .tc main_arg15) _ _ (List.forall_iff_forall_mem.mp (by
          simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg15) := W6_of_ne m ρ c main_arg15 (by decide)
    _ = W4 m ρ c (Proc.devRef .tc main_arg15) := StableHlo.after_of_forall_not_mem (b := Proc.devRef .tc main_arg15) _ _ (List.forall_iff_forall_mem.mp (by
          simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg15) := W4_of_ne m ρ c main_arg15 (by decide)
    _ = W2 m ρ c (Proc.devRef .tc main_arg15) := StableHlo.after_of_forall_not_mem (b := Proc.devRef .tc main_arg15) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg15) := W2_of_ne m ρ c main_arg15 (by decide)
    _ = W0 m ρ c (Proc.devRef .tc main_arg15) := StableHlo.after_of_forall_not_mem (b := Proc.devRef .tc main_arg15) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg15) := rfl

theorem W3_main_v22 (c : Dev nD) : W3 m ρ c (Proc.devRef .tc main_v22) = W2 m ρ c (Proc.devRef .tc main_v22) :=
  calc W3 m ρ c (Proc.devRef .tc main_v22)
    _ = W2 m ρ c (Proc.devRef .tc main_v22) := StableHlo.after_of_forall_not_mem (b := Proc.devRef .tc main_v22) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem W5_main_v35 (c : Dev nD) : W5 m ρ c (Proc.devRef .tc main_v35) = W4 m ρ c (Proc.devRef .tc main_v35) :=
  calc W5 m ρ c (Proc.devRef .tc main_v35)
    _ = W4 m ρ c (Proc.devRef .tc main_v35) := StableHlo.after_of_forall_not_mem (b := Proc.devRef .tc main_v35) _ _ (List.forall_iff_forall_mem.mp (by
          simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem W9_main_v48 (c : Dev nD) : W9 m ρ c (Proc.devRef .tc main_v48) = W6 m ρ c (Proc.devRef .tc main_v48) :=
  calc W9 m ρ c (Proc.devRef .tc main_v48)
    _ = W8 m ρ c (Proc.devRef .tc main_v48) := StableHlo.after_of_forall_not_mem (b := Proc.devRef .tc main_v48) _ _ (List.forall_iff_forall_mem.mp (by
          simp only [hostOps4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_v48) := W8_of_ne m ρ c main_v48 (by decide)
    _ = W6 m ρ c (Proc.devRef .tc main_v48) := StableHlo.after_of_forall_not_mem (b := Proc.devRef .tc main_v48) _ _ (List.forall_iff_forall_mem.mp (by
          simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem W1_main_arg0 (c : Dev nD) : W1 m ρ c (Proc.devRef .tc main_arg0) = m ((c : Thread nD τ).loc main_arg0) :=
  calc W1 m ρ c (Proc.devRef .tc main_arg0)
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

end Cert.KernelIdeal.KKeep

end
-- ==== Proof.KStage.lean ====
/-
  What the host operations between the kernel launches compute, as whole-array terms.

  Before each launch of the update kernel the host forms, from the current node states `h` and the two edge lists:
  the column of normalised source indices (a negative index has the node count added), the rows of `h` at those
  indices, and their sum into the destination rows — the summed neighbour rows `aggArr h src dst`.  The in-degree
  column `degArr dst` is the same sum of a column of ones, formed once.  Before the scorer the host concatenates
  the positive and negative endpoint lists, normalises them the same way and takes the rows of the final states at
  them (`pairRows`).  The weight matrices enter transposed and the biases as one-row arrays.  After the scorer the
  host cuts the score column into its positive and negative halves.
-/
import proofs.«108194_j40132174414161_2_alg».proof.Proof.Gen.KernelIdeal.Frame

set_option maxRecDepth 16384

noncomputable section

namespace Cert.KernelIdeal.KStage

open Cert.KernelIdeal Cert.KernelIdeal.Gen
open Idealize.ShloMosaic Idealize.ShloMosaic.TcCoe Idealize.ShloMosaic.Tactic
open Idealize.SL.Sem
open Idealize.ShloMosaic.Pipeline (Dat Cfg Window)

variable {F : FTy → Type} [FloatOps F]
variable (m : (ℓ : Loc nD τ sig) → Buf (Elt F) ℓ) (ρ : Dev nD → PrngReg)

/-- The source (or endpoint) indices as a column, a negative index first increased by the node count. -/
def srcCol (x1 : (⟨S1600000, .i32⟩ : BufTy).Contents (Elt F)) : (⟨S1600000x1, .i32⟩ : BufTy).Contents (Elt F) :=
  broadcastInDim S1600000x1 ![0] bcast_S1600000_S1600000x1_0
    (select (cmpi .slt x1 (broadcastInDim S1600000 ![] bcast_S_S1600000 (constantI S_ 32 0#32)))
      (addi x1 (broadcastInDim S1600000 ![] bcast_S_S1600000 (constantI S_ 32 100000#32))) x1)

/-- The destination indices as a column. -/
def dstCol (x2 : (⟨S1600000, .i32⟩ : BufTy).Contents (Elt F)) : (⟨S1600000x1, .i32⟩ : BufTy).Contents (Elt F) :=
  broadcastInDim S1600000x1 ![0] bcast_S1600000_S1600000x1_0 x2

/-- The in-degree column: a one per edge summed into the edge's destination row. -/
def degArr (x2 : (⟨S1600000, .i32⟩ : BufTy).Contents (Elt F)) : (⟨S100000x1, .f32⟩ : BufTy).Contents (Elt F) :=
  Host.scatterAdd scatter_S100000x1_S1600000x1_S1600000x1_1_0_0_1
    (broadcastInDim S100000x1 ![] bcast_S_S100000x1 (constant S_ .f32 0x00000000#32)) (dstCol x2)
    (broadcastInDim S1600000x1 ![] bcast_S_S1600000x1 (constant S_ .f32 0x3F800000#32))

/-- The summed neighbour rows: each edge's source row of `h` summed into the edge's destination row. -/
def aggArr (h : (⟨S100000x128, .f32⟩ : BufTy).Contents (Elt F)) (x1 x2 : (⟨S1600000, .i32⟩ : BufTy).Contents (Elt F)) : (⟨S100000x128, .f32⟩ : BufTy).Contents (Elt F) :=
  Host.scatterAdd scatter_S100000x128_S1600000x1_S1600000x128_1_0_0_1
    (broadcastInDim S100000x128 ![] bcast_S_S100000x128 (constant S_ .f32 0x00000000#32)) (dstCol x2)
    (extf .f32 (Host.gather gather_S100000x128_S1600000x1_S1600000x128_1_0_n_n_0_1_1128 (truncf .bf16 h bitsLt_bf16_f32) (srcCol x1))
      bitsLt_bf16_f32)

/-- Two endpoint lists, one after the other, as a column of normalised indices. -/
def catCol (a b : (⟨S200000, .i32⟩ : BufTy).Contents (Elt F)) : (⟨S400000x1, .i32⟩ : BufTy).Contents (Elt F) :=
  broadcastInDim S400000x1 ![0] bcast_S400000_S400000x1_0
    (select (cmpi .slt (concatenate S400000 0 [⟨S200000, a⟩, ⟨S200000, b⟩] concatenates_S200000_S200000_S400000_d0)
        (broadcastInDim S400000 ![] bcast_S_S400000 (constantI S_ 32 0#32)))
      (addi (concatenate S400000 0 [⟨S200000, a⟩, ⟨S200000, b⟩] concatenates_S200000_S200000_S400000_d0)
        (broadcastInDim S400000 ![] bcast_S_S400000 (constantI S_ 32 100000#32)))
      (concatenate S400000 0 [⟨S200000, a⟩, ⟨S200000, b⟩] concatenates_S200000_S200000_S400000_d0))

/-- The rows of `h` at the concatenated endpoint lists. -/
def pairRows (h : (⟨S100000x128, .f32⟩ : BufTy).Contents (Elt F)) (a b : (⟨S200000, .i32⟩ : BufTy).Contents (Elt F)) : (⟨S400000x128, .f32⟩ : BufTy).Contents (Elt F) :=
  Host.gather gather_S100000x128_S400000x1_S400000x128_1_0_n_n_0_1_1128 h (catCol a b)

set_option maxHeartbeats 400000

theorem W1_main_v21 (c : Dev nD) : W1 m ρ c (Proc.devRef .tc main_v21) = aggArr (W0 m ρ c (Proc.devRef .tc main_arg0)) (W0 m ρ c (Proc.devRef .tc main_arg1)) (W0 m ρ c (Proc.devRef .tc main_arg2)) := by
  show StableHlo.after hostOps0 _ (Proc.devRef .tc main_v21) = _
  after_results_simp
  all_goals rfl

theorem W1_main_v9 (c : Dev nD) : W1 m ρ c (Proc.devRef .tc main_v9) = degArr (W0 m ρ c (Proc.devRef .tc main_arg2)) := by
  show StableHlo.after hostOps0 _ (Proc.devRef .tc main_v9) = _
  after_results_simp
  all_goals rfl

theorem W1_main_v0 (c : Dev nD) : W1 m ρ c (Proc.devRef .tc main_v0) = transpose S128x128 [1, 0] (W0 m ρ c (Proc.devRef .tc main_arg7)) transposes_S128x128_S128x128_1_0 := by
  show StableHlo.after hostOps0 _ (Proc.devRef .tc main_v0) = _
  after_results_simp
  all_goals rfl

theorem W1_main_v1 (c : Dev nD) : W1 m ρ c (Proc.devRef .tc main_v1) = transpose S128x384 [1, 0] (W0 m ρ c (Proc.devRef .tc main_arg9)) transposes_S384x128_S128x384_1_0 := by
  show StableHlo.after hostOps0 _ (Proc.devRef .tc main_v1) = _
  after_results_simp
  all_goals rfl

theorem W1_main_v2 (c : Dev nD) : W1 m ρ c (Proc.devRef .tc main_v2) = transpose S128x384 [1, 0] (W0 m ρ c (Proc.devRef .tc main_arg11)) transposes_S384x128_S128x384_1_0 := by
  show StableHlo.after hostOps0 _ (Proc.devRef .tc main_v2) = _
  after_results_simp
  all_goals rfl

theorem W1_main_v3 (c : Dev nD) : W1 m ρ c (Proc.devRef .tc main_v3) = shapeCast S1x128 (W0 m ρ c (Proc.devRef .tc main_arg8)) shapeCasts_S128_S1x128 := by
  show StableHlo.after hostOps0 _ (Proc.devRef .tc main_v3) = _
  after_results_simp
  all_goals rfl

theorem W1_main_v4 (c : Dev nD) : W1 m ρ c (Proc.devRef .tc main_v4) = shapeCast S1x384 (W0 m ρ c (Proc.devRef .tc main_arg10)) shapeCasts_S384_S1x384 := by
  show StableHlo.after hostOps0 _ (Proc.devRef .tc main_v4) = _
  after_results_simp
  all_goals rfl

theorem W1_main_v5 (c : Dev nD) : W1 m ρ c (Proc.devRef .tc main_v5) = shapeCast S1x384 (W0 m ρ c (Proc.devRef .tc main_arg12)) shapeCasts_S384_S1x384 := by
  show StableHlo.after hostOps0 _ (Proc.devRef .tc main_v5) = _
  after_results_simp
  all_goals rfl

theorem W3_main_v34 (c : Dev nD) : W3 m ρ c (Proc.devRef .tc main_v34) = aggArr (W2 m ρ c (Proc.devRef .tc main_v22)) (W2 m ρ c (Proc.devRef .tc main_arg1)) (W2 m ρ c (Proc.devRef .tc main_arg2)) := by
  show StableHlo.after hostOps1 _ (Proc.devRef .tc main_v34) = _
  after_results_simp
  all_goals rfl

theorem W5_main_v47 (c : Dev nD) : W5 m ρ c (Proc.devRef .tc main_v47) = aggArr (W4 m ρ c (Proc.devRef .tc main_v35)) (W4 m ρ c (Proc.devRef .tc main_arg1)) (W4 m ρ c (Proc.devRef .tc main_arg2)) := by
  show StableHlo.after hostOps2 _ (Proc.devRef .tc main_v47) = _
  after_results_simp
  all_goals rfl

theorem W7_main_v57 (c : Dev nD) : W7 m ρ c (Proc.devRef .tc main_v57) = pairRows (W6 m ρ c (Proc.devRef .tc main_v48)) (W6 m ρ c (Proc.devRef .tc main_arg3)) (W6 m ρ c (Proc.devRef .tc main_arg5)) := by
  show StableHlo.after hostOps3 _ (Proc.devRef .tc main_v57) = _
  after_results_simp
  all_goals rfl

theorem W7_main_v64 (c : Dev nD) : W7 m ρ c (Proc.devRef .tc main_v64) = pairRows (W6 m ρ c (Proc.devRef .tc main_v48)) (W6 m ρ c (Proc.devRef .tc main_arg4)) (W6 m ρ c (Proc.devRef .tc main_arg6)) := by
  show StableHlo.after hostOps3 _ (Proc.devRef .tc main_v64) = _
  after_results_simp
  all_goals rfl

theorem W7_main_v65 (c : Dev nD) : W7 m ρ c (Proc.devRef .tc main_v65) = transpose S128x64 [1, 0] (W6 m ρ c (Proc.devRef .tc main_arg13)) transposes_S64x128_S128x64_1_0 := by
  show StableHlo.after hostOps3 _ (Proc.devRef .tc main_v65) = _
  after_results_simp
  all_goals rfl

theorem W7_main_v66 (c : Dev nD) : W7 m ρ c (Proc.devRef .tc main_v66) = shapeCast S1x64 (W6 m ρ c (Proc.devRef .tc main_arg14)) shapeCasts_S64_S1x64 := by
  show StableHlo.after hostOps3 _ (Proc.devRef .tc main_v66) = _
  after_results_simp
  all_goals rfl

theorem W7_main_v67 (c : Dev nD) : W7 m ρ c (Proc.devRef .tc main_v67) = shapeCast S1x1 (W6 m ρ c (Proc.devRef .tc main_arg16)) shapeCasts_S1_S1x1 := by
  show StableHlo.after hostOps3 _ (Proc.devRef .tc main_v67) = _
  after_results_simp
  all_goals rfl

theorem W9_main_v69 (c : Dev nD) : W9 m ρ c (Proc.devRef .tc main_v69) = extractStridedSlice S200000x1 ![0, 0] (W8 m ρ c (Proc.devRef .tc main_v68)) slices_S400000x1_S200000x1_0_0 := by
  show StableHlo.after hostOps4 _ (Proc.devRef .tc main_v69) = _
  after_results_simp
  all_goals rfl

theorem W9_main_v70 (c : Dev nD) : W9 m ρ c (Proc.devRef .tc main_v70) = extractStridedSlice S200000x1 ![200000, 0] (W8 m ρ c (Proc.devRef .tc main_v68)) slices_S400000x1_S200000x1_200000_0 := by
  show StableHlo.after hostOps4 _ (Proc.devRef .tc main_v70) = _
  after_results_simp
  all_goals rfl

end Cert.KernelIdeal.KStage

end
-- ==== Proof.Cell.lean ====
/-
  The two per-row formulas of this certificate, over the extended reals.

  A node's new state in one message-passing step depends on three rows: the row `ar` of summed neighbour
  states, the node's in-degree `d`, and the node's own row `hr`.  The message row is
  `a k = (∑ k', ar k' · WeT(k', k)) + d · be(k)`; the two gate pre-activations are the affine images
  `gi = a · WihT + bih` and `gh = hr · WhhT + bhh` (384 columns: reset, update, candidate); and the new
  state at column `j` is `(1 − z) · n + z · hr j` with `r = σ(gi_j + gh_j)`, `z = σ(gi_{128+j} + gh_{128+j})`,
  `n = tanh(gi_{256+j} + r · gh_{256+j})`.

  A pair's score depends on the two endpoint rows `hs`, `hd`: with `u c = (∑ k, (hs k · hd k) · W1T(k, c)) + b1(c)`
  and the leaky rectifier `ℓ u = u` if `u ≥ 0` else `0.2 · u`, the score is `(∑ c, ℓ (u c) · w2(c)) + b2`.
-/
import Idealize.ShloMosaic.PureOps.Ideal
import Idealize.ShloMosaic.PureOps.Ideal.Laws
import Idealize.ShloMosaic.Lib.ValueIdx

noncomputable section

namespace Cert.Cell

open Idealize.ShloMosaic Idealize.ShloMosaic.ValueIdx

/-- Arrays of extended reals over a literal rank-2 shape. -/
abbrev Arr2 (a b : Nat) : Type := (⟨2, ![a, b]⟩ : Shape).Idx → EReal

/-- The float words the two programs share: 1.0, 0.2 and 0.0 (never evaluated: the same word on both sides). -/
abbrev one : EReal := Ideal.ofBits .f32 0x3F800000#32
abbrev slope : EReal := Ideal.ofBits .f32 0x3E4CCCCD#32
abbrev zero : EReal := Ideal.ofBits .f32 0x00000000#32

/-- The message row: the summed neighbour row through the edge matrix, plus in-degree times the edge bias. -/
def msgRow (ar : Fin 128 → EReal) (d : EReal) (WeT : Arr2 128 128) (be : Arr2 1 128) (k : Fin 128) : EReal :=
  (∑ k' : Fin 128, ar k' * WeT (ix2 k' k)) + d * be (ix2 0 k)

/-- One affine gate pre-activation: a row through a 128 × 384 matrix plus the bias row. -/
def gateRow (xr : Fin 128 → EReal) (WT : Arr2 128 384) (b : Arr2 1 384) (c : Fin 384) : EReal :=
  (∑ k : Fin 128, xr k * WT (ix2 k c)) + b (ix2 0 c)

/-- The three column blocks of the 384 gate columns. -/
abbrev col0 (j : Fin 128) : Fin 384 := ⟨j.val, by omega⟩
abbrev col1 (j : Fin 128) : Fin 384 := ⟨128 + j.val, by omega⟩
abbrev col2 (j : Fin 128) : Fin 384 := ⟨256 + j.val, by omega⟩

/-- The gated update from a message row `a` and the node's own row `hr`, at column `j`. -/
def gruOf (a hr : Fin 128 → EReal) (WihT : Arr2 128 384) (bih : Arr2 1 384) (WhhT : Arr2 128 384) (bhh : Arr2 1 384)
    (j : Fin 128) : EReal :=
  let gi := gateRow a WihT bih
  let gh := gateRow hr WhhT bhh
  let r := Ideal.logistic (gi (col0 j) + gh (col0 j))
  let z := Ideal.logistic (gi (col1 j) + gh (col1 j))
  let n := Ideal.tanh (gi (col2 j) + r * gh (col2 j))
  (one - z) * n + z * hr j

/-- A node's new state at column `j` from its summed neighbour row, its in-degree and its own row. -/
def gruCell (ar : Fin 128 → EReal) (d : EReal) (hr : Fin 128 → EReal) (WeT : Arr2 128 128) (be : Arr2 1 128)
    (WihT : Arr2 128 384) (bih : Arr2 1 384) (WhhT : Arr2 128 384) (bhh : Arr2 1 384) (j : Fin 128) : EReal :=
  gruOf (msgRow ar d WeT be) hr WihT bih WhhT bhh j

/-- The leaky rectifier with slope 0.2, as both programs compute it: a comparison with the zero word and a select. -/
def leaky (u : EReal) : EReal := Scalar.select (Ideal.cmp .oge u zero) u (slope * u)

/-- The hidden row of the pair scorer at column `c`. -/
def hidRow (hs hd : Fin 128 → EReal) (W1T : Arr2 128 64) (b1 : Arr2 1 64) (c : Fin 64) : EReal :=
  (∑ k : Fin 128, (hs k * hd k) * W1T (ix2 k c)) + b1 (ix2 0 c)

/-- A pair's score from its two endpoint rows. -/
def predCell (hs hd : Fin 128 → EReal) (W1T : Arr2 128 64) (b1 : Arr2 1 64) (w2 : Arr2 1 64) (b2 : EReal) : EReal :=
  (∑ c : Fin 64, leaky (hidRow hs hd W1T b1 c) * w2 (ix2 0 c)) + b2

end Cert.Cell

end
-- ==== Proof.KDefs.lean ====
/-
  The idealized kernel program's step and score as functions of node states and arguments.

  One launch of the update kernel, fed by the host's summed neighbour rows and in-degree column, turns the node
  states `h` into `kstep h`: at node `n` and column `j` the gated update `Cell.gruCell` of the `n`-th summed
  neighbour row, the `n`-th in-degree and the `n`-th row of `h`.  The scorer maps the rows of the states at the
  concatenated endpoint lists to one score per pair (`kscore`).
-/
import proofs.«108194_j40132174414161_2_alg».proof.Proof.KStage
import proofs.«108194_j40132174414161_2_alg».proof.Proof.Cell

set_option maxRecDepth 16384

noncomputable section

namespace Cert.KernelIdeal.KDefs

open Cert.KernelIdeal Cert.KernelIdeal.Gen Cert.KernelIdeal.KStage
open Idealize.ShloMosaic Idealize.ShloMosaic.ValueIdx

/-- One message-passing step of the kernel program. -/
def kstep (h : (⟨S100000x128, .f32⟩ : BufTy).Contents (Elt Ideal)) (x1 x2 : (⟨S1600000, .i32⟩ : BufTy).Contents (Elt Ideal)) (x7 : (⟨S128x128, .f32⟩ : BufTy).Contents (Elt Ideal)) (x8 : (⟨S128, .f32⟩ : BufTy).Contents (Elt Ideal))
    (x9 : (⟨S384x128, .f32⟩ : BufTy).Contents (Elt Ideal)) (x10 : (⟨S384, .f32⟩ : BufTy).Contents (Elt Ideal)) (x11 : (⟨S384x128, .f32⟩ : BufTy).Contents (Elt Ideal)) (x12 : (⟨S384, .f32⟩ : BufTy).Contents (Elt Ideal)) : (⟨S100000x128, .f32⟩ : BufTy).Contents (Elt Ideal) := fun i =>
  Cert.Cell.gruCell (fun k => aggArr (F := Ideal) h x1 x2 (ix2 (i 0) k)) (degArr (F := Ideal) x2 (ix2 (i 0) 0)) (fun k => h (ix2 (i 0) k))
    (transpose S128x128 [1, 0] x7 transposes_S128x128_S128x128_1_0) (shapeCast S1x128 x8 shapeCasts_S128_S1x128)
    (transpose S128x384 [1, 0] x9 transposes_S384x128_S128x384_1_0) (shapeCast S1x384 x10 shapeCasts_S384_S1x384)
    (transpose S128x384 [1, 0] x11 transposes_S384x128_S128x384_1_0) (shapeCast S1x384 x12 shapeCasts_S384_S1x384) (i 1)

/-- The score column over the concatenated pair lists. -/
def kscore (h : (⟨S100000x128, .f32⟩ : BufTy).Contents (Elt Ideal)) (x3 x4 x5 x6 : (⟨S200000, .i32⟩ : BufTy).Contents (Elt Ideal)) (x13 : (⟨S64x128, .f32⟩ : BufTy).Contents (Elt Ideal)) (x14 : (⟨S64, .f32⟩ : BufTy).Contents (Elt Ideal)) (x15 : (⟨S1x64, .f32⟩ : BufTy).Contents (Elt Ideal))
    (x16 : (⟨S1, .f32⟩ : BufTy).Contents (Elt Ideal)) : (⟨S400000x1, .f32⟩ : BufTy).Contents (Elt Ideal) := fun i =>
  Cert.Cell.predCell (fun k => pairRows (F := Ideal) h x3 x5 (ix2 (i 0) k)) (fun k => pairRows (F := Ideal) h x4 x6 (ix2 (i 0) k))
    (transpose S128x64 [1, 0] x13 transposes_S64x128_S128x64_1_0) (shapeCast S1x64 x14 shapeCasts_S64_S1x64) x15
    (shapeCast S1x1 x16 shapeCasts_S1_S1x1 (ix2 0 0))

end Cert.KernelIdeal.KDefs

end
-- ==== Proof.BodyGru.lean ====
/-
  The gated-update kernel's store, read at one index, over the extended reals.

  Each of the three launches stores one [2000, 128] block computed from nine loaded blocks: the summed
  neighbour rows, the in-degree column, the nodes' own rows, and the six weight and bias blocks.  Entry
  `(p, j)` of what is stored depends only on row `p` of the three node blocks, and equals the cell formula
  `Cert.Cell.gruCell` of those rows at column `j`.

  The steps: a matrix product into a zero accumulator is a sum over the contracted coordinate (one lemma
  per product shape); a narrowing of format is the identity here; a cast to the same shape is the identity;
  a column `[a, 1]` or a row `[1, b]` broadcast to `[a, b]` reads its one entry per row or per column; a
  128-column slice of the 384 gate columns at offset 0, 128 or 256 reads column `j`, `128 + j` or `256 + j`.
  The second and third launches compute the same values with the state-side first block sliced one
  operation later; the third is literally the second.
-/
import proofs.«108194_j40132174414161_2_alg».proof.Proof.Gen.KernelIdeal.Frame
import proofs.«108194_j40132174414161_2_alg».proof.Proof.Cell
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Body

open Idealize.ShloMosaic Idealize.ShloMosaic.ValueIdx Idealize.SL.Sem
open Cert.KernelIdeal Cert.KernelIdeal.Gen

/-- A `[a, 1]` column broadcast to `[a, b]` reads, at `(p, c)`, the column's entry in row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The two product shapes -/

theorem lhsE_0 (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
theorem rhsE_1 (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- The edge-matrix product at `(p, c)`: row `p` of the left operand against column `c` of the right. -/
theorem mmE_apply (a : FVec Ideal S2000x128 .bf16) (b : FVec Ideal S128x128 .bf16) (p : Fin 2000) (c : Fin 128) :
    matmul dot_S2000x128_S128x128_S2000x128_1_0_0_1_n_n none a b (constant (F := Ideal) S2000x128 .f32 0x00000000#32) (ix2 p c)
      = ∑ k : Fin 128, a (ix2 p k) * b (ix2 k c) := by
  show FloatOps.matmul _ none a b (constant (F := Ideal) S2000x128 .f32 0x00000000#32) (ix2 p c) = _
  rw [Ideal.matmul_constant_zero_apply, ← Equiv.sum_comp (contrEquiv1 dot_S2000x128_S128x128_S2000x128_1_0_0_1_n_n 128 rfl rfl).symm]
  refine Finset.sum_congr rfl fun k _ => ?_
  have hk := contrEquiv1_symm_val dot_S2000x128_S128x128_S2000x128_1_0_0_1_n_n 128 rfl rfl k
  have el : dot_S2000x128_S128x128_S2000x128_1_0_0_1_n_n.lhsIdx (ix2 p c) ((contrEquiv1 dot_S2000x128_S128x128_S2000x128_1_0_0_1_n_n 128 rfl rfl).symm k) = ix2 p k := funext fun x => Fin.ext (by
    match x with
    | ⟨0, _⟩ => exact lhsE_0 _ _
    | ⟨1, _⟩ => exact (dot_S2000x128_S128x128_S2000x128_1_0_0_1_n_n.lhsIdx_val_of_single rfl _ _).trans hk)
  have er : dot_S2000x128_S128x128_S2000x128_1_0_0_1_n_n.rhsIdx (ix2 p c) ((contrEquiv1 dot_S2000x128_S128x128_S2000x128_1_0_0_1_n_n 128 rfl rfl).symm k) = ix2 k c := funext fun x => Fin.ext (by
    match x with
    | ⟨0, _⟩ => exact (dot_S2000x128_S128x128_S2000x128_1_0_0_1_n_n.rhsIdx_val_of_single rfl _ _).trans hk
    | ⟨1, _⟩ => exact rhsE_1 _ _)
  rw [el, er]

theorem lhsG_0 (i : S2000x384.Idx) (q : dot_S2000x128_S128x384_S2000x384_1_0_0_1_n_n.contr.Idx) :
    (dot_S2000x128_S128x384_S2000x384_1_0_0_1_n_n.lhsIdx i q 0).val = (i 0).val := by
  unfold DotDims.lhsIdx
  rw [dif_neg (show ¬(0 : Fin S2000x128.rank) ∈ dot_S2000x128_S128x384_S2000x384_1_0_0_1_n_n.lhsBatch by decide), dif_pos (show (0 : Fin S2000x128.rank) ∈ dot_S2000x128_S128x384_S2000x384_1_0_0_1_n_n.lhsNonContracting by decide)]
  rfl
theorem rhsG_1 (i : S2000x384.Idx) (q : dot_S2000x128_S128x384_S2000x384_1_0_0_1_n_n.contr.Idx) :
    (dot_S2000x128_S128x384_S2000x384_1_0_0_1_n_n.rhsIdx i q 1).val = (i 1).val := by
  unfold DotDims.rhsIdx
  rw [dif_neg (show ¬(1 : Fin S128x384.rank) ∈ dot_S2000x128_S128x384_S2000x384_1_0_0_1_n_n.rhsBatch by decide), dif_pos (show (1 : Fin S128x384.rank) ∈ dot_S2000x128_S128x384_S2000x384_1_0_0_1_n_n.rhsNonContracting by decide)]
  rfl

/-- A gate-matrix product at `(p, c)`: row `p` of the left operand against column `c` of the right. -/
theorem mmG_apply (a : FVec Ideal S2000x128 .bf16) (b : FVec Ideal S128x384 .bf16) (p : Fin 2000) (c : Fin 384) :
    matmul dot_S2000x128_S128x384_S2000x384_1_0_0_1_n_n none a b (constant (F := Ideal) S2000x384 .f32 0x00000000#32) (ix2 p c)
      = ∑ k : Fin 128, a (ix2 p k) * b (ix2 k c) := by
  show FloatOps.matmul _ none a b (constant (F := Ideal) S2000x384 .f32 0x00000000#32) (ix2 p c) = _
  rw [Ideal.matmul_constant_zero_apply, ← Equiv.sum_comp (contrEquiv1 dot_S2000x128_S128x384_S2000x384_1_0_0_1_n_n 128 rfl rfl).symm]
  refine Finset.sum_congr rfl fun k _ => ?_
  have hk := contrEquiv1_symm_val dot_S2000x128_S128x384_S2000x384_1_0_0_1_n_n 128 rfl rfl k
  have el : dot_S2000x128_S128x384_S2000x384_1_0_0_1_n_n.lhsIdx (ix2 p c) ((contrEquiv1 dot_S2000x128_S128x384_S2000x384_1_0_0_1_n_n 128 rfl rfl).symm k) = ix2 p k := funext fun x => Fin.ext (by
    match x with
    | ⟨0, _⟩ => exact lhsG_0 _ _
    | ⟨1, _⟩ => exact (dot_S2000x128_S128x384_S2000x384_1_0_0_1_n_n.lhsIdx_val_of_single rfl _ _).trans hk)
  have er : dot_S2000x128_S128x384_S2000x384_1_0_0_1_n_n.rhsIdx (ix2 p c) ((contrEquiv1 dot_S2000x128_S128x384_S2000x384_1_0_0_1_n_n 128 rfl rfl).symm k) = ix2 k c := funext fun x => Fin.ext (by
    match x with
    | ⟨0, _⟩ => exact (dot_S2000x128_S128x384_S2000x384_1_0_0_1_n_n.rhsIdx_val_of_single rfl _ _).trans hk
    | ⟨1, _⟩ => exact rhsG_1 _ _)
  rw [el, er]

/-! ## The first launch -/

open Cert.Cell

/-- The input-side gate pre-activations of node `p` at column `c`: the message row through `W_ih^T` plus `b_ih`. -/
theorem pay2_apply (v0 : Vec Ideal S2000x128 .f32) (v3 : Vec Ideal S128x128 .f32) (v7 : Vec Ideal S2000x1 .f32)
    (v9 : Vec Ideal S1x128 .f32) (v18 : Vec Ideal S128x384 .f32) (v25 : Vec Ideal S1x384 .f32) (p : Fin 2000) (c : Fin 384) :
    k0_pay2 (F := Ideal) v0 v3 v7 v9 v18 v25 (ix2 p c)
      = gateRow (msgRow (fun k => v0 (ix2 p k)) (v7 (ix2 p 0)) v3 v9) v18 v25 c := by
  unfold k0_pay2
  simp only [shapeCast_self]
  refine (addf_apply _ _ _).trans ?_
  rw [mmG_apply, broadcastTo_1b_ab_apply]
  unfold gateRow msgRow
  refine congrArg (· + v25 (ix2 0 c)) (Finset.sum_congr rfl fun k _ => ?_)
  refine congrArg (· * v18 (ix2 k c)) ?_
  refine (addf_apply _ _ _).trans ?_
  rw [mmE_apply]
  refine congrArg ((∑ k' : Fin 128, v0 (ix2 p k') * v3 (ix2 k' k)) + ·) ?_
  refine (mulf_apply _ _ _).trans ?_
  rw [broadcastTo_a1_ab_apply, broadcastTo_1b_ab_apply]

/-- The state-side gate pre-activations of node `p` at column `c`: its own row through `W_hh^T` plus `b_hh`. -/
theorem pay3_apply (v16 : Vec Ideal S2000x128 .f32) (v21 : Vec Ideal S128x384 .f32) (v30 : Vec Ideal S1x384 .f32)
    (p : Fin 2000) (c : Fin 384) :
    k0_pay3 (F := Ideal) v16 v21 v30 (ix2 p c) = gateRow (fun k => v16 (ix2 p k)) v21 v30 c := by
  unfold k0_pay3
  simp only [shapeCast_self]
  refine (addf_apply _ _ _).trans ?_
  rw [mmG_apply, broadcastTo_1b_ab_apply]
  rfl

/-- The vector logistic and hyperbolic tangent read elementwise. -/
theorem logistic_apply {s : Shape} {φ : FTy} (a : FVec Ideal s φ) (i : s.Idx) :
    Idealize.ShloMosaic.logistic a i = Ideal.logistic (a i) := rfl
theorem tanh_apply {s : Shape} {φ : FTy} (a : FVec Ideal s φ) (i : s.Idx) :
    Idealize.ShloMosaic.tanh a i = Ideal.tanh (a i) := rfl

/-- The gated update at `(p, j)` from the six values the store's payload reads: the three input-side blocks
    `gi0`, `gi1`, `gi2`, the state-side pre-activations `gh` (all 384 columns) with their first block `gh0`, and the
    node's own rows `h`. -/
theorem pay1_apply (gh : FVec Ideal S2000x384 .f32) (gi0 gi1 gi2 gh0 : FVec Ideal S2000x128 .f32)
    (h : Vec Ideal S2000x128 .f32) (p : Fin 2000) (j : Fin 128) :
    k0_pay1 (F := Ideal) gh gi0 gi1 gi2 gh0 h (ix2 p j)
      = (one - Ideal.logistic (gi1 (ix2 p j) + gh (ix2 p (col1 j))))
          * Ideal.tanh (gi2 (ix2 p j) + Ideal.logistic (gi0 (ix2 p j) + gh0 (ix2 p j)) * gh (ix2 p (col2 j)))
        + Ideal.logistic (gi1 (ix2 p j) + gh (ix2 p (col1 j))) * h (ix2 p j) := by
  unfold k0_pay1
  simp only [addf_apply, mulf_apply, subf_apply, broadcast_apply, logistic_apply, tanh_apply]
  rw [slice2_axis1_apply 128 gh _ p j (col1 j) rfl, slice2_axis1_apply 256 gh _ p j (col2 j) rfl]
  rfl

theorem pay4_apply (v0 : Vec Ideal S2000x128 .f32) (v3 : Vec Ideal S128x128 .f32) (v7 : Vec Ideal S2000x1 .f32)
    (v9 : Vec Ideal S1x128 .f32) (v18 : Vec Ideal S128x384 .f32) (v25 : Vec Ideal S1x384 .f32) (p : Fin 2000) (j : Fin 128) :
    k0_pay4 (F := Ideal) v0 v3 v7 v9 v18 v25 (ix2 p j) = k0_pay2 (F := Ideal) v0 v3 v7 v9 v18 v25 (ix2 p (col0 j)) := by
  unfold k0_pay4
  exact slice2_axis1_apply 0 _ _ p j (col0 j) (Nat.zero_add _).symm
theorem pay5_apply (v0 : Vec Ideal S2000x128 .f32) (v3 : Vec Ideal S128x128 .f32) (v7 : Vec Ideal S2000x1 .f32)
    (v9 : Vec Ideal S1x128 .f32) (v18 : Vec Ideal S128x384 .f32) (v25 : Vec Ideal S1x384 .f32) (p : Fin 2000) (j : Fin 128) :
    k0_pay5 (F := Ideal) v0 v3 v7 v9 v18 v25 (ix2 p j) = k0_pay2 (F := Ideal) v0 v3 v7 v9 v18 v25 (ix2 p (col1 j)) := by
  unfold k0_pay5
  exact slice2_axis1_apply 128 _ _ p j (col1 j) rfl
theorem pay6_apply (v0 : Vec Ideal S2000x128 .f32) (v3 : Vec Ideal S128x128 .f32) (v7 : Vec Ideal S2000x1 .f32)
    (v9 : Vec Ideal S1x128 .f32) (v18 : Vec Ideal S128x384 .f32) (v25 : Vec Ideal S1x384 .f32) (p : Fin 2000) (j : Fin 128) :
    k0_pay6 (F := Ideal) v0 v3 v7 v9 v18 v25 (ix2 p j) = k0_pay2 (F := Ideal) v0 v3 v7 v9 v18 v25 (ix2 p (col2 j)) := by
  unfold k0_pay6
  exact slice2_axis1_apply 256 _ _ p j (col2 j) rfl
theorem pay7_apply (v16 : Vec Ideal S2000x128 .f32) (v21 : Vec Ideal S128x384 .f32) (v30 : Vec Ideal S1x384 .f32)
    (p : Fin 2000) (j : Fin 128) :
    k0_pay7 (F := Ideal) v16 v21 v30 (ix2 p j) = k0_pay3 (F := Ideal) v16 v21 v30 (ix2 p (col0 j)) := by
  unfold k0_pay7
  exact slice2_axis1_apply 0 _ _ p j (col0 j) (Nat.zero_add _).symm

theorem gru_off_zero : (![0, 0] : Fin 2 → Nat) = fun _ => 0 := funext fun a => by fin_cases a <;> rfl

/-- What the first launch of the gated-update kernel leaves at `(p, j)`: the cell formula of node `p`'s three rows. -/
theorem out0_9_apply (x0 : Vec Ideal S2000x128 .f32) (x1 : Vec Ideal S2000x1 .f32) (x2 : Vec Ideal S2000x128 .f32)
    (x3 : Vec Ideal S128x128 .f32) (x4 : Vec Ideal S1x128 .f32) (x5 : Vec Ideal S128x384 .f32) (x6 : Vec Ideal S1x384 .f32)
    (x7 : Vec Ideal S128x384 .f32) (x8 : Vec Ideal S1x384 .f32) (p : Fin 2000) (j : Fin 128) :
    Gen.out0_9 (F := Ideal) x0 x1 x2 x3 x4 x5 x6 x7 x8 (ix2 p j)
      = gruCell (fun k => x0 (ix2 p k)) (x1 (ix2 p 0)) (fun k => x2 (ix2 p k)) x3 x4 x5 x6 x7 x8 j := by
  unfold Gen.out0_9
  rw [View.canon_unit_zero gru_off_zero]
  simp only [View.ld_unit_zero (S := S2000x128) gru_off_zero, View.ld_unit_zero (S := S2000x1) gru_off_zero, View.ld_unit_zero (S := S128x128) gru_off_zero,
    View.ld_unit_zero (S := S1x128) gru_off_zero, View.ld_unit_zero (S := S128x384) gru_off_zero, View.ld_unit_zero (S := S1x384) gru_off_zero]
  rw [pay1_apply, pay4_apply, pay5_apply, pay6_apply, pay7_apply]
  simp only [pay2_apply, pay3_apply]
  rfl

/-! ## The second and third launches

Their payloads are cut one operation later: the state-side first block is sliced inside the store's payload, and the
node's own rows pass through a cast to their own shape. -/

theorem k1_pay2_eq : @k1_pay2 Ideal _ = @k0_pay2 Ideal _ := rfl

theorem pay3'_apply (v16 : Vec Ideal S2000x128 .f32) (v22 : Vec Ideal S128x384 .f32) (v31 : Vec Ideal S1x384 .f32)
    (p : Fin 2000) (c : Fin 384) :
    k1_pay3 (F := Ideal) v16 v22 v31 (ix2 p c) = gateRow (fun k => v16 (ix2 p k)) v22 v31 c := by
  unfold k1_pay3
  simp only [shapeCast_self]
  refine (addf_apply _ _ _).trans ?_
  rw [mmG_apply, broadcastTo_1b_ab_apply]
  rfl

/-- The gated update at `(p, j)` from the five values the later launches' store reads. -/
theorem pay1'_apply (gh : FVec Ideal S2000x384 .f32) (gi0 gi1 gi2 : FVec Ideal S2000x128 .f32)
    (h : Vec Ideal S2000x128 .f32) (p : Fin 2000) (j : Fin 128) :
    k1_pay1 (F := Ideal) gh gi0 gi1 gi2 h (ix2 p j)
      = (one - Ideal.logistic (gi1 (ix2 p j) + gh (ix2 p (col1 j))))
          * Ideal.tanh (gi2 (ix2 p j) + Ideal.logistic (gi0 (ix2 p j) + gh (ix2 p (col0 j))) * gh (ix2 p (col2 j)))
        + Ideal.logistic (gi1 (ix2 p j) + gh (ix2 p (col1 j))) * h (ix2 p j) := by
  unfold k1_pay1
  simp only [shapeCast_self, addf_apply, mulf_apply, subf_apply, broadcast_apply, logistic_apply, tanh_apply]
  rw [slice2_axis1_apply 0 gh _ p j (col0 j) (Nat.zero_add _).symm, slice2_axis1_apply 128 gh _ p j (col1 j) rfl,
    slice2_axis1_apply 256 gh _ p j (col2 j) rfl]
  rfl

theorem pay4'_apply (v0 : Vec Ideal S2000x128 .f32) (v3 : Vec Ideal S128x128 .f32) (v7 : Vec Ideal S2000x1 .f32)
    (v9 : Vec Ideal S1x128 .f32) (v18 : Vec Ideal S128x384 .f32) (v25 : Vec Ideal S1x384 .f32) (p : Fin 2000) (j : Fin 128) :
    k1_pay4 (F := Ideal) v0 v3 v7 v9 v18 v25 (ix2 p j) = k0_pay2 (F := Ideal) v0 v3 v7 v9 v18 v25 (ix2 p (col0 j)) := by
  unfold k1_pay4
  rw [k1_pay2_eq]
  exact slice2_axis1_apply 0 _ _ p j (col0 j) (Nat.zero_add _).symm
theorem pay5'_apply (v0 : Vec Ideal S2000x128 .f32) (v3 : Vec Ideal S128x128 .f32) (v7 : Vec Ideal S2000x1 .f32)
    (v9 : Vec Ideal S1x128 .f32) (v18 : Vec Ideal S128x384 .f32) (v25 : Vec Ideal S1x384 .f32) (p : Fin 2000) (j : Fin 128) :
    k1_pay5 (F := Ideal) v0 v3 v7 v9 v18 v25 (ix2 p j) = k0_pay2 (F := Ideal) v0 v3 v7 v9 v18 v25 (ix2 p (col1 j)) := by
  unfold k1_pay5
  rw [k1_pay2_eq]
  exact slice2_axis1_apply 128 _ _ p j (col1 j) rfl
theorem pay6'_apply (v0 : Vec Ideal S2000x128 .f32) (v3 : Vec Ideal S128x128 .f32) (v7 : Vec Ideal S2000x1 .f32)
    (v9 : Vec Ideal S1x128 .f32) (v18 : Vec Ideal S128x384 .f32) (v25 : Vec Ideal S1x384 .f32) (p : Fin 2000) (j : Fin 128) :
    k1_pay6 (F := Ideal) v0 v3 v7 v9 v18 v25 (ix2 p j) = k0_pay2 (F := Ideal) v0 v3 v7 v9 v18 v25 (ix2 p (col2 j)) := by
  unfold k1_pay6
  rw [k1_pay2_eq]
  exact slice2_axis1_apply 256 _ _ p j (col2 j) rfl

/-- What the second launch leaves at `(p, j)`: the same cell formula. -/
theorem out1_9_apply (x0 : Vec Ideal S2000x128 .f32) (x1 : Vec Ideal S2000x1 .f32) (x2 : Vec Ideal S2000x128 .f32)
    (x3 : Vec Ideal S128x128 .f32) (x4 : Vec Ideal S1x128 .f32) (x5 : Vec Ideal S128x384 .f32) (x6 : Vec Ideal S1x384 .f32)
    (x7 : Vec Ideal S128x384 .f32) (x8 : Vec Ideal S1x384 .f32) (p : Fin 2000) (j : Fin 128) :
    Gen.out1_9 (F := Ideal) x0 x1 x2 x3 x4 x5 x6 x7 x8 (ix2 p j)
      = gruCell (fun k => x0 (ix2 p k)) (x1 (ix2 p 0)) (fun k => x2 (ix2 p k)) x3 x4 x5 x6 x7 x8 j := by
  unfold Gen.out1_9
  rw [View.canon_unit_zero gru_off_zero]
  simp only [View.ld_unit_zero (S := S2000x128) gru_off_zero, View.ld_unit_zero (S := S2000x1) gru_off_zero, View.ld_unit_zero (S := S128x128) gru_off_zero,
    View.ld_unit_zero (S := S1x128) gru_off_zero, View.ld_unit_zero (S := S128x384) gru_off_zero, View.ld_unit_zero (S := S1x384) gru_off_zero]
  rw [pay1'_apply, pay4'_apply, pay5'_apply, pay6'_apply]
  simp only [pay2_apply, pay3'_apply]
  rfl

theorem out2_9_eq : @Gen.out2_9 Ideal _ = @Gen.out1_9 Ideal _ := rfl

/-- What the third launch leaves at `(p, j)`: the same cell formula. -/
theorem out2_9_apply (x0 : Vec Ideal S2000x128 .f32) (x1 : Vec Ideal S2000x1 .f32) (x2 : Vec Ideal S2000x128 .f32)
    (x3 : Vec Ideal S128x128 .f32) (x4 : Vec Ideal S1x128 .f32) (x5 : Vec Ideal S128x384 .f32) (x6 : Vec Ideal S1x384 .f32)
    (x7 : Vec Ideal S128x384 .f32) (x8 : Vec Ideal S1x384 .f32) (p : Fin 2000) (j : Fin 128) :
    Gen.out2_9 (F := Ideal) x0 x1 x2 x3 x4 x5 x6 x7 x8 (ix2 p j)
      = gruCell (fun k => x0 (ix2 p k)) (x1 (ix2 p 0)) (fun k => x2 (ix2 p k)) x3 x4 x5 x6 x7 x8 j := by
  rw [out2_9_eq]
  exact out1_9_apply x0 x1 x2 x3 x4 x5 x6 x7 x8 p j

end Cert.KernelIdeal.Body

end
-- ==== Proof.RegionGru0.lean ====
/-
  From blocks to the whole array, for launch 0 of the gated-update kernel, at arbitrary contents `V` of the buffers the
  launch finds.

  The grid has 50 points; point `t` stages rows `2000·t … 2000·t + 1999` of the three row-blocked inputs (the summed
  neighbour rows, the in-degree column, the nodes' own rows) and the six parameter arrays whole, and writes the body's
  result back to the same rows of the output.  The body's result at row `p`, column `j` of a block is the gated cell of
  row `p` of the three blocks; so what point `t` writes back is block `t` of ONE function of the arrays — row by row,
  the gated cell of that row — and since row `n` lies in the block of point `n / 2000`, the output array ends as that function.
-/
import proofs.«108194_j40132174414161_2_alg».proof.Proof.Gen.KernelIdeal.Frame
import proofs.«108194_j40132174414161_2_alg».proof.Proof.Cell
import proofs.«108194_j40132174414161_2_alg».proof.Proof.BodyGru
import Idealize.ShloMosaic.Lib.Pipeline.Value
import Idealize.ShloMosaic.Lib.ValueIdx

noncomputable section

namespace Cert.KernelIdeal.Region

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-! ## Where each window's block sits -/

/-- The block indices of the row-blocked windows at a grid point: the three inputs and the output sit at block row `t`. -/
theorem idx0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_9.index t (0 : Fin 2) = t.val ∧ win0_9.index t (1 : Fin 2) = 0 :=
  (by decide +kernel : ∀ t : Fin grid0.N, _)

/-- The six parameter arrays sit at block (0, 0) at every grid point. -/
theorem idx0' : ∀ t : Fin cfg0.N,
    win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0 :=
  (by decide +kernel : ∀ t : Fin grid0.N, _)

/-! ## Each input block, read off its array

A row-blocked input's block at point `t`, at block index `x`, is its array at row `2000·t + x₀`, same column; a
parameter array's block is the array. -/

theorem blk0_0 (c : Dev nD) (t : Fin cfg0.N) (x : S2000x128.Idx) (k : S100000x128.Idx)
    (hk0 : (k 0).val = t.val * 2000 + (x 0).val) (hk1 : (k 1).val = (x 1).val) :
    (iblk0 V c 0 t : Vec Ideal S2000x128 .f32) x = (V c main_v21 : S100000x128.Idx → EReal) k := by
  obtain ⟨e0, e1, -⟩ := idx0 t
  unfold iblk0
  rw [View.read_apply]
  show V c main_v21 _ = V c main_v21 _
  congr 1
  funext a
  apply Fin.ext
  match a with
  | ⟨0, _⟩ => show win0_0.index t (0 : Fin 2) * 2000 + 1 * (x 0).val = (k 0).val; omega
  | ⟨1, _⟩ => show win0_0.index t (1 : Fin 2) * 128 + 1 * (x 1).val = (k 1).val; omega

theorem blk0_1 (c : Dev nD) (t : Fin cfg0.N) (x : S2000x1.Idx) (k : S100000x1.Idx)
    (hk0 : (k 0).val = t.val * 2000 + (x 0).val) (hk1 : (k 1).val = (x 1).val) :
    (iblk0 V c 1 t : Vec Ideal S2000x1 .f32) x = (V c main_v9 : S100000x1.Idx → EReal) k := by
  obtain ⟨-, -, e0, e1, -⟩ := idx0 t
  unfold iblk0
  rw [View.read_apply]
  show V c main_v9 _ = V c main_v9 _
  congr 1
  funext a
  apply Fin.ext
  match a with
  | ⟨0, _⟩ => show win0_1.index t (0 : Fin 2) * 2000 + 1 * (x 0).val = (k 0).val; omega
  | ⟨1, _⟩ => show win0_1.index t (1 : Fin 2) * 1 + 1 * (x 1).val = (k 1).val; omega

theorem blk0_2 (c : Dev nD) (t : Fin cfg0.N) (x : S2000x128.Idx) (k : S100000x128.Idx)
    (hk0 : (k 0).val = t.val * 2000 + (x 0).val) (hk1 : (k 1).val = (x 1).val) :
    (iblk0 V c 2 t : Vec Ideal S2000x128 .f32) x = (V c main_arg0 : S100000x128.Idx → EReal) k := by
  obtain ⟨-, -, -, -, e0, e1, -⟩ := idx0 t
  unfold iblk0
  rw [View.read_apply]
  show V c main_arg0 _ = V c main_arg0 _
  congr 1
  funext a
  apply Fin.ext
  match a with
  | ⟨0, _⟩ => show win0_2.index t (0 : Fin 2) * 2000 + 1 * (x 0).val = (k 0).val; omega
  | ⟨1, _⟩ => show win0_2.index t (1 : Fin 2) * 128 + 1 * (x 1).val = (k 1).val; omega

theorem blk0_3 (c : Dev nD) (t : Fin cfg0.N) :
    (iblk0 V c 3 t : Vec Ideal S128x128 .f32) = (V c main_v0 : S128x128.Idx → EReal) := by
  obtain ⟨e0, e1, -⟩ := idx0' t
  funext x
  unfold iblk0
  rw [View.read_apply]
  show V c main_v0 _ = V c main_v0 _
  congr 1
  funext a
  apply Fin.ext
  match a with
  | ⟨0, _⟩ => show win0_3.index t (0 : Fin 2) * 128 + 1 * (x 0).val = (x 0).val; omega
  | ⟨1, _⟩ => show win0_3.index t (1 : Fin 2) * 128 + 1 * (x 1).val = (x 1).val; omega

theorem blk0_4 (c : Dev nD) (t : Fin cfg0.N) :
    (iblk0 V c 4 t : Vec Ideal S1x128 .f32) = (V c main_v3 : S1x128.Idx → EReal) := by
  obtain ⟨-, -, e0, e1, -⟩ := idx0' t
  funext x
  unfold iblk0
  rw [View.read_apply]
  show V c main_v3 _ = V c main_v3 _
  congr 1
  funext a
  apply Fin.ext
  match a with
  | ⟨0, _⟩ => show win0_4.index t (0 : Fin 2) * 1 + 1 * (x 0).val = (x 0).val; omega
  | ⟨1, _⟩ => show win0_4.index t (1 : Fin 2) * 128 + 1 * (x 1).val = (x 1).val; omega

theorem blk0_5 (c : Dev nD) (t : Fin cfg0.N) :
    (iblk0 V c 5 t : Vec Ideal S128x384 .f32) = (V c main_v1 : S128x384.Idx → EReal) := by
  obtain ⟨-, -, -, -, e0, e1, -⟩ := idx0' t
  funext x
  unfold iblk0
  rw [View.read_apply]
  show V c main_v1 _ = V c main_v1 _
  congr 1
  funext a
  apply Fin.ext
  match a with
  | ⟨0, _⟩ => show win0_5.index t (0 : Fin 2) * 128 + 1 * (x 0).val = (x 0).val; omega
  | ⟨1, _⟩ => show win0_5.index t (1 : Fin 2) * 384 + 1 * (x 1).val = (x 1).val; omega

theorem blk0_6 (c : Dev nD) (t : Fin cfg0.N) :
    (iblk0 V c 6 t : Vec Ideal S1x384 .f32) = (V c main_v4 : S1x384.Idx → EReal) := by
  obtain ⟨-, -, -, -, -, -, e0, e1, -⟩ := idx0' t
  funext x
  unfold iblk0
  rw [View.read_apply]
  show V c main_v4 _ = V c main_v4 _
  congr 1
  funext a
  apply Fin.ext
  match a with
  | ⟨0, _⟩ => show win0_6.index t (0 : Fin 2) * 1 + 1 * (x 0).val = (x 0).val; omega
  | ⟨1, _⟩ => show win0_6.index t (1 : Fin 2) * 384 + 1 * (x 1).val = (x 1).val; omega

theorem blk0_7 (c : Dev nD) (t : Fin cfg0.N) :
    (iblk0 V c 7 t : Vec Ideal S128x384 .f32) = (V c main_v2 : S128x384.Idx → EReal) := by
  obtain ⟨-, -, -, -, -, -, -, -, e0, e1, -⟩ := idx0' t
  funext x
  unfold iblk0
  rw [View.read_apply]
  show V c main_v2 _ = V c main_v2 _
  congr 1
  funext a
  apply Fin.ext
  match a with
  | ⟨0, _⟩ => show win0_7.index t (0 : Fin 2) * 128 + 1 * (x 0).val = (x 0).val; omega
  | ⟨1, _⟩ => show win0_7.index t (1 : Fin 2) * 384 + 1 * (x 1).val = (x 1).val; omega

theorem blk0_8 (c : Dev nD) (t : Fin cfg0.N) :
    (iblk0 V c 8 t : Vec Ideal S1x384 .f32) = (V c main_v5 : S1x384.Idx → EReal) := by
  obtain ⟨-, -, -, -, -, -, -, -, -, -, e0, e1⟩ := idx0' t
  funext x
  unfold iblk0
  rw [View.read_apply]
  show V c main_v5 _ = V c main_v5 _
  congr 1
  funext a
  apply Fin.ext
  match a with
  | ⟨0, _⟩ => show win0_8.index t (0 : Fin 2) * 1 + 1 * (x 0).val = (x 0).val; omega
  | ⟨1, _⟩ => show win0_8.index t (1 : Fin 2) * 384 + 1 * (x 1).val = (x 1).val; omega

/-! ## The cover -/

/-- An index of the output array lies in point `t`'s block iff each coordinate is in the block's range on its axis. -/
theorem mem_blk0 (t : Fin cfg0.N) (i : S100000x128.Idx) :
    i ∈ ((cfg0.win 9).blk t).view.set ↔ ∀ a : Fin 2, win0_9.index t a * S2000x128.size a ≤ (i a).val ∧ (i a).val < win0_9.index t a * S2000x128.size a + S2000x128.size a := by
  show i ∈ ((View.whole main_v22).slice (win0_9.rect t)).set ↔ _
  rw [View.set_slice_whole, Rect.mem_set_unit]
  exact Iff.rfl

/-- Row `n` of the output is written by grid point `n / 2000`. -/
theorem cover0 (i : S100000x128.Idx) :
    ∃ t : Fin cfg0.N, (cfg0.win 9).flush t = true ∧ i ∈ ((cfg0.win 9).blk t).view.set := by
  have hi0 : (i 0).val < 100000 := (i 0).isLt
  have hi1 : (i 1).val < 128 := (i 1).isLt
  obtain ⟨t, ht⟩ : ∃ t : Fin cfg0.N, t.val = (i 0).val / 2000 :=
    ⟨⟨(i 0).val / 2000, by rw [show cfg0.N = 50 from N_0]; omega⟩, rfl⟩
  obtain ⟨-, -, -, -, -, -, e0, e1⟩ := idx0 t
  refine ⟨t, flush0_9 t, ?_⟩
  rw [mem_blk0]
  intro a
  match a with
  | ⟨0, _⟩ => show win0_9.index t (0 : Fin 2) * 2000 ≤ (i 0).val ∧ (i 0).val < win0_9.index t (0 : Fin 2) * 2000 + 2000; omega
  | ⟨1, _⟩ => show win0_9.index t (1 : Fin 2) * 128 ≤ (i 1).val ∧ (i 1).val < win0_9.index t (1 : Fin 2) * 128 + 128; omega

/-! ## What a point writes back, and the array

Stated for any per-row function `cell` that the body's result is, row by row (`hbody`); the last theorem takes the
gated cell for it. -/

section
variable (cell : (Fin 128 → EReal) → EReal → (Fin 128 → EReal) → (S128x128.Idx → EReal) → (S1x128.Idx → EReal) → (S128x384.Idx → EReal) → (S1x384.Idx → EReal) → (S128x384.Idx → EReal) → (S1x384.Idx → EReal) → Fin 128 → EReal)
variable (hbody : ∀ (x0 : Vec Ideal S2000x128 .f32) (x1 : Vec Ideal S2000x1 .f32) (x2 : Vec Ideal S2000x128 .f32) (x3 : Vec Ideal S128x128 .f32) (x4 : Vec Ideal S1x128 .f32) (x5 : Vec Ideal S128x384 .f32) (x6 : Vec Ideal S1x384 .f32) (x7 : Vec Ideal S128x384 .f32) (x8 : Vec Ideal S1x384 .f32) (p : Fin 2000) (j : Fin 128),
   out0_9 (F := Ideal) x0 x1 x2 x3 x4 x5 x6 x7 x8 (ix2 p j) = cell (fun k => x0 (ix2 p k)) (x1 (ix2 p 0)) (fun k => x2 (ix2 p k)) x3 x4 x5 x6 x7 x8 j)

/-- The array function: at row `i₀`, column `i₁`, the cell of row `i₀` of the three row-blocked arrays. -/
abbrev G0 (A : S100000x128.Idx → EReal) (D : S100000x1.Idx → EReal) (Hh : S100000x128.Idx → EReal)
    (WeT : S128x128.Idx → EReal) (be : S1x128.Idx → EReal) (WihT : S128x384.Idx → EReal) (bih : S1x384.Idx → EReal)
    (WhhT : S128x384.Idx → EReal) (bhh : S1x384.Idx → EReal) : S100000x128.Idx → EReal :=
  fun i => cell (fun k => A (ix2 (i 0) k)) (D (ix2 (i 0) 0)) (fun k => Hh (ix2 (i 0) k)) WeT be WihT bih WhhT bhh (i 1)

include hbody in
/-- At one grid point: if the three row-blocked input blocks are rows `2000·n …` of their arrays, the body's result at a
    block index is the array function at the matching array index. -/
theorem point0 (x0 : Vec Ideal S2000x128 .f32) (x1 : Vec Ideal S2000x1 .f32) (x2 : Vec Ideal S2000x128 .f32) (x3 : Vec Ideal S128x128 .f32) (x4 : Vec Ideal S1x128 .f32) (x5 : Vec Ideal S128x384 .f32) (x6 : Vec Ideal S1x384 .f32) (x7 : Vec Ideal S128x384 .f32) (x8 : Vec Ideal S1x384 .f32)
    (A : S100000x128.Idx → EReal) (D : S100000x1.Idx → EReal) (Hh : S100000x128.Idx → EReal) (n : Nat)
    (h0 : ∀ (x : S2000x128.Idx) (k : S100000x128.Idx), (k 0).val = n * 2000 + (x 0).val → (k 1).val = (x 1).val → x0 x = A k)
    (h1 : ∀ (x : S2000x1.Idx) (k : S100000x1.Idx), (k 0).val = n * 2000 + (x 0).val → (k 1).val = (x 1).val → x1 x = D k)
    (h2 : ∀ (x : S2000x128.Idx) (k : S100000x128.Idx), (k 0).val = n * 2000 + (x 0).val → (k 1).val = (x 1).val → x2 x = Hh k)
    (y : S2000x128.Idx) (i : S100000x128.Idx) (hi0 : (i 0).val = n * 2000 + (y 0).val) (hi1 : (i 1).val = (y 1).val) :
    out0_9 (F := Ideal) x0 x1 x2 x3 x4 x5 x6 x7 x8 y = G0 cell A D Hh x3 x4 x5 x6 x7 x8 i := by
  obtain ⟨p, q, rfl⟩ : ∃ (p : Fin 2000) (q : Fin 128), y = ix2 p q := ⟨y 0, y 1, eq_ix2 y⟩
  rw [hbody]
  have ea : (fun k : Fin 128 => x0 (ix2 p k)) = fun k : Fin 128 => A (ix2 (i 0) k) := funext fun k => h0 (ix2 p k) (ix2 (i 0) k) hi0 rfl
  have ed : x1 (ix2 p 0) = D (ix2 (i 0) 0) := h1 (ix2 p 0) (ix2 (i 0) 0) hi0 rfl
  have eh : (fun k : Fin 128 => x2 (ix2 p k)) = fun k : Fin 128 => Hh (ix2 (i 0) k) := funext fun k => h2 (ix2 p k) (ix2 (i 0) k) hi0 rfl
  have eq : q = i 1 := Fin.ext hi1.symm
  rw [ea, ed, eh, eq]

include hbody in
/-- What grid point `t` writes back is block `t` of the array function of the arrays the launch finds. -/
theorem flushed0_eq (c : Dev nD) (t : Fin cfg0.N) :
    (dat0 V c).flushed 9 t = ((cfg0.win 9).blk t).view.read (Elt Ideal)
      (G0 cell (V c main_v21) (V c main_v9) (V c main_arg0) (V c main_v0) (V c main_v3) (V c main_v1) (V c main_v4) (V c main_v2) (V c main_v5)) := by
  show (cfg0.win 9).cut (grid0.coords t) ((dat0 V c).after 9 t) = _
  rw [after0_9, blk0_3, blk0_4, blk0_5, blk0_6, blk0_7, blk0_8]
  obtain ⟨-, -, -, -, -, -, e0, e1⟩ := idx0 t
  funext y
  rw [View.read_apply]
  refine point0 cell hbody (iblk0 V c 0 t) (iblk0 V c 1 t) (iblk0 V c 2 t) (V c main_v0) (V c main_v3) (V c main_v1) (V c main_v4) (V c main_v2) (V c main_v5)
    (V c main_v21) (V c main_v9) (V c main_arg0) t.val (blk0_0 V c t) (blk0_1 V c t) (blk0_2 V c t) y _ ?_ ?_
  · show win0_9.index t (0 : Fin 2) * 2000 + 1 * (y 0).val = t.val * 2000 + (y 0).val; omega
  · show win0_9.index t (1 : Fin 2) * 128 + 1 * (y 1).val = (y 1).val; omega

include hbody in
/-- The output array after the launch is the array function: every row is in some point's block. -/
theorem arr0_of (c : Dev nD) : (dat0 V c).arrAt 9 cfg0.N
    = G0 cell (V c main_v21) (V c main_v9) (V c main_arg0) (V c main_v0) (V c main_v3) (V c main_v1) (V c main_v4) (V c main_v2) (V c main_v5) :=
  (dat0 V c).arrAt_eq_of_cover 9 _ (fun t _ => flushed0_eq V cell hbody c t) cover0

end

/-- The output array after the launch: row by row, the gated cell of that row of the summed neighbour rows, the
    in-degree column and the nodes' own rows, with the six parameter arrays as the launch finds them. -/
theorem arr0 (c : Dev nD) : (dat0 V c).arrAt 9 cfg0.N
    = fun i : S100000x128.Idx => Cert.Cell.gruCell (fun k => V c main_v21 (ix2 (i 0) k)) (V c main_v9 (ix2 (i 0) 0))
        (fun k => V c main_arg0 (ix2 (i 0) k)) (V c main_v0) (V c main_v3) (V c main_v1) (V c main_v4) (V c main_v2) (V c main_v5) (i 1) :=
  arr0_of V Cert.Cell.gruCell Cert.KernelIdeal.Body.out0_9_apply c

end Cert.KernelIdeal.Region

end
-- ==== Proof.RegionGru1.lean ====
/-
  From blocks to the whole array, for launch 1 of the gated-update kernel, at arbitrary contents `V` of the buffers the
  launch finds.

  The grid has 50 points; point `t` stages rows `2000·t … 2000·t + 1999` of the three row-blocked inputs (the summed
  neighbour rows, the in-degree column, the nodes' own rows) and the six parameter arrays whole, and writes the body's
  result back to the same rows of the output.  The body's result at row `p`, column `j` of a block is the gated cell of
  row `p` of the three blocks; so what point `t` writes back is block `t` of ONE function of the arrays — row by row,
  the gated cell of that row — and since row `n` lies in the block of point `n / 2000`, the output array ends as that function.
-/
import proofs.«108194_j40132174414161_2_alg».proof.Proof.Gen.KernelIdeal.Frame
import proofs.«108194_j40132174414161_2_alg».proof.Proof.Cell
import proofs.«108194_j40132174414161_2_alg».proof.Proof.BodyGru
import Idealize.ShloMosaic.Lib.Pipeline.Value
import Idealize.ShloMosaic.Lib.ValueIdx

noncomputable section

namespace Cert.KernelIdeal.Region

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-! ## Where each window's block sits -/

/-- The block indices of the row-blocked windows at a grid point: the three inputs and the output sit at block row `t`. -/
theorem idx1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_9.index t (0 : Fin 2) = t.val ∧ win1_9.index t (1 : Fin 2) = 0 :=
  (by decide +kernel : ∀ t : Fin grid1.N, _)

/-- The six parameter arrays sit at block (0, 0) at every grid point. -/
theorem idx1' : ∀ t : Fin cfg1.N,
    win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = 0 ∧ win1_8.index t (1 : Fin 2) = 0 :=
  (by decide +kernel : ∀ t : Fin grid1.N, _)

/-! ## Each input block, read off its array

A row-blocked input's block at point `t`, at block index `x`, is its array at row `2000·t + x₀`, same column; a
parameter array's block is the array. -/

theorem blk1_0 (c : Dev nD) (t : Fin cfg1.N) (x : S2000x128.Idx) (k : S100000x128.Idx)
    (hk0 : (k 0).val = t.val * 2000 + (x 0).val) (hk1 : (k 1).val = (x 1).val) :
    (iblk1 V c 0 t : Vec Ideal S2000x128 .f32) x = (V c main_v34 : S100000x128.Idx → EReal) k := by
  obtain ⟨e0, e1, -⟩ := idx1 t
  unfold iblk1
  rw [View.read_apply]
  show V c main_v34 _ = V c main_v34 _
  congr 1
  funext a
  apply Fin.ext
  match a with
  | ⟨0, _⟩ => show win1_0.index t (0 : Fin 2) * 2000 + 1 * (x 0).val = (k 0).val; omega
  | ⟨1, _⟩ => show win1_0.index t (1 : Fin 2) * 128 + 1 * (x 1).val = (k 1).val; omega

theorem blk1_1 (c : Dev nD) (t : Fin cfg1.N) (x : S2000x1.Idx) (k : S100000x1.Idx)
    (hk0 : (k 0).val = t.val * 2000 + (x 0).val) (hk1 : (k 1).val = (x 1).val) :
    (iblk1 V c 1 t : Vec Ideal S2000x1 .f32) x = (V c main_v9 : S100000x1.Idx → EReal) k := by
  obtain ⟨-, -, e0, e1, -⟩ := idx1 t
  unfold iblk1
  rw [View.read_apply]
  show V c main_v9 _ = V c main_v9 _
  congr 1
  funext a
  apply Fin.ext
  match a with
  | ⟨0, _⟩ => show win1_1.index t (0 : Fin 2) * 2000 + 1 * (x 0).val = (k 0).val; omega
  | ⟨1, _⟩ => show win1_1.index t (1 : Fin 2) * 1 + 1 * (x 1).val = (k 1).val; omega

theorem blk1_2 (c : Dev nD) (t : Fin cfg1.N) (x : S2000x128.Idx) (k : S100000x128.Idx)
    (hk0 : (k 0).val = t.val * 2000 + (x 0).val) (hk1 : (k 1).val = (x 1).val) :
    (iblk1 V c 2 t : Vec Ideal S2000x128 .f32) x = (V c main_v22 : S100000x128.Idx → EReal) k := by
  obtain ⟨-, -, -, -, e0, e1, -⟩ := idx1 t
  unfold iblk1
  rw [View.read_apply]
  show V c main_v22 _ = V c main_v22 _
  congr 1
  funext a
  apply Fin.ext
  match a with
  | ⟨0, _⟩ => show win1_2.index t (0 : Fin 2) * 2000 + 1 * (x 0).val = (k 0).val; omega
  | ⟨1, _⟩ => show win1_2.index t (1 : Fin 2) * 128 + 1 * (x 1).val = (k 1).val; omega

theorem blk1_3 (c : Dev nD) (t : Fin cfg1.N) :
    (iblk1 V c 3 t : Vec Ideal S128x128 .f32) = (V c main_v0 : S128x128.Idx → EReal) := by
  obtain ⟨e0, e1, -⟩ := idx1' t
  funext x
  unfold iblk1
  rw [View.read_apply]
  show V c main_v0 _ = V c main_v0 _
  congr 1
  funext a
  apply Fin.ext
  match a with
  | ⟨0, _⟩ => show win1_3.index t (0 : Fin 2) * 128 + 1 * (x 0).val = (x 0).val; omega
  | ⟨1, _⟩ => show win1_3.index t (1 : Fin 2) * 128 + 1 * (x 1).val = (x 1).val; omega

theorem blk1_4 (c : Dev nD) (t : Fin cfg1.N) :
    (iblk1 V c 4 t : Vec Ideal S1x128 .f32) = (V c main_v3 : S1x128.Idx → EReal) := by
  obtain ⟨-, -, e0, e1, -⟩ := idx1' t
  funext x
  unfold iblk1
  rw [View.read_apply]
  show V c main_v3 _ = V c main_v3 _
  congr 1
  funext a
  apply Fin.ext
  match a with
  | ⟨0, _⟩ => show win1_4.index t (0 : Fin 2) * 1 + 1 * (x 0).val = (x 0).val; omega
  | ⟨1, _⟩ => show win1_4.index t (1 : Fin 2) * 128 + 1 * (x 1).val = (x 1).val; omega

theorem blk1_5 (c : Dev nD) (t : Fin cfg1.N) :
    (iblk1 V c 5 t : Vec Ideal S128x384 .f32) = (V c main_v1 : S128x384.Idx → EReal) := by
  obtain ⟨-, -, -, -, e0, e1, -⟩ := idx1' t
  funext x
  unfold iblk1
  rw [View.read_apply]
  show V c main_v1 _ = V c main_v1 _
  congr 1
  funext a
  apply Fin.ext
  match a with
  | ⟨0, _⟩ => show win1_5.index t (0 : Fin 2) * 128 + 1 * (x 0).val = (x 0).val; omega
  | ⟨1, _⟩ => show win1_5.index t (1 : Fin 2) * 384 + 1 * (x 1).val = (x 1).val; omega

theorem blk1_6 (c : Dev nD) (t : Fin cfg1.N) :
    (iblk1 V c 6 t : Vec Ideal S1x384 .f32) = (V c main_v4 : S1x384.Idx → EReal) := by
  obtain ⟨-, -, -, -, -, -, e0, e1, -⟩ := idx1' t
  funext x
  unfold iblk1
  rw [View.read_apply]
  show V c main_v4 _ = V c main_v4 _
  congr 1
  funext a
  apply Fin.ext
  match a with
  | ⟨0, _⟩ => show win1_6.index t (0 : Fin 2) * 1 + 1 * (x 0).val = (x 0).val; omega
  | ⟨1, _⟩ => show win1_6.index t (1 : Fin 2) * 384 + 1 * (x 1).val = (x 1).val; omega

theorem blk1_7 (c : Dev nD) (t : Fin cfg1.N) :
    (iblk1 V c 7 t : Vec Ideal S128x384 .f32) = (V c main_v2 : S128x384.Idx → EReal) := by
  obtain ⟨-, -, -, -, -, -, -, -, e0, e1, -⟩ := idx1' t
  funext x
  unfold iblk1
  rw [View.read_apply]
  show V c main_v2 _ = V c main_v2 _
  congr 1
  funext a
  apply Fin.ext
  match a with
  | ⟨0, _⟩ => show win1_7.index t (0 : Fin 2) * 128 + 1 * (x 0).val = (x 0).val; omega
  | ⟨1, _⟩ => show win1_7.index t (1 : Fin 2) * 384 + 1 * (x 1).val = (x 1).val; omega

theorem blk1_8 (c : Dev nD) (t : Fin cfg1.N) :
    (iblk1 V c 8 t : Vec Ideal S1x384 .f32) = (V c main_v5 : S1x384.Idx → EReal) := by
  obtain ⟨-, -, -, -, -, -, -, -, -, -, e0, e1⟩ := idx1' t
  funext x
  unfold iblk1
  rw [View.read_apply]
  show V c main_v5 _ = V c main_v5 _
  congr 1
  funext a
  apply Fin.ext
  match a with
  | ⟨0, _⟩ => show win1_8.index t (0 : Fin 2) * 1 + 1 * (x 0).val = (x 0).val; omega
  | ⟨1, _⟩ => show win1_8.index t (1 : Fin 2) * 384 + 1 * (x 1).val = (x 1).val; omega

/-! ## The cover -/

/-- An index of the output array lies in point `t`'s block iff each coordinate is in the block's range on its axis. -/
theorem mem_blk1 (t : Fin cfg1.N) (i : S100000x128.Idx) :
    i ∈ ((cfg1.win 9).blk t).view.set ↔ ∀ a : Fin 2, win1_9.index t a * S2000x128.size a ≤ (i a).val ∧ (i a).val < win1_9.index t a * S2000x128.size a + S2000x128.size a := by
  show i ∈ ((View.whole main_v35).slice (win1_9.rect t)).set ↔ _
  rw [View.set_slice_whole, Rect.mem_set_unit]
  exact Iff.rfl

/-- Row `n` of the output is written by grid point `n / 2000`. -/
theorem cover1 (i : S100000x128.Idx) :
    ∃ t : Fin cfg1.N, (cfg1.win 9).flush t = true ∧ i ∈ ((cfg1.win 9).blk t).view.set := by
  have hi0 : (i 0).val < 100000 := (i 0).isLt
  have hi1 : (i 1).val < 128 := (i 1).isLt
  obtain ⟨t, ht⟩ : ∃ t : Fin cfg1.N, t.val = (i 0).val / 2000 :=
    ⟨⟨(i 0).val / 2000, by rw [show cfg1.N = 50 from N_1]; omega⟩, rfl⟩
  obtain ⟨-, -, -, -, -, -, e0, e1⟩ := idx1 t
  refine ⟨t, flush1_9 t, ?_⟩
  rw [mem_blk1]
  intro a
  match a with
  | ⟨0, _⟩ => show win1_9.index t (0 : Fin 2) * 2000 ≤ (i 0).val ∧ (i 0).val < win1_9.index t (0 : Fin 2) * 2000 + 2000; omega
  | ⟨1, _⟩ => show win1_9.index t (1 : Fin 2) * 128 ≤ (i 1).val ∧ (i 1).val < win1_9.index t (1 : Fin 2) * 128 + 128; omega

/-! ## What a point writes back, and the array

Stated for any per-row function `cell` that the body's result is, row by row (`hbody`); the last theorem takes the
gated cell for it. -/

section
variable (cell : (Fin 128 → EReal) → EReal → (Fin 128 → EReal) → (S128x128.Idx → EReal) → (S1x128.Idx → EReal) → (S128x384.Idx → EReal) → (S1x384.Idx → EReal) → (S128x384.Idx → EReal) → (S1x384.Idx → EReal) → Fin 128 → EReal)
variable (hbody : ∀ (x0 : Vec Ideal S2000x128 .f32) (x1 : Vec Ideal S2000x1 .f32) (x2 : Vec Ideal S2000x128 .f32) (x3 : Vec Ideal S128x128 .f32) (x4 : Vec Ideal S1x128 .f32) (x5 : Vec Ideal S128x384 .f32) (x6 : Vec Ideal S1x384 .f32) (x7 : Vec Ideal S128x384 .f32) (x8 : Vec Ideal S1x384 .f32) (p : Fin 2000) (j : Fin 128),
   out1_9 (F := Ideal) x0 x1 x2 x3 x4 x5 x6 x7 x8 (ix2 p j) = cell (fun k => x0 (ix2 p k)) (x1 (ix2 p 0)) (fun k => x2 (ix2 p k)) x3 x4 x5 x6 x7 x8 j)

/-- The array function: at row `i₀`, column `i₁`, the cell of row `i₀` of the three row-blocked arrays. -/
abbrev G1 (A : S100000x128.Idx → EReal) (D : S100000x1.Idx → EReal) (Hh : S100000x128.Idx → EReal)
    (WeT : S128x128.Idx → EReal) (be : S1x128.Idx → EReal) (WihT : S128x384.Idx → EReal) (bih : S1x384.Idx → EReal)
    (WhhT : S128x384.Idx → EReal) (bhh : S1x384.Idx → EReal) : S100000x128.Idx → EReal :=
  fun i => cell (fun k => A (ix2 (i 0) k)) (D (ix2 (i 0) 0)) (fun k => Hh (ix2 (i 0) k)) WeT be WihT bih WhhT bhh (i 1)

include hbody in
/-- At one grid point: if the three row-blocked input blocks are rows `2000·n …` of their arrays, the body's result at a
    block index is the array function at the matching array index. -/
theorem point1 (x0 : Vec Ideal S2000x128 .f32) (x1 : Vec Ideal S2000x1 .f32) (x2 : Vec Ideal S2000x128 .f32) (x3 : Vec Ideal S128x128 .f32) (x4 : Vec Ideal S1x128 .f32) (x5 : Vec Ideal S128x384 .f32) (x6 : Vec Ideal S1x384 .f32) (x7 : Vec Ideal S128x384 .f32) (x8 : Vec Ideal S1x384 .f32)
    (A : S100000x128.Idx → EReal) (D : S100000x1.Idx → EReal) (Hh : S100000x128.Idx → EReal) (n : Nat)
    (h0 : ∀ (x : S2000x128.Idx) (k : S100000x128.Idx), (k 0).val = n * 2000 + (x 0).val → (k 1).val = (x 1).val → x0 x = A k)
    (h1 : ∀ (x : S2000x1.Idx) (k : S100000x1.Idx), (k 0).val = n * 2000 + (x 0).val → (k 1).val = (x 1).val → x1 x = D k)
    (h2 : ∀ (x : S2000x128.Idx) (k : S100000x128.Idx), (k 0).val = n * 2000 + (x 0).val → (k 1).val = (x 1).val → x2 x = Hh k)
    (y : S2000x128.Idx) (i : S100000x128.Idx) (hi0 : (i 0).val = n * 2000 + (y 0).val) (hi1 : (i 1).val = (y 1).val) :
    out1_9 (F := Ideal) x0 x1 x2 x3 x4 x5 x6 x7 x8 y = G1 cell A D Hh x3 x4 x5 x6 x7 x8 i := by
  obtain ⟨p, q, rfl⟩ : ∃ (p : Fin 2000) (q : Fin 128), y = ix2 p q := ⟨y 0, y 1, eq_ix2 y⟩
  rw [hbody]
  have ea : (fun k : Fin 128 => x0 (ix2 p k)) = fun k : Fin 128 => A (ix2 (i 0) k) := funext fun k => h0 (ix2 p k) (ix2 (i 0) k) hi0 rfl
  have ed : x1 (ix2 p 0) = D (ix2 (i 0) 0) := h1 (ix2 p 0) (ix2 (i 0) 0) hi0 rfl
  have eh : (fun k : Fin 128 => x2 (ix2 p k)) = fun k : Fin 128 => Hh (ix2 (i 0) k) := funext fun k => h2 (ix2 p k) (ix2 (i 0) k) hi0 rfl
  have eq : q = i 1 := Fin.ext hi1.symm
  rw [ea, ed, eh, eq]

include hbody in
/-- What grid point `t` writes back is block `t` of the array function of the arrays the launch finds. -/
theorem flushed1_eq (c : Dev nD) (t : Fin cfg1.N) :
    (dat1 V c).flushed 9 t = ((cfg1.win 9).blk t).view.read (Elt Ideal)
      (G1 cell (V c main_v34) (V c main_v9) (V c main_v22) (V c main_v0) (V c main_v3) (V c main_v1) (V c main_v4) (V c main_v2) (V c main_v5)) := by
  show (cfg1.win 9).cut (grid1.coords t) ((dat1 V c).after 9 t) = _
  rw [after1_9, blk1_3, blk1_4, blk1_5, blk1_6, blk1_7, blk1_8]
  obtain ⟨-, -, -, -, -, -, e0, e1⟩ := idx1 t
  funext y
  rw [View.read_apply]
  refine point1 cell hbody (iblk1 V c 0 t) (iblk1 V c 1 t) (iblk1 V c 2 t) (V c main_v0) (V c main_v3) (V c main_v1) (V c main_v4) (V c main_v2) (V c main_v5)
    (V c main_v34) (V c main_v9) (V c main_v22) t.val (blk1_0 V c t) (blk1_1 V c t) (blk1_2 V c t) y _ ?_ ?_
  · show win1_9.index t (0 : Fin 2) * 2000 + 1 * (y 0).val = t.val * 2000 + (y 0).val; omega
  · show win1_9.index t (1 : Fin 2) * 128 + 1 * (y 1).val = (y 1).val; omega

include hbody in
/-- The output array after the launch is the array function: every row is in some point's block. -/
theorem arr1_of (c : Dev nD) : (dat1 V c).arrAt 9 cfg1.N
    = G1 cell (V c main_v34) (V c main_v9) (V c main_v22) (V c main_v0) (V c main_v3) (V c main_v1) (V c main_v4) (V c main_v2) (V c main_v5) :=
  (dat1 V c).arrAt_eq_of_cover 9 _ (fun t _ => flushed1_eq V cell hbody c t) cover1

end

/-- The output array after the launch: row by row, the gated cell of that row of the summed neighbour rows, the
    in-degree column and the nodes' own rows, with the six parameter arrays as the launch finds them. -/
theorem arr1 (c : Dev nD) : (dat1 V c).arrAt 9 cfg1.N
    = fun i : S100000x128.Idx => Cert.Cell.gruCell (fun k => V c main_v34 (ix2 (i 0) k)) (V c main_v9 (ix2 (i 0) 0))
        (fun k => V c main_v22 (ix2 (i 0) k)) (V c main_v0) (V c main_v3) (V c main_v1) (V c main_v4) (V c main_v2) (V c main_v5) (i 1) :=
  arr1_of V Cert.Cell.gruCell Cert.KernelIdeal.Body.out1_9_apply c

end Cert.KernelIdeal.Region

end
-- ==== Proof.RegionGru2.lean ====
/-
  From blocks to the whole array, for launch 2 of the gated-update kernel, at arbitrary contents `V` of the buffers the
  launch finds.

  The grid has 50 points; point `t` stages rows `2000·t … 2000·t + 1999` of the three row-blocked inputs (the summed
  neighbour rows, the in-degree column, the nodes' own rows) and the six parameter arrays whole, and writes the body's
  result back to the same rows of the output.  The body's result at row `p`, column `j` of a block is the gated cell of
  row `p` of the three blocks; so what point `t` writes back is block `t` of ONE function of the arrays — row by row,
  the gated cell of that row — and since row `n` lies in the block of point `n / 2000`, the output array ends as that function.
-/
import proofs.«108194_j40132174414161_2_alg».proof.Proof.Gen.KernelIdeal.Frame
import proofs.«108194_j40132174414161_2_alg».proof.Proof.Cell
import proofs.«108194_j40132174414161_2_alg».proof.Proof.BodyGru
import Idealize.ShloMosaic.Lib.Pipeline.Value
import Idealize.ShloMosaic.Lib.ValueIdx

noncomputable section

namespace Cert.KernelIdeal.Region

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-! ## Where each window's block sits -/

/-- The block indices of the row-blocked windows at a grid point: the three inputs and the output sit at block row `t`. -/
theorem idx2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_9.index t (0 : Fin 2) = t.val ∧ win2_9.index t (1 : Fin 2) = 0 :=
  (by decide +kernel : ∀ t : Fin grid2.N, _)

/-- The six parameter arrays sit at block (0, 0) at every grid point. -/
theorem idx2' : ∀ t : Fin cfg2.N,
    win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = 0 ∧ win2_7.index t (1 : Fin 2) = 0
    ∧ win2_8.index t (0 : Fin 2) = 0 ∧ win2_8.index t (1 : Fin 2) = 0 :=
  (by decide +kernel : ∀ t : Fin grid2.N, _)

/-! ## Each input block, read off its array

A row-blocked input's block at point `t`, at block index `x`, is its array at row `2000·t + x₀`, same column; a
parameter array's block is the array. -/

theorem blk2_0 (c : Dev nD) (t : Fin cfg2.N) (x : S2000x128.Idx) (k : S100000x128.Idx)
    (hk0 : (k 0).val = t.val * 2000 + (x 0).val) (hk1 : (k 1).val = (x 1).val) :
    (iblk2 V c 0 t : Vec Ideal S2000x128 .f32) x = (V c main_v47 : S100000x128.Idx → EReal) k := by
  obtain ⟨e0, e1, -⟩ := idx2 t
  unfold iblk2
  rw [View.read_apply]
  show V c main_v47 _ = V c main_v47 _
  congr 1
  funext a
  apply Fin.ext
  match a with
  | ⟨0, _⟩ => show win2_0.index t (0 : Fin 2) * 2000 + 1 * (x 0).val = (k 0).val; omega
  | ⟨1, _⟩ => show win2_0.index t (1 : Fin 2) * 128 + 1 * (x 1).val = (k 1).val; omega

theorem blk2_1 (c : Dev nD) (t : Fin cfg2.N) (x : S2000x1.Idx) (k : S100000x1.Idx)
    (hk0 : (k 0).val = t.val * 2000 + (x 0).val) (hk1 : (k 1).val = (x 1).val) :
    (iblk2 V c 1 t : Vec Ideal S2000x1 .f32) x = (V c main_v9 : S100000x1.Idx → EReal) k := by
  obtain ⟨-, -, e0, e1, -⟩ := idx2 t
  unfold iblk2
  rw [View.read_apply]
  show V c main_v9 _ = V c main_v9 _
  congr 1
  funext a
  apply Fin.ext
  match a with
  | ⟨0, _⟩ => show win2_1.index t (0 : Fin 2) * 2000 + 1 * (x 0).val = (k 0).val; omega
  | ⟨1, _⟩ => show win2_1.index t (1 : Fin 2) * 1 + 1 * (x 1).val = (k 1).val; omega

theorem blk2_2 (c : Dev nD) (t : Fin cfg2.N) (x : S2000x128.Idx) (k : S100000x128.Idx)
    (hk0 : (k 0).val = t.val * 2000 + (x 0).val) (hk1 : (k 1).val = (x 1).val) :
    (iblk2 V c 2 t : Vec Ideal S2000x128 .f32) x = (V c main_v35 : S100000x128.Idx → EReal) k := by
  obtain ⟨-, -, -, -, e0, e1, -⟩ := idx2 t
  unfold iblk2
  rw [View.read_apply]
  show V c main_v35 _ = V c main_v35 _
  congr 1
  funext a
  apply Fin.ext
  match a with
  | ⟨0, _⟩ => show win2_2.index t (0 : Fin 2) * 2000 + 1 * (x 0).val = (k 0).val; omega
  | ⟨1, _⟩ => show win2_2.index t (1 : Fin 2) * 128 + 1 * (x 1).val = (k 1).val; omega

theorem blk2_3 (c : Dev nD) (t : Fin cfg2.N) :
    (iblk2 V c 3 t : Vec Ideal S128x128 .f32) = (V c main_v0 : S128x128.Idx → EReal) := by
  obtain ⟨e0, e1, -⟩ := idx2' t
  funext x
  unfold iblk2
  rw [View.read_apply]
  show V c main_v0 _ = V c main_v0 _
  congr 1
  funext a
  apply Fin.ext
  match a with
  | ⟨0, _⟩ => show win2_3.index t (0 : Fin 2) * 128 + 1 * (x 0).val = (x 0).val; omega
  | ⟨1, _⟩ => show win2_3.index t (1 : Fin 2) * 128 + 1 * (x 1).val = (x 1).val; omega

theorem blk2_4 (c : Dev nD) (t : Fin cfg2.N) :
    (iblk2 V c 4 t : Vec Ideal S1x128 .f32) = (V c main_v3 : S1x128.Idx → EReal) := by
  obtain ⟨-, -, e0, e1, -⟩ := idx2' t
  funext x
  unfold iblk2
  rw [View.read_apply]
  show V c main_v3 _ = V c main_v3 _
  congr 1
  funext a
  apply Fin.ext
  match a with
  | ⟨0, _⟩ => show win2_4.index t (0 : Fin 2) * 1 + 1 * (x 0).val = (x 0).val; omega
  | ⟨1, _⟩ => show win2_4.index t (1 : Fin 2) * 128 + 1 * (x 1).val = (x 1).val; omega

theorem blk2_5 (c : Dev nD) (t : Fin cfg2.N) :
    (iblk2 V c 5 t : Vec Ideal S128x384 .f32) = (V c main_v1 : S128x384.Idx → EReal) := by
  obtain ⟨-, -, -, -, e0, e1, -⟩ := idx2' t
  funext x
  unfold iblk2
  rw [View.read_apply]
  show V c main_v1 _ = V c main_v1 _
  congr 1
  funext a
  apply Fin.ext
  match a with
  | ⟨0, _⟩ => show win2_5.index t (0 : Fin 2) * 128 + 1 * (x 0).val = (x 0).val; omega
  | ⟨1, _⟩ => show win2_5.index t (1 : Fin 2) * 384 + 1 * (x 1).val = (x 1).val; omega

theorem blk2_6 (c : Dev nD) (t : Fin cfg2.N) :
    (iblk2 V c 6 t : Vec Ideal S1x384 .f32) = (V c main_v4 : S1x384.Idx → EReal) := by
  obtain ⟨-, -, -, -, -, -, e0, e1, -⟩ := idx2' t
  funext x
  unfold iblk2
  rw [View.read_apply]
  show V c main_v4 _ = V c main_v4 _
  congr 1
  funext a
  apply Fin.ext
  match a with
  | ⟨0, _⟩ => show win2_6.index t (0 : Fin 2) * 1 + 1 * (x 0).val = (x 0).val; omega
  | ⟨1, _⟩ => show win2_6.index t (1 : Fin 2) * 384 + 1 * (x 1).val = (x 1).val; omega

theorem blk2_7 (c : Dev nD) (t : Fin cfg2.N) :
    (iblk2 V c 7 t : Vec Ideal S128x384 .f32) = (V c main_v2 : S128x384.Idx → EReal) := by
  obtain ⟨-, -, -, -, -, -, -, -, e0, e1, -⟩ := idx2' t
  funext x
  unfold iblk2
  rw [View.read_apply]
  show V c main_v2 _ = V c main_v2 _
  congr 1
  funext a
  apply Fin.ext
  match a with
  | ⟨0, _⟩ => show win2_7.index t (0 : Fin 2) * 128 + 1 * (x 0).val = (x 0).val; omega
  | ⟨1, _⟩ => show win2_7.index t (1 : Fin 2) * 384 + 1 * (x 1).val = (x 1).val; omega

theorem blk2_8 (c : Dev nD) (t : Fin cfg2.N) :
    (iblk2 V c 8 t : Vec Ideal S1x384 .f32) = (V c main_v5 : S1x384.Idx → EReal) := by
  obtain ⟨-, -, -, -, -, -, -, -, -, -, e0, e1⟩ := idx2' t
  funext x
  unfold iblk2
  rw [View.read_apply]
  show V c main_v5 _ = V c main_v5 _
  congr 1
  funext a
  apply Fin.ext
  match a with
  | ⟨0, _⟩ => show win2_8.index t (0 : Fin 2) * 1 + 1 * (x 0).val = (x 0).val; omega
  | ⟨1, _⟩ => show win2_8.index t (1 : Fin 2) * 384 + 1 * (x 1).val = (x 1).val; omega

/-! ## The cover -/

/-- An index of the output array lies in point `t`'s block iff each coordinate is in the block's range on its axis. -/
theorem mem_blk2 (t : Fin cfg2.N) (i : S100000x128.Idx) :
    i ∈ ((cfg2.win 9).blk t).view.set ↔ ∀ a : Fin 2, win2_9.index t a * S2000x128.size a ≤ (i a).val ∧ (i a).val < win2_9.index t a * S2000x128.size a + S2000x128.size a := by
  show i ∈ ((View.whole main_v48).slice (win2_9.rect t)).set ↔ _
  rw [View.set_slice_whole, Rect.mem_set_unit]
  exact Iff.rfl

/-- Row `n` of the output is written by grid point `n / 2000`. -/
theorem cover2 (i : S100000x128.Idx) :
    ∃ t : Fin cfg2.N, (cfg2.win 9).flush t = true ∧ i ∈ ((cfg2.win 9).blk t).view.set := by
  have hi0 : (i 0).val < 100000 := (i 0).isLt
  have hi1 : (i 1).val < 128 := (i 1).isLt
  obtain ⟨t, ht⟩ : ∃ t : Fin cfg2.N, t.val = (i 0).val / 2000 :=
    ⟨⟨(i 0).val / 2000, by rw [show cfg2.N = 50 from N_2]; omega⟩, rfl⟩
  obtain ⟨-, -, -, -, -, -, e0, e1⟩ := idx2 t
  refine ⟨t, flush2_9 t, ?_⟩
  rw [mem_blk2]
  intro a
  match a with
  | ⟨0, _⟩ => show win2_9.index t (0 : Fin 2) * 2000 ≤ (i 0).val ∧ (i 0).val < win2_9.index t (0 : Fin 2) * 2000 + 2000; omega
  | ⟨1, _⟩ => show win2_9.index t (1 : Fin 2) * 128 ≤ (i 1).val ∧ (i 1).val < win2_9.index t (1 : Fin 2) * 128 + 128; omega

/-! ## What a point writes back, and the array

Stated for any per-row function `cell` that the body's result is, row by row (`hbody`); the last theorem takes the
gated cell for it. -/

section
variable (cell : (Fin 128 → EReal) → EReal → (Fin 128 → EReal) → (S128x128.Idx → EReal) → (S1x128.Idx → EReal) → (S128x384.Idx → EReal) → (S1x384.Idx → EReal) → (S128x384.Idx → EReal) → (S1x384.Idx → EReal) → Fin 128 → EReal)
variable (hbody : ∀ (x0 : Vec Ideal S2000x128 .f32) (x1 : Vec Ideal S2000x1 .f32) (x2 : Vec Ideal S2000x128 .f32) (x3 : Vec Ideal S128x128 .f32) (x4 : Vec Ideal S1x128 .f32) (x5 : Vec Ideal S128x384 .f32) (x6 : Vec Ideal S1x384 .f32) (x7 : Vec Ideal S128x384 .f32) (x8 : Vec Ideal S1x384 .f32) (p : Fin 2000) (j : Fin 128),
   out2_9 (F := Ideal) x0 x1 x2 x3 x4 x5 x6 x7 x8 (ix2 p j) = cell (fun k => x0 (ix2 p k)) (x1 (ix2 p 0)) (fun k => x2 (ix2 p k)) x3 x4 x5 x6 x7 x8 j)

/-- The array function: at row `i₀`, column `i₁`, the cell of row `i₀` of the three row-blocked arrays. -/
abbrev G2 (A : S100000x128.Idx → EReal) (D : S100000x1.Idx → EReal) (Hh : S100000x128.Idx → EReal)
    (WeT : S128x128.Idx → EReal) (be : S1x128.Idx → EReal) (WihT : S128x384.Idx → EReal) (bih : S1x384.Idx → EReal)
    (WhhT : S128x384.Idx → EReal) (bhh : S1x384.Idx → EReal) : S100000x128.Idx → EReal :=
  fun i => cell (fun k => A (ix2 (i 0) k)) (D (ix2 (i 0) 0)) (fun k => Hh (ix2 (i 0) k)) WeT be WihT bih WhhT bhh (i 1)

include hbody in
/-- At one grid point: if the three row-blocked input blocks are rows `2000·n …` of their arrays, the body's result at a
    block index is the array function at the matching array index. -/
theorem point2 (x0 : Vec Ideal S2000x128 .f32) (x1 : Vec Ideal S2000x1 .f32) (x2 : Vec Ideal S2000x128 .f32) (x3 : Vec Ideal S128x128 .f32) (x4 : Vec Ideal S1x128 .f32) (x5 : Vec Ideal S128x384 .f32) (x6 : Vec Ideal S1x384 .f32) (x7 : Vec Ideal S128x384 .f32) (x8 : Vec Ideal S1x384 .f32)
    (A : S100000x128.Idx → EReal) (D : S100000x1.Idx → EReal) (Hh : S100000x128.Idx → EReal) (n : Nat)
    (h0 : ∀ (x : S2000x128.Idx) (k : S100000x128.Idx), (k 0).val = n * 2000 + (x 0).val → (k 1).val = (x 1).val → x0 x = A k)
    (h1 : ∀ (x : S2000x1.Idx) (k : S100000x1.Idx), (k 0).val = n * 2000 + (x 0).val → (k 1).val = (x 1).val → x1 x = D k)
    (h2 : ∀ (x : S2000x128.Idx) (k : S100000x128.Idx), (k 0).val = n * 2000 + (x 0).val → (k 1).val = (x 1).val → x2 x = Hh k)
    (y : S2000x128.Idx) (i : S100000x128.Idx) (hi0 : (i 0).val = n * 2000 + (y 0).val) (hi1 : (i 1).val = (y 1).val) :
    out2_9 (F := Ideal) x0 x1 x2 x3 x4 x5 x6 x7 x8 y = G2 cell A D Hh x3 x4 x5 x6 x7 x8 i := by
  obtain ⟨p, q, rfl⟩ : ∃ (p : Fin 2000) (q : Fin 128), y = ix2 p q := ⟨y 0, y 1, eq_ix2 y⟩
  rw [hbody]
  have ea : (fun k : Fin 128 => x0 (ix2 p k)) = fun k : Fin 128 => A (ix2 (i 0) k) := funext fun k => h0 (ix2 p k) (ix2 (i 0) k) hi0 rfl
  have ed : x1 (ix2 p 0) = D (ix2 (i 0) 0) := h1 (ix2 p 0) (ix2 (i 0) 0) hi0 rfl
  have eh : (fun k : Fin 128 => x2 (ix2 p k)) = fun k : Fin 128 => Hh (ix2 (i 0) k) := funext fun k => h2 (ix2 p k) (ix2 (i 0) k) hi0 rfl
  have eq : q = i 1 := Fin.ext hi1.symm
  rw [ea, ed, eh, eq]

include hbody in
/-- What grid point `t` writes back is block `t` of the array function of the arrays the launch finds. -/
theorem flushed2_eq (c : Dev nD) (t : Fin cfg2.N) :
    (dat2 V c).flushed 9 t = ((cfg2.win 9).blk t).view.read (Elt Ideal)
      (G2 cell (V c main_v47) (V c main_v9) (V c main_v35) (V c main_v0) (V c main_v3) (V c main_v1) (V c main_v4) (V c main_v2) (V c main_v5)) := by
  show (cfg2.win 9).cut (grid2.coords t) ((dat2 V c).after 9 t) = _
  rw [after2_9, blk2_3, blk2_4, blk2_5, blk2_6, blk2_7, blk2_8]
  obtain ⟨-, -, -, -, -, -, e0, e1⟩ := idx2 t
  funext y
  rw [View.read_apply]
  refine point2 cell hbody (iblk2 V c 0 t) (iblk2 V c 1 t) (iblk2 V c 2 t) (V c main_v0) (V c main_v3) (V c main_v1) (V c main_v4) (V c main_v2) (V c main_v5)
    (V c main_v47) (V c main_v9) (V c main_v35) t.val (blk2_0 V c t) (blk2_1 V c t) (blk2_2 V c t) y _ ?_ ?_
  · show win2_9.index t (0 : Fin 2) * 2000 + 1 * (y 0).val = t.val * 2000 + (y 0).val; omega
  · show win2_9.index t (1 : Fin 2) * 128 + 1 * (y 1).val = (y 1).val; omega

include hbody in
/-- The output array after the launch is the array function: every row is in some point's block. -/
theorem arr2_of (c : Dev nD) : (dat2 V c).arrAt 9 cfg2.N
    = G2 cell (V c main_v47) (V c main_v9) (V c main_v35) (V c main_v0) (V c main_v3) (V c main_v1) (V c main_v4) (V c main_v2) (V c main_v5) :=
  (dat2 V c).arrAt_eq_of_cover 9 _ (fun t _ => flushed2_eq V cell hbody c t) cover2

end

/-- The output array after the launch: row by row, the gated cell of that row of the summed neighbour rows, the
    in-degree column and the nodes' own rows, with the six parameter arrays as the launch finds them. -/
theorem arr2 (c : Dev nD) : (dat2 V c).arrAt 9 cfg2.N
    = fun i : S100000x128.Idx => Cert.Cell.gruCell (fun k => V c main_v47 (ix2 (i 0) k)) (V c main_v9 (ix2 (i 0) 0))
        (fun k => V c main_v35 (ix2 (i 0) k)) (V c main_v0) (V c main_v3) (V c main_v1) (V c main_v4) (V c main_v2) (V c main_v5) (i 1) :=
  arr2_of V Cert.Cell.gruCell Cert.KernelIdeal.Body.out2_9_apply c

end Cert.KernelIdeal.Region

end
-- ==== Proof.BodyPred.lean ====
/-
  The pair scorer's store, read at one index, over the extended reals.

  The kernel stores one [4000, 1] column computed from the two blocks of endpoint rows, the hidden
  layer's weight block and bias row, the output weight row and the output bias.  Entry `(q, 0)` of what
  is stored depends only on row `q` of the two endpoint blocks, and equals `Cert.Cell.predCell` of those
  two rows.

  The steps: the hidden product into a zero accumulator is a sum over the 128 contracted coordinates; the
  leaky rectifier is a comparison with the zero word and a select, elementwise; the sum over the 64 hidden
  columns is a sum over the second coordinate; the summed vector `[4000]` cast to a column `[4000, 1]` reads
  its entry `q`; a `[1, 1]` block broadcast to `[4000, 1]` reads its one entry.
-/
import proofs.«108194_j40132174414161_2_alg».proof.Proof.Gen.KernelIdeal.Frame
import proofs.«108194_j40132174414161_2_alg».proof.Proof.Cell
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Body

open Idealize.ShloMosaic Idealize.ShloMosaic.ValueIdx Idealize.SL.Sem
open Cert.KernelIdeal Cert.KernelIdeal.Gen

/-! ## The hidden product -/

theorem lhsP_0 (i : S4000x64.Idx) (q : dot_S4000x128_S128x64_S4000x64_1_0_0_1_n_n.contr.Idx) :
    (dot_S4000x128_S128x64_S4000x64_1_0_0_1_n_n.lhsIdx i q 0).val = (i 0).val := by
  unfold DotDims.lhsIdx
  rw [dif_neg (show ¬(0 : Fin S4000x128.rank) ∈ dot_S4000x128_S128x64_S4000x64_1_0_0_1_n_n.lhsBatch by decide), dif_pos (show (0 : Fin S4000x128.rank) ∈ dot_S4000x128_S128x64_S4000x64_1_0_0_1_n_n.lhsNonContracting by decide)]
  rfl
theorem rhsP_1 (i : S4000x64.Idx) (q : dot_S4000x128_S128x64_S4000x64_1_0_0_1_n_n.contr.Idx) :
    (dot_S4000x128_S128x64_S4000x64_1_0_0_1_n_n.rhsIdx i q 1).val = (i 1).val := by
  unfold DotDims.rhsIdx
  rw [dif_neg (show ¬(1 : Fin S128x64.rank) ∈ dot_S4000x128_S128x64_S4000x64_1_0_0_1_n_n.rhsBatch by decide), dif_pos (show (1 : Fin S128x64.rank) ∈ dot_S4000x128_S128x64_S4000x64_1_0_0_1_n_n.rhsNonContracting by decide)]
  rfl

/-- The pair scorer's hidden-layer product at `(q, c)`: row `q` of the left operand against column `c` of the right. -/
theorem mmP_apply (a : FVec Ideal S4000x128 .bf16) (b : FVec Ideal S128x64 .bf16) (p : Fin 4000) (c : Fin 64) :
    matmul dot_S4000x128_S128x64_S4000x64_1_0_0_1_n_n none a b (constant (F := Ideal) S4000x64 .f32 0x00000000#32) (ix2 p c)
      = ∑ k : Fin 128, a (ix2 p k) * b (ix2 k c) := by
  show FloatOps.matmul _ none a b (constant (F := Ideal) S4000x64 .f32 0x00000000#32) (ix2 p c) = _
  rw [Ideal.matmul_constant_zero_apply, ← Equiv.sum_comp (contrEquiv1 dot_S4000x128_S128x64_S4000x64_1_0_0_1_n_n 128 rfl rfl).symm]
  refine Finset.sum_congr rfl fun k _ => ?_
  have hk := contrEquiv1_symm_val dot_S4000x128_S128x64_S4000x64_1_0_0_1_n_n 128 rfl rfl k
  have el : dot_S4000x128_S128x64_S4000x64_1_0_0_1_n_n.lhsIdx (ix2 p c) ((contrEquiv1 dot_S4000x128_S128x64_S4000x64_1_0_0_1_n_n 128 rfl rfl).symm k) = ix2 p k := funext fun x => Fin.ext (by
    match x with
    | ⟨0, _⟩ => exact lhsP_0 _ _
    | ⟨1, _⟩ => exact (dot_S4000x128_S128x64_S4000x64_1_0_0_1_n_n.lhsIdx_val_of_single rfl _ _).trans hk)
  have er : dot_S4000x128_S128x64_S4000x64_1_0_0_1_n_n.rhsIdx (ix2 p c) ((contrEquiv1 dot_S4000x128_S128x64_S4000x64_1_0_0_1_n_n 128 rfl rfl).symm k) = ix2 k c := funext fun x => Fin.ext (by
    match x with
    | ⟨0, _⟩ => exact (dot_S4000x128_S128x64_S4000x64_1_0_0_1_n_n.rhsIdx_val_of_single rfl _ _).trans hk
    | ⟨1, _⟩ => exact rhsP_1 _ _)
  rw [el, er]

open Cert.Cell

/-- An `[a]` array cast to the column `[a, 1]` reads, at `(i, u)`, the operand at `i`, whatever the unit coordinate `u`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The index over row `q` with column `c` inserted on the summed axis is `(q, c)`. -/
theorem lift_row (q : Fin 4000) (c : Fin 64) :
    Shape.Reduces.lift reduces_S4000x64_S4000 (ix1 q) c = ix2 q c :=
  funext fun x => Fin.ext (by
    match x with
    | ⟨0, _⟩ => rfl
    | ⟨1, _⟩ => rfl)

/-- The hidden layer's pre-activation of pair `q` at column `c`. -/
theorem hid_apply (v0 v2 : Vec Ideal S4000x128 .f32) (v6 : Vec Ideal S128x64 .f32) (v10 : Vec Ideal S1x64 .f32)
    (q : Fin 4000) (c : Fin 64) :
    addf (matmul dot_S4000x128_S128x64_S4000x64_1_0_0_1_n_n none (truncf .bf16 (mulf v0 v2) bitsLt_bf16_f32)
        (truncf .bf16 v6 bitsLt_bf16_f32) (constant (F := Ideal) S4000x64 .f32 0x00000000#32))
      (broadcastTo S4000x64 v10 broadcasts_S1x64_S4000x64) (ix2 q c)
      = hidRow (fun k => v0 (ix2 q k)) (fun k => v2 (ix2 q k)) v6 v10 c := by
  refine (addf_apply _ _ _).trans ?_
  rw [mmP_apply, broadcastTo_1b_ab_apply]
  rfl

/-- The pair scorer's payload at row `q` (its one column): the score of pair `q`'s two endpoint rows. -/
theorem score_pay_apply (v0 v2 : Vec Ideal S4000x128 .f32) (v6 : Vec Ideal S128x64 .f32) (v10 v19 : Vec Ideal S1x64 .f32)
    (v25 : Vec Ideal S1x1 .f32) (q : Fin 4000) :
    k3_pay1 (F := Ideal) v0 v2 v6 v10 v19 v25 (ix2 q 0)
      = predCell (fun k => v0 (ix2 q k)) (fun k => v2 (ix2 q k)) v6 v10 v19 (v25 (ix2 0 0)) := by
  unfold k3_pay1
  simp only [shapeCast_self]
  refine (addf_apply _ _ _).trans ?_
  rw [shapeCast_a_a1_apply, broadcastTo_1b_ab_apply]
  unfold predCell
  refine congrArg (· + v25 (ix2 0 0)) ?_
  refine (Ideal.multiReduction_add_single _ _ reduces_S4000x64_S4000 _ _ (ix1 q)).trans ?_
  refine Finset.sum_congr rfl fun (c : Fin 64) _ => ?_
  rw [lift_row q c]
  refine (mulf_apply _ _ _).trans ?_
  rw [broadcastTo_1b_ab_apply, ← hid_apply v0 v2 v6 v10 q c]
  rfl

theorem pred_off_zero : (![0, 0] : Fin 2 → Nat) = fun _ => 0 := funext fun a => by fin_cases a <;> rfl

/-- What the pair scorer leaves at row `q`: the score of the pair's two endpoint rows. -/
theorem out3_6_apply (x0 x1 : Vec Ideal S4000x128 .f32) (x2 : Vec Ideal S128x64 .f32) (x3 x4 : Vec Ideal S1x64 .f32)
    (x5 : Vec Ideal S1x1 .f32) (q : Fin 4000) :
    Gen.out3_6 (F := Ideal) x0 x1 x2 x3 x4 x5 (ix2 q 0)
      = predCell (fun k => x0 (ix2 q k)) (fun k => x1 (ix2 q k)) x2 x3 x4 (x5 (ix2 0 0)) := by
  unfold Gen.out3_6
  rw [View.canon_unit_zero pred_off_zero]
  simp only [View.ld_unit_zero (S := S4000x128) pred_off_zero, View.ld_unit_zero (S := S128x64) pred_off_zero, View.ld_unit_zero (S := S1x64) pred_off_zero,
    View.ld_unit_zero (S := S1x1) pred_off_zero]
  exact score_pay_apply x0 x1 x2 x3 x4 x5 q

end Cert.KernelIdeal.Body

end
-- ==== Proof.RegionPred.lean ====
/-
  From blocks to the whole array, for the pair scorer's launch, at arbitrary contents `V` of the buffers the launch finds.

  The grid has 100 points; point `t` stages rows `4000·t … 4000·t + 3999` of the two arrays of gathered endpoint rows
  and the four parameter arrays whole, and writes the body's result back to the same rows of the score column.  The
  body's result at row `q` of a block is the score of row `q` of the two blocks; so what point `t` writes back is block
  `t` of ONE function of the arrays — row by row, the score of that row's two endpoint rows — and since row `n` lies in
  the block of point `n / 4000`, the score column ends as that function.
-/
import proofs.«108194_j40132174414161_2_alg».proof.Proof.Gen.KernelIdeal.Frame
import proofs.«108194_j40132174414161_2_alg».proof.Proof.Cell
import proofs.«108194_j40132174414161_2_alg».proof.Proof.BodyPred
import Idealize.ShloMosaic.Lib.Pipeline.Value
import Idealize.ShloMosaic.Lib.ValueIdx

noncomputable section

namespace Cert.KernelIdeal.Region

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-! ## Where each window's block sits -/

/-- The block indices of the row-blocked windows at a grid point: the two endpoint-row inputs and the score column sit
    at block row `t`. -/
theorem idx3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_6.index t (0 : Fin 2) = t.val ∧ win3_6.index t (1 : Fin 2) = 0 :=
  (by decide +kernel : ∀ t : Fin grid3.N, _)

/-- The four parameter arrays sit at block (0, 0) at every grid point. -/
theorem idx3' : ∀ t : Fin cfg3.N,
    win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0 :=
  (by decide +kernel : ∀ t : Fin grid3.N, _)

/-! ## Each input block, read off its array

An endpoint-row input's block at point `t`, at block index `x`, is its array at row `4000·t + x₀`, same column; a
parameter array's block is the array. -/

theorem blk3_0 (c : Dev nD) (t : Fin cfg3.N) (x : S4000x128.Idx) (k : S400000x128.Idx)
    (hk0 : (k 0).val = t.val * 4000 + (x 0).val) (hk1 : (k 1).val = (x 1).val) :
    (iblk3 V c 0 t : Vec Ideal S4000x128 .f32) x = (V c main_v57 : S400000x128.Idx → EReal) k := by
  obtain ⟨e0, e1, -⟩ := idx3 t
  unfold iblk3
  rw [View.read_apply]
  show V c main_v57 _ = V c main_v57 _
  congr 1
  funext a
  apply Fin.ext
  match a with
  | ⟨0, _⟩ => show win3_0.index t (0 : Fin 2) * 4000 + 1 * (x 0).val = (k 0).val; omega
  | ⟨1, _⟩ => show win3_0.index t (1 : Fin 2) * 128 + 1 * (x 1).val = (k 1).val; omega

theorem blk3_1 (c : Dev nD) (t : Fin cfg3.N) (x : S4000x128.Idx) (k : S400000x128.Idx)
    (hk0 : (k 0).val = t.val * 4000 + (x 0).val) (hk1 : (k 1).val = (x 1).val) :
    (iblk3 V c 1 t : Vec Ideal S4000x128 .f32) x = (V c main_v64 : S400000x128.Idx → EReal) k := by
  obtain ⟨-, -, e0, e1, -⟩ := idx3 t
  unfold iblk3
  rw [View.read_apply]
  show V c main_v64 _ = V c main_v64 _
  congr 1
  funext a
  apply Fin.ext
  match a with
  | ⟨0, _⟩ => show win3_1.index t (0 : Fin 2) * 4000 + 1 * (x 0).val = (k 0).val; omega
  | ⟨1, _⟩ => show win3_1.index t (1 : Fin 2) * 128 + 1 * (x 1).val = (k 1).val; omega

theorem blk3_2 (c : Dev nD) (t : Fin cfg3.N) :
    (iblk3 V c 2 t : Vec Ideal S128x64 .f32) = (V c main_v65 : S128x64.Idx → EReal) := by
  obtain ⟨e0, e1, -⟩ := idx3' t
  funext x
  unfold iblk3
  rw [View.read_apply]
  show V c main_v65 _ = V c main_v65 _
  congr 1
  funext a
  apply Fin.ext
  match a with
  | ⟨0, _⟩ => show win3_2.index t (0 : Fin 2) * 128 + 1 * (x 0).val = (x 0).val; omega
  | ⟨1, _⟩ => show win3_2.index t (1 : Fin 2) * 64 + 1 * (x 1).val = (x 1).val; omega

theorem blk3_3 (c : Dev nD) (t : Fin cfg3.N) :
    (iblk3 V c 3 t : Vec Ideal S1x64 .f32) = (V c main_v66 : S1x64.Idx → EReal) := by
  obtain ⟨-, -, e0, e1, -⟩ := idx3' t
  funext x
  unfold iblk3
  rw [View.read_apply]
  show V c main_v66 _ = V c main_v66 _
  congr 1
  funext a
  apply Fin.ext
  match a with
  | ⟨0, _⟩ => show win3_3.index t (0 : Fin 2) * 1 + 1 * (x 0).val = (x 0).val; omega
  | ⟨1, _⟩ => show win3_3.index t (1 : Fin 2) * 64 + 1 * (x 1).val = (x 1).val; omega

theorem blk3_4 (c : Dev nD) (t : Fin cfg3.N) :
    (iblk3 V c 4 t : Vec Ideal S1x64 .f32) = (V c main_arg15 : S1x64.Idx → EReal) := by
  obtain ⟨-, -, -, -, e0, e1, -⟩ := idx3' t
  funext x
  unfold iblk3
  rw [View.read_apply]
  show V c main_arg15 _ = V c main_arg15 _
  congr 1
  funext a
  apply Fin.ext
  match a with
  | ⟨0, _⟩ => show win3_4.index t (0 : Fin 2) * 1 + 1 * (x 0).val = (x 0).val; omega
  | ⟨1, _⟩ => show win3_4.index t (1 : Fin 2) * 64 + 1 * (x 1).val = (x 1).val; omega

theorem blk3_5 (c : Dev nD) (t : Fin cfg3.N) :
    (iblk3 V c 5 t : Vec Ideal S1x1 .f32) = (V c main_v67 : S1x1.Idx → EReal) := by
  obtain ⟨-, -, -, -, -, -, e0, e1⟩ := idx3' t
  funext x
  unfold iblk3
  rw [View.read_apply]
  show V c main_v67 _ = V c main_v67 _
  congr 1
  funext a
  apply Fin.ext
  match a with
  | ⟨0, _⟩ => show win3_5.index t (0 : Fin 2) * 1 + 1 * (x 0).val = (x 0).val; omega
  | ⟨1, _⟩ => show win3_5.index t (1 : Fin 2) * 1 + 1 * (x 1).val = (x 1).val; omega

/-! ## The cover -/

/-- An index of the score column lies in point `t`'s block iff each coordinate is in the block's range on its axis. -/
theorem mem_blk3 (t : Fin cfg3.N) (i : S400000x1.Idx) :
    i ∈ ((cfg3.win 6).blk t).view.set ↔ ∀ a : Fin 2, win3_6.index t a * S4000x1.size a ≤ (i a).val ∧ (i a).val < win3_6.index t a * S4000x1.size a + S4000x1.size a := by
  show i ∈ ((View.whole main_v68).slice (win3_6.rect t)).set ↔ _
  rw [View.set_slice_whole, Rect.mem_set_unit]
  exact Iff.rfl

/-- Row `n` of the score column is written by grid point `n / 4000`. -/
theorem cover3 (i : S400000x1.Idx) :
    ∃ t : Fin cfg3.N, (cfg3.win 6).flush t = true ∧ i ∈ ((cfg3.win 6).blk t).view.set := by
  have hi0 : (i 0).val < 400000 := (i 0).isLt
  have hi1 : (i 1).val < 1 := (i 1).isLt
  obtain ⟨t, ht⟩ : ∃ t : Fin cfg3.N, t.val = (i 0).val / 4000 :=
    ⟨⟨(i 0).val / 4000, by rw [show cfg3.N = 100 from N_3]; omega⟩, rfl⟩
  obtain ⟨-, -, -, -, e0, e1⟩ := idx3 t
  refine ⟨t, flush3_6 t, ?_⟩
  rw [mem_blk3]
  intro a
  match a with
  | ⟨0, _⟩ => show win3_6.index t (0 : Fin 2) * 4000 ≤ (i 0).val ∧ (i 0).val < win3_6.index t (0 : Fin 2) * 4000 + 4000; omega
  | ⟨1, _⟩ => show win3_6.index t (1 : Fin 2) * 1 ≤ (i 1).val ∧ (i 1).val < win3_6.index t (1 : Fin 2) * 1 + 1; omega

/-! ## What a point writes back, and the array

Stated for any per-row function `cell` that the body's result is, row by row (`hbody`); the last theorem takes the
pair score for it. -/

section
variable (cell : (Fin 128 → EReal) → (Fin 128 → EReal) → (S128x64.Idx → EReal) → (S1x64.Idx → EReal) → (S1x64.Idx → EReal) → EReal → EReal)
variable (hbody : ∀ (x0 : Vec Ideal S4000x128 .f32) (x1 : Vec Ideal S4000x128 .f32) (x2 : Vec Ideal S128x64 .f32) (x3 : Vec Ideal S1x64 .f32) (x4 : Vec Ideal S1x64 .f32) (x5 : Vec Ideal S1x1 .f32) (q : Fin 4000),
   out3_6 (F := Ideal) x0 x1 x2 x3 x4 x5 (ix2 q 0) = cell (fun k => x0 (ix2 q k)) (fun k => x1 (ix2 q k)) x2 x3 x4 (x5 (ix2 0 0)))

/-- The column function: at row `i₀`, the cell of row `i₀` of the two endpoint-row arrays. -/
abbrev G3 (HS : S400000x128.Idx → EReal) (HD : S400000x128.Idx → EReal) (W1T : S128x64.Idx → EReal)
    (b1 : S1x64.Idx → EReal) (w2 : S1x64.Idx → EReal) (b2 : S1x1.Idx → EReal) : S400000x1.Idx → EReal :=
  fun i => cell (fun k => HS (ix2 (i 0) k)) (fun k => HD (ix2 (i 0) k)) W1T b1 w2 (b2 (ix2 0 0))

include hbody in
/-- At one grid point: if the two endpoint-row blocks are rows `4000·n …` of their arrays, the body's result at a block
    index is the column function at the matching array index. -/
theorem point3 (x0 : Vec Ideal S4000x128 .f32) (x1 : Vec Ideal S4000x128 .f32) (x2 : Vec Ideal S128x64 .f32) (x3 : Vec Ideal S1x64 .f32) (x4 : Vec Ideal S1x64 .f32) (x5 : Vec Ideal S1x1 .f32)
    (HS : S400000x128.Idx → EReal) (HD : S400000x128.Idx → EReal) (n : Nat)
    (h0 : ∀ (x : S4000x128.Idx) (k : S400000x128.Idx), (k 0).val = n * 4000 + (x 0).val → (k 1).val = (x 1).val → x0 x = HS k)
    (h1 : ∀ (x : S4000x128.Idx) (k : S400000x128.Idx), (k 0).val = n * 4000 + (x 0).val → (k 1).val = (x 1).val → x1 x = HD k)
    (y : S4000x1.Idx) (i : S400000x1.Idx) (hi0 : (i 0).val = n * 4000 + (y 0).val) :
    out3_6 (F := Ideal) x0 x1 x2 x3 x4 x5 y = G3 cell HS HD x2 x3 x4 x5 i := by
  obtain ⟨p, q, rfl⟩ : ∃ (p : Fin 4000) (q : Fin 1), y = ix2 p q := ⟨y 0, y 1, eq_ix2 y⟩
  obtain rfl : q = 0 := Fin.ext (by omega)
  rw [hbody]
  have es : (fun k : Fin 128 => x0 (ix2 p k)) = fun k : Fin 128 => HS (ix2 (i 0) k) := funext fun k => h0 (ix2 p k) (ix2 (i 0) k) hi0 rfl
  have ed : (fun k : Fin 128 => x1 (ix2 p k)) = fun k : Fin 128 => HD (ix2 (i 0) k) := funext fun k => h1 (ix2 p k) (ix2 (i 0) k) hi0 rfl
  rw [es, ed]

include hbody in
/-- What grid point `t` writes back is block `t` of the column function of the arrays the launch finds. -/
theorem flushed3_eq (c : Dev nD) (t : Fin cfg3.N) :
    (dat3 V c).flushed 6 t = ((cfg3.win 6).blk t).view.read (Elt Ideal)
      (G3 cell (V c main_v57) (V c main_v64) (V c main_v65) (V c main_v66) (V c main_arg15) (V c main_v67)) := by
  show (cfg3.win 6).cut (grid3.coords t) ((dat3 V c).after 6 t) = _
  rw [after3_6, blk3_2, blk3_3, blk3_4, blk3_5]
  obtain ⟨-, -, -, -, e0, e1⟩ := idx3 t
  funext y
  rw [View.read_apply]
  refine point3 cell hbody (iblk3 V c 0 t) (iblk3 V c 1 t) (V c main_v65) (V c main_v66) (V c main_arg15) (V c main_v67)
    (V c main_v57) (V c main_v64) t.val (blk3_0 V c t) (blk3_1 V c t) y _ ?_
  show win3_6.index t (0 : Fin 2) * 4000 + 1 * (y 0).val = t.val * 4000 + (y 0).val; omega

include hbody in
/-- The score column after the launch is the column function: every row is in some point's block. -/
theorem arr3_of (c : Dev nD) : (dat3 V c).arrAt 6 cfg3.N
    = G3 cell (V c main_v57) (V c main_v64) (V c main_v65) (V c main_v66) (V c main_arg15) (V c main_v67) :=
  (dat3 V c).arrAt_eq_of_cover 6 _ (fun t _ => flushed3_eq V cell hbody c t) cover3

end

/-- The score column after the launch: row by row, the score of that row's two gathered endpoint rows, with the four
    parameter arrays as the launch finds them. -/
theorem arr3 (c : Dev nD) : (dat3 V c).arrAt 6 cfg3.N
    = fun i : S400000x1.Idx => Cert.Cell.predCell (fun k => V c main_v57 (ix2 (i 0) k)) (fun k => V c main_v64 (ix2 (i 0) k))
        (V c main_v65) (V c main_v66) (V c main_arg15) (V c main_v67 (ix2 0 0)) :=
  arr3_of V Cert.Cell.predCell Cert.KernelIdeal.Body.out3_6_apply c

end Cert.KernelIdeal.Region

end
-- ==== Proof.KStep.lean ====
/-
  The idealized kernel program's three results as functions of its arguments.

  Walking the buffer contents through the nine segments: the first launch finds the host's summed neighbour rows of
  the input states, the in-degree column, the input states and the six parameter arrays, and leaves `h1 = kstep x`;
  the second finds the summed neighbour rows of `h1` and the same in-degree column and parameters, and leaves
  `h2 = kstep h1`; the third leaves `h3 = kstep h2`, the third result.  The scorer finds the rows of `h3` at the
  concatenated endpoint lists and leaves `kscore h3`, whose two halves are the first and second result.
-/
import proofs.«108194_j40132174414161_2_alg».proof.Proof.KKeep
import proofs.«108194_j40132174414161_2_alg».proof.Proof.KDefs
import proofs.«108194_j40132174414161_2_alg».proof.Proof.RegionGru0
import proofs.«108194_j40132174414161_2_alg».proof.Proof.RegionGru1
import proofs.«108194_j40132174414161_2_alg».proof.Proof.RegionGru2
import proofs.«108194_j40132174414161_2_alg».proof.Proof.RegionPred

set_option maxRecDepth 16384

noncomputable section

namespace Cert.KernelIdeal.KStep

open Cert.KernelIdeal Cert.KernelIdeal.Gen Cert.KernelIdeal.KStage Cert.KernelIdeal.KKeep Cert.KernelIdeal.KDefs
open Idealize.ShloMosaic Idealize.ShloMosaic.TcCoe Idealize.ShloMosaic.ValueIdx
open Idealize.SL.Sem

variable (m : (ℓ : Loc nD τ sig) → Buf (Elt Ideal) ℓ) (ρ : Dev nD → PrngReg)

/-- The node states after one, two and three steps, and the score column. -/
def h1 (c : Dev nD) : (⟨S100000x128, .f32⟩ : BufTy).Contents (Elt Ideal) := kstep (m ((c : Thread nD τ).loc main_arg0)) (m ((c : Thread nD τ).loc main_arg1)) (m ((c : Thread nD τ).loc main_arg2)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12))
def h2 (c : Dev nD) : (⟨S100000x128, .f32⟩ : BufTy).Contents (Elt Ideal) := kstep (h1 m c) (m ((c : Thread nD τ).loc main_arg1)) (m ((c : Thread nD τ).loc main_arg2)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12))
def h3 (c : Dev nD) : (⟨S100000x128, .f32⟩ : BufTy).Contents (Elt Ideal) := kstep (h2 m c) (m ((c : Thread nD τ).loc main_arg1)) (m ((c : Thread nD τ).loc main_arg2)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12))
def sc (c : Dev nD) : (⟨S400000x1, .f32⟩ : BufTy).Contents (Elt Ideal) := kscore (h3 m c) (m ((c : Thread nD τ).loc main_arg3)) (m ((c : Thread nD τ).loc main_arg4)) (m ((c : Thread nD τ).loc main_arg5)) (m ((c : Thread nD τ).loc main_arg6)) (m ((c : Thread nD τ).loc main_arg13)) (m ((c : Thread nD τ).loc main_arg14)) (m ((c : Thread nD τ).loc main_arg15)) (m ((c : Thread nD τ).loc main_arg16))

theorem W2_v22 (c : Dev nD) : W2 m ρ c (Proc.devRef .tc main_v22) = h1 m c := by
  refine (W2_arr m ρ c 9).trans ((Cert.KernelIdeal.Region.arr0 (V1 m ρ) c).trans ?_)
  funext i
  dsimp only [V1]
  rw [W1_main_v21, W1_main_v9, W1_main_arg0, W1_main_v0, W1_main_v3, W1_main_v1, W1_main_v4, W1_main_v2, W1_main_v5]
  rfl

theorem W4_v35 (c : Dev nD) : W4 m ρ c (Proc.devRef .tc main_v35) = h2 m c := by
  refine (W4_arr m ρ c 9).trans ((Cert.KernelIdeal.Region.arr1 (V3 m ρ) c).trans ?_)
  funext i
  dsimp only [V3]
  rw [W3_main_v34, W3_main_v22, W2_v22, W2_main_arg1, W2_main_arg2, W3_main_v9, W1_main_v9, W3_main_v0, W1_main_v0, W3_main_v3, W1_main_v3, W3_main_v1, W1_main_v1, W3_main_v4, W1_main_v4, W3_main_v2, W1_main_v2, W3_main_v5, W1_main_v5]
  rfl

theorem W6_v48 (c : Dev nD) : W6 m ρ c (Proc.devRef .tc main_v48) = h3 m c := by
  refine (W6_arr m ρ c 9).trans ((Cert.KernelIdeal.Region.arr2 (V5 m ρ) c).trans ?_)
  funext i
  dsimp only [V5]
  rw [W5_main_v47, W5_main_v35, W4_v35, W4_main_arg1, W4_main_arg2, W5_main_v9, W1_main_v9, W5_main_v0, W1_main_v0, W5_main_v3, W1_main_v3, W5_main_v1, W1_main_v1, W5_main_v4, W1_main_v4, W5_main_v2, W1_main_v2, W5_main_v5, W1_main_v5]
  rfl

theorem W8_v68 (c : Dev nD) : W8 m ρ c (Proc.devRef .tc main_v68) = sc m c := by
  refine (W8_arr m ρ c 6).trans ((Cert.KernelIdeal.Region.arr3 (V7 m ρ) c).trans ?_)
  funext i
  dsimp only [V7]
  rw [W7_main_v57, W7_main_v64, W6_v48, W6_main_arg3, W6_main_arg4, W6_main_arg5, W6_main_arg6, W7_main_v65, W6_main_arg13, W7_main_v66, W6_main_arg14,
    W7_main_arg15, W7_main_v67, W6_main_arg16]
  rfl

/-- The third result: the node states after three steps. -/
theorem res_v48 (c : Dev nD) : W9 m ρ c (Proc.devRef .tc main_v48) = h3 m c :=
  (W9_main_v48 m ρ c).trans (W6_v48 m ρ c)

/-- The two halves of the score column: the positive pairs' scores and the negative pairs' scores. -/
def r69 (c : Dev nD) : (⟨S200000x1, .f32⟩ : BufTy).Contents (Elt Ideal) :=
  extractStridedSlice S200000x1 ![0, 0] (sc m c) slices_S400000x1_S200000x1_0_0
def r70 (c : Dev nD) : (⟨S200000x1, .f32⟩ : BufTy).Contents (Elt Ideal) :=
  extractStridedSlice S200000x1 ![200000, 0] (sc m c) slices_S400000x1_S200000x1_200000_0

/-- The first result: the first half of the score column. -/
theorem res_v69 (c : Dev nD) : W9 m ρ c (Proc.devRef .tc main_v69) = r69 m c := by
  rw [W9_main_v69, W8_v68]; rfl

/-- The second result: the second half of the score column. -/
theorem res_v70 (c : Dev nD) : W9 m ρ c (Proc.devRef .tc main_v70) = r70 m c := by
  rw [W9_main_v70, W8_v68]; rfl

end Cert.KernelIdeal.KStep

end
-- ==== Proof.FinitePre.lean ====
/-
  From the precondition to "every float entry is a real".

  The precondition is the conjunction, over the eleven float argument arrays, of the test "every entry x has
  |x| < +∞", and it is assumed to evaluate to 1.  A conjunction of one-bit words is 1 only if each conjunct is;
  a conjunction over all entries of an array, reduced to a single cell, is 1 only if the test is 1 at every
  entry; and over the extended reals |x| = max x (−x) is strictly below +∞ exactly when x is neither infinity,
  that is, when x is a real.  The word the test compares against has all exponent bits set and a zero
  fraction, so it denotes +∞.  The six integer arguments do not occur in the predicate.
-/
import proofs.«108194_j40132174414161_2_alg».proof.Defs
import proofs.«108194_j40132174414161_2_alg».proof.Proof.Gen.Pre_finite_inputs
import Idealize.ShloMosaic.Lib.ReduceAll
import Idealize.ShloMosaic.Lib.ValueIdx
import Idealize.ShloMosaic.PureOps.Ideal.Laws

noncomputable section

namespace Cert.Finite

open Idealize.ShloMosaic Cert.Pre_finite_inputs

/-- The scalar shape has one index. -/
instance : Subsingleton S_.Idx := ⟨fun a b => funext fun d => d.elim0⟩

/-- The word the predicate compares against denotes plus infinity. -/
theorem inf_word : Ideal.ofBits .f32 0x7F800000#32 = (⊤ : EReal) := by
  simp [Ideal.ofBits, Ideal.ieee]

/-- An extended real whose absolute value is strictly below plus infinity is a real. -/
theorem real_of_abs_lt (x : EReal) (h : Ideal.cmp .olt (max x (-x)) (Ideal.ofBits .f32 0x7F800000#32) = 1#1) :
    ∃ t : ℝ, x = (t : EReal) := by
  rw [inf_word] at h
  induction x using EReal.rec with
  | bot => simp [Ideal.cmp] at h
  | coe r => exact ⟨r, rfl⟩
  | top => simp [Ideal.cmp] at h

/-- One entry: the comparison of the absolute value with the broadcast infinity being 1 makes the entry real. -/
theorem real_of_cmp {s : Shape} (a : FVec Ideal s .f32) (hb : S_.BroadcastsInDim s (![] : Fin 0 → Fin s.rank)) (i : s.Idx)
    (h : cmpf .olt (Host.absf a) (broadcastInDim s ![] hb (constant S_ .f32 0x7F800000#32)) i = 1#1) :
    ∃ t : ℝ, a i = (t : EReal) :=
  real_of_abs_lt (a i) h

/-- One array: the conjunction over all entries being 1 makes every entry real. -/
theorem real_of_all {s : Shape} {axes : List (Fin s.rank)} (a : FVec Ideal s .f32)
    (hb : S_.BroadcastsInDim s (![] : Fin 0 → Fin s.rank)) (hr : s.ReducesTo axes S_) (hu : 0 < S_.numel) (init : IVec S_ 1)
    (h : Host.reduce IntOp.andi (cmpf .olt (Host.absf a) (broadcastInDim s ![] hb (constant S_ .f32 0x7F800000#32))) init hr hu
      ValueIdx.ix0 = 1#1) (i : s.Idx) : ∃ t : ℝ, a i = (t : EReal) :=
  real_of_cmp a hb i (Host.reduce_andi_all _ init hr hu ValueIdx.ix0 h i)

variable [Cert.Pre_finite_inputs.Facts]

/-- The precondition decoded: if the conjunction of the eleven "all entries have finite absolute value" tests is 1,
    every entry of every float argument is a real. The integer arguments do not occur in the predicate. -/
theorem real_of_fn (x0 : FVec Ideal S100000x128 .f32) (x1 x2 : IVec S1600000 32) (x3 x4 x5 x6 : IVec S200000 32)
    (x7 : FVec Ideal S128x128 .f32) (x8 : FVec Ideal S128 .f32) (x9 : FVec Ideal S384x128 .f32)
    (x10 : FVec Ideal S384 .f32) (x11 : FVec Ideal S384x128 .f32) (x12 : FVec Ideal S384 .f32)
    (x13 : FVec Ideal S64x128 .f32) (x14 : FVec Ideal S64 .f32) (x15 : FVec Ideal S1x64 .f32) (x16 : FVec Ideal S1 .f32)
    (h : Cert.Pre_finite_inputs.fn (F := Ideal) x0 x1 x2 x3 x4 x5 x6 x7 x8 x9 x10 x11 x12 x13 x14 x15 x16 = fun _ => 1#1) :
    (∀ i, ∃ t : ℝ, x0 i = (t : EReal)) ∧ (∀ i, ∃ t : ℝ, x7 i = (t : EReal)) ∧ (∀ i, ∃ t : ℝ, x8 i = (t : EReal))
      ∧ (∀ i, ∃ t : ℝ, x9 i = (t : EReal)) ∧ (∀ i, ∃ t : ℝ, x10 i = (t : EReal)) ∧ (∀ i, ∃ t : ℝ, x11 i = (t : EReal))
      ∧ (∀ i, ∃ t : ℝ, x12 i = (t : EReal)) ∧ (∀ i, ∃ t : ℝ, x13 i = (t : EReal)) ∧ (∀ i, ∃ t : ℝ, x14 i = (t : EReal))
      ∧ (∀ i, ∃ t : ℝ, x15 i = (t : EReal)) ∧ (∀ i, ∃ t : ℝ, x16 i = (t : EReal)) := by
  have e := congrFun h ValueIdx.ix0
  simp only [fn, fn_part1, fn_part2, fn_part3, andi, IntOp.andi_eq_one] at e
  obtain ⟨⟨⟨⟨⟨⟨⟨⟨⟨⟨e0, e7⟩, e8⟩, e9⟩, e10⟩, e11⟩, e12⟩, e13⟩, e14⟩, e15⟩, e16⟩ := e
  exact ⟨real_of_all _ _ _ _ _ e0, real_of_all _ _ _ _ _ e7, real_of_all _ _ _ _ _ e8, real_of_all _ _ _ _ _ e9,
    real_of_all _ _ _ _ _ e10, real_of_all _ _ _ _ _ e11, real_of_all _ _ _ _ _ e12, real_of_all _ _ _ _ _ e13,
    real_of_all _ _ _ _ _ e14, real_of_all _ _ _ _ _ e15, real_of_all _ _ _ _ _ e16⟩

open Idealize.SL.Sem in
/-- The same, read off the kernel's precondition: on every device, every entry of each float argument array in the
    launch memory is a real. -/
theorem real_of_pre (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, ∃ t : ℝ, m ((c.tc : Thread Cert.KernelIdeal.nD Cert.KernelIdeal.τ).loc Cert.KernelIdeal.main_arg0) i = (t : EReal))
      ∧ (∀ i, ∃ t : ℝ, m ((c.tc : Thread Cert.KernelIdeal.nD Cert.KernelIdeal.τ).loc Cert.KernelIdeal.main_arg7) i = (t : EReal))
      ∧ (∀ i, ∃ t : ℝ, m ((c.tc : Thread Cert.KernelIdeal.nD Cert.KernelIdeal.τ).loc Cert.KernelIdeal.main_arg8) i = (t : EReal))
      ∧ (∀ i, ∃ t : ℝ, m ((c.tc : Thread Cert.KernelIdeal.nD Cert.KernelIdeal.τ).loc Cert.KernelIdeal.main_arg9) i = (t : EReal))
      ∧ (∀ i, ∃ t : ℝ, m ((c.tc : Thread Cert.KernelIdeal.nD Cert.KernelIdeal.τ).loc Cert.KernelIdeal.main_arg10) i = (t : EReal))
      ∧ (∀ i, ∃ t : ℝ, m ((c.tc : Thread Cert.KernelIdeal.nD Cert.KernelIdeal.τ).loc Cert.KernelIdeal.main_arg11) i = (t : EReal))
      ∧ (∀ i, ∃ t : ℝ, m ((c.tc : Thread Cert.KernelIdeal.nD Cert.KernelIdeal.τ).loc Cert.KernelIdeal.main_arg12) i = (t : EReal))
      ∧ (∀ i, ∃ t : ℝ, m ((c.tc : Thread Cert.KernelIdeal.nD Cert.KernelIdeal.τ).loc Cert.KernelIdeal.main_arg13) i = (t : EReal))
      ∧ (∀ i, ∃ t : ℝ, m ((c.tc : Thread Cert.KernelIdeal.nD Cert.KernelIdeal.τ).loc Cert.KernelIdeal.main_arg14) i = (t : EReal))
      ∧ (∀ i, ∃ t : ℝ, m ((c.tc : Thread Cert.KernelIdeal.nD Cert.KernelIdeal.τ).loc Cert.KernelIdeal.main_arg15) i = (t : EReal))
      ∧ (∀ i, ∃ t : ℝ, m ((c.tc : Thread Cert.KernelIdeal.nD Cert.KernelIdeal.τ).loc Cert.KernelIdeal.main_arg16) i = (t : EReal)) :=
  real_of_fn _ _ _ _ _ _ _ _ _ _ _ _ _ _ _ _ _ (h c)

end Cert.Finite

end
-- ==== Proof.WordVals.lean ====
/-
  The values of the two float words the formulas use.

  A 32-bit pattern with sign 0, biased exponent 127 and zero fraction denotes 2^23 · 2^(127 − 127 − 23) = 1;
  the all-zero pattern denotes 0.
-/
import proofs.«108194_j40132174414161_2_alg».proof.Proof.Cell

noncomputable section

namespace Cert.WordVals

open Idealize.ShloMosaic

/-- The word for 1.0 denotes 1. -/
theorem one_eq : Cert.Cell.one = (1 : EReal) := by
  simp [Ideal.ofBits, Ideal.ieee, -EReal.coe_mul]; norm_num

/-- The word for 1.0 denotes the real 1. -/
theorem one_eq_coe : Cert.Cell.one = ((1 : ℝ) : EReal) := by
  rw [one_eq, EReal.coe_one]

/-- The word for 0.0 denotes 0. -/
theorem zero_eq : Cert.Cell.zero = (0 : EReal) := Ideal.ofBits_zero_f32

end Cert.WordVals

end
-- ==== Proof.RefStep.lean ====
/-
  One message-passing step of the reference, read at an index.

  The reference forms two affine images of width 384 per node: the aggregated message row through the transposed
  input weights plus a bias, and the node's own row through the transposed hidden weights plus a bias.  It cuts
  each into three blocks of 128 columns (reset, update, candidate), takes
  r = 1 / (1 + exp(−(reset blocks summed))), z likewise from the update blocks,
  n = tanh(candidate of the first + r · candidate of the second), and returns (1 − z) · n + z · (own entry).
  Column j of the three blocks is column j, 128 + j and 256 + j of the 384; each contraction is a sum over the
  128 entries of a row; the quotient 1 / (1 + exp(−x)) with the word for 1.0 is the logistic function because
  that word denotes 1.  So the entry at row n, column j is the gated update of the two rows at column j.
-/
import proofs.«108194_j40132174414161_2_alg».proof.Proof.ReadP
import proofs.«108194_j40132174414161_2_alg».proof.Proof.Cell
import proofs.«108194_j40132174414161_2_alg».proof.Proof.WordVals

noncomputable section

namespace Cert.RefStep

open Cert.ReferenceIdeal Cert.ReferenceIdeal.Gen Cert.ReferenceIdeal.Read Idealize.ShloMosaic Idealize.ShloMosaic.ValueIdx Idealize.SL.Sem
open Cert.Cell

/-- The reference spells the logistic function as a quotient with the word for 1.0 in both places. -/
theorem logistic_word (x : EReal) :
    Ideal.div (Ideal.ofBits .f32 0x3F800000#32) (Ideal.ofBits .f32 0x3F800000#32 + Ideal.exp (-x)) = Ideal.logistic x := by
  have h : Ideal.ofBits .f32 0x3F800000#32 = (1 : EReal) := Cert.WordVals.one_eq
  rw [h]; rfl

/-- The input-side gate pre-activation at row `n`, column `c`: the aggregated message row through the transposed
    input weights plus the bias. -/
theorem gi_at (x0 : (⟨S100000x128, .f32⟩ : BufTy).Contents (Elt Ideal)) (x1 x2 : (⟨S1600000, .i32⟩ : BufTy).Contents (Elt Ideal)) (x7 : (⟨S128x128, .f32⟩ : BufTy).Contents (Elt Ideal)) (x8 : (⟨S128, .f32⟩ : BufTy).Contents (Elt Ideal)) (x9 : (⟨S384x128, .f32⟩ : BufTy).Contents (Elt Ideal)) (x10 : (⟨S384, .f32⟩ : BufTy).Contents (Elt Ideal)) (n : Fin 100000) (c : Fin 384) :
    val_main_v19 (F := Ideal) x0 x1 x2 x7 x8 x9 x10 (ix2 n c)
      = gateRow (fun k => val_main_v14 (F := Ideal) x0 x1 x2 x7 x8 (ix2 n k)) (val_main_v15 (F := Ideal) x9)
          (val_main_v17 (F := Ideal) x10) c := by
  have hl : ∀ k : Fin 128, lidx_main_v16 (ix2 n c) k = ix2 n k := fun k => by funext a; match a with | ⟨0, _⟩ => rfl | ⟨1, _⟩ => rfl
  have hr : ∀ k : Fin 128, ridx_main_v16 (ix2 n c) k = ix2 k c := fun k => by funext a; match a with | ⟨0, _⟩ => rfl | ⟨1, _⟩ => rfl
  have hb : idx_main_v18 (ix2 n c) = ix2 0 c := by funext a; match a with | ⟨0, _⟩ => rfl | ⟨1, _⟩ => rfl
  have hs : (∑ k : Fin 128, val_main_v14 (F := Ideal) x0 x1 x2 x7 x8 (lidx_main_v16 (ix2 n c) k)
        * val_main_v15 (F := Ideal) x9 (ridx_main_v16 (ix2 n c) k))
      = ∑ k : Fin 128, val_main_v14 (F := Ideal) x0 x1 x2 x7 x8 (ix2 n k) * val_main_v15 (F := Ideal) x9 (ix2 k c) :=
    Finset.sum_congr rfl fun k _ => by rw [hl k, hr k]
  rw [val_main_v19_apply, val_main_v16_apply, val_main_v18_apply, hb, hs, Ideal.addf_def]
  rfl

/-- The state-side gate pre-activation at row `n`, column `c`: the node's own row through the transposed hidden
    weights plus the bias. -/
theorem gh_at (x0 : (⟨S100000x128, .f32⟩ : BufTy).Contents (Elt Ideal)) (x11 : (⟨S384x128, .f32⟩ : BufTy).Contents (Elt Ideal)) (x12 : (⟨S384, .f32⟩ : BufTy).Contents (Elt Ideal)) (n : Fin 100000) (c : Fin 384) :
    val_main_v24 (F := Ideal) x0 x11 x12 (ix2 n c)
      = gateRow (fun k => x0 (ix2 n k)) (val_main_v20 (F := Ideal) x11) (val_main_v22 (F := Ideal) x12) c := by
  have hl : ∀ k : Fin 128, lidx_main_v21 (ix2 n c) k = ix2 n k := fun k => by funext a; match a with | ⟨0, _⟩ => rfl | ⟨1, _⟩ => rfl
  have hr : ∀ k : Fin 128, ridx_main_v21 (ix2 n c) k = ix2 k c := fun k => by funext a; match a with | ⟨0, _⟩ => rfl | ⟨1, _⟩ => rfl
  have hb : idx_main_v23 (ix2 n c) = ix2 0 c := by funext a; match a with | ⟨0, _⟩ => rfl | ⟨1, _⟩ => rfl
  have hs : (∑ k : Fin 128, x0 (lidx_main_v21 (ix2 n c) k) * val_main_v20 (F := Ideal) x11 (ridx_main_v21 (ix2 n c) k))
      = ∑ k : Fin 128, x0 (ix2 n k) * val_main_v20 (F := Ideal) x11 (ix2 k c) :=
    Finset.sum_congr rfl fun k _ => by rw [hl k, hr k]
  rw [val_main_v24_apply, val_main_v21_apply, val_main_v23_apply, hb, hs, Ideal.addf_def]
  rfl

/-- One message-passing step of the reference at row `n`, column `j`: the gated update of the aggregated message
    row and the node's own row. -/
theorem step_at (x0 : (⟨S100000x128, .f32⟩ : BufTy).Contents (Elt Ideal)) (x1 x2 : (⟨S1600000, .i32⟩ : BufTy).Contents (Elt Ideal)) (x7 : (⟨S128x128, .f32⟩ : BufTy).Contents (Elt Ideal)) (x8 : (⟨S128, .f32⟩ : BufTy).Contents (Elt Ideal)) (x9 : (⟨S384x128, .f32⟩ : BufTy).Contents (Elt Ideal)) (x10 : (⟨S384, .f32⟩ : BufTy).Contents (Elt Ideal)) (x11 : (⟨S384x128, .f32⟩ : BufTy).Contents (Elt Ideal)) (x12 : (⟨S384, .f32⟩ : BufTy).Contents (Elt Ideal)) (n : Fin 100000) (j : Fin 128) :
    val_main_v52 (F := Ideal) x0 x1 x2 x7 x8 x9 x10 x11 x12 (ix2 n j)
      = gruOf (fun k => val_main_v14 (F := Ideal) x0 x1 x2 x7 x8 (ix2 n k)) (fun k => x0 (ix2 n k))
          (val_main_v15 (F := Ideal) x9) (val_main_v17 (F := Ideal) x10) (val_main_v20 (F := Ideal) x11)
          (val_main_v22 (F := Ideal) x12) j := by
  have e25 : idx_main_v25 (ix2 n j) = ix2 n (col0 j) := by funext a; match a with | ⟨0, _⟩ => rfl | ⟨1, _⟩ => rfl
  have e26 : idx_main_v26 (ix2 n j) = ix2 n (col1 j) := by funext a; match a with | ⟨0, _⟩ => rfl | ⟨1, _⟩ => rfl
  have e27 : idx_main_v27 (ix2 n j) = ix2 n (col2 j) := by funext a; match a with | ⟨0, _⟩ => rfl | ⟨1, _⟩ => rfl
  have e28 : idx_main_v28 (ix2 n j) = ix2 n (col0 j) := by funext a; match a with | ⟨0, _⟩ => rfl | ⟨1, _⟩ => rfl
  have e29 : idx_main_v29 (ix2 n j) = ix2 n (col1 j) := by funext a; match a with | ⟨0, _⟩ => rfl | ⟨1, _⟩ => rfl
  have e30 : idx_main_v30 (ix2 n j) = ix2 n (col2 j) := by funext a; match a with | ⟨0, _⟩ => rfl | ⟨1, _⟩ => rfl
  rw [val_main_v52_apply, val_main_v50_apply, val_main_v51_apply, val_main_v49_apply, val_main_v48_apply,
    val_main_cst_5_apply, val_main_v47_apply, val_main_v46_apply, val_main_v45_apply, val_main_v44_apply,
    val_main_v43_apply, val_main_cst_4_apply, val_main_v42_apply, val_main_v41_apply, val_main_cst_3_apply,
    val_main_v40_apply, val_main_v39_apply, val_main_v38_apply, val_main_v37_apply, val_main_v36_apply,
    val_main_cst_2_apply, val_main_v35_apply, val_main_v34_apply, val_main_cst_1_apply, val_main_v33_apply,
    val_main_v32_apply, val_main_v31_apply, val_main_v25_apply, val_main_v26_apply, val_main_v27_apply,
    val_main_v28_apply, val_main_v29_apply, val_main_v30_apply, e25, e26, e27, e28, e29, e30,
    gi_at, gi_at, gi_at, gh_at, gh_at, gh_at]
  simp only [Ideal.addf_def, Ideal.mulf_def, Ideal.subf_def, Ideal.hostDivf_def, Ideal.hostUnary_exp_def,
    Ideal.hostUnary_tanh_def, Ideal.hostNegf_def, Ideal.negf_def, Ideal.ofBits_def, logistic_word]
  rfl

/-- The same at an arbitrary index of the node-state array. -/
theorem step_apply (x0 : (⟨S100000x128, .f32⟩ : BufTy).Contents (Elt Ideal)) (x1 x2 : (⟨S1600000, .i32⟩ : BufTy).Contents (Elt Ideal)) (x7 : (⟨S128x128, .f32⟩ : BufTy).Contents (Elt Ideal)) (x8 : (⟨S128, .f32⟩ : BufTy).Contents (Elt Ideal)) (x9 : (⟨S384x128, .f32⟩ : BufTy).Contents (Elt Ideal)) (x10 : (⟨S384, .f32⟩ : BufTy).Contents (Elt Ideal)) (x11 : (⟨S384x128, .f32⟩ : BufTy).Contents (Elt Ideal)) (x12 : (⟨S384, .f32⟩ : BufTy).Contents (Elt Ideal)) (i : S100000x128.Idx) :
    val_main_v52 (F := Ideal) x0 x1 x2 x7 x8 x9 x10 x11 x12 i
      = gruOf (fun k => val_main_v14 (F := Ideal) x0 x1 x2 x7 x8 (ix2 (i 0) k)) (fun k => x0 (ix2 (i 0) k))
          (val_main_v15 (F := Ideal) x9) (val_main_v17 (F := Ideal) x10) (val_main_v20 (F := Ideal) x11)
          (val_main_v22 (F := Ideal) x12) (i 1) := by
  have e : val_main_v52 (F := Ideal) x0 x1 x2 x7 x8 x9 x10 x11 x12 i
      = val_main_v52 (F := Ideal) x0 x1 x2 x7 x8 x9 x10 x11 x12 (ix2 (i 0) (i 1)) :=
    congrArg (val_main_v52 (F := Ideal) x0 x1 x2 x7 x8 x9 x10 x11 x12) (eq_ix2 i)
  exact e.trans (step_at x0 x1 x2 x7 x8 x9 x10 x11 x12 (i 0) (i 1))

end Cert.RefStep

end
-- ==== Proof.FiniteCell.lean ====
/-
  Finiteness of the gated update.

  The new state at a column is `(1 − z) · n + z · h` where `z` is a logistic value, `n` a hyperbolic
  tangent and `h` the node's own entry.  Over the extended reals the logistic function and the
  hyperbolic tangent take a real value at every argument, the infinities included (their limits there
  are 0, 1 and −1, 1), and the word for 1.0 denotes a real; reals are closed under difference, product
  and sum.  So the new state is real as soon as the node's own entry is, whatever the message row and
  the weights are: an infinite or junk pre-activation is absorbed by the two squashing functions.
-/
import proofs.«108194_j40132174414161_2_alg».proof.Proof.Cell

noncomputable section

namespace Cert.Finite

open Idealize.ShloMosaic Cert.Cell

/-- The logistic function is real at every extended real. -/
theorem logistic_real (x : EReal) : ∃ t : ℝ, Ideal.logistic x = (t : EReal) := by
  induction x using EReal.rec with
  | bot => exact ⟨0, by rw [Ideal.logistic_bot, EReal.coe_zero]⟩
  | coe r => exact ⟨_, Ideal.logistic_coe r⟩
  | top => exact ⟨1, by rw [Ideal.logistic_top, EReal.coe_one]⟩

/-- The hyperbolic tangent is real at every extended real. -/
theorem tanh_real (x : EReal) : ∃ t : ℝ, Ideal.tanh x = (t : EReal) := by
  induction x using EReal.rec with
  | bot => exact ⟨-1, by rw [Ideal.tanh_bot, EReal.coe_neg, EReal.coe_one]⟩
  | coe r => exact ⟨_, Ideal.tanh_coe r⟩
  | top => exact ⟨1, by rw [Ideal.tanh_top, EReal.coe_one]⟩

/-- The word for 1.0 denotes a real. -/
theorem one_real : ∃ t : ℝ, Cert.Cell.one = (t : EReal) :=
  ⟨1, by simp [Ideal.ofBits, Ideal.ieee, -EReal.coe_mul]; norm_num⟩

/-- Reals are closed under the convex-combination shape of the update. -/
theorem blend_real {o z n h : EReal} (ho : ∃ t : ℝ, o = (t : EReal)) (hz : ∃ t : ℝ, z = (t : EReal))
    (hn : ∃ t : ℝ, n = (t : EReal)) (hh : ∃ t : ℝ, h = (t : EReal)) :
    ∃ t : ℝ, (o - z) * n + z * h = (t : EReal) := by
  obtain ⟨t₀, rfl⟩ := ho
  obtain ⟨tz, rfl⟩ := hz
  obtain ⟨tn, rfl⟩ := hn
  obtain ⟨th, rfl⟩ := hh
  exact ⟨(t₀ - tz) * tn + tz * th, by
    rw [EReal.coe_add, EReal.coe_mul, EReal.coe_mul, EReal.coe_sub]⟩

/-- The gated update of a real entry is real, whatever the message row. -/
theorem gruOf_real (a hr : Fin 128 → EReal) (WihT : Arr2 128 384) (bih : Arr2 1 384) (WhhT : Arr2 128 384)
    (bhh : Arr2 1 384) (j : Fin 128) (h : ∃ t : ℝ, hr j = (t : EReal)) :
    ∃ t : ℝ, Cert.Cell.gruOf a hr WihT bih WhhT bhh j = (t : EReal) :=
  blend_real one_real (logistic_real _) (tanh_real _) h

/-- A node's new state is real at every column where its own row is. -/
theorem gruCell_real (ar : Fin 128 → EReal) (d : EReal) (hr : Fin 128 → EReal) (WeT : Arr2 128 128) (be : Arr2 1 128)
    (WihT : Arr2 128 384) (bih : Arr2 1 384) (WhhT : Arr2 128 384) (bhh : Arr2 1 384) (j : Fin 128)
    (h : ∃ t : ℝ, hr j = (t : EReal)) :
    ∃ t : ℝ, Cert.Cell.gruCell ar d hr WeT be WihT bih WhhT bhh j = (t : EReal) :=
  gruOf_real (msgRow ar d WeT be) hr WihT bih WhhT bhh j h

end Cert.Finite

end
-- ==== Proof.AggLaw.lean ====
/-
  The aggregation law, over the extended reals.

  A graph layer sends, along every edge `e` of a finite family `D`, the source row `g e` through a matrix `W` and adds
  a bias `b`; the node then sums what arrives.  Because the matrix acts linearly, the same total is obtained by first
  summing the rows that arrive and passing the ONE summed row through the matrix, and adding the bias once per edge,
  that is, the number of edges times the bias:

      ∑_{e ∈ D} ((∑_k g e k · W k c) + b c)  =  (∑_k (∑_{e ∈ D} g e k) · W k c) + (∑_{e ∈ D} 1) · b c.

  Over the extended reals multiplication does not distribute over addition in general (an infinite factor against a sum
  of opposite signs), so the law is stated for entries that are real numbers: either given as coercions of reals
  (`agg_coe`, `agg_rows_coe`) or as extended reals each known to equal some real (`agg_of_real`, `agg_rows_of_real`).
  The two accumulators on the right start from a word `z` that is zero and count edges with a word `u` that is one,
  the way a sum "into a zero array" and a degree count "of ones" read at an index.
-/
import Idealize.ShloMosaic.PureOps.Ideal

open scoped BigOperators

namespace Cert.AggLaw

/-- The embedding of the reals in the extended reals commutes with finite sums. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The law in the reals: a finite sum of affine images is the affine image of the sum, the bias counted once per
    term. -/
theorem agg_real {ι : Type*} {K : ℕ} (D : Finset ι) (g : ι → Fin K → ℝ) (w : Fin K → ℝ) (β : ℝ) :
    ∑ e ∈ D, ((∑ k, g e k * w k) + β) = (∑ k, (∑ e ∈ D, g e k) * w k) + (∑ _e ∈ D, (1 : ℝ)) * β := by
  rw [Finset.sum_add_distrib, Finset.sum_comm]
  congr 1
  · exact Finset.sum_congr rfl fun k _ => (Finset.sum_mul D (fun e => g e k) (w k)).symm
  · rw [Finset.sum_const, Finset.sum_const, nsmul_eq_mul, nsmul_eq_mul, mul_one]

/-- THE LAW, for rows given edge by edge as coercions of reals: summing over the edges each row through the matrix
    column `w` plus the bias `β` is the summed row through the column plus the edge count times the bias.  `z` is a
    zero and `u` a one of the extended reals (the initial value of the two accumulators and the unit being counted). -/
theorem agg_coe {ι : Type*} {K : ℕ} (D : Finset ι) (g : ι → Fin K → ℝ) (w : Fin K → ℝ) (β : ℝ) (z u : EReal)
    (hz : z = 0) (hu : u = ((1 : ℝ) : EReal)) :
    ∑ e ∈ D, ((∑ k, (g e k : EReal) * (w k : EReal)) + (β : EReal))
      = (∑ k, (z + ∑ e ∈ D, (g e k : EReal)) * (w k : EReal)) + (z + ∑ _e ∈ D, u) * (β : EReal) := by
  subst hz hu
  simp only [zero_add, ← EReal.coe_mul, ← coe_sum, ← EReal.coe_add]
  exact congrArg _ (agg_real D g w β)

/-- The law with the rows read out of a table `h` of node rows through a source map `r`, the matrix `W` and bias `b`
    read at an output column `c`: the left side is "the sum over edges of (source row through the matrix, plus bias)",
    the right side "(summed source rows) through the matrix, plus in-degree times bias". -/
theorem agg_rows_coe {ι : Type*} {N K K' : ℕ} (D : Finset ι) (r : ι → Fin N) (h : Fin N → Fin K → ℝ)
    (W : Fin K → Fin K' → ℝ) (b : Fin K' → ℝ) (c : Fin K') (z u : EReal) (hz : z = 0) (hu : u = ((1 : ℝ) : EReal)) :
    ∑ e ∈ D, ((∑ k, (h (r e) k : EReal) * (W k c : EReal)) + (b c : EReal))
      = (∑ k, (z + ∑ e ∈ D, (h (r e) k : EReal)) * (W k c : EReal)) + (z + ∑ _e ∈ D, u) * (b c : EReal) :=
  agg_coe D (fun e => h (r e)) (fun k => W k c) (b c) z u hz hu

/-- The law for extended-real rows, matrix column and bias each of whose entries is a real number. -/
theorem agg_of_real {ι : Type*} {K : ℕ} (D : Finset ι) (G : ι → Fin K → EReal) (w : Fin K → EReal) (β : EReal)
    (hG : ∀ e k, ∃ t : ℝ, G e k = t) (hw : ∀ k, ∃ t : ℝ, w k = t) (hβ : ∃ t : ℝ, β = t) (z u : EReal)
    (hz : z = 0) (hu : u = ((1 : ℝ) : EReal)) :
    ∑ e ∈ D, ((∑ k, G e k * w k) + β) = (∑ k, (z + ∑ e ∈ D, G e k) * w k) + (z + ∑ _e ∈ D, u) * β := by
  choose g hg using hG
  choose w' hw' using hw
  obtain ⟨β', rfl⟩ := hβ
  simp only [hg, hw']
  exact agg_coe D g w' β' z u hz hu

/-- The law for an extended-real table of node rows `H`, matrix `W` and bias `b`, every entry of which is a real
    number, with the rows read through a source map `r` and the matrix and bias at an output column `c`. -/
theorem agg_rows_of_real {ι : Type*} {N K K' : ℕ} (D : Finset ι) (r : ι → Fin N) (H : Fin N → Fin K → EReal)
    (W : Fin K → Fin K' → EReal) (b : Fin K' → EReal) (hH : ∀ i k, ∃ t : ℝ, H i k = t)
    (hW : ∀ k c, ∃ t : ℝ, W k c = t) (hb : ∀ c, ∃ t : ℝ, b c = t) (c : Fin K') (z u : EReal)
    (hz : z = 0) (hu : u = ((1 : ℝ) : EReal)) :
    ∑ e ∈ D, ((∑ k, H (r e) k * W k c) + b c)
      = (∑ k, (z + ∑ e ∈ D, H (r e) k) * W k c) + (z + ∑ _e ∈ D, u) * b c :=
  agg_of_real D (fun e => H (r e)) (fun k => W k c) (b c) (fun e k => hH (r e) k) (fun k => hW k c) (hb c) z u hz hu

end Cert.AggLaw
-- ==== Proof.LibGatherRows.lean ====
/-
  A row gather read at an index.

  Taking rows `x[idx]` of a table `x : [N, C]` at a column of integer row numbers `idx : [R, 1]` is a gather
  (`Host.gather`) whose offset axes are `[1]`, collapsed slice axes `[0]`, start index map `[0]`, index vector axis 1
  and slice sizes `[1, C]`.  Result element `(e, k)` is the table at row `idx[e, 0]` — the start index read as a signed
  integer and clamped into `[0, N − 1]`, as the gather clamps every start index so that the slice fits — and at the
  same column `k`: the whole row passes through.  When the start index is already a row number (`0 ≤ idx[e, 0] < N`)
  the clamp does nothing (`gather_rows_apply_of_lt`).
-/
import Idealize.ShloMosaic.Lib.ValueIdx

namespace Cert.LibGatherRows

open Idealize.ShloMosaic Idealize.ShloMosaic.ValueIdx

variable {α : Type}

/-- The dimension numbers of a row gather, for a table `[N, C]`, start indices `[R, 1]` and result `[R, C]`; their
    conditions `wf` are decided on a program's literal shapes. -/
abbrev rowsDims (N R C : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(e, k)`: the table at the row `idx[e, 0]`, read signed and clamped into `[0, N − 1]`, and
    at the column `k`.  On the row axis the operand coordinate is the clamped start (the axis is collapsed, so it has no
    offset); on the column axis it is the result's own column (the axis is not in the start index map, so its start
    is `0`, and it is the one offset axis). -/
theorem gather_rows_apply {N R C w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (e : Fin R) (k : Fin C) :
    Host.gather (rowsDims N R C wf) x idx (ix2 e k)
      = x (ix2 ⟨min (idx (ix2 e 0)).toInt.toNat (N - 1), by omega⟩ k) := by
  unfold Host.gather
  congr 1
  funext a
  refine Fin.ext ?_
  match a with
  | ⟨0, _⟩ =>
    show (rowsDims N R C wf).start (ix2 e k) idx 0 + (rowsDims N R C wf).batchCoord (ix2 e k) 0
      + (rowsDims N R C wf).offCoord (ix2 e k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims N R C wf).startIndexMap from List.mem_singleton.mpr rfl)]
    have hsi : (rowsDims N R C wf).siIdx (ix2 e k) ⟨List.idxOf (0 : Fin 2) (rowsDims N R C wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (rowsDims N R C wf).start (ix2 e k) idx 1 + (rowsDims N R C wf).batchCoord (ix2 e k) 1
      + (rowsDims N R C wf).offCoord (ix2 e k) 1 = k.val
    rw [GatherDims.batchCoord_eq_zero _ _ _ List.not_mem_nil]
    have hs : (rowsDims N R C wf).start (ix2 e k) idx 1 = 0 := by
      unfold GatherDims.start
      rw [dif_neg (show (1 : Fin 2) ∉ [(0 : Fin 2)] by decide)]
    rw [hs]
    simp only [Nat.add_zero, Nat.zero_add]
    rfl

/-- The row gather at `(e, k)` when the start index `idx[e, 0]` is a row number, `0 ≤ idx[e, 0] < N`: the clamp is
    the identity and the result is the table at that row and column `k`. -/
theorem gather_rows_apply_of_lt {N R C w : Nat}
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (e : Fin R) (k : Fin C)
    (h0 : 0 ≤ (idx (ix2 e 0)).toInt) (hlt : (idx (ix2 e 0)).toInt < N) :
    Host.gather (rowsDims N R C wf) x idx (ix2 e k) = x (ix2 ⟨(idx (ix2 e 0)).toInt.toNat, by omega⟩ k) := by
  rw [gather_rows_apply (by omega) wf x idx e k]
  congr 2
  refine Fin.ext ?_
  show min (idx (ix2 e 0)).toInt.toNat (N - 1) = (idx (ix2 e 0)).toInt.toNat
  omega

end Cert.LibGatherRows
-- ==== Proof.LibScatterRows.lean ====
/-
  A row scatter-add read at an index.

  Adding rows `upd : [R, C]` into a table `x : [N, C]` at a column of integer row numbers `idx : [R, 1]` is an
  accumulating scatter (`Ideal.hostScatterAdd`) whose update window axes are `[1]`, inserted window axes `[0]`,
  scatter-axes-to-operand-axes map `[0]` and index vector axis 1.  Update element `(e, k)` lands at row `idx[e, 0]` —
  read as a signed integer and NOT clamped: an update whose row number is negative or `≥ N` is dropped — and at the same
  column `k` (`resultIdx?_rows`).  Hence table element `(n, k)` receives exactly the updates `upd (e, k)` of the rows
  `e` whose row number is `n`, one term per such row (`scatterAdd_rows_apply`): the sum over rank-2 update indices
  that land on `(n, k)` is re-indexed as a sum over rows, the column being forced to equal `k`.
-/
import Idealize.ShloMosaic.Lib.ValueIdx

open scoped BigOperators

namespace Cert.LibScatterRows

open Idealize.ShloMosaic Idealize.ShloMosaic.ValueIdx

/-- The dimension numbers of a row scatter, for a table `[N, C]`, scatter indices `[R, 1]` and updates `[R, C]`; their
    conditions `wf` are decided on a program's literal shapes. -/
abbrev segDims (N R C : Nat) (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

/-- The row of an `N`-row table a word names when read as a signed integer: that integer if it lies in `[0, N)`,
    nothing otherwise. -/
def rowOf? {w : Nat} (N : Nat) (v : BitVec w) : Option (Fin N) :=
  if h : 0 ≤ v.toInt ∧ v.toInt < N then some ⟨v.toInt.toNat, by omega⟩ else none

/-- A word names row `n` exactly when its signed value is `n`. -/
theorem rowOf?_eq_some_iff {w N : Nat} (v : BitVec w) (n : Fin N) : rowOf? N v = some n ↔ v.toInt = (n.val : Int) := by
  unfold rowOf?
  by_cases h : 0 ≤ v.toInt ∧ v.toInt < N
  · rw [dif_pos h, Option.some.injEq, Fin.ext_iff]
    show v.toInt.toNat = n.val ↔ _
    omega
  · rw [dif_neg h]
    constructor
    · intro h'; cases h'
    · intro h'; exfalso; apply h; have := n.isLt; omega

/-- A word whose signed value lies in `[0, N)` names the row with that number. -/
theorem rowOf?_of_lt {w N : Nat} (v : BitVec w) (h0 : 0 ≤ v.toInt) (hlt : v.toInt < N) :
    rowOf? N v = some ⟨v.toInt.toNat, by omega⟩ := dif_pos ⟨h0, hlt⟩

/-- Two rank-2 indices given by coordinates are equal exactly when their coordinates are. -/
theorem ix2_inj {n0 n1 : Nat} {a a' : Fin n0} {b b' : Fin n1} : ix2 a b = ix2 a' b' ↔ a = a' ∧ b = b' :=
  ⟨fun h => ⟨congrFun h 0, congrFun h 1⟩, fun ⟨h1, h2⟩ => by rw [h1, h2]⟩

section Rows
variable {N R C w : Nat} (wf : ScatterDims.WF ⟨2, ![N, C]⟩ ⟨2, ![R, 1]⟩ ⟨2, ![R, C]⟩ [1] [0] [0] 1)
  (idx : IVec ⟨2, ![R, 1]⟩ w)

/-- On the row axis the window of update `(e, k)` starts at the signed row number `idx[e, 0]` … -/
theorem start_row (e : Fin R) (k : Fin C) : (segDims N R C wf).start (ix2 e k) idx 0 = (idx (ix2 e 0)).toInt := by
  unfold ScatterDims.start
  rw [dif_pos (show (0 : Fin 2) ∈ (segDims N R C wf).scatterDimsToOperandDims from List.mem_singleton.mpr rfl)]
  have hsi : (segDims N R C wf).siIdx (ix2 e k) ⟨List.idxOf (0 : Fin 2) (segDims N R C wf).scatterDimsToOperandDims,
      List.idxOf_lt_length_iff.2 (List.mem_singleton.mpr rfl)⟩ = ix2 e 0 := by
    funext b; refine Fin.ext ?_
    match b with
    | ⟨0, _⟩ => rfl
    | ⟨1, _⟩ => rfl
  rw [hsi]

/-- … and on the column axis, which the map does not name, at `0`. -/
theorem start_col (e : Fin R) (k : Fin C) : (segDims N R C wf).start (ix2 e k) idx 1 = 0 := by
  unfold ScatterDims.start
  rw [dif_neg (show (1 : Fin 2) ∉ [(0 : Fin 2)] by decide)]

/-- The row axis is an inserted window axis: the window coordinate there is `0` … -/
theorem window_row (e : Fin R) (k : Fin C) : (segDims N R C wf).window (ix2 e k) 0 = 0 := by
  unfold ScatterDims.window
  rw [dif_neg]
  show (0 : Fin 2) ∉ (⟨2, ![N, C]⟩ : Shape).kept [0]
  simp [Shape.kept]

/-- … and the column axis is the one window axis: the window coordinate there is the update's own column. -/
theorem window_col (e : Fin R) (k : Fin C) : (segDims N R C wf).window (ix2 e k) 1 = k.val := rfl

/-- WHERE AN UPDATE LANDS: update `(e, k)` goes to `(n, k)` when its row number `idx[e, 0]` names a row `n` of the
    table, and nowhere when it does not (the column is always in range, so only the row decides). -/
theorem resultIdx?_rows (e : Fin R) (k : Fin C) :
    (segDims N R C wf).resultIdx? (ix2 e k) idx = (rowOf? N (idx (ix2 e 0))).map (fun n => ix2 n k) := by
  unfold ScatterDims.resultIdx? rowOf?
  by_cases hv : 0 ≤ (idx (ix2 e 0)).toInt ∧ (idx (ix2 e 0)).toInt < N
  · have hall : ∀ a : Fin 2, 0 ≤ (segDims N R C wf).start (ix2 e k) idx a + (segDims N R C wf).window (ix2 e k) a ∧
        (segDims N R C wf).start (ix2 e k) idx a + (segDims N R C wf).window (ix2 e k) a
          < ((⟨2, ![N, C]⟩ : Shape).size a : Nat) := by
      intro a
      match a with
      | ⟨0, _⟩ =>
        show 0 ≤ (segDims N R C wf).start (ix2 e k) idx 0 + ((segDims N R C wf).window (ix2 e k) 0 : Nat) ∧
          (segDims N R C wf).start (ix2 e k) idx 0 + ((segDims N R C wf).window (ix2 e k) 0 : Nat) < (N : Int)
        rw [start_row, window_row]; omega
      | ⟨1, _⟩ =>
        show 0 ≤ (segDims N R C wf).start (ix2 e k) idx 1 + ((segDims N R C wf).window (ix2 e k) 1 : Nat) ∧
          (segDims N R C wf).start (ix2 e k) idx 1 + ((segDims N R C wf).window (ix2 e k) 1 : Nat) < (C : Int)
        rw [start_col, window_col]; have := k.isLt; omega
    rw [dif_pos hall, dif_pos hv, Option.map_some]
    congr 1
    funext a
    refine Fin.ext ?_
    match a with
    | ⟨0, _⟩ =>
      show ((segDims N R C wf).start (ix2 e k) idx 0 + ((segDims N R C wf).window (ix2 e k) 0 : Nat)).toNat
        = (idx (ix2 e 0)).toInt.toNat
      rw [start_row, window_row]; simp
    | ⟨1, _⟩ =>
      show ((segDims N R C wf).start (ix2 e k) idx 1 + ((segDims N R C wf).window (ix2 e k) 1 : Nat)).toNat = k.val
      rw [start_col, window_col]; simp
  · rw [dif_neg hv, Option.map_none, dif_neg]
    intro hall
    apply hv
    have h0 : 0 ≤ (segDims N R C wf).start (ix2 e k) idx 0 + ((segDims N R C wf).window (ix2 e k) 0 : Nat) ∧
        (segDims N R C wf).start (ix2 e k) idx 0 + ((segDims N R C wf).window (ix2 e k) 0 : Nat) < (N : Int) := hall 0
    rw [start_row, window_row] at h0
    omega

/-- THE ROW SCATTER-ADD READ AT `(n, k)`: the table's element plus the sum, over the update rows `e` whose row number
    `idx[e, 0]` names row `n`, of the update's element `(e, k)`.  The sum over the rank-2 update indices landing on
    `(n, k)` is split by coordinates; within row `e` an index `(e, b)` lands on `(n, k)` exactly when `e` names
    row `n` and `b = k`, so the inner sum has the single term `b = k`. -/
theorem scatterAdd_rows_apply (x : (⟨2, ![N, C]⟩ : Shape).Idx → EReal) (upd : (⟨2, ![R, C]⟩ : Shape).Idx → EReal)
    (n : Fin N) (k : Fin C) :
    Ideal.hostScatterAdd (segDims N R C wf) x idx upd (ix2 n k)
      = x (ix2 n k) + ∑ e ∈ Finset.univ.filter (fun e : Fin R => rowOf? N (idx (ix2 e 0)) = some n), upd (ix2 e k) := by
  unfold Ideal.hostScatterAdd
  congr 1
  rw [Finset.sum_filter, Finset.sum_filter, sum_idx2]
  refine Finset.sum_congr rfl fun e _ => ?_
  have hiff : ∀ b : Fin C, ((segDims N R C wf).resultIdx? (ix2 e b) idx = some (ix2 n k))
      ↔ (rowOf? N (idx (ix2 e 0)) = some n ∧ b = k) := by
    intro b
    rw [resultIdx?_rows]
    cases hrow : rowOf? N (idx (ix2 e 0)) with
    | none => simp
    | some m => rw [Option.map_some, Option.some.injEq, Option.some.injEq, ix2_inj]
  simp only [hiff]
  by_cases hr : rowOf? N (idx (ix2 e 0)) = some n
  · simp [hr]
  · simp [hr]

end Rows

end Cert.LibScatterRows
-- ==== Proof.MsgLaw.lean ====
/-
  The aggregated message of one step, computed two ways, is the same number at every index.

  Fix the node table `h` (100000 rows of 128 reals), the edge lists `src`, `dst` (1600000 words each), the edge
  matrix `We` (128 × 128) and the edge bias `be` (128).  Write `D n` for the set of edges whose destination word names
  node `n` (`inEdges`), and `r e` for the row of the table edge `e` reads: its source word, increased by the node
  count when negative, then clamped into the table (`srcRow`).

  One program sums the source rows first and applies the matrix afterwards:
      a(n, k') = 0 + ∑_{e ∈ D n} h(r e, k'),   d(n) = 0 + ∑_{e ∈ D n} 1,
      message(n, k) = (∑_{k'} a(n, k') · We(k, k')) + d(n) · be(k)                     (`agg_apply`, `deg_apply`).
  The other applies the matrix and bias to every node row first and sums the images along the edges:
      message(n, k) = 0 + ∑_{e ∈ D n} ((∑_{k'} h(r e, k') · We(k, k')) + be(k))          (`ref_apply`).
  Both programs select the same edges and the same rows, because they form the destination and source columns by the
  same operations on the same words; and when every entry of `h`, `We`, `be` is a real number, the matrix
  distributes over the sum along the edges and the bias is counted once per edge, so the two agree (`msg_eq`).
-/
import proofs.«108194_j40132174414161_2_alg».proof.Proof.KStage
import proofs.«108194_j40132174414161_2_alg».proof.Proof.ReadP
import proofs.«108194_j40132174414161_2_alg».proof.Proof.Cell
import proofs.«108194_j40132174414161_2_alg».proof.Proof.WordVals
import proofs.«108194_j40132174414161_2_alg».proof.Proof.AggLaw
import proofs.«108194_j40132174414161_2_alg».proof.Proof.LibGatherRows
import proofs.«108194_j40132174414161_2_alg».proof.Proof.LibScatterRows

noncomputable section

namespace Cert.MsgLaw

open scoped BigOperators
open Idealize.ShloMosaic Idealize.ShloMosaic.ValueIdx
open Cert.LibGatherRows Cert.LibScatterRows
open Cert.KernelIdeal (KStage.srcCol KStage.dstCol KStage.aggArr KStage.degArr)
open Cert.ReferenceIdeal (Read.val_main_v0 Read.val_main_v1 Read.val_main_v2 Read.val_main_v3 Read.val_main_v4
  Read.val_main_v10 Read.val_main_v11 Read.val_main_v12 Read.val_main_v13 Read.val_main_v14)

/-! ## The two programs' gather and scatter records are the row gather and the row scatter -/

/-- The first program's gather record is the row gather of a 100000 × 128 table at 1600000 row numbers. -/
theorem gK_eq : Cert.KernelIdeal.gather_S100000x128_S1600000x1_S1600000x128_1_0_n_n_0_1_1128
    = rowsDims 100000 1600000 128 Cert.KernelIdeal.Facts₀.gather_S100000x128_S1600000x1_S1600000x128_1_0_n_n_0_1_1128_wf := rfl
/-- So is the second program's. -/
theorem gR_eq : Cert.ReferenceIdeal.gather_S100000x128_S1600000x1_S1600000x128_1_0_n_n_0_1_1128
    = rowsDims 100000 1600000 128 Cert.ReferenceIdeal.Facts₀.gather_S100000x128_S1600000x1_S1600000x128_1_0_n_n_0_1_1128_wf := rfl
/-- The first program's scatter record for rows of width 128 is the row scatter … -/
theorem sK_eq : Cert.KernelIdeal.scatter_S100000x128_S1600000x1_S1600000x128_1_0_0_1
    = segDims 100000 1600000 128 Cert.KernelIdeal.Facts₀.scatter_S100000x128_S1600000x1_S1600000x128_1_0_0_1_wf := rfl
/-- … and so is its record for rows of width 1 (the in-degree column) … -/
theorem sK1_eq : Cert.KernelIdeal.scatter_S100000x1_S1600000x1_S1600000x1_1_0_0_1
    = segDims 100000 1600000 1 Cert.KernelIdeal.Facts₀.scatter_S100000x1_S1600000x1_S1600000x1_1_0_0_1_wf := rfl
/-- … and the second program's record for rows of width 128. -/
theorem sR_eq : Cert.ReferenceIdeal.scatter_S100000x128_S1600000x1_S1600000x128_1_0_0_1
    = segDims 100000 1600000 128 Cert.ReferenceIdeal.Facts₀.scatter_S100000x128_S1600000x1_S1600000x128_1_0_0_1_wf := rfl

/-- Over the extended reals the accumulating scatter is "each element plus the sum of the updates landing on it". -/
theorem hostScatterAdd_ideal {s si su : Shape} {w : Nat} (d : ScatterDims s si su) (x : FVec Ideal s .f32) (idx : IVec si w)
    (upd : FVec Ideal su .f32) : Host.scatterAdd d x idx upd = Ideal.hostScatterAdd d x idx upd := rfl

/-! ## The two programs form the same index columns -/

/-- The destination column is the same term in both programs. -/
theorem dst_eq (x2 : IVec Cert.KernelIdeal.S1600000 32) :
    KStage.dstCol (F := Ideal) x2 = Read.val_main_v13 (F := Ideal) x2 := rfl
/-- The normalised source column is the same term in both programs. -/
theorem src_eq (x1 : IVec Cert.KernelIdeal.S1600000 32) :
    KStage.srcCol (F := Ideal) x1 = Read.val_main_v10 (F := Ideal) x1 := rfl

/-- The edges whose destination word names node `n`. -/
def inEdges (x2 : IVec Cert.KernelIdeal.S1600000 32) (n : Fin 100000) : Finset (Fin 1600000) :=
  Finset.univ.filter (fun e : Fin 1600000 => rowOf? 100000 (x2 (ix1 e)) = some n)

/-- The row of the node table that edge `e` reads: its normalised source word, read signed and clamped into the
    table. -/
def srcRow (x1 : IVec Cert.KernelIdeal.S1600000 32) (e : Fin 1600000) : Fin 100000 :=
  ⟨min (KStage.srcCol (F := Ideal) x1 (ix2 e 0)).toInt.toNat (100000 - 1), by omega⟩

/-- The destination column at edge `e` is the edge's destination word. -/
theorem dstCol_apply (x2 : IVec Cert.KernelIdeal.S1600000 32) (e : Fin 1600000) :
    KStage.dstCol (F := Ideal) x2 (ix2 e 0) = x2 (ix1 e) := by
  unfold KStage.dstCol
  exact broadcastInDim_apply _ _ x2 (ix2 e 0) (ix1 e) (fun a => match a with
    | ⟨0, _⟩ => by show e.val = if (1600000 : Nat) = 1 then 0 else e.val; rw [if_neg (by decide)])

/-- The edges the first program's scatters select for node `n` are `inEdges` … -/
theorem inEdges_eq (x2 : IVec Cert.KernelIdeal.S1600000 32) (n : Fin 100000) :
    (Finset.univ.filter fun e : Fin 1600000 => rowOf? 100000 (KStage.dstCol (F := Ideal) x2 (ix2 e 0)) = some n)
      = inEdges x2 n :=
  Finset.filter_congr (fun e _ => by rw [dstCol_apply])

/-- … and so are the edges the second program's scatter selects. -/
theorem inEdgesR_eq (x2 : IVec Cert.KernelIdeal.S1600000 32) (n : Fin 100000) :
    (Finset.univ.filter fun e : Fin 1600000 => rowOf? 100000 (Read.val_main_v13 (F := Ideal) x2 (ix2 e 0)) = some n)
      = inEdges x2 n :=
  Finset.filter_congr (fun e _ => by rw [← dst_eq, dstCol_apply])

/-! ## The first program: summed rows and in-degree at an index -/

/-- The array of zero words the row sums start from reads the zero word everywhere … -/
theorem zerosK_apply (n : Fin 100000) (k' : Fin 128) :
    broadcastInDim Cert.KernelIdeal.S100000x128 ![] Cert.KernelIdeal.Gen.bcast_S_S100000x128
      (constant (F := Ideal) Cert.KernelIdeal.S_ .f32 0x00000000#32) (ix2 n k') = Cert.Cell.zero :=
  broadcastInDim_apply _ _ _ (ix2 n k') ix0 (fun a => a.elim0)

/-- … and so does the column of zero words the in-degree starts from; … -/
theorem zerosK1_apply (n : Fin 100000) :
    broadcastInDim Cert.KernelIdeal.S100000x1 ![] Cert.KernelIdeal.Gen.bcast_S_S100000x1
      (constant (F := Ideal) Cert.KernelIdeal.S_ .f32 0x00000000#32) (ix2 n 0) = Cert.Cell.zero :=
  broadcastInDim_apply _ _ _ (ix2 n 0) ix0 (fun a => a.elim0)

/-- … the column of ones that is summed into the in-degree reads the word for one at every edge. -/
theorem onesK_apply (e : Fin 1600000) :
    broadcastInDim Cert.KernelIdeal.S1600000x1 ![] Cert.KernelIdeal.Gen.bcast_S_S1600000x1
      (constant (F := Ideal) Cert.KernelIdeal.S_ .f32 0x3F800000#32) (ix2 e 0) = Cert.Cell.one :=
  broadcastInDim_apply _ _ _ (ix2 e 0) ix0 (fun a => a.elim0)

/-- The row edge `e` contributes: the table at the edge's source row (the two format changes around the gather are
    the identity on extended reals). -/
theorem gatherK_apply (h : FVec Ideal Cert.KernelIdeal.S100000x128 .f32) (x1 : IVec Cert.KernelIdeal.S1600000 32)
    (e : Fin 1600000) (k' : Fin 128) :
    extf .f32 (Host.gather Cert.KernelIdeal.gather_S100000x128_S1600000x1_S1600000x128_1_0_n_n_0_1_1128
        (truncf .bf16 h Cert.KernelIdeal.Gen.bitsLt_bf16_f32) (KStage.srcCol (F := Ideal) x1))
      Cert.KernelIdeal.Gen.bitsLt_bf16_f32 (ix2 e k') = h (ix2 (srcRow x1 e) k') := by
  rw [extf_apply, gK_eq, gather_rows_apply (by decide), truncf_apply]
  rfl

/-- THE SUMMED NEIGHBOUR ROWS AT `(n, k')`: the zero word plus the sum over the edges into `n` of the table at the
    edge's source row. -/
theorem agg_apply (h : FVec Ideal Cert.KernelIdeal.S100000x128 .f32) (x1 x2 : IVec Cert.KernelIdeal.S1600000 32)
    (n : Fin 100000) (k' : Fin 128) :
    KStage.aggArr (F := Ideal) h x1 x2 (ix2 n k')
      = Cert.Cell.zero + ∑ e ∈ inEdges x2 n, h (ix2 (srcRow x1 e) k') := by
  unfold KStage.aggArr
  rw [hostScatterAdd_ideal, sK_eq, scatterAdd_rows_apply, zerosK_apply, inEdges_eq,
    Finset.sum_congr rfl fun e _ => gatherK_apply h x1 e k']

/-- THE IN-DEGREE AT `n`: the zero word plus one word "one" per edge into `n`. -/
theorem deg_apply (x2 : IVec Cert.KernelIdeal.S1600000 32) (n : Fin 100000) :
    KStage.degArr (F := Ideal) x2 (ix2 n 0) = Cert.Cell.zero + ∑ _e ∈ inEdges x2 n, Cert.Cell.one := by
  unfold KStage.degArr
  rw [hostScatterAdd_ideal, sK1_eq, scatterAdd_rows_apply, zerosK1_apply, inEdges_eq,
    Finset.sum_congr rfl fun e _ => onesK_apply e]

/-- The transposed edge matrix at `(k', k)` is the matrix at `(k, k')`. -/
theorem WeT_apply (x7 : FVec Ideal Cert.KernelIdeal.S128x128 .f32) (k' k : Fin 128) :
    transpose Cert.KernelIdeal.S128x128 [1, 0] x7 Cert.KernelIdeal.Gen.transposes_S128x128_S128x128_1_0 (ix2 k' k)
      = x7 (ix2 k k') :=
  transpose_apply [1, 0] x7 _ (ix2 k' k) (ix2 k k') (fun b => match b with | ⟨0, _⟩ => rfl | ⟨1, _⟩ => rfl)

/-- The bias as a one-row array at `(0, k)` is the bias at `k`. -/
theorem be_apply (x8 : FVec Ideal Cert.KernelIdeal.S128 .f32) (k : Fin 128) :
    shapeCast Cert.KernelIdeal.S1x128 x8 Cert.KernelIdeal.Gen.shapeCasts_S128_S1x128 (ix2 0 k) = x8 (ix1 k) := by
  refine (shapeCast_addUnit_apply ![128] x8 _ (ix2 0 k)).trans ?_
  exact congrArg x8 (funext fun a => match a with | ⟨0, _⟩ => rfl)

/-! ## The second program: the scattered affine images at an index -/

/-- The zero word is a left identity of addition. -/
theorem zero_word_add (a : EReal) : Cert.Cell.zero + a = a := by rw [Cert.WordVals.zero_eq, zero_add]

/-- The array of zero words the second program's sum starts from reads the zero word everywhere. -/
theorem zerosR_apply (n : Fin 100000) (k : Fin 128) : Read.val_main_v12 (F := Ideal) (ix2 n k) = Cert.Cell.zero := by
  rw [Cert.ReferenceIdeal.Read.val_main_v12_apply]
  rfl

/-- One entry of the affine image of the node table: row `r` through the transposed matrix, plus the bias. -/
theorem v4_row (h : FVec Ideal Cert.KernelIdeal.S100000x128 .f32) (x7 : FVec Ideal Cert.KernelIdeal.S128x128 .f32)
    (x8 : FVec Ideal Cert.KernelIdeal.S128 .f32) (r : Fin 100000) (k : Fin 128) :
    Read.val_main_v4 (F := Ideal) h x7 x8 (ix2 r k) = (∑ k' : Fin 128, h (ix2 r k') * x7 (ix2 k k')) + x8 (ix1 k) := by
  rw [Cert.ReferenceIdeal.Read.val_main_v4_apply, Cert.ReferenceIdeal.Read.val_main_v1_apply,
    Cert.ReferenceIdeal.Read.val_main_v3_apply, Cert.ReferenceIdeal.Read.val_main_v2_apply]
  have e1 : ∀ k' : Fin 128, Cert.ReferenceIdeal.Read.lidx_main_v1 (ix2 r k) k' = ix2 r k' := fun k' =>
    funext fun a => match a with | ⟨0, _⟩ => rfl | ⟨1, _⟩ => rfl
  have e2 : ∀ k' : Fin 128, Cert.ReferenceIdeal.Read.idx_main_v0 (Cert.ReferenceIdeal.Read.ridx_main_v1 (ix2 r k) k') = ix2 k k' :=
    fun k' => funext fun a => match a with | ⟨0, _⟩ => rfl | ⟨1, _⟩ => rfl
  have e3 : Cert.ReferenceIdeal.Read.idx_main_v2 (Cert.ReferenceIdeal.Read.idx_main_v3 (ix2 r k)) = ix1 k :=
    funext fun a => match a with | ⟨0, _⟩ => rfl
  rw [e3, Finset.sum_congr rfl fun k' _ => by rw [Cert.ReferenceIdeal.Read.val_main_v0_apply, e1 k', e2 k']]
  rfl

/-- What edge `e` contributes in the second program: the affine image of the table at the edge's source row. -/
theorem gatherR_apply (h : FVec Ideal Cert.KernelIdeal.S100000x128 .f32) (x1 : IVec Cert.KernelIdeal.S1600000 32)
    (x7 : FVec Ideal Cert.KernelIdeal.S128x128 .f32) (x8 : FVec Ideal Cert.KernelIdeal.S128 .f32)
    (e : Fin 1600000) (k : Fin 128) :
    Read.val_main_v11 (F := Ideal) h x1 x7 x8 (ix2 e k)
      = (∑ k' : Fin 128, h (ix2 (srcRow x1 e) k') * x7 (ix2 k k')) + x8 (ix1 k) := by
  unfold Cert.ReferenceIdeal.Read.val_main_v11
  rw [gR_eq, gather_rows_apply (by decide), ← src_eq]
  exact v4_row h x7 x8 (srcRow x1 e) k

/-- THE SECOND PROGRAM'S MESSAGE AT `(n, k)`: the sum over the edges into `n` of the affine image of the edge's
    source row (the leading zero word absorbed). -/
theorem ref_apply (h : FVec Ideal Cert.KernelIdeal.S100000x128 .f32) (x1 x2 : IVec Cert.KernelIdeal.S1600000 32)
    (x7 : FVec Ideal Cert.KernelIdeal.S128x128 .f32) (x8 : FVec Ideal Cert.KernelIdeal.S128 .f32)
    (n : Fin 100000) (k : Fin 128) :
    Read.val_main_v14 (F := Ideal) h x1 x2 x7 x8 (ix2 n k)
      = ∑ e ∈ inEdges x2 n, ((∑ k' : Fin 128, h (ix2 (srcRow x1 e) k') * x7 (ix2 k k')) + x8 (ix1 k)) := by
  unfold Cert.ReferenceIdeal.Read.val_main_v14
  rw [hostScatterAdd_ideal, sR_eq, scatterAdd_rows_apply, zerosR_apply, inEdgesR_eq,
    Finset.sum_congr rfl fun e _ => gatherR_apply h x1 x7 x8 e k]
  exact zero_word_add _

/-! ## The two messages agree -/

/-- THE MESSAGE LAW: when every entry of the node table, the edge matrix and the edge bias is a real number, the
    message row formed from the summed neighbour rows and the in-degree equals, at every node `n` and column `k`,
    the sum along the edges into `n` of the affine images of the source rows. -/
theorem msg_eq (h : FVec Ideal Cert.KernelIdeal.S100000x128 .f32) (x1 x2 : IVec Cert.KernelIdeal.S1600000 32)
    (x7 : FVec Ideal Cert.KernelIdeal.S128x128 .f32) (x8 : FVec Ideal Cert.KernelIdeal.S128 .f32)
    (hH : ∀ i, ∃ t : ℝ, h i = (t : EReal)) (hW : ∀ i, ∃ t : ℝ, x7 i = (t : EReal)) (hb : ∀ i, ∃ t : ℝ, x8 i = (t : EReal))
    (n : Fin 100000) (k : Fin 128) :
    Cert.Cell.msgRow (fun k' => KStage.aggArr (F := Ideal) h x1 x2 (ix2 n k')) (KStage.degArr (F := Ideal) x2 (ix2 n 0))
        (transpose Cert.KernelIdeal.S128x128 [1, 0] x7 Cert.KernelIdeal.Gen.transposes_S128x128_S128x128_1_0)
        (shapeCast Cert.KernelIdeal.S1x128 x8 Cert.KernelIdeal.Gen.shapeCasts_S128_S1x128) k
      = Read.val_main_v14 (F := Ideal) h x1 x2 x7 x8 (ix2 n k) := by
  have key := Cert.AggLaw.agg_rows_of_real (inEdges x2 n) (srcRow x1) (fun i k' => h (ix2 i k'))
    (fun k' c => x7 (ix2 c k')) (fun c => x8 (ix1 c)) (fun i k' => hH _) (fun k' c => hW _) (fun c => hb _) k
    Cert.Cell.zero Cert.Cell.one Cert.WordVals.zero_eq Cert.WordVals.one_eq_coe
  beta_reduce at key
  rw [ref_apply, key]
  unfold Cert.Cell.msgRow
  simp only [agg_apply, deg_apply, be_apply]
  exact congrArg₂ (· + ·) (Finset.sum_congr rfl fun k' _ => by rw [WeT_apply]) rfl

end Cert.MsgLaw

end
-- ==== Proof.StepEq.lean ====
/-
  On real data one step of the kernel program is one step of the reference.

  The kernel program's step is the gated update of the message row built from the summed neighbour rows and
  the in-degree; the reference's step, read at an index, is the gated update of its aggregated message row.
  The two message rows agree when the node states, the edge matrix and the edge bias are real (summing
  neighbour rows and then applying the edge map is applying it to each edge and then summing, an identity
  that needs finite terms).  The gate weights are the same transposes, and a bias laid out as one row is
  the reference's broadcast of it to one row.  A step maps real node states to real node states, because the
  gated update is real wherever the node's own entry is; so the hypothesis carries through three steps.
-/
import proofs.«108194_j40132174414161_2_alg».proof.Proof.KDefs
import proofs.«108194_j40132174414161_2_alg».proof.Proof.RefStep
import proofs.«108194_j40132174414161_2_alg».proof.Proof.RefChain
import proofs.«108194_j40132174414161_2_alg».proof.Proof.FiniteCell
import proofs.«108194_j40132174414161_2_alg».proof.Proof.MsgLaw
import Idealize.ShloMosaic.Lib.ValueLayout

set_option maxRecDepth 16384

noncomputable section

namespace Cert.StepEq

open Idealize.ShloMosaic Idealize.ShloMosaic.ValueIdx Idealize.SL.Sem
open Cert.KernelIdeal Cert.KernelIdeal.Gen Cert.KernelIdeal.KStage Cert.KernelIdeal.KDefs Cert.Cell
open Cert.ReferenceIdeal.Read

/-- A bias vector laid out as one row is the reference's broadcast of it to one row. -/
theorem bias384 (x : (⟨S384, .f32⟩ : BufTy).Contents (Elt Ideal)) :
    shapeCast S1x384 x shapeCasts_S384_S1x384 = val_main_v17 (F := Ideal) x := by
  funext i
  have hi : idx_main_v17 i = ix1 (i 1) := by funext a; match a with | ⟨0, _⟩ => rfl
  rw [val_main_v17_apply, hi]
  exact (congrArg (shapeCast S1x384 x shapeCasts_S384_S1x384) (eq_ix2 i)).trans
    (shapeCast_a_1a_apply x shapeCasts_S384_S1x384 (i 0) (i 1))

/-- The same for the hidden-side bias, which the reference broadcasts under another name. -/
theorem bias384' (x : (⟨S384, .f32⟩ : BufTy).Contents (Elt Ideal)) :
    shapeCast S1x384 x shapeCasts_S384_S1x384 = val_main_v22 (F := Ideal) x :=
  bias384 x

/-- Two gated updates agree when their message rows, weights and biases do. -/
theorem gruOf_congr {a a' hr : Fin 128 → EReal} {W W' V V' : Arr2 128 384} {b b' c c' : Arr2 1 384} (j : Fin 128)
    (ha : a = a') (hW : W = W') (hb : b = b') (hV : V = V') (hc : c = c') :
    gruOf a hr W b V c j = gruOf a' hr W' b' V' c' j := by
  subst ha hW hb hV hc; rfl

/-- On real node states, edge weights and edge bias, one step of the kernel program is one step of the reference. -/
theorem kstep_eq (h : (⟨S100000x128, .f32⟩ : BufTy).Contents (Elt Ideal)) (x1 x2 : (⟨S1600000, .i32⟩ : BufTy).Contents (Elt Ideal)) (x7 : (⟨S128x128, .f32⟩ : BufTy).Contents (Elt Ideal)) (x8 : (⟨S128, .f32⟩ : BufTy).Contents (Elt Ideal)) (x9 : (⟨S384x128, .f32⟩ : BufTy).Contents (Elt Ideal)) (x10 : (⟨S384, .f32⟩ : BufTy).Contents (Elt Ideal)) (x11 : (⟨S384x128, .f32⟩ : BufTy).Contents (Elt Ideal)) (x12 : (⟨S384, .f32⟩ : BufTy).Contents (Elt Ideal))
    (hH : ∀ i, ∃ t : ℝ, h i = (t : EReal)) (hW : ∀ i, ∃ t : ℝ, x7 i = (t : EReal)) (hb : ∀ i, ∃ t : ℝ, x8 i = (t : EReal)) :
    kstep h x1 x2 x7 x8 x9 x10 x11 x12 = val_main_v52 (F := Ideal) h x1 x2 x7 x8 x9 x10 x11 x12 := by
  funext i
  rw [Cert.RefStep.step_apply]
  unfold kstep gruCell
  exact gruOf_congr (i 1) (funext fun k => Cert.MsgLaw.msg_eq h x1 x2 x7 x8 hH hW hb (i 0) k) rfl (bias384 x10) rfl
    (bias384' x12)

/-- One step of the reference keeps real node states real, whatever the graph and the weights. -/
theorem step_real (h : (⟨S100000x128, .f32⟩ : BufTy).Contents (Elt Ideal)) (x1 x2 : (⟨S1600000, .i32⟩ : BufTy).Contents (Elt Ideal)) (x7 : (⟨S128x128, .f32⟩ : BufTy).Contents (Elt Ideal)) (x8 : (⟨S128, .f32⟩ : BufTy).Contents (Elt Ideal)) (x9 : (⟨S384x128, .f32⟩ : BufTy).Contents (Elt Ideal)) (x10 : (⟨S384, .f32⟩ : BufTy).Contents (Elt Ideal)) (x11 : (⟨S384x128, .f32⟩ : BufTy).Contents (Elt Ideal)) (x12 : (⟨S384, .f32⟩ : BufTy).Contents (Elt Ideal)) (hH : ∀ i, ∃ t : ℝ, h i = (t : EReal)) :
    ∀ i, ∃ t : ℝ, val_main_v52 (F := Ideal) h x1 x2 x7 x8 x9 x10 x11 x12 i = (t : EReal) := by
  intro i
  rw [Cert.RefStep.step_apply]
  exact Cert.Finite.gruOf_real _ _ _ _ _ _ (i 1) (hH (ix2 (i 0) (i 1)))

/-- Three steps of the kernel program are the reference's three steps, on real inputs. -/
theorem three_steps (h : (⟨S100000x128, .f32⟩ : BufTy).Contents (Elt Ideal)) (x1 x2 : (⟨S1600000, .i32⟩ : BufTy).Contents (Elt Ideal)) (x7 : (⟨S128x128, .f32⟩ : BufTy).Contents (Elt Ideal)) (x8 : (⟨S128, .f32⟩ : BufTy).Contents (Elt Ideal)) (x9 : (⟨S384x128, .f32⟩ : BufTy).Contents (Elt Ideal)) (x10 : (⟨S384, .f32⟩ : BufTy).Contents (Elt Ideal)) (x11 : (⟨S384x128, .f32⟩ : BufTy).Contents (Elt Ideal)) (x12 : (⟨S384, .f32⟩ : BufTy).Contents (Elt Ideal))
    (hH : ∀ i, ∃ t : ℝ, h i = (t : EReal)) (hW : ∀ i, ∃ t : ℝ, x7 i = (t : EReal)) (hb : ∀ i, ∃ t : ℝ, x8 i = (t : EReal)) :
    kstep (kstep (kstep h x1 x2 x7 x8 x9 x10 x11 x12) x1 x2 x7 x8 x9 x10 x11 x12) x1 x2 x7 x8 x9 x10 x11 x12 = val_main_v158 (F := Ideal) h x1 x2 x7 x8 x9 x10 x11 x12 := by
  have r1 := step_real h x1 x2 x7 x8 x9 x10 x11 x12 hH
  have r2 := step_real _ x1 x2 x7 x8 x9 x10 x11 x12 r1
  rw [kstep_eq h x1 x2 x7 x8 x9 x10 x11 x12 hH hW hb, kstep_eq _ x1 x2 x7 x8 x9 x10 x11 x12 r1 hW hb, kstep_eq _ x1 x2 x7 x8 x9 x10 x11 x12 r2 hW hb]
  exact (Cert.RefChain.v158_eq h x1 x2 x7 x8 x9 x10 x11 x12).symm

/-- The reference's final node states are real on real inputs. -/
theorem v158_real (h : (⟨S100000x128, .f32⟩ : BufTy).Contents (Elt Ideal)) (x1 x2 : (⟨S1600000, .i32⟩ : BufTy).Contents (Elt Ideal)) (x7 : (⟨S128x128, .f32⟩ : BufTy).Contents (Elt Ideal)) (x8 : (⟨S128, .f32⟩ : BufTy).Contents (Elt Ideal)) (x9 : (⟨S384x128, .f32⟩ : BufTy).Contents (Elt Ideal)) (x10 : (⟨S384, .f32⟩ : BufTy).Contents (Elt Ideal)) (x11 : (⟨S384x128, .f32⟩ : BufTy).Contents (Elt Ideal)) (x12 : (⟨S384, .f32⟩ : BufTy).Contents (Elt Ideal)) (hH : ∀ i, ∃ t : ℝ, h i = (t : EReal)) :
    ∀ i, ∃ t : ℝ, val_main_v158 (F := Ideal) h x1 x2 x7 x8 x9 x10 x11 x12 i = (t : EReal) := by
  rw [Cert.RefChain.v158_eq]
  exact step_real _ x1 x2 x7 x8 x9 x10 x11 x12 (step_real _ x1 x2 x7 x8 x9 x10 x11 x12 (step_real h x1 x2 x7 x8 x9 x10 x11 x12 hH))

end Cert.StepEq

end
-- ==== Proof.RefScore.lean ====
/-
  The reference's pair scorer, read at a pair.

  For each list of pairs the reference gathers the two endpoint rows of the final node states, multiplies them
  entrywise, sends the product row through the transposed first-layer weights and adds the bias (64 columns),
  applies the leaky rectifier — a comparison with the word 0.0 selecting between the entry and the word 0.2
  times the entry — and contracts the 64 activated entries against the single row of second-layer weights,
  adding the one bias entry.  The contraction against the transposed 1 × 64 matrix reads that matrix at
  (0, c); the twice-broadcast bias reads its only entry.  So the score of pair q is the two-layer formula of
  the two gathered rows at q.  The gathered rows themselves are left as the stages that produce them.
-/
import proofs.«108194_j40132174414161_2_alg».proof.Proof.ReadP
import proofs.«108194_j40132174414161_2_alg».proof.Proof.Cell

noncomputable section

namespace Cert.RefScore

open Cert.ReferenceIdeal Cert.ReferenceIdeal.Gen Cert.ReferenceIdeal.Read Idealize.ShloMosaic Idealize.ShloMosaic.ValueIdx Idealize.SL.Sem
open Cert.Cell

/-- The hidden row of the scorer on the positive pairs at pair `q`, column `c`: the entrywise product of the two
    gathered endpoint rows through the transposed first-layer weights, plus the bias. -/
theorem hid_pos (x0 : (⟨S100000x128, .f32⟩ : BufTy).Contents (Elt Ideal)) (x1 x2 : (⟨S1600000, .i32⟩ : BufTy).Contents (Elt Ideal)) (x3 x4 : (⟨S200000, .i32⟩ : BufTy).Contents (Elt Ideal)) (x7 : (⟨S128x128, .f32⟩ : BufTy).Contents (Elt Ideal)) (x8 : (⟨S128, .f32⟩ : BufTy).Contents (Elt Ideal)) (x9 : (⟨S384x128, .f32⟩ : BufTy).Contents (Elt Ideal)) (x10 : (⟨S384, .f32⟩ : BufTy).Contents (Elt Ideal)) (x11 : (⟨S384x128, .f32⟩ : BufTy).Contents (Elt Ideal)) (x12 : (⟨S384, .f32⟩ : BufTy).Contents (Elt Ideal)) (x13 : (⟨S64x128, .f32⟩ : BufTy).Contents (Elt Ideal)) (x14 : (⟨S64, .f32⟩ : BufTy).Contents (Elt Ideal)) (q : Fin 200000) (c : Fin 64) :
    val_main_v178 (F := Ideal) x0 x1 x2 x3 x4 x7 x8 x9 x10 x11 x12 x13 x14 (ix2 q c) = hidRow (fun k => val_main_v165 (F := Ideal) x0 x1 x2 x3 x7 x8 x9 x10 x11 x12 (ix2 q k)) (fun k => val_main_v172 (F := Ideal) x0 x1 x2 x4 x7 x8 x9 x10 x11 x12 (ix2 q k)) (val_main_v174 (F := Ideal) x13) (val_main_v176 (F := Ideal) x14) c := by
  have hl : ∀ k : Fin 128, lidx_main_v175 (ix2 q c) k = ix2 q k := fun k => by funext a; match a with | ⟨0, _⟩ => rfl | ⟨1, _⟩ => rfl
  have hr : ∀ k : Fin 128, ridx_main_v175 (ix2 q c) k = ix2 k c := fun k => by funext a; match a with | ⟨0, _⟩ => rfl | ⟨1, _⟩ => rfl
  have hb : idx_main_v177 (ix2 q c) = ix2 0 c := by funext a; match a with | ⟨0, _⟩ => rfl | ⟨1, _⟩ => rfl
  have hs : (∑ k : Fin 128, val_main_v173 (F := Ideal) x0 x1 x2 x3 x4 x7 x8 x9 x10 x11 x12 (lidx_main_v175 (ix2 q c) k) * val_main_v174 (F := Ideal) x13 (ridx_main_v175 (ix2 q c) k))
      = ∑ k : Fin 128, (val_main_v165 (F := Ideal) x0 x1 x2 x3 x7 x8 x9 x10 x11 x12 (ix2 q k) * val_main_v172 (F := Ideal) x0 x1 x2 x4 x7 x8 x9 x10 x11 x12 (ix2 q k)) * val_main_v174 (F := Ideal) x13 (ix2 k c) :=
    Finset.sum_congr rfl fun k _ => by rw [hl k, hr k, val_main_v173_apply, Ideal.mulf_def]
  rw [val_main_v178_apply, val_main_v175_apply, val_main_v177_apply, hb, hs, Ideal.addf_def]
  rfl

/-- The activation on the positive pairs is the leaky rectifier of the hidden entry. -/
theorem act_pos (x0 : (⟨S100000x128, .f32⟩ : BufTy).Contents (Elt Ideal)) (x1 x2 : (⟨S1600000, .i32⟩ : BufTy).Contents (Elt Ideal)) (x3 x4 : (⟨S200000, .i32⟩ : BufTy).Contents (Elt Ideal)) (x7 : (⟨S128x128, .f32⟩ : BufTy).Contents (Elt Ideal)) (x8 : (⟨S128, .f32⟩ : BufTy).Contents (Elt Ideal)) (x9 : (⟨S384x128, .f32⟩ : BufTy).Contents (Elt Ideal)) (x10 : (⟨S384, .f32⟩ : BufTy).Contents (Elt Ideal)) (x11 : (⟨S384x128, .f32⟩ : BufTy).Contents (Elt Ideal)) (x12 : (⟨S384, .f32⟩ : BufTy).Contents (Elt Ideal)) (x13 : (⟨S64x128, .f32⟩ : BufTy).Contents (Elt Ideal)) (x14 : (⟨S64, .f32⟩ : BufTy).Contents (Elt Ideal)) (i : S200000x64.Idx) :
    val_main_v183 (F := Ideal) x0 x1 x2 x3 x4 x7 x8 x9 x10 x11 x12 x13 x14 i = leaky (val_main_v178 (F := Ideal) x0 x1 x2 x3 x4 x7 x8 x9 x10 x11 x12 x13 x14 i) := by
  rw [val_main_v183_apply, val_main_v180_apply, val_main_v182_apply, val_main_v179_apply, val_main_cst_26_apply,
    val_main_v181_apply, val_main_cst_27_apply]
  rfl

/-- The score of positive pair `q`: the activated hidden row against the second-layer weights, plus the bias. -/
theorem score_pos (x0 : (⟨S100000x128, .f32⟩ : BufTy).Contents (Elt Ideal)) (x1 x2 : (⟨S1600000, .i32⟩ : BufTy).Contents (Elt Ideal)) (x3 x4 : (⟨S200000, .i32⟩ : BufTy).Contents (Elt Ideal)) (x7 : (⟨S128x128, .f32⟩ : BufTy).Contents (Elt Ideal)) (x8 : (⟨S128, .f32⟩ : BufTy).Contents (Elt Ideal)) (x9 : (⟨S384x128, .f32⟩ : BufTy).Contents (Elt Ideal)) (x10 : (⟨S384, .f32⟩ : BufTy).Contents (Elt Ideal)) (x11 : (⟨S384x128, .f32⟩ : BufTy).Contents (Elt Ideal)) (x12 : (⟨S384, .f32⟩ : BufTy).Contents (Elt Ideal)) (x13 : (⟨S64x128, .f32⟩ : BufTy).Contents (Elt Ideal)) (x14 : (⟨S64, .f32⟩ : BufTy).Contents (Elt Ideal)) (x15 : (⟨S1x64, .f32⟩ : BufTy).Contents (Elt Ideal)) (x16 : (⟨S1, .f32⟩ : BufTy).Contents (Elt Ideal)) (q : Fin 200000) :
    val_main_v188 (F := Ideal) x0 x1 x2 x3 x4 x7 x8 x9 x10 x11 x12 x13 x14 x15 x16 (ix2 q 0) = predCell (fun k => val_main_v165 (F := Ideal) x0 x1 x2 x3 x7 x8 x9 x10 x11 x12 (ix2 q k)) (fun k => val_main_v172 (F := Ideal) x0 x1 x2 x4 x7 x8 x9 x10 x11 x12 (ix2 q k)) (val_main_v174 (F := Ideal) x13) (val_main_v176 (F := Ideal) x14) x15 (x16 (ix1 0)) := by
  have hl : ∀ k : Fin 64, lidx_main_v185 (ix2 q 0) k = ix2 q k := fun k => by funext a; match a with | ⟨0, _⟩ => rfl | ⟨1, _⟩ => rfl
  have hr : ∀ k : Fin 64, idx_main_v184 (ridx_main_v185 (ix2 q 0) k) = ix2 0 k := fun k => by funext a; match a with | ⟨0, _⟩ => rfl | ⟨1, _⟩ => rfl
  have hb : idx_main_v186 (idx_main_v187 (ix2 q 0)) = ix1 0 := by funext a; match a with | ⟨0, _⟩ => rfl
  have hs : (∑ k : Fin 64, val_main_v183 (F := Ideal) x0 x1 x2 x3 x4 x7 x8 x9 x10 x11 x12 x13 x14 (lidx_main_v185 (ix2 q 0) k) * val_main_v184 (F := Ideal) x15 (ridx_main_v185 (ix2 q 0) k))
      = ∑ c : Fin 64, leaky (hidRow (fun k => val_main_v165 (F := Ideal) x0 x1 x2 x3 x7 x8 x9 x10 x11 x12 (ix2 q k)) (fun k => val_main_v172 (F := Ideal) x0 x1 x2 x4 x7 x8 x9 x10 x11 x12 (ix2 q k)) (val_main_v174 (F := Ideal) x13) (val_main_v176 (F := Ideal) x14) c) * x15 (ix2 0 c) :=
    Finset.sum_congr rfl fun k _ => by
      rw [hl k, val_main_v184_apply, hr k, act_pos, hid_pos]
  rw [val_main_v188_apply, val_main_v185_apply, val_main_v187_apply, val_main_v186_apply, hb, hs, Ideal.addf_def]
  rfl

/-- The hidden row of the scorer on the negative pairs at pair `q`, column `c`: the entrywise product of the two
    gathered endpoint rows through the transposed first-layer weights, plus the bias. -/
theorem hid_neg (x0 : (⟨S100000x128, .f32⟩ : BufTy).Contents (Elt Ideal)) (x1 x2 : (⟨S1600000, .i32⟩ : BufTy).Contents (Elt Ideal)) (x5 x6 : (⟨S200000, .i32⟩ : BufTy).Contents (Elt Ideal)) (x7 : (⟨S128x128, .f32⟩ : BufTy).Contents (Elt Ideal)) (x8 : (⟨S128, .f32⟩ : BufTy).Contents (Elt Ideal)) (x9 : (⟨S384x128, .f32⟩ : BufTy).Contents (Elt Ideal)) (x10 : (⟨S384, .f32⟩ : BufTy).Contents (Elt Ideal)) (x11 : (⟨S384x128, .f32⟩ : BufTy).Contents (Elt Ideal)) (x12 : (⟨S384, .f32⟩ : BufTy).Contents (Elt Ideal)) (x13 : (⟨S64x128, .f32⟩ : BufTy).Contents (Elt Ideal)) (x14 : (⟨S64, .f32⟩ : BufTy).Contents (Elt Ideal)) (q : Fin 200000) (c : Fin 64) :
    val_main_v208 (F := Ideal) x0 x1 x2 x5 x6 x7 x8 x9 x10 x11 x12 x13 x14 (ix2 q c) = hidRow (fun k => val_main_v195 (F := Ideal) x0 x1 x2 x5 x7 x8 x9 x10 x11 x12 (ix2 q k)) (fun k => val_main_v202 (F := Ideal) x0 x1 x2 x6 x7 x8 x9 x10 x11 x12 (ix2 q k)) (val_main_v204 (F := Ideal) x13) (val_main_v206 (F := Ideal) x14) c := by
  have hl : ∀ k : Fin 128, lidx_main_v205 (ix2 q c) k = ix2 q k := fun k => by funext a; match a with | ⟨0, _⟩ => rfl | ⟨1, _⟩ => rfl
  have hr : ∀ k : Fin 128, ridx_main_v205 (ix2 q c) k = ix2 k c := fun k => by funext a; match a with | ⟨0, _⟩ => rfl | ⟨1, _⟩ => rfl
  have hb : idx_main_v207 (ix2 q c) = ix2 0 c := by funext a; match a with | ⟨0, _⟩ => rfl | ⟨1, _⟩ => rfl
  have hs : (∑ k : Fin 128, val_main_v203 (F := Ideal) x0 x1 x2 x5 x6 x7 x8 x9 x10 x11 x12 (lidx_main_v205 (ix2 q c) k) * val_main_v204 (F := Ideal) x13 (ridx_main_v205 (ix2 q c) k))
      = ∑ k : Fin 128, (val_main_v195 (F := Ideal) x0 x1 x2 x5 x7 x8 x9 x10 x11 x12 (ix2 q k) * val_main_v202 (F := Ideal) x0 x1 x2 x6 x7 x8 x9 x10 x11 x12 (ix2 q k)) * val_main_v204 (F := Ideal) x13 (ix2 k c) :=
    Finset.sum_congr rfl fun k _ => by rw [hl k, hr k, val_main_v203_apply, Ideal.mulf_def]
  rw [val_main_v208_apply, val_main_v205_apply, val_main_v207_apply, hb, hs, Ideal.addf_def]
  rfl

/-- The activation on the negative pairs is the leaky rectifier of the hidden entry. -/
theorem act_neg (x0 : (⟨S100000x128, .f32⟩ : BufTy).Contents (Elt Ideal)) (x1 x2 : (⟨S1600000, .i32⟩ : BufTy).Contents (Elt Ideal)) (x5 x6 : (⟨S200000, .i32⟩ : BufTy).Contents (Elt Ideal)) (x7 : (⟨S128x128, .f32⟩ : BufTy).Contents (Elt Ideal)) (x8 : (⟨S128, .f32⟩ : BufTy).Contents (Elt Ideal)) (x9 : (⟨S384x128, .f32⟩ : BufTy).Contents (Elt Ideal)) (x10 : (⟨S384, .f32⟩ : BufTy).Contents (Elt Ideal)) (x11 : (⟨S384x128, .f32⟩ : BufTy).Contents (Elt Ideal)) (x12 : (⟨S384, .f32⟩ : BufTy).Contents (Elt Ideal)) (x13 : (⟨S64x128, .f32⟩ : BufTy).Contents (Elt Ideal)) (x14 : (⟨S64, .f32⟩ : BufTy).Contents (Elt Ideal)) (i : S200000x64.Idx) :
    val_main_v213 (F := Ideal) x0 x1 x2 x5 x6 x7 x8 x9 x10 x11 x12 x13 x14 i = leaky (val_main_v208 (F := Ideal) x0 x1 x2 x5 x6 x7 x8 x9 x10 x11 x12 x13 x14 i) := by
  rw [val_main_v213_apply, val_main_v210_apply, val_main_v212_apply, val_main_v209_apply, val_main_cst_32_apply,
    val_main_v211_apply, val_main_cst_33_apply]
  rfl

/-- The score of negative pair `q`: the activated hidden row against the second-layer weights, plus the bias. -/
theorem score_neg (x0 : (⟨S100000x128, .f32⟩ : BufTy).Contents (Elt Ideal)) (x1 x2 : (⟨S1600000, .i32⟩ : BufTy).Contents (Elt Ideal)) (x5 x6 : (⟨S200000, .i32⟩ : BufTy).Contents (Elt Ideal)) (x7 : (⟨S128x128, .f32⟩ : BufTy).Contents (Elt Ideal)) (x8 : (⟨S128, .f32⟩ : BufTy).Contents (Elt Ideal)) (x9 : (⟨S384x128, .f32⟩ : BufTy).Contents (Elt Ideal)) (x10 : (⟨S384, .f32⟩ : BufTy).Contents (Elt Ideal)) (x11 : (⟨S384x128, .f32⟩ : BufTy).Contents (Elt Ideal)) (x12 : (⟨S384, .f32⟩ : BufTy).Contents (Elt Ideal)) (x13 : (⟨S64x128, .f32⟩ : BufTy).Contents (Elt Ideal)) (x14 : (⟨S64, .f32⟩ : BufTy).Contents (Elt Ideal)) (x15 : (⟨S1x64, .f32⟩ : BufTy).Contents (Elt Ideal)) (x16 : (⟨S1, .f32⟩ : BufTy).Contents (Elt Ideal)) (q : Fin 200000) :
    val_main_v218 (F := Ideal) x0 x1 x2 x5 x6 x7 x8 x9 x10 x11 x12 x13 x14 x15 x16 (ix2 q 0) = predCell (fun k => val_main_v195 (F := Ideal) x0 x1 x2 x5 x7 x8 x9 x10 x11 x12 (ix2 q k)) (fun k => val_main_v202 (F := Ideal) x0 x1 x2 x6 x7 x8 x9 x10 x11 x12 (ix2 q k)) (val_main_v204 (F := Ideal) x13) (val_main_v206 (F := Ideal) x14) x15 (x16 (ix1 0)) := by
  have hl : ∀ k : Fin 64, lidx_main_v215 (ix2 q 0) k = ix2 q k := fun k => by funext a; match a with | ⟨0, _⟩ => rfl | ⟨1, _⟩ => rfl
  have hr : ∀ k : Fin 64, idx_main_v214 (ridx_main_v215 (ix2 q 0) k) = ix2 0 k := fun k => by funext a; match a with | ⟨0, _⟩ => rfl | ⟨1, _⟩ => rfl
  have hb : idx_main_v216 (idx_main_v217 (ix2 q 0)) = ix1 0 := by funext a; match a with | ⟨0, _⟩ => rfl
  have hs : (∑ k : Fin 64, val_main_v213 (F := Ideal) x0 x1 x2 x5 x6 x7 x8 x9 x10 x11 x12 x13 x14 (lidx_main_v215 (ix2 q 0) k) * val_main_v214 (F := Ideal) x15 (ridx_main_v215 (ix2 q 0) k))
      = ∑ c : Fin 64, leaky (hidRow (fun k => val_main_v195 (F := Ideal) x0 x1 x2 x5 x7 x8 x9 x10 x11 x12 (ix2 q k)) (fun k => val_main_v202 (F := Ideal) x0 x1 x2 x6 x7 x8 x9 x10 x11 x12 (ix2 q k)) (val_main_v204 (F := Ideal) x13) (val_main_v206 (F := Ideal) x14) c) * x15 (ix2 0 c) :=
    Finset.sum_congr rfl fun k _ => by
      rw [hl k, val_main_v214_apply, hr k, act_neg, hid_neg]
  rw [val_main_v218_apply, val_main_v215_apply, val_main_v217_apply, val_main_v216_apply, hb, hs, Ideal.addf_def]
  rfl

end Cert.RefScore

end
-- ==== Proof.PairRows.lean ====
/-
  Rows taken at two endpoint lists laid end to end are the rows taken at each list.

  One program concatenates two lists of 200000 endpoint indices, makes each entry a row number (a negative
  index has the node count 100000 added) and takes the rows of a table at the 400000 entries; the other makes
  each list's entries row numbers on its own and takes the rows at each list.  A row gather's result at
  `(e, k)` depends on the index column only through its entry in row `e`, so it is enough to compare the two
  columns entry by entry: position `q` of the concatenation is entry `q` of the first list, position
  `200000 + q` is entry `q` of the second, and both programs apply the same function `norm` to it.

  Last, the score column of the 400000 pairs cut at 200000: entry `q` of the first half is entry `q`, entry
  `q` of the second half is entry `200000 + q`.
-/
import proofs.«108194_j40132174414161_2_alg».proof.Proof.Gen.KernelIdeal.Frame
import proofs.«108194_j40132174414161_2_alg».proof.Proof.KStage
import proofs.«108194_j40132174414161_2_alg».proof.Proof.LibGatherRows
import proofs.«108194_j40132174414161_2_alg».proof.Proof.ReadP
import Idealize.ShloMosaic.Lib.Pipeline.Value
import Idealize.ShloMosaic.Lib.ValueIdx
import Idealize.ShloMosaic.Lib.ValueLayout

noncomputable section

namespace Cert.PairRows

open Idealize.ShloMosaic Idealize.ShloMosaic.ValueIdx Idealize.SL.Sem
open Cert.LibGatherRows Cert.KernelIdeal Cert.KernelIdeal.Gen

variable {F : FTy → Type} [FloatOps F]

/-- An endpoint index made a row number: a negative index has the node count added. -/
def norm (w : BitVec 32) : BitVec 32 := Scalar.select (IntOp.cmpi .slt w 0#32) (IntOp.addi w 100000#32) w

/-- An integer comparison and an integer sum of vectors read elementwise. -/
theorem cmpi_apply {s : Shape} {w : Nat} (p : CmpIPredicate) (x y : IVec s w) (i : s.Idx) :
    cmpi p x y i = IntOp.cmpi p (x i) (y i) := rfl
theorem addi_apply {s : Shape} {w : Nat} (x y : IVec s w) (i : s.Idx) : addi x y i = IntOp.addi (x i) (y i) := rfl

/-- Two row gathers of one table agree at `(e₁, k)` and `(e₂, k)` when their start indices there agree. -/
theorem gather_rows_eq_of_start_eq {α : Type} {N R₁ R₂ C w : Nat} (hN : 0 < N)
    (wf₁ : GatherDims.WF ⟨2, ![N, C]⟩ ⟨2, ![R₁, 1]⟩ ⟨2, ![R₁, C]⟩ [1] [0] [] [0] [] 1 ![1, C])
    (wf₂ : GatherDims.WF ⟨2, ![N, C]⟩ ⟨2, ![R₂, 1]⟩ ⟨2, ![R₂, C]⟩ [1] [0] [] [0] [] 1 ![1, C])
    (x : (⟨2, ![N, C]⟩ : Shape).Idx → α) (idx₁ : IVec ⟨2, ![R₁, 1]⟩ w) (idx₂ : IVec ⟨2, ![R₂, 1]⟩ w)
    (e₁ : Fin R₁) (e₂ : Fin R₂) (k : Fin C) (h : idx₁ (ix2 e₁ 0) = idx₂ (ix2 e₂ 0)) :
    Host.gather (rowsDims N R₁ C wf₁) x idx₁ (ix2 e₁ k) = Host.gather (rowsDims N R₂ C wf₂) x idx₂ (ix2 e₂ k) := by
  rw [gather_rows_apply hN, gather_rows_apply hN]
  exact congrArg x (congrArg (fun r => ix2 r k) (Fin.ext (by show min _ _ = min _ _; rw [h])))

/-! ## The concatenated column at a position of its first and of its second half -/

theorem zeroVec_apply (i : S400000.Idx) :
    broadcastInDim S400000 ![] bcast_S_S400000 (constantI S_ 32 0#32) i = 0#32 :=
  broadcastInDim_apply _ bcast_S_S400000 _ i (fun x => x.elim0) (fun x => x.elim0)
theorem countVec_apply (i : S400000.Idx) :
    broadcastInDim S400000 ![] bcast_S_S400000 (constantI S_ 32 100000#32) i = 100000#32 :=
  broadcastInDim_apply _ bcast_S_S400000 _ i (fun x => x.elim0) (fun x => x.elim0)

/-- A position below 200000 of the two lists laid end to end is in the first list. -/
theorem cat_lo (a b : (⟨S200000, .i32⟩ : BufTy).Contents (Elt F)) (q : Fin 200000) :
    concatenate S400000 0 [⟨S200000, a⟩, ⟨S200000, b⟩] concatenates_S200000_S200000_S400000_d0
      (ix1 (⟨q.val, by omega⟩ : Fin 400000)) = a (ix1 q) :=
  concatenate_pair_apply_left 0 a b _ (ix1 (⟨q.val, by omega⟩ : Fin 400000)) rfl (ix1 q) (fun x => match x with | ⟨0, _⟩ => rfl)

/-- A position `200000 + q` is position `q` of the second list. -/
theorem cat_hi (a b : (⟨S200000, .i32⟩ : BufTy).Contents (Elt F)) (q : Fin 200000) :
    concatenate S400000 0 [⟨S200000, a⟩, ⟨S200000, b⟩] concatenates_S200000_S200000_S400000_d0
      (ix1 (⟨200000 + q.val, by omega⟩ : Fin 400000)) = b (ix1 q) :=
  concatenate_pair_apply_right 0 a b _ (ix1 (⟨200000 + q.val, by omega⟩ : Fin 400000)) rfl rfl (ix1 q) (fun x hx => match x with | ⟨0, _⟩ => absurd rfl hx)
    (by show q.val + 200000 = 200000 + q.val; omega)

/-- The column's entry in row `r` is the normalised entry `r` of the concatenation. -/
theorem catCol_apply (a b : (⟨S200000, .i32⟩ : BufTy).Contents (Elt F)) (r : Fin 400000) :
    KStage.catCol a b (ix2 r 0)
      = norm (concatenate S400000 0 [⟨S200000, a⟩, ⟨S200000, b⟩] concatenates_S200000_S200000_S400000_d0 (ix1 r)) := by
  unfold KStage.catCol
  refine (broadcastInDim_apply _ bcast_S400000_S400000x1_0 _ _ (ix1 r) (fun x => match x with
    | ⟨0, _⟩ => by show r.val = if (400000 : Nat) = 1 then 0 else r.val; rw [if_neg (by decide)])).trans ?_
  simp only [select_apply, cmpi_apply, addi_apply, zeroVec_apply, countVec_apply]
  rfl

theorem catCol_lo (a b : (⟨S200000, .i32⟩ : BufTy).Contents (Elt F)) (q : Fin 200000) :
    KStage.catCol a b (ix2 (⟨q.val, by omega⟩ : Fin 400000) 0) = norm (a (ix1 q)) := by
  rw [catCol_apply, cat_lo]
theorem catCol_hi (a b : (⟨S200000, .i32⟩ : BufTy).Contents (Elt F)) (q : Fin 200000) :
    KStage.catCol a b (ix2 (⟨200000 + q.val, by omega⟩ : Fin 400000) 0) = norm (b (ix1 q)) := by
  rw [catCol_apply, cat_hi]

/-! ## The reference's column of one list -/

theorem refCol_apply (a : (⟨Cert.ReferenceIdeal.S200000, .i32⟩ : BufTy).Contents (Elt F)) (q : Fin 200000) :
    Cert.ReferenceIdeal.Read.val_main_v164 (F := F) a (ix2 q 0) = norm (a (ix1 q)) := by
  have hi : Cert.ReferenceIdeal.Read.idx_main_v164 (ix2 q 0) = ix1 q := funext fun x => match x with | ⟨0, _⟩ => rfl
  rw [Cert.ReferenceIdeal.Read.val_main_v164_apply, hi, Cert.ReferenceIdeal.Read.val_main_v163_apply,
    Cert.ReferenceIdeal.Read.val_main_v160_apply, Cert.ReferenceIdeal.Read.val_main_v162_apply,
    Cert.ReferenceIdeal.Read.val_main_v159_apply, Cert.ReferenceIdeal.Read.val_main_v161_apply]
  rfl

theorem v171_eq (a : (⟨Cert.ReferenceIdeal.S200000, .i32⟩ : BufTy).Contents (Elt F)) :
    Cert.ReferenceIdeal.Read.val_main_v171 (F := F) a = Cert.ReferenceIdeal.Read.val_main_v164 (F := F) a := rfl

theorem v194_eq (a : (⟨Cert.ReferenceIdeal.S200000, .i32⟩ : BufTy).Contents (Elt F)) :
    Cert.ReferenceIdeal.Read.val_main_v194 (F := F) a = Cert.ReferenceIdeal.Read.val_main_v164 (F := F) a := rfl
theorem v201_eq (a : (⟨Cert.ReferenceIdeal.S200000, .i32⟩ : BufTy).Contents (Elt F)) :
    Cert.ReferenceIdeal.Read.val_main_v201 (F := F) a = Cert.ReferenceIdeal.Read.val_main_v164 (F := F) a := rfl

/-! ## The rows taken at the concatenated lists are the rows taken at each list -/

theorem pairRows_lo (h : (⟨S100000x128, .f32⟩ : BufTy).Contents (Elt F)) (a b : (⟨S200000, .i32⟩ : BufTy).Contents (Elt F))
    (q : Fin 200000) (k : Fin 128) :
    KStage.pairRows h a b (ix2 (⟨q.val, by omega⟩ : Fin 400000) k)
      = Host.gather Cert.ReferenceIdeal.gather_S100000x128_S200000x1_S200000x128_1_0_n_n_0_1_1128 h
          (Cert.ReferenceIdeal.Read.val_main_v164 (F := F) a) (ix2 q k) :=
  gather_rows_eq_of_start_eq (N := 100000) (R₁ := 400000) (R₂ := 200000) (C := 128) (w := 32) (by decide)
    gather_S100000x128_S400000x1_S400000x128_1_0_n_n_0_1_1128.wf
    Cert.ReferenceIdeal.gather_S100000x128_S200000x1_S200000x128_1_0_n_n_0_1_1128.wf h (KStage.catCol a b)
    (Cert.ReferenceIdeal.Read.val_main_v164 (F := F) a) _ q k ((catCol_lo a b q).trans (refCol_apply a q).symm)

theorem pairRows_hi (h : (⟨S100000x128, .f32⟩ : BufTy).Contents (Elt F)) (a b : (⟨S200000, .i32⟩ : BufTy).Contents (Elt F))
    (q : Fin 200000) (k : Fin 128) :
    KStage.pairRows h a b (ix2 (⟨200000 + q.val, by omega⟩ : Fin 400000) k)
      = Host.gather Cert.ReferenceIdeal.gather_S100000x128_S200000x1_S200000x128_1_0_n_n_0_1_1128 h
          (Cert.ReferenceIdeal.Read.val_main_v164 (F := F) b) (ix2 q k) :=
  gather_rows_eq_of_start_eq (N := 100000) (R₁ := 400000) (R₂ := 200000) (C := 128) (w := 32) (by decide)
    gather_S100000x128_S400000x1_S400000x128_1_0_n_n_0_1_1128.wf
    Cert.ReferenceIdeal.gather_S100000x128_S200000x1_S200000x128_1_0_n_n_0_1_1128.wf h (KStage.catCol a b)
    (Cert.ReferenceIdeal.Read.val_main_v164 (F := F) b) _ q k ((catCol_hi a b q).trans (refCol_apply b q).symm)

/-! ## The score column cut in two -/

theorem cut_lo {α : Type} (S : S400000x1.Idx → α) (q : Fin 200000) :
    extractStridedSlice S200000x1 ![0, 0] S slices_S400000x1_S200000x1_0_0 (ix2 q 0)
      = S (ix2 (⟨q.val, by omega⟩ : Fin 400000) 0) :=
  slice2_axis0_apply 0 S _ q 0 _ (Nat.zero_add _).symm
theorem cut_hi {α : Type} (S : S400000x1.Idx → α) (q : Fin 200000) :
    extractStridedSlice S200000x1 ![200000, 0] S slices_S400000x1_S200000x1_200000_0 (ix2 q 0)
      = S (ix2 (⟨200000 + q.val, by omega⟩ : Fin 400000) 0) :=
  slice2_axis0_apply 200000 S _ q 0 _ rfl

end Cert.PairRows

end
-- ==== Proof.ScoreEq.lean ====
/-
  Fed the reference's final node states, the kernel program's scores are the reference's scores.

  The kernel program scores the 400000 pairs of the two lists laid end to end in one column and cuts the column
  at 200000; the reference scores each list on its own.  Entry q of the first half is entry q of the column,
  entry q of the second half is entry 200000 + q; the endpoint rows the scorer reads there are the rows of
  the final states at entry q of the first, respectively the second, list — the rows the reference gathers.
  The first-layer weights are the same transpose, a bias laid out as one row is the reference's broadcast of
  it, and the one-entry bias is that entry.  With equal rows, weights and biases the two-layer formula gives
  equal scores; an array with one column is determined by its rows.
-/
import proofs.«108194_j40132174414161_2_alg».proof.Proof.KDefs
import proofs.«108194_j40132174414161_2_alg».proof.Proof.RefScore
import proofs.«108194_j40132174414161_2_alg».proof.Proof.RefChain
import proofs.«108194_j40132174414161_2_alg».proof.Proof.PairRows
import Idealize.ShloMosaic.Lib.ValueLayout

set_option maxRecDepth 16384

noncomputable section

namespace Cert.ScoreEq

open Idealize.ShloMosaic Idealize.ShloMosaic.ValueIdx Idealize.SL.Sem
open Cert.KernelIdeal Cert.KernelIdeal.Gen Cert.KernelIdeal.KStage Cert.KernelIdeal.KDefs Cert.Cell
open Cert.ReferenceIdeal.Read

/-- Two scores agree when their endpoint rows, weights and biases do. -/
theorem predCell_congr {hs hs' hd hd' : Fin 128 → EReal} {W W' : Arr2 128 64} {b b' : Arr2 1 64} {w : Arr2 1 64} {c c' : EReal}
    (h1 : hs = hs') (h2 : hd = hd') (hW : W = W') (hb : b = b') (hc : c = c') :
    predCell hs hd W b w c = predCell hs' hd' W' b' w c' := by
  subst h1 h2 hW hb hc; rfl

/-- The first-layer bias laid out as one row is the reference's broadcast of it to one row. -/
theorem bias64 (x : (⟨S64, .f32⟩ : BufTy).Contents (Elt Ideal)) :
    shapeCast S1x64 x shapeCasts_S64_S1x64 = val_main_v176 (F := Ideal) x := by
  funext i
  have hi : idx_main_v176 i = ix1 (i 1) := by funext a; match a with | ⟨0, _⟩ => rfl
  rw [val_main_v176_apply, hi]
  exact (congrArg (shapeCast S1x64 x shapeCasts_S64_S1x64) (eq_ix2 i)).trans
    (shapeCast_a_1a_apply x shapeCasts_S64_S1x64 (i 0) (i 1))

/-- The one-entry bias laid out as a 1 × 1 array holds that entry. -/
theorem bias1 (x : (⟨S1, .f32⟩ : BufTy).Contents (Elt Ideal)) :
    shapeCast S1x1 x shapeCasts_S1_S1x1 (ix2 0 0) = x (ix1 0) :=
  shapeCast_a_1a_apply x shapeCasts_S1_S1x1 0 0

/-- Two one-column arrays agree when they agree in every row. -/
theorem funext_col {α : Type} (f g : (⟨2, ![200000, 1]⟩ : Shape).Idx → α) (h : ∀ q : Fin 200000, f (ix2 q 0) = g (ix2 q 0)) :
    f = g := by
  funext i
  have e : i = ix2 (i 0) 0 := by
    funext a
    match a with
    | ⟨0, _⟩ => rfl
    | ⟨1, _⟩ => exact Subsingleton.elim (α := Fin 1) _ _
  rw [e]
  exact h (i 0)

/-- Entry `q` of the positive half of the kernel program's score column is the reference's positive score of pair `q`,
    when the scorer is fed the reference's final node states. -/
theorem pos_at (H x0 : (⟨S100000x128, .f32⟩ : BufTy).Contents (Elt Ideal)) (x1 x2 : (⟨S1600000, .i32⟩ : BufTy).Contents (Elt Ideal)) (x3 x4 x5 x6 : (⟨S200000, .i32⟩ : BufTy).Contents (Elt Ideal)) (x7 : (⟨S128x128, .f32⟩ : BufTy).Contents (Elt Ideal)) (x8 : (⟨S128, .f32⟩ : BufTy).Contents (Elt Ideal)) (x9 : (⟨S384x128, .f32⟩ : BufTy).Contents (Elt Ideal)) (x10 : (⟨S384, .f32⟩ : BufTy).Contents (Elt Ideal)) (x11 : (⟨S384x128, .f32⟩ : BufTy).Contents (Elt Ideal)) (x12 : (⟨S384, .f32⟩ : BufTy).Contents (Elt Ideal)) (x13 : (⟨S64x128, .f32⟩ : BufTy).Contents (Elt Ideal)) (x14 : (⟨S64, .f32⟩ : BufTy).Contents (Elt Ideal)) (x15 : (⟨S1x64, .f32⟩ : BufTy).Contents (Elt Ideal)) (x16 : (⟨S1, .f32⟩ : BufTy).Contents (Elt Ideal))
    (hH : H = val_main_v158 (F := Ideal) x0 x1 x2 x7 x8 x9 x10 x11 x12) (q : Fin 200000) :
    extractStridedSlice S200000x1 ![0, 0] (kscore H x3 x4 x5 x6 x13 x14 x15 x16) slices_S400000x1_S200000x1_0_0 (ix2 q 0)
      = val_main_v188 (F := Ideal) x0 x1 x2 x3 x4 x7 x8 x9 x10 x11 x12 x13 x14 x15 x16 (ix2 q 0) := by
  rw [Cert.PairRows.cut_lo, Cert.RefScore.score_pos]
  unfold kscore
  refine predCell_congr (funext fun k => ?_) (funext fun k => ?_) rfl (bias64 x14) (bias1 x16)
  · rw [Cert.RefChain.v165_eq, ← hH]
    exact Cert.PairRows.pairRows_lo H x3 x5 q k
  · rw [Cert.RefChain.v172_eq, ← hH, Cert.RefChain.v171_eq]
    exact Cert.PairRows.pairRows_lo H x4 x6 q k

/-- The positive half of the score column, as an array. -/
theorem pos_eq (H x0 : (⟨S100000x128, .f32⟩ : BufTy).Contents (Elt Ideal)) (x1 x2 : (⟨S1600000, .i32⟩ : BufTy).Contents (Elt Ideal)) (x3 x4 x5 x6 : (⟨S200000, .i32⟩ : BufTy).Contents (Elt Ideal)) (x7 : (⟨S128x128, .f32⟩ : BufTy).Contents (Elt Ideal)) (x8 : (⟨S128, .f32⟩ : BufTy).Contents (Elt Ideal)) (x9 : (⟨S384x128, .f32⟩ : BufTy).Contents (Elt Ideal)) (x10 : (⟨S384, .f32⟩ : BufTy).Contents (Elt Ideal)) (x11 : (⟨S384x128, .f32⟩ : BufTy).Contents (Elt Ideal)) (x12 : (⟨S384, .f32⟩ : BufTy).Contents (Elt Ideal)) (x13 : (⟨S64x128, .f32⟩ : BufTy).Contents (Elt Ideal)) (x14 : (⟨S64, .f32⟩ : BufTy).Contents (Elt Ideal)) (x15 : (⟨S1x64, .f32⟩ : BufTy).Contents (Elt Ideal)) (x16 : (⟨S1, .f32⟩ : BufTy).Contents (Elt Ideal))
    (hH : H = val_main_v158 (F := Ideal) x0 x1 x2 x7 x8 x9 x10 x11 x12) :
    extractStridedSlice S200000x1 ![0, 0] (kscore H x3 x4 x5 x6 x13 x14 x15 x16) slices_S400000x1_S200000x1_0_0
      = val_main_v188 (F := Ideal) x0 x1 x2 x3 x4 x7 x8 x9 x10 x11 x12 x13 x14 x15 x16 := by
  exact funext_col _ _ fun q => pos_at H x0 x1 x2 x3 x4 x5 x6 x7 x8 x9 x10 x11 x12 x13 x14 x15 x16 hH q

/-- Entry `q` of the negative half of the kernel program's score column is the reference's negative score of pair `q`,
    when the scorer is fed the reference's final node states. -/
theorem neg_at (H x0 : (⟨S100000x128, .f32⟩ : BufTy).Contents (Elt Ideal)) (x1 x2 : (⟨S1600000, .i32⟩ : BufTy).Contents (Elt Ideal)) (x3 x4 x5 x6 : (⟨S200000, .i32⟩ : BufTy).Contents (Elt Ideal)) (x7 : (⟨S128x128, .f32⟩ : BufTy).Contents (Elt Ideal)) (x8 : (⟨S128, .f32⟩ : BufTy).Contents (Elt Ideal)) (x9 : (⟨S384x128, .f32⟩ : BufTy).Contents (Elt Ideal)) (x10 : (⟨S384, .f32⟩ : BufTy).Contents (Elt Ideal)) (x11 : (⟨S384x128, .f32⟩ : BufTy).Contents (Elt Ideal)) (x12 : (⟨S384, .f32⟩ : BufTy).Contents (Elt Ideal)) (x13 : (⟨S64x128, .f32⟩ : BufTy).Contents (Elt Ideal)) (x14 : (⟨S64, .f32⟩ : BufTy).Contents (Elt Ideal)) (x15 : (⟨S1x64, .f32⟩ : BufTy).Contents (Elt Ideal)) (x16 : (⟨S1, .f32⟩ : BufTy).Contents (Elt Ideal))
    (hH : H = val_main_v158 (F := Ideal) x0 x1 x2 x7 x8 x9 x10 x11 x12) (q : Fin 200000) :
    extractStridedSlice S200000x1 ![200000, 0] (kscore H x3 x4 x5 x6 x13 x14 x15 x16) slices_S400000x1_S200000x1_200000_0 (ix2 q 0)
      = val_main_v218 (F := Ideal) x0 x1 x2 x5 x6 x7 x8 x9 x10 x11 x12 x13 x14 x15 x16 (ix2 q 0) := by
  rw [Cert.PairRows.cut_hi, Cert.RefScore.score_neg]
  unfold kscore
  refine predCell_congr (funext fun k => ?_) (funext fun k => ?_) rfl (bias64 x14) (bias1 x16)
  · rw [Cert.RefChain.v195_eq, ← hH, Cert.RefChain.v194_eq]
    exact Cert.PairRows.pairRows_hi H x3 x5 q k
  · rw [Cert.RefChain.v202_eq, ← hH, Cert.RefChain.v201_eq]
    exact Cert.PairRows.pairRows_hi H x4 x6 q k

/-- The negative half of the score column, as an array. -/
theorem neg_eq (H x0 : (⟨S100000x128, .f32⟩ : BufTy).Contents (Elt Ideal)) (x1 x2 : (⟨S1600000, .i32⟩ : BufTy).Contents (Elt Ideal)) (x3 x4 x5 x6 : (⟨S200000, .i32⟩ : BufTy).Contents (Elt Ideal)) (x7 : (⟨S128x128, .f32⟩ : BufTy).Contents (Elt Ideal)) (x8 : (⟨S128, .f32⟩ : BufTy).Contents (Elt Ideal)) (x9 : (⟨S384x128, .f32⟩ : BufTy).Contents (Elt Ideal)) (x10 : (⟨S384, .f32⟩ : BufTy).Contents (Elt Ideal)) (x11 : (⟨S384x128, .f32⟩ : BufTy).Contents (Elt Ideal)) (x12 : (⟨S384, .f32⟩ : BufTy).Contents (Elt Ideal)) (x13 : (⟨S64x128, .f32⟩ : BufTy).Contents (Elt Ideal)) (x14 : (⟨S64, .f32⟩ : BufTy).Contents (Elt Ideal)) (x15 : (⟨S1x64, .f32⟩ : BufTy).Contents (Elt Ideal)) (x16 : (⟨S1, .f32⟩ : BufTy).Contents (Elt Ideal))
    (hH : H = val_main_v158 (F := Ideal) x0 x1 x2 x7 x8 x9 x10 x11 x12) :
    extractStridedSlice S200000x1 ![200000, 0] (kscore H x3 x4 x5 x6 x13 x14 x15 x16) slices_S400000x1_S200000x1_200000_0
      = val_main_v218 (F := Ideal) x0 x1 x2 x5 x6 x7 x8 x9 x10 x11 x12 x13 x14 x15 x16 := by
  exact funext_col _ _ fun q => neg_at H x0 x1 x2 x3 x4 x5 x6 x7 x8 x9 x10 x11 x12 x13 x14 x15 x16 hH q

end Cert.ScoreEq

end
-- ==== Proof.lean ====
/-
  The certificate: a graph network's three gated message-passing steps and its pair scorer, as a tiled kernel
  program, against the plain array program.

  Both programs end without a fault with their arguments unchanged (the three frame claims; the idealization
  rewrote nothing, so the fourth claim is trivial).  For the value claim, read both at the extended reals.  In one
  step the plain program applies the edge layer to every node, gathers the result along the edges' sources and
  sums it into the edges' destinations; the kernel program first sums the gathered raw states into the
  destinations and applies the edge matrix afterwards, adding in-degree times the edge bias.  The two messages are
  equal because a finite sum of reals distributes through a matrix product — this is where the finiteness of the
  inputs is used, and it is carried through the steps because a gated update of real states is real.  The gated
  update itself is the same formula on both sides, computed by the kernel on blocks of 2000 nodes.  The scorer is
  the same formula on both sides; the kernel program scores positive and negative pairs in one pass over the
  concatenated lists and cuts the result in two.
-/
import proofs.«108194_j40132174414161_2_alg».proof.Defs
import proofs.«108194_j40132174414161_2_alg».proof.Proof.Gen.Kernel
import proofs.«108194_j40132174414161_2_alg».proof.Proof.Gen.Kernel.Frame
import proofs.«108194_j40132174414161_2_alg».proof.Proof.Gen.KernelIdeal
import proofs.«108194_j40132174414161_2_alg».proof.Proof.Gen.KernelIdeal.Frame
import proofs.«108194_j40132174414161_2_alg».proof.Proof.Gen.ReferenceIdeal
import proofs.«108194_j40132174414161_2_alg».proof.Proof.Gen.Pre_finite_inputs
import proofs.«108194_j40132174414161_2_alg».proof.Proof.RunP
import proofs.«108194_j40132174414161_2_alg».proof.Proof.ReadP
import proofs.«108194_j40132174414161_2_alg».proof.Proof.RefRun
import proofs.«108194_j40132174414161_2_alg».proof.Proof.KRun
import proofs.«108194_j40132174414161_2_alg».proof.Proof.KStep
import proofs.«108194_j40132174414161_2_alg».proof.Proof.FinitePre
import proofs.«108194_j40132174414161_2_alg».proof.Proof.StepEq
import proofs.«108194_j40132174414161_2_alg».proof.Proof.ScoreEq

set_option maxRecDepth 16384

noncomputable section

namespace Cert.Proof

open Idealize.ShloMosaic Idealize.ShloMosaic.TcCoe Idealize.SL.Sem

section Claims

variable [hK : Cert.Kernel.Facts] [hKI : Cert.KernelIdeal.Facts] [hRI : Cert.ReferenceIdeal.Facts] [hP : Cert.Pre_finite_inputs.Facts]

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2.2.2) (Cert.ReferenceIdeal.Value.run (F := Ideal) m ρ)

theorem algebraic : Cert.algebraic_KernelIdeal_ReferenceIdeal := by
  intro m ρ m' ρ' hpre hagree
  refine ⟨fun c => Cert.KernelIdeal.KStep.r69 m c, fun c => Cert.KernelIdeal.KStep.r70 m c,
    fun c => Cert.KernelIdeal.KStep.h3 m c, ?_, ?_⟩
  · exact (θ_run Cert.KernelIdeal.defs _ _).mono (fun r h c =>
      ⟨(h c).1.trans (Cert.KernelIdeal.KStep.res_v69 m ρ c), (h c).2.1.trans (Cert.KernelIdeal.KStep.res_v70 m ρ c),
        (h c).2.2.1.trans (Cert.KernelIdeal.KStep.res_v48 m ρ c), (h c).2.2.2⟩) (Cert.KernelIdeal.KRun.run_results (F := Ideal) m ρ)
  · refine (θ_run Cert.ReferenceIdeal.defs _ _).mono (fun r h c => ?_) (Cert.ReferenceIdeal.Value.run (F := Ideal) m' ρ')
    obtain ⟨e0, e1, e2, e3, e4, e5, e6, e7, e8, e9, e10, e11, e12, e13, e14, e15, e16⟩ := hagree c
    obtain ⟨r0, r7, r8, -⟩ := Cert.Finite.real_of_pre m hpre c
    have hstates : Cert.KernelIdeal.KStep.h3 m c = Cert.ReferenceIdeal.Read.val_main_v158 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) :=
      Cert.StepEq.three_steps _ _ _ _ _ _ _ _ _ r0 r7 r8
    refine ⟨(h c).1.trans ?_, (h c).2.1.trans ?_, (h c).2.2.1.trans ?_, (h c).2.2.2⟩
    · rw [Cert.RefRun.res188_eq, e0, e1, e2, e3, e4, e7, e8, e9, e10, e11, e12, e13, e14, e15, e16]
      exact (Cert.ScoreEq.pos_eq _ _ _ _ _ _ _ _ _ _ _ _ _ _ _ _ _ _ hstates).symm
    · rw [Cert.RefRun.res218_eq, e0, e1, e2, e5, e6, e7, e8, e9, e10, e11, e12, e13, e14, e15, e16]
      exact (Cert.ScoreEq.neg_eq _ _ _ _ _ _ _ _ _ _ _ _ _ _ _ _ _ _ hstates).symm
    · rw [Cert.RefRun.res158_eq, e0, e1, e2, e7, e8, e9, e10, e11, e12]
      exact hstates.symm

end Claims

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
